-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S20000 : Shape := ⟨1, ![20000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x128 : Shape := ⟨2, ![256, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part7 {F : FTy → Type} [FloatOps F] (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  main_v123

def fn_part6 {F : FTy → Type} [FloatOps F] (main_arg23 : FVec F S256 .f32) (main_arg24 : FVec F S256 .f32) (main_arg25 : FVec F S256x128 .f32) (main_arg26 : FVec F S128 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg23
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x128 .f32 := Host.absf main_arg25
  let main_cst_44 : FVec F S_ .f32 := constant S_ .f32 0x7F800000#32
  let main_v115 : FVec F S256x128 .f32 := broadcastInDim S256x128 ![] bcast_S_S256x128 main_cst_44
  let main_v116 : IVec S256x128 1 := cmpf .olt main_v114 main_v115
  let main_c_45 : IVec S_ 1 := constantI S_ 1 1#1
  let main_v117 : IVec S_ 1 := (fun x v => Host.reduce IntOp.andi x v reducesTo_S256x128_S_d0_1 h_S_) main_v116 main_c_45
  let main_v118 : IVec S_ 1 := andi main_v113 main_v117
  let main_v119 : FVec F S128 .f32 := Host.absf main_arg26
  fn_part7 (F := F) main_v118 main_v119

def fn_part5 {F : FTy → Type} [FloatOps F] (main_arg20 : FVec F S1 .f32) (main_arg21 : FVec F S256x256 .f32) (main_arg22 : FVec F S256 .f32) (main_arg23 : FVec F S256 .f32) (main_arg24 : FVec F S256 .f32) (main_arg25 : FVec F S256x128 .f32) (main_arg26 : FVec F S128 .f32) (main_v83 : IVec S_ 1) (main_v84 : FVec F S256x1 .f32) (main_cst_32 : FVec F S_ .f32) : IVec S_ 1 :=
  let main_v85 : FVec F S256x1 .f32 := broadcastInDim S256x1 ![] bcast_S_S256x1 main_cst_32
  let main_v86 : IVec S256x1 1 := cmpf .olt main_v84 main_v85
  let main_c_33 : IVec S_ 1 := constantI S_ 1 1#1
  let main_v87 : IVec S_ 1 := (fun x v => Host.reduce IntOp.andi x v reducesTo_S256x1_S_d0_1 h_S_) main_v86 main_c_33
  let main_v88 : IVec S_ 1 := andi main_v83 main_v87
  let main_v89 : FVec F S1 .f32 := Host.absf main_arg20
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S256x256 .f32 := Host.absf main_arg21
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S256 .f32) (main_arg17 : FVec F S256 .f32) (main_arg18 : FVec F S256 .f32) (main_arg19 : FVec F S256x1 .f32) (main_arg20 : FVec F S1 .f32) (main_arg21 : FVec F S256x256 .f32) (main_arg22 : FVec F S256 .f32) (main_arg23 : FVec F S256 .f32) (main_arg24 : FVec F S256 .f32) (main_arg25 : FVec F S256x128 .f32) (main_arg26 : FVec F S128 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x1 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S256 .f32) (main_arg14 : FVec F S256 .f32) (main_arg15 : FVec F S256x256 .f32) (main_arg16 : FVec F S256 .f32) (main_arg17 : FVec F S256 .f32) (main_arg18 : FVec F S256 .f32) (main_arg19 : FVec F S256x1 .f32) (main_arg20 : FVec F S1 .f32) (main_arg21 : FVec F S256x256 .f32) (main_arg22 : FVec F S256 .f32) (main_arg23 : FVec F S256 .f32) (main_arg24 : FVec F S256 .f32) (main_arg25 : FVec F S256x128 .f32) (main_arg26 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_arg19 : FVec F S256x1 .f32) (main_arg20 : FVec F S1 .f32) (main_arg21 : FVec F S256x256 .f32) (main_arg22 : FVec F S256 .f32) (main_arg23 : FVec F S256 .f32) (main_arg24 : FVec F S256 .f32) (main_arg25 : FVec F S256x128 .f32) (main_arg26 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_arg19 : FVec F S256x1 .f32) (main_arg20 : FVec F S1 .f32) (main_arg21 : FVec F S256x256 .f32) (main_arg22 : FVec F S256 .f32) (main_arg23 : FVec F S256 .f32) (main_arg24 : FVec F S256 .f32) (main_arg25 : FVec F S256x128 .f32) (main_arg26 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S20000x128 .f32) (main_arg1 : IVec S2x320000 32) (main_arg2 : IVec S20000 32) (main_arg3 : FVec F S128x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_arg19 : FVec F S256x1 .f32) (main_arg20 : FVec F S1 .f32) (main_arg21 : FVec F S256x256 .f32) (main_arg22 : FVec F S256 .f32) (main_arg23 : FVec F S256 .f32) (main_arg24 : FVec F S256 .f32) (main_arg25 : FVec F S256x128 .f32) (main_arg26 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S20000x128 : Shape := ⟨2, ![20000, 128]⟩
abbrev S2x320000 : Shape := ⟨2, ![2, 320000]⟩
abbrev S20000 : Shape := ⟨1, ![20000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S1x256 : Shape := ⟨2, ![1, 256]⟩
abbrev S20000x256 : Shape := ⟨2, ![20000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S340000x256 : Shape := ⟨2, ![340000, 256]⟩
abbrev S20000x1 : Shape := ⟨2, ![20000, 1]⟩
abbrev S1x1 : Shape := ⟨2, ![1, 1]⟩
abbrev S64x256 : Shape := ⟨2, ![64, 256]⟩
abbrev S64 : Shape := ⟨1, ![64]⟩
abbrev S64x1 : Shape := ⟨2, ![64, 1]⟩
abbrev S64x128 : Shape := ⟨2, ![64, 128]⟩
abbrev S1x128 : Shape := ⟨2, ![1, 128]⟩

abbrev nBuf : Space → Nat
  | .hbm => 205
  | .vmem => 48
  | .smem => 0
  | _ => 0

abbrev hbmTy0_0 (i : Nat) : BufTy := match i % 128 with
  | 0 => ⟨S20000x128, .f32⟩
  | 1 => ⟨S2x320000, .i32⟩
  | 2 => ⟨S20000, .i32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x256, .f32⟩
  | 16 => ⟨S256, .f32⟩
  | 17 => ⟨S256, .f32⟩
  | 18 => ⟨S256, .f32⟩
  | 19 => ⟨S256x1, .f32⟩
  | 20 => ⟨S1, .f32⟩
  | 21 => ⟨S256x256, .f32⟩
  | 22 => ⟨S256, .f32⟩
  | 23 => ⟨S256, .f32⟩
  | 24 => ⟨S256, .f32⟩
  | 25 => ⟨S256x128, .f32⟩
  | 26 => ⟨S128, .f32⟩
  | 27 => ⟨S1x320000, .i32⟩
  | 28 => ⟨S320000, .i32⟩
  | 29 => ⟨S1x320000, .i32⟩
  | 30 => ⟨S320000, .i32⟩
  | 31 => ⟨S20000, .i32⟩
  | 32 => ⟨S340000, .i32⟩
  | 33 => ⟨S340000, .i32⟩
  | 34 => ⟨S_, .f32⟩
  | 35 => ⟨S340000, .f32⟩
  | 36 => ⟨S_, .f32⟩
  | 37 => ⟨S20000, .f32⟩
  | 38 => ⟨S340000x1, .i32⟩
  | 39 => ⟨S20000, .f32⟩
  | 40 => ⟨S_, .f32⟩
  | 41 => ⟨S20000, .f32⟩
  | 42 => ⟨S20000, .f32⟩
  | 43 => ⟨S20000, .f32⟩
  | 44 => ⟨S_, .i32⟩
  | 45 => ⟨S340000, .i32⟩
  | 46 => ⟨S340000, .i1⟩
  | 47 => ⟨S_, .i32⟩
  | 48 => ⟨S340000, .i32⟩
  | 49 => ⟨S340000, .i32⟩
  | 50 => ⟨S340000, .i32⟩
  | 51 => ⟨S340000x1, .i32⟩
  | 52 => ⟨S340000, .f32⟩
  | 53 => ⟨S_, .i32⟩
  | 54 => ⟨S340000, .i32⟩
  | 55 => ⟨S340000, .i1⟩
  | 56 => ⟨S_, .i32⟩
  | 57 => ⟨S340000, .i32⟩
  | 58 => ⟨S340000, .i32⟩
  | 59 => ⟨S340000, .i32⟩
  | 60 => ⟨S340000x1, .i32⟩
  | 61 => ⟨S340000, .f32⟩
  | 62 => ⟨S340000, .f32⟩
  | 63 => ⟨S1x256, .f32⟩
  | 64 => ⟨S1x256, .f32⟩
  | 65 => ⟨S1x256, .f32⟩
  | 66 => ⟨S20000x256, .f32⟩
  | 67 => ⟨S20000x256, .f32⟩
  | 68 => ⟨S_, .i32⟩
  | 69 => ⟨S340000, .i32⟩
  | 70 => ⟨S340000, .i1⟩
  | 71 => ⟨S_, .i32⟩
  | 72 => ⟨S340000, .i32⟩
  | 73 => ⟨S340000, .i32⟩
  | 74 => ⟨S340000, .i32⟩
  | 75 => ⟨S340000x1, .i32⟩
  | 76 => ⟨S340000x256, .f32⟩
  | 77 => ⟨S340000x1, .f32⟩
  | 78 => ⟨S340000x256, .f32⟩
  | 79 => ⟨S340000x256, .f32⟩
  | 80 => ⟨S_, .f32⟩
  | 81 => ⟨S20000x256, .f32⟩
  | 82 => ⟨S340000x1, .i32⟩
  | 83 => ⟨S20000x256, .f32⟩
  | 84 => ⟨S1x256, .f32⟩
  | 85 => ⟨S1x256, .f32⟩
  | 86 => ⟨S1x256, .f32⟩
  | 87 => ⟨S20000x256, .f32⟩
  | 88 => ⟨S20000x256, .f32⟩
  | 89 => ⟨S_, .i32⟩
  | 90 => ⟨S340000, .i32⟩
  | 91 => ⟨S340000, .i1⟩
  | 92 => ⟨S_, .i32⟩
  | 93 => ⟨S340000, .i32⟩
  | 94 => ⟨S340000, .i32⟩
  | 95 => ⟨S340000, .i32⟩
  | 96 => ⟨S340000x1, .i32⟩
  | 97 => ⟨S340000x256, .f32⟩
  | 98 => ⟨S340000x1, .f32⟩
  | 99 => ⟨S340000x256, .f32⟩
  | 100 => ⟨S340000x256, .f32⟩
  | 101 => ⟨S_, .f32⟩
  | 102 => ⟨S20000x256, .f32⟩
  | 103 => ⟨S340000x1, .i32⟩
  | 104 => ⟨S20000x256, .f32⟩
  | 105 => ⟨S1x256, .f32⟩
  | 106 => ⟨S1x256, .f32⟩
  | 107 => ⟨S1x256, .f32⟩
  | 108 => ⟨S20000x256, .f32⟩
  | 109 => ⟨S20000x256, .f32⟩
  | 110 => ⟨S_, .i32⟩
  | 111 => ⟨S340000, .i32⟩
  | 112 => ⟨S340000, .i1⟩
  | 113 => ⟨S_, .i32⟩
  | 114 => ⟨S340000, .i32⟩
  | 115 => ⟨S340000, .i32⟩
  | 116 => ⟨S340000, .i32⟩
  | 117 => ⟨S340000x1, .i32⟩
  | 118 => ⟨S340000x256, .f32⟩
  | 119 => ⟨S340000x1, .f32⟩
  | 120 => ⟨S340000x256, .f32⟩
  | 121 => ⟨S340000x256, .f32⟩
  | 122 => ⟨S_, .f32⟩
  | 123 => ⟨S20000x256, .f32⟩
  | 124 => ⟨S340000x1, .i32⟩
  | 125 => ⟨S20000x256, .f32⟩
  | 126 => ⟨S1x256, .f32⟩
  | 127 => ⟨S1x256, .f32⟩
  | _ => ⟨S20000x128, .f32⟩

abbrev hbmTy0_1 (i : Nat) : BufTy := match i % 128 with
  | 0 => ⟨S1x256, .f32⟩
  | 1 => ⟨S20000x256, .f32⟩
  | 2 => ⟨S20000x1, .f32⟩
  | 3 => ⟨S1x1, .f32⟩
  | 4 => ⟨S20000x1, .f32⟩
  | 5 => ⟨S20000x1, .f32⟩
  | 6 => ⟨S20000x1, .f32⟩
  | 7 => ⟨S_, .f32⟩
  | 8 => ⟨S1, .f32⟩
  | 9 => ⟨S_, .f32⟩
  | 10 => ⟨S1, .f32⟩
  | 11 => ⟨S1, .f32⟩
  | 12 => ⟨S1x1, .f32⟩
  | 13 => ⟨S20000x1, .f32⟩
  | 14 => ⟨S20000x1, .f32⟩
  | 15 => ⟨S20000x1, .f32⟩
  | 16 => ⟨S_, .f32⟩
  | 17 => ⟨S1, .f32⟩
  | 18 => ⟨S1x1, .f32⟩
  | 19 => ⟨S20000x1, .f32⟩
  | 20 => ⟨S20000x1, .f32⟩
  | 21 => ⟨S20000x256, .f32⟩
  | 22 => ⟨S20000x256, .f32⟩
  | 23 => ⟨S_, .f32⟩
  | 24 => ⟨S64x256, .f32⟩
  | 25 => ⟨S20000x1, .i32⟩
  | 26 => ⟨S64x256, .f32⟩
  | 27 => ⟨S64x256, .f32⟩
  | 28 => ⟨S1x256, .f32⟩
  | 29 => ⟨S64x256, .f32⟩
  | 30 => ⟨S64x256, .f32⟩
  | 31 => ⟨S_, .f32⟩
  | 32 => ⟨S64, .f32⟩
  | 33 => ⟨S64x1, .f32⟩
  | 34 => ⟨S_, .f32⟩
  | 35 => ⟨S64x1, .f32⟩
  | 36 => ⟨S64x1, .f32⟩
  | 37 => ⟨S64x256, .f32⟩
  | 38 => ⟨S64x256, .f32⟩
  | 39 => ⟨S64x256, .f32⟩
  | 40 => ⟨S_, .f32⟩
  | 41 => ⟨S64, .f32⟩
  | 42 => ⟨S64x1, .f32⟩
  | 43 => ⟨S_, .f32⟩
  | 44 => ⟨S64x1, .f32⟩
  | 45 => ⟨S64x1, .f32⟩
  | 46 => ⟨S64x256, .f32⟩
  | 47 => ⟨S64x256, .f32⟩
  | 48 => ⟨S_, .f32⟩
  | 49 => ⟨S64x1, .f32⟩
  | 50 => ⟨S64x1, .f32⟩
  | 51 => ⟨S64x1, .f32⟩
  | 52 => ⟨S64x256, .f32⟩
  | 53 => ⟨S64x256, .f32⟩
  | 54 => ⟨S1x256, .f32⟩
  | 55 => ⟨S64x256, .f32⟩
  | 56 => ⟨S64x256, .f32⟩
  | 57 => ⟨S1x256, .f32⟩
  | 58 => ⟨S64x256, .f32⟩
  | 59 => ⟨S64x256, .f32⟩
  | 60 => ⟨S_, .f32⟩
  | 61 => ⟨S64x256, .f32⟩
  | 62 => ⟨S64x256, .f32⟩
  | 63 => ⟨S64x128, .f32⟩
  | 64 => ⟨S1x128, .f32⟩
  | 65 => ⟨S64x128, .f32⟩
  | 66 => ⟨S64x128, .f32⟩
  | 67 => ⟨S64x128, .f32⟩
  | 68 => ⟨S_, .f32⟩
  | 69 => ⟨S64, .f32⟩
  | 70 => ⟨S64x1, .f32⟩
  | 71 => ⟨S64x1, .f32⟩
  | 72 => ⟨S_, .f32⟩
  | 73 => ⟨S64x1, .f32⟩
  | 74 => ⟨S64x1, .f32⟩
  | 75 => ⟨S64x128, .f32⟩
  | 76 => ⟨S64x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S256x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c : Ref sig .tc := ⟨.hbm, 44, rfl⟩
abbrev main_v14 : Ref sig .tc := ⟨.hbm, 45, rfl⟩
abbrev main_v15 : Ref sig .tc := ⟨.hbm, 46, rfl⟩
abbrev main_c_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_3 : Ref sig .tc := ⟨.hbm, 53, rfl⟩
abbrev main_v21 : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_5 : Ref sig .tc := ⟨.hbm, 68, rfl⟩
abbrev main_v34 : Ref sig .tc := ⟨.hbm, 69, rfl⟩
abbrev main_v35 : Ref sig .tc := ⟨.hbm, 70, rfl⟩
abbrev main_c_6 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_8 : Ref sig .tc := ⟨.hbm, 89, rfl⟩
abbrev main_v52 : Ref sig .tc := ⟨.hbm, 90, rfl⟩
abbrev main_v53 : Ref sig .tc := ⟨.hbm, 91, rfl⟩
abbrev main_c_9 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_10 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_11 : Ref sig .tc := ⟨.hbm, 110, rfl⟩
abbrev main_v70 : Ref sig .tc := ⟨.hbm, 111, rfl⟩
abbrev main_v71 : Ref sig .tc := ⟨.hbm, 112, rfl⟩
abbrev main_c_12 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_13 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_14 : Ref sig .tc := ⟨.hbm, 135, rfl⟩
abbrev main_v92 : Ref sig .tc := ⟨.hbm, 136, rfl⟩
abbrev main_cst_15 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_16 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_17 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_18 : Ref sig .tc := ⟨.hbm, 159, rfl⟩
abbrev main_v112 : Ref sig .tc := ⟨.hbm, 160, rfl⟩
abbrev main_v113 : Ref sig .tc := ⟨.hbm, 161, rfl⟩
abbrev main_cst_19 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_20 : Ref sig .tc := ⟨.hbm, 168, rfl⟩
abbrev main_v119 : Ref sig .tc := ⟨.hbm, 169, rfl⟩
abbrev main_v120 : Ref sig .tc := ⟨.hbm, 170, rfl⟩
abbrev main_cst_21 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_22 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_call0_cst : Ref sig .tc := ⟨.hbm, 188, rfl⟩
abbrev main_call0_v0 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_call1_v0 : Ref sig .tc := ⟨.hbm, 195, rfl⟩
abbrev main_call1_cst : Ref sig .tc := ⟨.hbm, 196, rfl⟩
abbrev main_call1_v1 : Ref sig .tc := ⟨.hbm, 197, rfl⟩
abbrev main_call1_v2 : Ref sig .tc := ⟨.hbm, 198, rfl⟩
abbrev main_v141 : Ref sig .tc := ⟨.hbm, 199, rfl⟩
abbrev main_cst_23 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc4_stg5_0 : Ref sig .tc := ⟨.vmem, 32, rfl⟩
abbrev cc4_stg5_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg4_1 : Ref sig .tc := ⟨.vmem, 45, rfl⟩
abbrev cc6_stg5_0 : Ref sig .tc := ⟨.vmem, 46, rfl⟩
abbrev cc6_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem4_1 : DmaSem sig := 31
abbrev cc4_sem5_0 : DmaSem sig := 32
abbrev cc4_sem5_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem4_0 : DmaSem sig := 44
abbrev cc6_sem4_1 : DmaSem sig := 45
abbrev cc6_sem5_0 : DmaSem sig := 46
abbrev cc6_sem5_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S20000_S340000_d0 : Shape.Concatenates [S320000, S20000] S340000 0
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  reducesTo_S20000x1_S1_d0 : S20000x1.ReducesTo [0] S1
  h_S_ : 0 < S_.numel
  bcast_S_S1 : S_.BroadcastsInDim S1 (![] : Fin 0 → Fin S1.rank)
  bcast_S20000x1_S20000x256_0_1 : S20000x1.BroadcastsInDim S20000x256 (![0, 1] : Fin 2 → Fin S20000x256.rank)
  bcast_S_S64x256 : S_.BroadcastsInDim S64x256 (![] : Fin 0 → Fin S64x256.rank)
  bcast_S20000_S20000x1_0 : S20000.BroadcastsInDim S20000x1 (![0] : Fin 1 → Fin S20000x1.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  reducesTo_S64x256_S64_d1 : S64x256.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  reducesTo_S64x128_S64_d1 : S64x128.ReducesTo [1] S64
  bcast_S64x1_S64x128_0_1 : S64x1.BroadcastsInDim S64x128 (![0, 1] : Fin 2 → Fin S64x128.rank)
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x256_S256x1_S20000x1_1_0_0_1_n_n_wf : DotDims.WF S20000x256 S256x1 S20000x1 [1] [0] [0] [1] [] []
  scatter_S64x256_S20000x1_S20000x256_1_0_0_1_wf : ScatterDims.WF S64x256 S20000x1 S20000x256 [1] [0] [0] 1
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S20000x256.size a
  hwx2_4 : ∀ i : grid2.Coords, EltTy.bits .f32 = 32 ∨ (Rect.block (s := S20000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S20000x256.size a
  hwx4_4 : ∀ i : grid4.Coords, EltTy.bits .f32 = 32 ∨ (Rect.block (s := S20000x256) S2000x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S20000x256.size a
  hwx4_5 : ∀ i : grid4.Coords, EltTy.bits .f32 = 32 ∨ (Rect.block (s := S20000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S20000x256.size a
  hwx5_2 : ∀ i : grid5.Coords, EltTy.bits .f32 = 32 ∨ (Rect.block (s := S20000x256) S2000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S20000x256.size a
  hwx6_4 : ∀ i : grid6.Coords, EltTy.bits .f32 = 32 ∨ (Rect.block (s := S20000x256) S2000x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x256.size a ≤ S20000x256.size a
  hwx6_5 : ∀ i : grid6.Coords, EltTy.bits .f32 = 32 ∨ (Rect.block (s := S20000x256) S2000x256.size (cc6_transform_5 i) (hinb6_5 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x256_S256x1_S20000x1_1_0_0_1_n_n : DotDims S20000x256 S256x1 S20000x1 where
  lhsContracting := [1]
  rhsContracting := [0]
  lhsNonContracting := [0]
  rhsNonContracting := [1]
  lhsBatch := []
  rhsBatch := []
  wf := dot_S20000x256_S256x1_S20000x1_1_0_0_1_n_n_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S2000x256.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v68) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v68) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg15) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v82) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v68) S2000x256.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v86) S2000x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S20000 : Shape := ⟨1, ![20000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S20000x256 : Shape := ⟨2, ![20000, 256]⟩
abbrev S1x256 : Shape := ⟨2, ![1, 256]⟩
abbrev S_ : Shape := ⟨0, ![]⟩
abbrev S20000x1 : Shape := ⟨2, ![20000, 1]⟩
abbrev S340000 : Shape := ⟨1, ![340000]⟩
abbrev S340000x1 : Shape := ⟨2, ![340000, 1]⟩
abbrev S340000x256 : Shape := ⟨2, ![340000, 256]⟩
abbrev S1x1 : Shape := ⟨2, ![1, 1]⟩
abbrev S64x256 : Shape := ⟨2, ![64, 256]⟩
abbrev S64 : Shape := ⟨1, ![64]⟩
abbrev S64x1 : Shape := ⟨2, ![64, 1]⟩
abbrev S64x128 : Shape := ⟨2, ![64, 128]⟩
abbrev S1x128 : Shape := ⟨2, ![1, 128]⟩

abbrev nBuf : Space → Nat
  | .hbm => 396
  | .vmem => 0
  | .smem => 0
  | _ => 0

abbrev hbmTy0_0 (i : Nat) : BufTy := match i % 128 with
  | 0 => ⟨S20000x128, .f32⟩
  | 1 => ⟨S2x320000, .i32⟩
  | 2 => ⟨S20000, .i32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x256, .f32⟩
  | 16 => ⟨S256, .f32⟩
  | 17 => ⟨S256, .f32⟩
  | 18 => ⟨S256, .f32⟩
  | 19 => ⟨S256x1, .f32⟩
  | 20 => ⟨S1, .f32⟩
  | 21 => ⟨S256x256, .f32⟩
  | 22 => ⟨S256, .f32⟩
  | 23 => ⟨S256, .f32⟩
  | 24 => ⟨S256, .f32⟩
  | 25 => ⟨S256x128, .f32⟩
  | 26 => ⟨S128, .f32⟩
  | 27 => ⟨S1x320000, .i32⟩
  | 28 => ⟨S320000, .i32⟩
  | 29 => ⟨S1x320000, .i32⟩
  | 30 => ⟨S320000, .i32⟩
  | 31 => ⟨S20000x256, .f32⟩
  | 32 => ⟨S1x256, .f32⟩
  | 33 => ⟨S20000x256, .f32⟩
  | 34 => ⟨S20000x256, .f32⟩
  | 35 => ⟨S_, .f32⟩
  | 36 => ⟨S20000, .f32⟩
  | 37 => ⟨S20000x1, .f32⟩
  | 38 => ⟨S_, .f32⟩
  | 39 => ⟨S20000x1, .f32⟩
  | 40 => ⟨S20000x1, .f32⟩
  | 41 => ⟨S20000x256, .f32⟩
  | 42 => ⟨S20000x256, .f32⟩
  | 43 => ⟨S20000x256, .f32⟩
  | 44 => ⟨S_, .f32⟩
  | 45 => ⟨S20000, .f32⟩
  | 46 => ⟨S20000x1, .f32⟩
  | 47 => ⟨S_, .f32⟩
  | 48 => ⟨S20000x1, .f32⟩
  | 49 => ⟨S20000x1, .f32⟩
  | 50 => ⟨S20000x256, .f32⟩
  | 51 => ⟨S20000x256, .f32⟩
  | 52 => ⟨S_, .f32⟩
  | 53 => ⟨S20000x1, .f32⟩
  | 54 => ⟨S20000x1, .f32⟩
  | 55 => ⟨S20000x1, .f32⟩
  | 56 => ⟨S20000x256, .f32⟩
  | 57 => ⟨S20000x256, .f32⟩
  | 58 => ⟨S1x256, .f32⟩
  | 59 => ⟨S20000x256, .f32⟩
  | 60 => ⟨S20000x256, .f32⟩
  | 61 => ⟨S1x256, .f32⟩
  | 62 => ⟨S20000x256, .f32⟩
  | 63 => ⟨S20000x256, .f32⟩
  | 64 => ⟨S_, .f32⟩
  | 65 => ⟨S20000x256, .f32⟩
  | 66 => ⟨S20000x256, .f32⟩
  | 67 => ⟨S20000x256, .f32⟩
  | 68 => ⟨S20000, .i32⟩
  | 69 => ⟨S340000, .i32⟩
  | 70 => ⟨S340000, .i32⟩
  | 71 => ⟨S_, .f32⟩
  | 72 => ⟨S340000, .f32⟩
  | 73 => ⟨S_, .f32⟩
  | 74 => ⟨S20000, .f32⟩
  | 75 => ⟨S340000x1, .i32⟩
  | 76 => ⟨S20000, .f32⟩
  | 77 => ⟨S_, .f32⟩
  | 78 => ⟨S20000, .f32⟩
  | 79 => ⟨S20000, .f32⟩
  | 80 => ⟨S20000, .f32⟩
  | 81 => ⟨S_, .i32⟩
  | 82 => ⟨S340000, .i32⟩
  | 83 => ⟨S340000, .i1⟩
  | 84 => ⟨S_, .i32⟩
  | 85 => ⟨S340000, .i32⟩
  | 86 => ⟨S340000, .i32⟩
  | 87 => ⟨S340000, .i32⟩
  | 88 => ⟨S340000x1, .i32⟩
  | 89 => ⟨S340000, .f32⟩
  | 90 => ⟨S_, .i32⟩
  | 91 => ⟨S340000, .i32⟩
  | 92 => ⟨S340000, .i1⟩
  | 93 => ⟨S_, .i32⟩
  | 94 => ⟨S340000, .i32⟩
  | 95 => ⟨S340000, .i32⟩
  | 96 => ⟨S340000, .i32⟩
  | 97 => ⟨S340000x1, .i32⟩
  | 98 => ⟨S340000, .f32⟩
  | 99 => ⟨S340000, .f32⟩
  | 100 => ⟨S_, .i32⟩
  | 101 => ⟨S340000, .i32⟩
  | 102 => ⟨S340000, .i1⟩
  | 103 => ⟨S_, .i32⟩
  | 104 => ⟨S340000, .i32⟩
  | 105 => ⟨S340000, .i32⟩
  | 106 => ⟨S340000, .i32⟩
  | 107 => ⟨S340000x1, .i32⟩
  | 108 => ⟨S340000x256, .f32⟩
  | 109 => ⟨S340000x1, .f32⟩
  | 110 => ⟨S340000x256, .f32⟩
  | 111 => ⟨S340000x256, .f32⟩
  | 112 => ⟨S_, .f32⟩
  | 113 => ⟨S20000x256, .f32⟩
  | 114 => ⟨S340000x1, .i32⟩
  | 115 => ⟨S20000x256, .f32⟩
  | 116 => ⟨S1x256, .f32⟩
  | 117 => ⟨S20000x256, .f32⟩
  | 118 => ⟨S20000x256, .f32⟩
  | 119 => ⟨S_, .f32⟩
  | 120 => ⟨S20000, .f32⟩
  | 121 => ⟨S20000x1, .f32⟩
  | 122 => ⟨S_, .f32⟩
  | 123 => ⟨S20000x1, .f32⟩
  | 124 => ⟨S20000x1, .f32⟩
  | 125 => ⟨S20000x256, .f32⟩
  | 126 => ⟨S20000x256, .f32⟩
  | 127 => ⟨S20000x256, .f32⟩
  | _ => ⟨S20000x128, .f32⟩

abbrev hbmTy0_1 (i : Nat) : BufTy := match i % 128 with
  | 0 => ⟨S_, .f32⟩
  | 1 => ⟨S20000, .f32⟩
  | 2 => ⟨S20000x1, .f32⟩
  | 3 => ⟨S_, .f32⟩
  | 4 => ⟨S20000x1, .f32⟩
  | 5 => ⟨S20000x1, .f32⟩
  | 6 => ⟨S20000x256, .f32⟩
  | 7 => ⟨S20000x256, .f32⟩
  | 8 => ⟨S_, .f32⟩
  | 9 => ⟨S20000x1, .f32⟩
  | 10 => ⟨S20000x1, .f32⟩
  | 11 => ⟨S20000x1, .f32⟩
  | 12 => ⟨S20000x256, .f32⟩
  | 13 => ⟨S20000x256, .f32⟩
  | 14 => ⟨S1x256, .f32⟩
  | 15 => ⟨S20000x256, .f32⟩
  | 16 => ⟨S20000x256, .f32⟩
  | 17 => ⟨S1x256, .f32⟩
  | 18 => ⟨S20000x256, .f32⟩
  | 19 => ⟨S20000x256, .f32⟩
  | 20 => ⟨S_, .f32⟩
  | 21 => ⟨S20000x256, .f32⟩
  | 22 => ⟨S20000x256, .f32⟩
  | 23 => ⟨S20000x256, .f32⟩
  | 24 => ⟨S20000, .i32⟩
  | 25 => ⟨S340000, .i32⟩
  | 26 => ⟨S340000, .i32⟩
  | 27 => ⟨S_, .f32⟩
  | 28 => ⟨S340000, .f32⟩
  | 29 => ⟨S_, .f32⟩
  | 30 => ⟨S20000, .f32⟩
  | 31 => ⟨S340000x1, .i32⟩
  | 32 => ⟨S20000, .f32⟩
  | 33 => ⟨S_, .f32⟩
  | 34 => ⟨S20000, .f32⟩
  | 35 => ⟨S20000, .f32⟩
  | 36 => ⟨S20000, .f32⟩
  | 37 => ⟨S_, .i32⟩
  | 38 => ⟨S340000, .i32⟩
  | 39 => ⟨S340000, .i1⟩
  | 40 => ⟨S_, .i32⟩
  | 41 => ⟨S340000, .i32⟩
  | 42 => ⟨S340000, .i32⟩
  | 43 => ⟨S340000, .i32⟩
  | 44 => ⟨S340000x1, .i32⟩
  | 45 => ⟨S340000, .f32⟩
  | 46 => ⟨S_, .i32⟩
  | 47 => ⟨S340000, .i32⟩
  | 48 => ⟨S340000, .i1⟩
  | 49 => ⟨S_, .i32⟩
  | 50 => ⟨S340000, .i32⟩
  | 51 => ⟨S340000, .i32⟩
  | 52 => ⟨S340000, .i32⟩
  | 53 => ⟨S340000x1, .i32⟩
  | 54 => ⟨S340000, .f32⟩
  | 55 => ⟨S340000, .f32⟩
  | 56 => ⟨S_, .i32⟩
  | 57 => ⟨S340000, .i32⟩
  | 58 => ⟨S340000, .i1⟩
  | 59 => ⟨S_, .i32⟩
  | 60 => ⟨S340000, .i32⟩
  | 61 => ⟨S340000, .i32⟩
  | 62 => ⟨S340000, .i32⟩
  | 63 => ⟨S340000x1, .i32⟩
  | 64 => ⟨S340000x256, .f32⟩
  | 65 => ⟨S340000x1, .f32⟩
  | 66 => ⟨S340000x256, .f32⟩
  | 67 => ⟨S340000x256, .f32⟩
  | 68 => ⟨S_, .f32⟩
  | 69 => ⟨S20000x256, .f32⟩
  | 70 => ⟨S340000x1, .i32⟩
  | 71 => ⟨S20000x256, .f32⟩
  | 72 => ⟨S1x256, .f32⟩
  | 73 => ⟨S20000x256, .f32⟩
  | 74 => ⟨S20000x256, .f32⟩
  | 75 => ⟨S_, .f32⟩
  | 76 => ⟨S20000, .f32⟩
  | 77 => ⟨S20000x1, .f32⟩
  | 78 => ⟨S_, .f32⟩
  | 79 => ⟨S20000x1, .f32⟩
  | 80 => ⟨S20000x1, .f32⟩
  | 81 => ⟨S20000x256, .f32⟩
  | 82 => ⟨S20000x256, .f32⟩
  | 83 => ⟨S20000x256, .f32⟩
  | 84 => ⟨S_, .f32⟩
  | 85 => ⟨S20000, .f32⟩
  | 86 => ⟨S20000x1, .f32⟩
  | 87 => ⟨S_, .f32⟩
  | 88 => ⟨S20000x1, .f32⟩
  | 89 => ⟨S20000x1, .f32⟩
  | 90 => ⟨S20000x256, .f32⟩
  | 91 => ⟨S20000x256, .f32⟩
  | 92 => ⟨S_, .f32⟩
  | 93 => ⟨S20000x1, .f32⟩
  | 94 => ⟨S20000x1, .f32⟩
  | 95 => ⟨S20000x1, .f32⟩
  | 96 => ⟨S20000x256, .f32⟩
  | 97 => ⟨S20000x256, .f32⟩
  | 98 => ⟨S1x256, .f32⟩
  | 99 => ⟨S20000x256, .f32⟩
  | 100 => ⟨S20000x256, .f32⟩
  | 101 => ⟨S1x256, .f32⟩
  | 102 => ⟨S20000x256, .f32⟩
  | 103 => ⟨S20000x256, .f32⟩
  | 104 => ⟨S_, .f32⟩
  | 105 => ⟨S20000x256, .f32⟩
  | 106 => ⟨S20000x256, .f32⟩
  | 107 => ⟨S20000x256, .f32⟩
  | 108 => ⟨S20000x256, .f32⟩
  | 109 => ⟨S20000, .i32⟩
  | 110 => ⟨S340000, .i32⟩
  | 111 => ⟨S340000, .i32⟩
  | 112 => ⟨S_, .f32⟩
  | 113 => ⟨S340000, .f32⟩
  | 114 => ⟨S_, .f32⟩
  | 115 => ⟨S20000, .f32⟩
  | 116 => ⟨S340000x1, .i32⟩
  | 117 => ⟨S20000, .f32⟩
  | 118 => ⟨S_, .f32⟩
  | 119 => ⟨S20000, .f32⟩
  | 120 => ⟨S20000, .f32⟩
  | 121 => ⟨S20000, .f32⟩
  | 122 => ⟨S_, .i32⟩
  | 123 => ⟨S340000, .i32⟩
  | 124 => ⟨S340000, .i1⟩
  | 125 => ⟨S_, .i32⟩
  | 126 => ⟨S340000, .i32⟩
  | 127 => ⟨S340000, .i32⟩
  | _ => ⟨S20000x128, .f32⟩

abbrev hbmTy0_2 (i : Nat) : BufTy := match i % 128 with
  | 0 => ⟨S340000, .i32⟩
  | 1 => ⟨S340000x1, .i32⟩
  | 2 => ⟨S340000, .f32⟩
  | 3 => ⟨S_, .i32⟩
  | 4 => ⟨S340000, .i32⟩
  | 5 => ⟨S340000, .i1⟩
  | 6 => ⟨S_, .i32⟩
  | 7 => ⟨S340000, .i32⟩
  | 8 => ⟨S340000, .i32⟩
  | 9 => ⟨S340000, .i32⟩
  | 10 => ⟨S340000x1, .i32⟩
  | 11 => ⟨S340000, .f32⟩
  | 12 => ⟨S340000, .f32⟩
  | 13 => ⟨S_, .i32⟩
  | 14 => ⟨S340000, .i32⟩
  | 15 => ⟨S340000, .i1⟩
  | 16 => ⟨S_, .i32⟩
  | 17 => ⟨S340000, .i32⟩
  | 18 => ⟨S340000, .i32⟩
  | 19 => ⟨S340000, .i32⟩
  | 20 => ⟨S340000x1, .i32⟩
  | 21 => ⟨S340000x256, .f32⟩
  | 22 => ⟨S340000x1, .f32⟩
  | 23 => ⟨S340000x256, .f32⟩
  | 24 => ⟨S340000x256, .f32⟩
  | 25 => ⟨S_, .f32⟩
  | 26 => ⟨S20000x256, .f32⟩
  | 27 => ⟨S340000x1, .i32⟩
  | 28 => ⟨S20000x256, .f32⟩
  | 29 => ⟨S1x256, .f32⟩
  | 30 => ⟨S20000x256, .f32⟩
  | 31 => ⟨S20000x256, .f32⟩
  | 32 => ⟨S_, .f32⟩
  | 33 => ⟨S20000, .f32⟩
  | 34 => ⟨S20000x1, .f32⟩
  | 35 => ⟨S_, .f32⟩
  | 36 => ⟨S20000x1, .f32⟩
  | 37 => ⟨S20000x1, .f32⟩
  | 38 => ⟨S20000x256, .f32⟩
  | 39 => ⟨S20000x256, .f32⟩
  | 40 => ⟨S20000x256, .f32⟩
  | 41 => ⟨S_, .f32⟩
  | 42 => ⟨S20000, .f32⟩
  | 43 => ⟨S20000x1, .f32⟩
  | 44 => ⟨S_, .f32⟩
  | 45 => ⟨S20000x1, .f32⟩
  | 46 => ⟨S20000x1, .f32⟩
  | 47 => ⟨S20000x256, .f32⟩
  | 48 => ⟨S20000x256, .f32⟩
  | 49 => ⟨S_, .f32⟩
  | 50 => ⟨S20000x1, .f32⟩
  | 51 => ⟨S20000x1, .f32⟩
  | 52 => ⟨S20000x1, .f32⟩
  | 53 => ⟨S20000x256, .f32⟩
  | 54 => ⟨S20000x256, .f32⟩
  | 55 => ⟨S1x256, .f32⟩
  | 56 => ⟨S20000x256, .f32⟩
  | 57 => ⟨S20000x256, .f32⟩
  | 58 => ⟨S1x256, .f32⟩
  | 59 => ⟨S20000x256, .f32⟩
  | 60 => ⟨S20000x256, .f32⟩
  | 61 => ⟨S_, .f32⟩
  | 62 => ⟨S20000x256, .f32⟩
  | 63 => ⟨S20000x256, .f32⟩
  | 64 => ⟨S20000x256, .f32⟩
  | 65 => ⟨S20000x1, .f32⟩
  | 66 => ⟨S1x1, .f32⟩
  | 67 => ⟨S20000x1, .f32⟩
  | 68 => ⟨S20000x1, .f32⟩
  | 69 => ⟨S20000x1, .f32⟩
  | 70 => ⟨S_, .f32⟩
  | 71 => ⟨S1, .f32⟩
  | 72 => ⟨S_, .f32⟩
  | 73 => ⟨S1, .f32⟩
  | 74 => ⟨S1, .f32⟩
  | 75 => ⟨S1x1, .f32⟩
  | 76 => ⟨S20000x1, .f32⟩
  | 77 => ⟨S20000x1, .f32⟩
  | 78 => ⟨S20000x1, .f32⟩
  | 79 => ⟨S_, .f32⟩
  | 80 => ⟨S1, .f32⟩
  | 81 => ⟨S1x1, .f32⟩
  | 82 => ⟨S20000x1, .f32⟩
  | 83 => ⟨S20000x1, .f32⟩
  | 84 => ⟨S20000x256, .f32⟩
  | 85 => ⟨S20000x256, .f32⟩
  | 86 => ⟨S_, .f32⟩
  | 87 => ⟨S64x256, .f32⟩
  | 88 => ⟨S20000x1, .i32⟩
  | 89 => ⟨S64x256, .f32⟩
  | 90 => ⟨S64x256, .f32⟩
  | 91 => ⟨S1x256, .f32⟩
  | 92 => ⟨S64x256, .f32⟩
  | 93 => ⟨S64x256, .f32⟩
  | 94 => ⟨S_, .f32⟩
  | 95 => ⟨S64, .f32⟩
  | 96 => ⟨S64x1, .f32⟩
  | 97 => ⟨S_, .f32⟩
  | 98 => ⟨S64x1, .f32⟩
  | 99 => ⟨S64x1, .f32⟩
  | 100 => ⟨S64x256, .f32⟩
  | 101 => ⟨S64x256, .f32⟩
  | 102 => ⟨S64x256, .f32⟩
  | 103 => ⟨S_, .f32⟩
  | 104 => ⟨S64, .f32⟩
  | 105 => ⟨S64x1, .f32⟩
  | 106 => ⟨S_, .f32⟩
  | 107 => ⟨S64x1, .f32⟩
  | 108 => ⟨S64x1, .f32⟩
  | 109 => ⟨S64x256, .f32⟩
  | 110 => ⟨S64x256, .f32⟩
  | 111 => ⟨S_, .f32⟩
  | 112 => ⟨S64x1, .f32⟩
  | 113 => ⟨S64x1, .f32⟩
  | 114 => ⟨S64x1, .f32⟩
  | 115 => ⟨S64x256, .f32⟩
  | 116 => ⟨S64x256, .f32⟩
  | 117 => ⟨S1x256, .f32⟩
  | 118 => ⟨S64x256, .f32⟩
  | 119 => ⟨S64x256, .f32⟩
  | 120 => ⟨S1x256, .f32⟩
  | 121 => ⟨S64x256, .f32⟩
  | 122 => ⟨S64x256, .f32⟩
  | 123 => ⟨S_, .f32⟩
  | 124 => ⟨S64x256, .f32⟩
  | 125 => ⟨S64x256, .f32⟩
  | 126 => ⟨S64x128, .f32⟩
  | 127 => ⟨S1x128, .f32⟩
  | _ => ⟨S20000x128, .f32⟩

abbrev hbmTy0_3 (i : Nat) : BufTy := match i % 128 with
  | 0 => ⟨S64x128, .f32⟩
  | 1 => ⟨S64x128, .f32⟩
  | 2 => ⟨S64x128, .f32⟩
  | 3 => ⟨S_, .f32⟩
  | 4 => ⟨S64, .f32⟩
  | 5 => ⟨S64x1, .f32⟩
  | 6 => ⟨S64x1, .f32⟩
  | 7 => ⟨S_, .f32⟩
  | 8 => ⟨S64x1, .f32⟩
  | 9 => ⟨S64x1, .f32⟩
  | 10 => ⟨S64x128, .f32⟩
  | 11 => ⟨S64x128, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_v16 : Ref sig .tc := ⟨.hbm, 46, rfl⟩
abbrev main_cst_2 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call0_cst : Ref sig .tc := ⟨.hbm, 64, rfl⟩
abbrev main_call0_v0 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_4 : Ref sig .tc := ⟨.hbm, 71, rfl⟩
abbrev main_v37 : Ref sig .tc := ⟨.hbm, 72, rfl⟩
abbrev main_cst_5 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_6 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_c : Ref sig .tc := ⟨.hbm, 81, rfl⟩
abbrev main_v44 : Ref sig .tc := ⟨.hbm, 82, rfl⟩
abbrev main_v45 : Ref sig .tc := ⟨.hbm, 83, rfl⟩
abbrev main_c_7 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_8 : Ref sig .tc := ⟨.hbm, 90, rfl⟩
abbrev main_v51 : Ref sig .tc := ⟨.hbm, 91, rfl⟩
abbrev main_v52 : Ref sig .tc := ⟨.hbm, 92, rfl⟩
abbrev main_c_9 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_10 : Ref sig .tc := ⟨.hbm, 100, rfl⟩
abbrev main_v59 : Ref sig .tc := ⟨.hbm, 101, rfl⟩
abbrev main_v60 : Ref sig .tc := ⟨.hbm, 102, rfl⟩
abbrev main_c_11 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_12 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev main_v76 : Ref sig .tc := ⟨.hbm, 121, rfl⟩
abbrev main_cst_14 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_15 : Ref sig .tc := ⟨.hbm, 128, rfl⟩
abbrev main_v82 : Ref sig .tc := ⟨.hbm, 129, rfl⟩
abbrev main_v83 : Ref sig .tc := ⟨.hbm, 130, rfl⟩
abbrev main_cst_16 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_17 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_call1_cst : Ref sig .tc := ⟨.hbm, 148, rfl⟩
abbrev main_call1_v0 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_18 : Ref sig .tc := ⟨.hbm, 155, rfl⟩
abbrev main_v104 : Ref sig .tc := ⟨.hbm, 156, rfl⟩
abbrev main_cst_19 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_20 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_c_21 : Ref sig .tc := ⟨.hbm, 165, rfl⟩
abbrev main_v111 : Ref sig .tc := ⟨.hbm, 166, rfl⟩
abbrev main_v112 : Ref sig .tc := ⟨.hbm, 167, rfl⟩
abbrev main_c_22 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_c_23 : Ref sig .tc := ⟨.hbm, 174, rfl⟩
abbrev main_v118 : Ref sig .tc := ⟨.hbm, 175, rfl⟩
abbrev main_v119 : Ref sig .tc := ⟨.hbm, 176, rfl⟩
abbrev main_c_24 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_c_25 : Ref sig .tc := ⟨.hbm, 184, rfl⟩
abbrev main_v126 : Ref sig .tc := ⟨.hbm, 185, rfl⟩
abbrev main_v127 : Ref sig .tc := ⟨.hbm, 186, rfl⟩
abbrev main_c_26 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_cst_27 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_28 : Ref sig .tc := ⟨.hbm, 203, rfl⟩
abbrev main_v142 : Ref sig .tc := ⟨.hbm, 204, rfl⟩
abbrev main_v143 : Ref sig .tc := ⟨.hbm, 205, rfl⟩
abbrev main_cst_29 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_30 : Ref sig .tc := ⟨.hbm, 212, rfl⟩
abbrev main_v149 : Ref sig .tc := ⟨.hbm, 213, rfl⟩
abbrev main_v150 : Ref sig .tc := ⟨.hbm, 214, rfl⟩
abbrev main_cst_31 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_cst_32 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_call2_cst : Ref sig .tc := ⟨.hbm, 232, rfl⟩
abbrev main_call2_v0 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_cst_33 : Ref sig .tc := ⟨.hbm, 240, rfl⟩
abbrev main_v172 : Ref sig .tc := ⟨.hbm, 241, rfl⟩
abbrev main_cst_34 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_cst_35 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_c_36 : Ref sig .tc := ⟨.hbm, 250, rfl⟩
abbrev main_v179 : Ref sig .tc := ⟨.hbm, 251, rfl⟩
abbrev main_v180 : Ref sig .tc := ⟨.hbm, 252, rfl⟩
abbrev main_c_37 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_c_38 : Ref sig .tc := ⟨.hbm, 259, rfl⟩
abbrev main_v186 : Ref sig .tc := ⟨.hbm, 260, rfl⟩
abbrev main_v187 : Ref sig .tc := ⟨.hbm, 261, rfl⟩
abbrev main_c_39 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_c_40 : Ref sig .tc := ⟨.hbm, 269, rfl⟩
abbrev main_v194 : Ref sig .tc := ⟨.hbm, 270, rfl⟩
abbrev main_v195 : Ref sig .tc := ⟨.hbm, 271, rfl⟩
abbrev main_c_41 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_cst_42 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_cst_43 : Ref sig .tc := ⟨.hbm, 288, rfl⟩
abbrev main_v210 : Ref sig .tc := ⟨.hbm, 289, rfl⟩
abbrev main_v211 : Ref sig .tc := ⟨.hbm, 290, rfl⟩
abbrev main_cst_44 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_cst_45 : Ref sig .tc := ⟨.hbm, 297, rfl⟩
abbrev main_v217 : Ref sig .tc := ⟨.hbm, 298, rfl⟩
abbrev main_v218 : Ref sig .tc := ⟨.hbm, 299, rfl⟩
abbrev main_cst_46 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_cst_47 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_call3_cst : Ref sig .tc := ⟨.hbm, 317, rfl⟩
abbrev main_call3_v0 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_cst_48 : Ref sig .tc := ⟨.hbm, 326, rfl⟩
abbrev main_v241 : Ref sig .tc := ⟨.hbm, 327, rfl⟩
abbrev main_cst_49 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_cst_50 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_cst_51 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_cst_52 : Ref sig .tc := ⟨.hbm, 350, rfl⟩
abbrev main_v261 : Ref sig .tc := ⟨.hbm, 351, rfl⟩
abbrev main_v262 : Ref sig .tc := ⟨.hbm, 352, rfl⟩
abbrev main_cst_53 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_cst_54 : Ref sig .tc := ⟨.hbm, 359, rfl⟩
abbrev main_v268 : Ref sig .tc := ⟨.hbm, 360, rfl⟩
abbrev main_v269 : Ref sig .tc := ⟨.hbm, 361, rfl⟩
abbrev main_cst_55 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_cst_56 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_call4_cst : Ref sig .tc := ⟨.hbm, 379, rfl⟩
abbrev main_call4_v0 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_call5_v0 : Ref sig .tc := ⟨.hbm, 386, rfl⟩
abbrev main_call5_cst : Ref sig .tc := ⟨.hbm, 387, rfl⟩
abbrev main_call5_v1 : Ref sig .tc := ⟨.hbm, 388, rfl⟩
abbrev main_call5_v2 : Ref sig .tc := ⟨.hbm, 389, rfl⟩
abbrev main_v290 : Ref sig .tc := ⟨.hbm, 390, rfl⟩
abbrev main_cst_57 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_v294 : Ref sig .tc := ⟨.hbm, 395, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S20000_d1 : S20000x256.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  bcast_S_S20000x256 : S_.BroadcastsInDim S20000x256 (![] : Fin 0 → Fin S20000x256.rank)
  concatenates_S320000_S20000_S340000_d0 : Shape.Concatenates [S320000, S20000] S340000 0
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x256_0_1 : S340000x1.BroadcastsInDim S340000x256 (![0, 1] : Fin 2 → Fin S340000x256.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  reducesTo_S20000x1_S1_d0 : S20000x1.ReducesTo [0] S1
  bcast_S_S1 : S_.BroadcastsInDim S1 (![] : Fin 0 → Fin S1.rank)
  bcast_S_S64x256 : S_.BroadcastsInDim S64x256 (![] : Fin 0 → Fin S64x256.rank)
  bcast_S1x256_S64x256_0_1 : S1x256.BroadcastsInDim S64x256 (![0, 1] : Fin 2 → Fin S64x256.rank)
  reducesTo_S64x256_S64_d1 : S64x256.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  reducesTo_S64x128_S64_d1 : S64x128.ReducesTo [1] S64
  bcast_S64x1_S64x128_0_1 : S64x1.BroadcastsInDim S64x128 (![0, 1] : Fin 2 → Fin S64x128.rank)
  dot_S20000x128_S128x256_S20000x256_1_0_0_1_n_n_wf : DotDims.WF S20000x128 S128x256 S20000x256 [1] [0] [0] [1] [] []
  dot_S20000x256_S256x256_S20000x256_1_0_0_1_n_n_wf : DotDims.WF S20000x256 S256x256 S20000x256 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x256_S256x1_S20000x1_1_0_0_1_n_n_wf : DotDims.WF S20000x256 S256x1 S20000x1 [1] [0] [0] [1] [] []
  scatter_S64x256_S20000x1_S20000x256_1_0_0_1_wf : ScatterDims.WF S64x256 S20000x1 S20000x256 [1] [0] [0] 1
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []

variable [Facts₀]

def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x256_S256x1_S20000x1_1_0_0_1_n_n : DotDims S20000x256 S256x1 S20000x1 where
  lhsContracting := [1]
  rhsContracting := [0]
  lhsNonContracting := [0]
  rhsNonContracting := [1]
  lhsBatch := []
  rhsBatch := []
  wf := dot_S20000x256_S256x1_S20000x1_1_0_0_1_n_n_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

class Facts : Prop extends Facts₀ where

variable [Facts]
-- ==== Proof.KernelRun.lean ====
/-
  The idealized kernel's run with its result named.

  The program is sixteen segments: stretches of host operations and seven pipelined kernels. The contents of every
  buffer at each boundary are a fold through the segments from the launch memory: a stretch applies its operations,
  a kernel replaces its arrays by what its write-backs leave. Every weakly fair execution terminates, and the result
  buffer then holds what that fold leaves in it.
-/
import proofs.«105231_j1443109011557_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at what the fold
    through the sixteen segments leaves there, and the argument arrays as launched. -/
theorem run_result : θ_run defs (onTc (τ := τ) (main (F := F))) ⟨m, fun _ => 0, ρ⟩ (fun r => ∀ c : Dev nD,
      r.2.mem ((c.tc : Thread nD τ).loc main_v145) = W16 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => ⟨h c _ (mem_uc main_v145 (by decide)),
      (h c _ (mem_uc main_arg0 (by decide))).trans (W16_main_arg0 m ρ c),
      (h c _ (mem_uc main_arg1 (by decide))).trans (W16_main_arg1 m ρ c),
      (h c _ (mem_uc main_arg2 (by decide))).trans (W16_main_arg2 m ρ c),
      (h c _ (mem_uc main_arg3 (by decide))).trans (W16_main_arg3 m ρ c),
      (h c _ (mem_uc main_arg4 (by decide))).trans (W16_main_arg4 m ρ c),
      (h c _ (mem_uc main_arg5 (by decide))).trans (W16_main_arg5 m ρ c),
      (h c _ (mem_uc main_arg6 (by decide))).trans (W16_main_arg6 m ρ c),
      (h c _ (mem_uc main_arg7 (by decide))).trans (W16_main_arg7 m ρ c),
      (h c _ (mem_uc main_arg8 (by decide))).trans (W16_main_arg8 m ρ c),
      (h c _ (mem_uc main_arg9 (by decide))).trans (W16_main_arg9 m ρ c),
      (h c _ (mem_uc main_arg10 (by decide))).trans (W16_main_arg10 m ρ c),
      (h c _ (mem_uc main_arg11 (by decide))).trans (W16_main_arg11 m ρ c),
      (h c _ (mem_uc main_arg12 (by decide))).trans (W16_main_arg12 m ρ c),
      (h c _ (mem_uc main_arg13 (by decide))).trans (W16_main_arg13 m ρ c),
      (h c _ (mem_uc main_arg14 (by decide))).trans (W16_main_arg14 m ρ c),
      (h c _ (mem_uc main_arg15 (by decide))).trans (W16_main_arg15 m ρ c),
      (h c _ (mem_uc main_arg16 (by decide))).trans (W16_main_arg16 m ρ c),
      (h c _ (mem_uc main_arg17 (by decide))).trans (W16_main_arg17 m ρ c),
      (h c _ (mem_uc main_arg18 (by decide))).trans (W16_main_arg18 m ρ c),
      (h c _ (mem_uc main_arg19 (by decide))).trans (W16_main_arg19 m ρ c),
      (h c _ (mem_uc main_arg20 (by decide))).trans (W16_main_arg20 m ρ c),
      (h c _ (mem_uc main_arg21 (by decide))).trans (W16_main_arg21 m ρ c),
      (h c _ (mem_uc main_arg22 (by decide))).trans (W16_main_arg22 m ρ c),
      (h c _ (mem_uc main_arg23 (by decide))).trans (W16_main_arg23 m ρ c),
      (h c _ (mem_uc main_arg24 (by decide))).trans (W16_main_arg24 m ρ c),
      (h c _ (mem_uc main_arg25 (by decide))).trans (W16_main_arg25 m ρ c),
      (h c _ (mem_uc main_arg26 (by decide))).trans (W16_main_arg26 m ρ c)⟩)

end Cert.KernelIdeal.RunValue

end
-- ==== Proof.KernelKeep.lean ====
/-
  What each segment of the idealized kernel's program leaves unchanged.

  A stretch of host operations writes only its own results, and a pipelined kernel only its output array: every other
  buffer holds after the segment what it held before. So an argument array, the edge lists and weights computed by the
  first stretch, and a layer's output read again as the next layer's residual, are read at any later boundary as they
  were first written.
-/
import proofs.«105231_j1443109011557_1_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Gen

variable {F : FTy → Type} [FloatOps F]

/-- One operation's written buffer is in the list: the operation writes one buffer, and it is listed. -/
local macro "wsub" : tactic =>
  `(tactic| (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)))

/-- The buffers the operations of `hostOps0` write. -/
abbrev hostOps0_W : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29, main_v30, main_v31]
theorem hostOps0_writes : (hostOps0 : List (HloOp τ sig (Elt F))).Forall fun op => op.writes ⊆ (hostOps0_W.map (Proc.devRef (τ := τ) .tc)).toFinset := by
  simp only [List.Forall]; exact ⟨by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub⟩
/-- A buffer that `hostOps0` does not write keeps its contents through it. -/
theorem hostOps0_keep (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- The buffers the operations of `hostOps2` write. -/
abbrev hostOps2_W : List (Ref sig .tc) := [main_c_5, main_v34, main_v35, main_c_6, main_v36, main_v37, main_v38, main_v39, main_v40, main_v41, main_v42, main_v43, main_cst_7, main_v44, main_v45, main_v46, main_v47, main_v48, main_v49]
theorem hostOps2_writes : (hostOps2 : List (HloOp τ sig (Elt F))).Forall fun op => op.writes ⊆ (hostOps2_W.map (Proc.devRef (τ := τ) .tc)).toFinset := by
  simp only [List.Forall]; exact ⟨by wsub, by wsub, by wsub, by wsub, by wsub, by wsub, by wsub, by wsub, by wsub, by wsub, by wsub, by wsub, by wsub, by wsub, by wsub, by wsub, by wsub, by wsub, by wsub⟩
/-- A buffer that `hostOps2` does not write keeps its contents through it. -/
theorem hostOps2_keep (V : Valuation τ sig (Elt F)) (r : Ref sig .tc) (h : r ∉ hostOps2_W) :
    StableHlo.after hostOps2 V (Proc.devRef .tc r) = V (Proc.devRef .tc r) :=
  StableHlo.after_of_writes_sub hostOps2 V hostOps2_writes h

/-- The buffers the operations of `hostOps4` write. -/
abbrev hostOps4_W : List (Ref sig .tc) := [main_c_8, main_v52, main_v53, main_c_9, main_v54, main_v55, main_v56, main_v57, main_v58, main_v59, main_v60, main_v61, main_cst_10, main_v62, main_v63, main_v64, main_v65, main_v66, main_v67]
theorem hostOps4_writes : (hostOps4 : List (HloOp τ sig (Elt F))).Forall fun op => op.writes ⊆ (hostOps4_W.map (Proc.devRef (τ := τ) .tc)).toFinset := by
  simp only [List.Forall]; exact ⟨by wsub, by wsub, by wsub, by wsub, by wsub, by wsub, by wsub, by wsub, by wsub, by wsub, by wsub, by wsub, by wsub, by wsub, by wsub, by wsub, by wsub, by wsub, by wsub⟩
/-- A buffer that `hostOps4` does not write keeps its contents through it. -/
theorem hostOps4_keep (V : Valuation τ sig (Elt F)) (r : Ref sig .tc) (h : r ∉ hostOps4_W) :
    StableHlo.after hostOps4 V (Proc.devRef .tc r) = V (Proc.devRef .tc r) :=
  StableHlo.after_of_writes_sub hostOps4 V hostOps4_writes h

/-- The buffers the operations of `hostOps6` write. -/
abbrev hostOps6_W : List (Ref sig .tc) := [main_c_11, main_v70, main_v71, main_c_12, main_v72, main_v73, main_v74, main_v75, main_v76, main_v77, main_v78, main_v79, main_cst_13, main_v80, main_v81, main_v82, main_v83, main_v84, main_v85]
theorem hostOps6_writes : (hostOps6 : List (HloOp τ sig (Elt F))).Forall fun op => op.writes ⊆ (hostOps6_W.map (Proc.devRef (τ := τ) .tc)).toFinset := by
  simp only [List.Forall]; exact ⟨by wsub, by wsub, by wsub, by wsub, by wsub, by wsub, by wsub, by wsub, by wsub, by wsub, by wsub, by wsub, by wsub, by wsub, by wsub, by wsub, by wsub, by wsub, by wsub⟩
/-- A buffer that `hostOps6` does not write keeps its contents through it. -/
theorem hostOps6_keep (V : Valuation τ sig (Elt F)) (r : Ref sig .tc) (h : r ∉ hostOps6_W) :
    StableHlo.after hostOps6 V (Proc.devRef .tc r) = V (Proc.devRef .tc r) :=
  StableHlo.after_of_writes_sub hostOps6 V hostOps6_writes h

/-- The buffers the operations of `hostOps7` write. -/
abbrev hostOps7_W : List (Ref sig .tc) := [main_v87, main_v88, main_v89, main_v90, main_v91, main_cst_14, main_v92, main_cst_15, main_v93, main_v94, main_v95, main_v96, main_v97, main_v98, main_cst_16, main_v99, main_v100, main_v101, main_v102, main_v103, main_v104, main_cst_17, main_v105, main_v106, main_v107, main_v108, main_v109, main_v110, main_v111, main_cst_18, main_v112, main_v113, main_cst_19, main_v114, main_v115, main_v116, main_v117, main_v118, main_cst_20, main_v119, main_v120, main_cst_21, main_v121, main_v122, main_v123, main_v124, main_cst_22, main_v125, main_v126, main_v127, main_v128, main_v129, main_v130, main_v131, main_v132, main_v133, main_v134, main_v135]
theorem hostOps7_writes : (hostOps7 : List (HloOp τ sig (Elt F))).Forall fun op => op.writes ⊆ (hostOps7_W.map (Proc.devRef (τ := τ) .tc)).toFinset := by
  simp only [List.Forall]; exact ⟨by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub⟩
/-- A buffer that `hostOps7` does not write keeps its contents through it. -/
theorem hostOps7_keep (V : Valuation τ sig (Elt F)) (r : Ref sig .tc) (h : r ∉ hostOps7_W) :
    StableHlo.after hostOps7 V (Proc.devRef .tc r) = V (Proc.devRef .tc r) :=
  StableHlo.after_of_writes_sub hostOps7 V hostOps7_writes h

/-- The buffers the operations of `hostOps7_1` write. -/
abbrev hostOps7_1_W : List (Ref sig .tc) := [main_call0_cst, main_call0_v0, main_v136]
theorem hostOps7_1_writes : (hostOps7_1 : List (HloOp τ sig (Elt F))).Forall fun op => op.writes ⊆ (hostOps7_1_W.map (Proc.devRef (τ := τ) .tc)).toFinset := by
  simp only [List.Forall]; exact ⟨by wsub, by wsub, by wsub⟩
/-- A buffer that `hostOps7_1` does not write keeps its contents through it. -/
theorem hostOps7_1_keep (V : Valuation τ sig (Elt F)) (r : Ref sig .tc) (h : r ∉ hostOps7_1_W) :
    StableHlo.after hostOps7_1 V (Proc.devRef .tc r) = V (Proc.devRef .tc r) :=
  StableHlo.after_of_writes_sub hostOps7_1 V hostOps7_1_writes h

/-- The buffers the operations of `hostOps7_2` write. -/
abbrev hostOps7_2_W : List (Ref sig .tc) := [main_v137, main_v138, main_v139, main_v140]
theorem hostOps7_2_writes : (hostOps7_2 : List (HloOp τ sig (Elt F))).Forall fun op => op.writes ⊆ (hostOps7_2_W.map (Proc.devRef (τ := τ) .tc)).toFinset := by
  simp only [List.Forall]; exact ⟨by wsub, by wsub, by wsub, by wsub⟩
/-- A buffer that `hostOps7_2` does not write keeps its contents through it. -/
theorem hostOps7_2_keep (V : Valuation τ sig (Elt F)) (r : Ref sig .tc) (h : r ∉ hostOps7_2_W) :
    StableHlo.after hostOps7_2 V (Proc.devRef .tc r) = V (Proc.devRef .tc r) :=
  StableHlo.after_of_writes_sub hostOps7_2 V hostOps7_2_writes h

/-- The buffers the operations of `hostOps7_3` write. -/
abbrev hostOps7_3_W : List (Ref sig .tc) := [main_call1_v0, main_call1_cst, main_call1_v1, main_call1_v2, main_v141]
theorem hostOps7_3_writes : (hostOps7_3 : List (HloOp τ sig (Elt F))).Forall fun op => op.writes ⊆ (hostOps7_3_W.map (Proc.devRef (τ := τ) .tc)).toFinset := by
  simp only [List.Forall]; exact ⟨by wsub, by wsub, by wsub, by wsub, by wsub⟩
/-- A buffer that `hostOps7_3` does not write keeps its contents through it. -/
theorem hostOps7_3_keep (V : Valuation τ sig (Elt F)) (r : Ref sig .tc) (h : r ∉ hostOps7_3_W) :
    StableHlo.after hostOps7_3 V (Proc.devRef .tc r) = V (Proc.devRef .tc r) :=
  StableHlo.after_of_writes_sub hostOps7_3 V hostOps7_3_writes h

/-- The buffers the operations of `hostOps7_4` write. -/
abbrev hostOps7_4_W : List (Ref sig .tc) := [main_cst_23, main_v142, main_v143, main_v144, main_v145]
theorem hostOps7_4_writes : (hostOps7_4 : List (HloOp τ sig (Elt F))).Forall fun op => op.writes ⊆ (hostOps7_4_W.map (Proc.devRef (τ := τ) .tc)).toFinset := by
  simp only [List.Forall]; exact ⟨by wsub, by wsub, by wsub, by wsub, by wsub⟩
/-- A buffer that `hostOps7_4` does not write keeps its contents through it. -/
theorem hostOps7_4_keep (V : Valuation τ sig (Elt F)) (r : Ref sig .tc) (h : r ∉ hostOps7_4_W) :
    StableHlo.after hostOps7_4 V (Proc.devRef .tc r) = V (Proc.devRef .tc r) :=
  StableHlo.after_of_writes_sub hostOps7_4 V hostOps7_4_writes h

variable (m : (ℓ : Loc nD τ sig) → Buf (Elt F) ℓ) (ρ : Dev nD → PrngReg)

/-! ## The arguments, read where each is used -/

/-- The argument `main_arg0` at boundary 1 is as launched. -/
theorem arg0_at1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := hostOps0_keep (W0 m ρ c) main_arg0 (by decide)

/-- The argument `main_arg3` at boundary 1 is as launched. -/
theorem arg3_at1 (c : Dev nD) : W1 m ρ c (Proc.devRef .tc main_arg3) = W0 m ρ c (Proc.devRef .tc main_arg3) :=
  calc W1 m ρ c (Proc.devRef .tc main_arg3)
    _ = W0 m ρ c (Proc.devRef .tc main_arg3) := hostOps0_keep (W0 m ρ c) main_arg3 (by decide)

/-- The argument `main_arg7` at boundary 2 is as launched. -/
theorem arg7_at2 (c : Dev nD) : W2 m ρ c (Proc.devRef .tc main_arg7) = W0 m ρ c (Proc.devRef .tc main_arg7) :=
  calc W2 m ρ c (Proc.devRef .tc main_arg7)
    _ = W1 m ρ c (Proc.devRef .tc main_arg7) := W2_of_ne m ρ c main_arg7 (by decide)
    _ = W0 m ρ c (Proc.devRef .tc main_arg7) := hostOps0_keep (W0 m ρ c) main_arg7 (by decide)

/-- The argument `main_arg8` at boundary 3 is as launched. -/
theorem arg8_at3 (c : Dev nD) : W3 m ρ c (Proc.devRef .tc main_arg8) = W0 m ρ c (Proc.devRef .tc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := hostOps0_keep (W0 m ρ c) main_arg8 (by decide)

/-- The argument `main_arg9` at boundary 3 is as launched. -/
theorem arg9_at3 (c : Dev nD) : W3 m ρ c (Proc.devRef .tc main_arg9) = W0 m ρ c (Proc.devRef .tc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := hostOps0_keep (W0 m ρ c) main_arg9 (by decide)

/-- The argument `main_arg10` at boundary 3 is as launched. -/
theorem arg10_at3 (c : Dev nD) : W3 m ρ c (Proc.devRef .tc main_arg10) = W0 m ρ c (Proc.devRef .tc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := hostOps0_keep (W0 m ρ c) main_arg10 (by decide)

/-- The argument `main_arg11` at boundary 5 is as launched. -/
theorem arg11_at5 (c : Dev nD) : W5 m ρ c (Proc.devRef .tc main_arg11) = W0 m ρ c (Proc.devRef .tc main_arg11) :=
  calc W5 m ρ c (Proc.devRef .tc main_arg11)
    _ = W4 m ρ c (Proc.devRef .tc main_arg11) := W5_of_ne m ρ c main_arg11 (by decide)
    _ = W3 m ρ c (Proc.devRef .tc main_arg11) := hostOps2_keep (W3 m ρ c) main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := hostOps0_keep (W0 m ρ c) main_arg11 (by decide)

/-- The argument `main_arg12` at boundary 6 is as launched. -/
theorem arg12_at6 (c : Dev nD) : W6 m ρ c (Proc.devRef .tc main_arg12) = W0 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := hostOps2_keep (W3 m ρ c) main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := hostOps0_keep (W0 m ρ c) main_arg12 (by decide)

/-- The argument `main_arg13` at boundary 6 is as launched. -/
theorem arg13_at6 (c : Dev nD) : W6 m ρ c (Proc.devRef .tc main_arg13) = W0 m ρ c (Proc.devRef .tc main_arg13) :=
  calc W6 m ρ c (Proc.devRef .tc main_arg13)
    _ = W5 m ρ c (Proc.devRef .tc main_arg13) := W6_of_ne m ρ c main_arg13 (by decide)
    _ = W4 m ρ c (Proc.devRef .tc main_arg13) := W5_of_ne m ρ c main_arg13 (by decide)
    _ = W3 m ρ c (Proc.devRef .tc main_arg13) := hostOps2_keep (W3 m ρ c) main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := hostOps0_keep (W0 m ρ c) main_arg13 (by decide)

/-- The argument `main_arg14` at boundary 6 is as launched. -/
theorem arg14_at6 (c : Dev nD) : W6 m ρ c (Proc.devRef .tc main_arg14) = W0 m ρ c (Proc.devRef .tc main_arg14) :=
  calc W6 m ρ c (Proc.devRef .tc main_arg14)
    _ = W5 m ρ c (Proc.devRef .tc main_arg14) := W6_of_ne m ρ c main_arg14 (by decide)
    _ = W4 m ρ c (Proc.devRef .tc main_arg14) := W5_of_ne m ρ c main_arg14 (by decide)
    _ = W3 m ρ c (Proc.devRef .tc main_arg14) := hostOps2_keep (W3 m ρ c) main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := hostOps0_keep (W0 m ρ c) main_arg14 (by decide)

/-- The argument `main_arg15` at boundary 8 is as launched. -/
theorem arg15_at8 (c : Dev nD) : W8 m ρ c (Proc.devRef .tc main_arg15) = W0 m ρ c (Proc.devRef .tc main_arg15) :=
  calc W8 m ρ c (Proc.devRef .tc main_arg15)
    _ = W7 m ρ c (Proc.devRef .tc main_arg15) := W8_of_ne m ρ c main_arg15 (by decide)
    _ = W6 m ρ c (Proc.devRef .tc main_arg15) := hostOps4_keep (W6 m ρ c) main_arg15 (by decide)
    _ = W5 m ρ c (Proc.devRef .tc main_arg15) := W6_of_ne m ρ c main_arg15 (by decide)
    _ = W4 m ρ c (Proc.devRef .tc main_arg15) := W5_of_ne m ρ c main_arg15 (by decide)
    _ = W3 m ρ c (Proc.devRef .tc main_arg15) := hostOps2_keep (W3 m ρ c) main_arg15 (by decide)
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := hostOps0_keep (W0 m ρ c) main_arg15 (by decide)

/-- The argument `main_arg16` at boundary 9 is as launched. -/
theorem arg16_at9 (c : Dev nD) : W9 m ρ c (Proc.devRef .tc main_arg16) = W0 m ρ c (Proc.devRef .tc main_arg16) :=
  calc W9 m ρ c (Proc.devRef .tc main_arg16)
    _ = W8 m ρ c (Proc.devRef .tc main_arg16) := W9_of_ne m ρ c main_arg16 (by decide)
    _ = W7 m ρ c (Proc.devRef .tc main_arg16) := W8_of_ne m ρ c main_arg16 (by decide)
    _ = W6 m ρ c (Proc.devRef .tc main_arg16) := hostOps4_keep (W6 m ρ c) main_arg16 (by decide)
    _ = W5 m ρ c (Proc.devRef .tc main_arg16) := W6_of_ne m ρ c main_arg16 (by decide)
    _ = W4 m ρ c (Proc.devRef .tc main_arg16) := W5_of_ne m ρ c main_arg16 (by decide)
    _ = W3 m ρ c (Proc.devRef .tc main_arg16) := hostOps2_keep (W3 m ρ c) main_arg16 (by decide)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := hostOps0_keep (W0 m ρ c) main_arg16 (by decide)

/-- The argument `main_arg17` at boundary 9 is as launched. -/
theorem arg17_at9 (c : Dev nD) : W9 m ρ c (Proc.devRef .tc main_arg17) = W0 m ρ c (Proc.devRef .tc main_arg17) :=
  calc W9 m ρ c (Proc.devRef .tc main_arg17)
    _ = W8 m ρ c (Proc.devRef .tc main_arg17) := W9_of_ne m ρ c main_arg17 (by decide)
    _ = W7 m ρ c (Proc.devRef .tc main_arg17) := W8_of_ne m ρ c main_arg17 (by decide)
    _ = W6 m ρ c (Proc.devRef .tc main_arg17) := hostOps4_keep (W6 m ρ c) main_arg17 (by decide)
    _ = W5 m ρ c (Proc.devRef .tc main_arg17) := W6_of_ne m ρ c main_arg17 (by decide)
    _ = W4 m ρ c (Proc.devRef .tc main_arg17) := W5_of_ne m ρ c main_arg17 (by decide)
    _ = W3 m ρ c (Proc.devRef .tc main_arg17) := hostOps2_keep (W3 m ρ c) main_arg17 (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := hostOps0_keep (W0 m ρ c) main_arg17 (by decide)

/-- The argument `main_arg18` at boundary 9 is as launched. -/
theorem arg18_at9 (c : Dev nD) : W9 m ρ c (Proc.devRef .tc main_arg18) = W0 m ρ c (Proc.devRef .tc main_arg18) :=
  calc W9 m ρ c (Proc.devRef .tc main_arg18)
    _ = W8 m ρ c (Proc.devRef .tc main_arg18) := W9_of_ne m ρ c main_arg18 (by decide)
    _ = W7 m ρ c (Proc.devRef .tc main_arg18) := W8_of_ne m ρ c main_arg18 (by decide)
    _ = W6 m ρ c (Proc.devRef .tc main_arg18) := hostOps4_keep (W6 m ρ c) main_arg18 (by decide)
    _ = W5 m ρ c (Proc.devRef .tc main_arg18) := W6_of_ne m ρ c main_arg18 (by decide)
    _ = W4 m ρ c (Proc.devRef .tc main_arg18) := W5_of_ne m ρ c main_arg18 (by decide)
    _ = W3 m ρ c (Proc.devRef .tc main_arg18) := hostOps2_keep (W3 m ρ c) main_arg18 (by decide)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := hostOps0_keep (W0 m ρ c) main_arg18 (by decide)

/-- The argument `main_arg2` at boundary 11 is as launched. -/
theorem arg2_at11 (c : Dev nD) : W11 m ρ c (Proc.devRef .tc main_arg2) = W0 m ρ c (Proc.devRef .tc main_arg2) :=
  calc W11 m ρ c (Proc.devRef .tc main_arg2)
    _ = W10 m ρ c (Proc.devRef .tc main_arg2) := W11_of_ne m ρ c main_arg2 (by decide)
    _ = W9 m ρ c (Proc.devRef .tc main_arg2) := hostOps6_keep (W9 m ρ c) main_arg2 (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := hostOps4_keep (W6 m ρ c) main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := hostOps2_keep (W3 m ρ c) main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := hostOps0_keep (W0 m ρ c) main_arg2 (by decide)

/-- The argument `main_arg19` at boundary 11 is as launched. -/
theorem arg19_at11 (c : Dev nD) : W11 m ρ c (Proc.devRef .tc main_arg19) = W0 m ρ c (Proc.devRef .tc main_arg19) :=
  calc W11 m ρ c (Proc.devRef .tc main_arg19)
    _ = W10 m ρ c (Proc.devRef .tc main_arg19) := W11_of_ne m ρ c main_arg19 (by decide)
    _ = W9 m ρ c (Proc.devRef .tc main_arg19) := hostOps6_keep (W9 m ρ c) main_arg19 (by decide)
    _ = W8 m ρ c (Proc.devRef .tc main_arg19) := W9_of_ne m ρ c main_arg19 (by decide)
    _ = W7 m ρ c (Proc.devRef .tc main_arg19) := W8_of_ne m ρ c main_arg19 (by decide)
    _ = W6 m ρ c (Proc.devRef .tc main_arg19) := hostOps4_keep (W6 m ρ c) main_arg19 (by decide)
    _ = W5 m ρ c (Proc.devRef .tc main_arg19) := W6_of_ne m ρ c main_arg19 (by decide)
    _ = W4 m ρ c (Proc.devRef .tc main_arg19) := W5_of_ne m ρ c main_arg19 (by decide)
    _ = W3 m ρ c (Proc.devRef .tc main_arg19) := hostOps2_keep (W3 m ρ c) main_arg19 (by decide)
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := hostOps0_keep (W0 m ρ c) main_arg19 (by decide)

/-- The argument `main_arg20` at boundary 11 is as launched. -/
theorem arg20_at11 (c : Dev nD) : W11 m ρ c (Proc.devRef .tc main_arg20) = W0 m ρ c (Proc.devRef .tc main_arg20) :=
  calc W11 m ρ c (Proc.devRef .tc main_arg20)
    _ = W10 m ρ c (Proc.devRef .tc main_arg20) := W11_of_ne m ρ c main_arg20 (by decide)
    _ = W9 m ρ c (Proc.devRef .tc main_arg20) := hostOps6_keep (W9 m ρ c) main_arg20 (by decide)
    _ = W8 m ρ c (Proc.devRef .tc main_arg20) := W9_of_ne m ρ c main_arg20 (by decide)
    _ = W7 m ρ c (Proc.devRef .tc main_arg20) := W8_of_ne m ρ c main_arg20 (by decide)
    _ = W6 m ρ c (Proc.devRef .tc main_arg20) := hostOps4_keep (W6 m ρ c) main_arg20 (by decide)
    _ = W5 m ρ c (Proc.devRef .tc main_arg20) := W6_of_ne m ρ c main_arg20 (by decide)
    _ = W4 m ρ c (Proc.devRef .tc main_arg20) := W5_of_ne m ρ c main_arg20 (by decide)
    _ = W3 m ρ c (Proc.devRef .tc main_arg20) := hostOps2_keep (W3 m ρ c) main_arg20 (by decide)
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := hostOps0_keep (W0 m ρ c) main_arg20 (by decide)

/-- The argument `main_arg21` at boundary 11 is as launched. -/
theorem arg21_at11 (c : Dev nD) : W11 m ρ c (Proc.devRef .tc main_arg21) = W0 m ρ c (Proc.devRef .tc main_arg21) :=
  calc W11 m ρ c (Proc.devRef .tc main_arg21)
    _ = W10 m ρ c (Proc.devRef .tc main_arg21) := W11_of_ne m ρ c main_arg21 (by decide)
    _ = W9 m ρ c (Proc.devRef .tc main_arg21) := hostOps6_keep (W9 m ρ c) main_arg21 (by decide)
    _ = W8 m ρ c (Proc.devRef .tc main_arg21) := W9_of_ne m ρ c main_arg21 (by decide)
    _ = W7 m ρ c (Proc.devRef .tc main_arg21) := W8_of_ne m ρ c main_arg21 (by decide)
    _ = W6 m ρ c (Proc.devRef .tc main_arg21) := hostOps4_keep (W6 m ρ c) main_arg21 (by decide)
    _ = W5 m ρ c (Proc.devRef .tc main_arg21) := W6_of_ne m ρ c main_arg21 (by decide)
    _ = W4 m ρ c (Proc.devRef .tc main_arg21) := W5_of_ne m ρ c main_arg21 (by decide)
    _ = W3 m ρ c (Proc.devRef .tc main_arg21) := hostOps2_keep (W3 m ρ c) main_arg21 (by decide)
    _ = W2 m ρ c (Proc.devRef .tc main_arg21) := W3_of_ne m ρ c main_arg21 (by decide)
    _ = W1 m ρ c (Proc.devRef .tc main_arg21) := W2_of_ne m ρ c main_arg21 (by decide)
    _ = W0 m ρ c (Proc.devRef .tc main_arg21) := hostOps0_keep (W0 m ρ c) main_arg21 (by decide)

/-- The argument `main_arg22` at boundary 11 is as launched. -/
theorem arg22_at11 (c : Dev nD) : W11 m ρ c (Proc.devRef .tc main_arg22) = W0 m ρ c (Proc.devRef .tc main_arg22) :=
  calc W11 m ρ c (Proc.devRef .tc main_arg22)
    _ = W10 m ρ c (Proc.devRef .tc main_arg22) := W11_of_ne m ρ c main_arg22 (by decide)
    _ = W9 m ρ c (Proc.devRef .tc main_arg22) := hostOps6_keep (W9 m ρ c) main_arg22 (by decide)
    _ = W8 m ρ c (Proc.devRef .tc main_arg22) := W9_of_ne m ρ c main_arg22 (by decide)
    _ = W7 m ρ c (Proc.devRef .tc main_arg22) := W8_of_ne m ρ c main_arg22 (by decide)
    _ = W6 m ρ c (Proc.devRef .tc main_arg22) := hostOps4_keep (W6 m ρ c) main_arg22 (by decide)
    _ = W5 m ρ c (Proc.devRef .tc main_arg22) := W6_of_ne m ρ c main_arg22 (by decide)
    _ = W4 m ρ c (Proc.devRef .tc main_arg22) := W5_of_ne m ρ c main_arg22 (by decide)
    _ = W3 m ρ c (Proc.devRef .tc main_arg22) := hostOps2_keep (W3 m ρ c) main_arg22 (by decide)
    _ = W2 m ρ c (Proc.devRef .tc main_arg22) := W3_of_ne m ρ c main_arg22 (by decide)
    _ = W1 m ρ c (Proc.devRef .tc main_arg22) := W2_of_ne m ρ c main_arg22 (by decide)
    _ = W0 m ρ c (Proc.devRef .tc main_arg22) := hostOps0_keep (W0 m ρ c) main_arg22 (by decide)

/-- The argument `main_arg23` at boundary 11 is as launched. -/
theorem arg23_at11 (c : Dev nD) : W11 m ρ c (Proc.devRef .tc main_arg23) = W0 m ρ c (Proc.devRef .tc main_arg23) :=
  calc W11 m ρ c (Proc.devRef .tc main_arg23)
    _ = W10 m ρ c (Proc.devRef .tc main_arg23) := W11_of_ne m ρ c main_arg23 (by decide)
    _ = W9 m ρ c (Proc.devRef .tc main_arg23) := hostOps6_keep (W9 m ρ c) main_arg23 (by decide)
    _ = W8 m ρ c (Proc.devRef .tc main_arg23) := W9_of_ne m ρ c main_arg23 (by decide)
    _ = W7 m ρ c (Proc.devRef .tc main_arg23) := W8_of_ne m ρ c main_arg23 (by decide)
    _ = W6 m ρ c (Proc.devRef .tc main_arg23) := hostOps4_keep (W6 m ρ c) main_arg23 (by decide)
    _ = W5 m ρ c (Proc.devRef .tc main_arg23) := W6_of_ne m ρ c main_arg23 (by decide)
    _ = W4 m ρ c (Proc.devRef .tc main_arg23) := W5_of_ne m ρ c main_arg23 (by decide)
    _ = W3 m ρ c (Proc.devRef .tc main_arg23) := hostOps2_keep (W3 m ρ c) main_arg23 (by decide)
    _ = W2 m ρ c (Proc.devRef .tc main_arg23) := W3_of_ne m ρ c main_arg23 (by decide)
    _ = W1 m ρ c (Proc.devRef .tc main_arg23) := W2_of_ne m ρ c main_arg23 (by decide)
    _ = W0 m ρ c (Proc.devRef .tc main_arg23) := hostOps0_keep (W0 m ρ c) main_arg23 (by decide)

/-- The argument `main_arg24` at boundary 11 is as launched. -/
theorem arg24_at11 (c : Dev nD) : W11 m ρ c (Proc.devRef .tc main_arg24) = W0 m ρ c (Proc.devRef .tc main_arg24) :=
  calc W11 m ρ c (Proc.devRef .tc main_arg24)
    _ = W10 m ρ c (Proc.devRef .tc main_arg24) := W11_of_ne m ρ c main_arg24 (by decide)
    _ = W9 m ρ c (Proc.devRef .tc main_arg24) := hostOps6_keep (W9 m ρ c) main_arg24 (by decide)
    _ = W8 m ρ c (Proc.devRef .tc main_arg24) := W9_of_ne m ρ c main_arg24 (by decide)
    _ = W7 m ρ c (Proc.devRef .tc main_arg24) := W8_of_ne m ρ c main_arg24 (by decide)
    _ = W6 m ρ c (Proc.devRef .tc main_arg24) := hostOps4_keep (W6 m ρ c) main_arg24 (by decide)
    _ = W5 m ρ c (Proc.devRef .tc main_arg24) := W6_of_ne m ρ c main_arg24 (by decide)
    _ = W4 m ρ c (Proc.devRef .tc main_arg24) := W5_of_ne m ρ c main_arg24 (by decide)
    _ = W3 m ρ c (Proc.devRef .tc main_arg24) := hostOps2_keep (W3 m ρ c) main_arg24 (by decide)
    _ = W2 m ρ c (Proc.devRef .tc main_arg24) := W3_of_ne m ρ c main_arg24 (by decide)
    _ = W1 m ρ c (Proc.devRef .tc main_arg24) := W2_of_ne m ρ c main_arg24 (by decide)
    _ = W0 m ρ c (Proc.devRef .tc main_arg24) := hostOps0_keep (W0 m ρ c) main_arg24 (by decide)

/-- The argument `main_arg25` at boundary 11 is as launched. -/
theorem arg25_at11 (c : Dev nD) : W11 m ρ c (Proc.devRef .tc main_arg25) = W0 m ρ c (Proc.devRef .tc main_arg25) :=
  calc W11 m ρ c (Proc.devRef .tc main_arg25)
    _ = W10 m ρ c (Proc.devRef .tc main_arg25) := W11_of_ne m ρ c main_arg25 (by decide)
    _ = W9 m ρ c (Proc.devRef .tc main_arg25) := hostOps6_keep (W9 m ρ c) main_arg25 (by decide)
    _ = W8 m ρ c (Proc.devRef .tc main_arg25) := W9_of_ne m ρ c main_arg25 (by decide)
    _ = W7 m ρ c (Proc.devRef .tc main_arg25) := W8_of_ne m ρ c main_arg25 (by decide)
    _ = W6 m ρ c (Proc.devRef .tc main_arg25) := hostOps4_keep (W6 m ρ c) main_arg25 (by decide)
    _ = W5 m ρ c (Proc.devRef .tc main_arg25) := W6_of_ne m ρ c main_arg25 (by decide)
    _ = W4 m ρ c (Proc.devRef .tc main_arg25) := W5_of_ne m ρ c main_arg25 (by decide)
    _ = W3 m ρ c (Proc.devRef .tc main_arg25) := hostOps2_keep (W3 m ρ c) main_arg25 (by decide)
    _ = W2 m ρ c (Proc.devRef .tc main_arg25) := W3_of_ne m ρ c main_arg25 (by decide)
    _ = W1 m ρ c (Proc.devRef .tc main_arg25) := W2_of_ne m ρ c main_arg25 (by decide)
    _ = W0 m ρ c (Proc.devRef .tc main_arg25) := hostOps0_keep (W0 m ρ c) main_arg25 (by decide)

/-- The argument `main_arg26` at boundary 11 is as launched. -/
theorem arg26_at11 (c : Dev nD) : W11 m ρ c (Proc.devRef .tc main_arg26) = W0 m ρ c (Proc.devRef .tc main_arg26) :=
  calc W11 m ρ c (Proc.devRef .tc main_arg26)
    _ = W10 m ρ c (Proc.devRef .tc main_arg26) := W11_of_ne m ρ c main_arg26 (by decide)
    _ = W9 m ρ c (Proc.devRef .tc main_arg26) := hostOps6_keep (W9 m ρ c) main_arg26 (by decide)
    _ = W8 m ρ c (Proc.devRef .tc main_arg26) := W9_of_ne m ρ c main_arg26 (by decide)
    _ = W7 m ρ c (Proc.devRef .tc main_arg26) := W8_of_ne m ρ c main_arg26 (by decide)
    _ = W6 m ρ c (Proc.devRef .tc main_arg26) := hostOps4_keep (W6 m ρ c) main_arg26 (by decide)
    _ = W5 m ρ c (Proc.devRef .tc main_arg26) := W6_of_ne m ρ c main_arg26 (by decide)
    _ = W4 m ρ c (Proc.devRef .tc main_arg26) := W5_of_ne m ρ c main_arg26 (by decide)
    _ = W3 m ρ c (Proc.devRef .tc main_arg26) := hostOps2_keep (W3 m ρ c) main_arg26 (by decide)
    _ = W2 m ρ c (Proc.devRef .tc main_arg26) := W3_of_ne m ρ c main_arg26 (by decide)
    _ = W1 m ρ c (Proc.devRef .tc main_arg26) := W2_of_ne m ρ c main_arg26 (by decide)
    _ = W0 m ρ c (Proc.devRef .tc main_arg26) := hostOps0_keep (W0 m ρ c) main_arg26 (by decide)

/-! ## The edge lists and weights, read at each layer -/

/-- `main_v5`, written by the first stretch, at boundary 3. -/
theorem v5_at3 (c : Dev nD) : W3 m ρ c (Proc.devRef .tc main_v5) = W1 m ρ c (Proc.devRef .tc main_v5) :=
  calc W3 m ρ c (Proc.devRef .tc main_v5)
    _ = W2 m ρ c (Proc.devRef .tc main_v5) := W3_of_ne m ρ c main_v5 (by decide)
    _ = W1 m ρ c (Proc.devRef .tc main_v5) := W2_of_ne m ρ c main_v5 (by decide)

/-- `main_v5`, written by the first stretch, at boundary 6. -/
theorem v5_at6 (c : Dev nD) : W6 m ρ c (Proc.devRef .tc main_v5) = W1 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := W5_of_ne m ρ c main_v5 (by decide)
    _ = W3 m ρ c (Proc.devRef .tc main_v5) := hostOps2_keep (W3 m ρ c) main_v5 (by decide)
    _ = W2 m ρ c (Proc.devRef .tc main_v5) := W3_of_ne m ρ c main_v5 (by decide)
    _ = W1 m ρ c (Proc.devRef .tc main_v5) := W2_of_ne m ρ c main_v5 (by decide)

/-- `main_v5`, written by the first stretch, at boundary 9. -/
theorem v5_at9 (c : Dev nD) : W9 m ρ c (Proc.devRef .tc main_v5) = W1 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := hostOps4_keep (W6 m ρ c) main_v5 (by decide)
    _ = W5 m ρ c (Proc.devRef .tc main_v5) := W6_of_ne m ρ c main_v5 (by decide)
    _ = W4 m ρ c (Proc.devRef .tc main_v5) := W5_of_ne m ρ c main_v5 (by decide)
    _ = W3 m ρ c (Proc.devRef .tc main_v5) := hostOps2_keep (W3 m ρ c) main_v5 (by decide)
    _ = W2 m ρ c (Proc.devRef .tc main_v5) := W3_of_ne m ρ c main_v5 (by decide)
    _ = W1 m ρ c (Proc.devRef .tc main_v5) := W2_of_ne m ρ c main_v5 (by decide)

/-- `main_v6`, written by the first stretch, at boundary 3. -/
theorem v6_at3 (c : Dev nD) : W3 m ρ c (Proc.devRef .tc main_v6) = W1 m ρ c (Proc.devRef .tc main_v6) :=
  calc W3 m ρ c (Proc.devRef .tc main_v6)
    _ = W2 m ρ c (Proc.devRef .tc main_v6) := W3_of_ne m ρ c main_v6 (by decide)
    _ = W1 m ρ c (Proc.devRef .tc main_v6) := W2_of_ne m ρ c main_v6 (by decide)

/-- `main_v6`, written by the first stretch, at boundary 6. -/
theorem v6_at6 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := W5_of_ne m ρ c main_v6 (by decide)
    _ = W3 m ρ c (Proc.devRef .tc main_v6) := hostOps2_keep (W3 m ρ c) main_v6 (by decide)
    _ = W2 m ρ c (Proc.devRef .tc main_v6) := W3_of_ne m ρ c main_v6 (by decide)
    _ = W1 m ρ c (Proc.devRef .tc main_v6) := W2_of_ne m ρ c main_v6 (by decide)

/-- `main_v6`, written by the first stretch, at boundary 9. -/
theorem v6_at9 (c : Dev nD) : W9 m ρ c (Proc.devRef .tc main_v6) = W1 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := hostOps4_keep (W6 m ρ c) main_v6 (by decide)
    _ = W5 m ρ c (Proc.devRef .tc main_v6) := W6_of_ne m ρ c main_v6 (by decide)
    _ = W4 m ρ c (Proc.devRef .tc main_v6) := W5_of_ne m ρ c main_v6 (by decide)
    _ = W3 m ρ c (Proc.devRef .tc main_v6) := hostOps2_keep (W3 m ρ c) main_v6 (by decide)
    _ = W2 m ρ c (Proc.devRef .tc main_v6) := W3_of_ne m ρ c main_v6 (by decide)
    _ = W1 m ρ c (Proc.devRef .tc main_v6) := W2_of_ne m ρ c main_v6 (by decide)

/-- `main_v28`, written by the first stretch, at boundary 3. -/
theorem v28_at3 (c : Dev nD) : W3 m ρ c (Proc.devRef .tc main_v28) = W1 m ρ c (Proc.devRef .tc main_v28) :=
  calc W3 m ρ c (Proc.devRef .tc main_v28)
    _ = W2 m ρ c (Proc.devRef .tc main_v28) := W3_of_ne m ρ c main_v28 (by decide)
    _ = W1 m ρ c (Proc.devRef .tc main_v28) := W2_of_ne m ρ c main_v28 (by decide)

/-- `main_v28`, written by the first stretch, at boundary 6. -/
theorem v28_at6 (c : Dev nD) : W6 m ρ c (Proc.devRef .tc main_v28) = W1 m ρ c (Proc.devRef .tc main_v28) :=
  calc W6 m ρ c (Proc.devRef .tc main_v28)
    _ = W5 m ρ c (Proc.devRef .tc main_v28) := W6_of_ne m ρ c main_v28 (by decide)
    _ = W4 m ρ c (Proc.devRef .tc main_v28) := W5_of_ne m ρ c main_v28 (by decide)
    _ = W3 m ρ c (Proc.devRef .tc main_v28) := hostOps2_keep (W3 m ρ c) main_v28 (by decide)
    _ = W2 m ρ c (Proc.devRef .tc main_v28) := W3_of_ne m ρ c main_v28 (by decide)
    _ = W1 m ρ c (Proc.devRef .tc main_v28) := W2_of_ne m ρ c main_v28 (by decide)

/-- `main_v28`, written by the first stretch, at boundary 9. -/
theorem v28_at9 (c : Dev nD) : W9 m ρ c (Proc.devRef .tc main_v28) = W1 m ρ c (Proc.devRef .tc main_v28) :=
  calc W9 m ρ c (Proc.devRef .tc main_v28)
    _ = W8 m ρ c (Proc.devRef .tc main_v28) := W9_of_ne m ρ c main_v28 (by decide)
    _ = W7 m ρ c (Proc.devRef .tc main_v28) := W8_of_ne m ρ c main_v28 (by decide)
    _ = W6 m ρ c (Proc.devRef .tc main_v28) := hostOps4_keep (W6 m ρ c) main_v28 (by decide)
    _ = W5 m ρ c (Proc.devRef .tc main_v28) := W6_of_ne m ρ c main_v28 (by decide)
    _ = W4 m ρ c (Proc.devRef .tc main_v28) := W5_of_ne m ρ c main_v28 (by decide)
    _ = W3 m ρ c (Proc.devRef .tc main_v28) := hostOps2_keep (W3 m ρ c) main_v28 (by decide)
    _ = W2 m ρ c (Proc.devRef .tc main_v28) := W3_of_ne m ρ c main_v28 (by decide)
    _ = W1 m ρ c (Proc.devRef .tc main_v28) := W2_of_ne m ρ c main_v28 (by decide)

/-! ## A layer's output read again as the residual two segments later -/

/-- The first layer's output at the second layer's normalisation. -/
theorem v50_at7 (c : Dev nD) : W7 m ρ c (Proc.devRef .tc main_v50) = W5 m ρ c (Proc.devRef .tc main_v50) :=
  calc W7 m ρ c (Proc.devRef .tc main_v50)
    _ = W6 m ρ c (Proc.devRef .tc main_v50) := hostOps4_keep (W6 m ρ c) main_v50 (by decide)
    _ = W5 m ρ c (Proc.devRef .tc main_v50) := (W6_arr m ρ c 0).trans (((dat3 (V5 m ρ) c).arrAt_in 0 rfl _).trans (A_eq3 (V5 m ρ) c 0))

/-- The second layer's output at the third layer's normalisation. -/
theorem v68_at10 (c : Dev nD) : W10 m ρ c (Proc.devRef .tc main_v68) = W8 m ρ c (Proc.devRef .tc main_v68) :=
  calc W10 m ρ c (Proc.devRef .tc main_v68)
    _ = W9 m ρ c (Proc.devRef .tc main_v68) := hostOps6_keep (W9 m ρ c) main_v68 (by decide)
    _ = W8 m ρ c (Proc.devRef .tc main_v68) := (W9_arr m ρ c 0).trans (((dat5 (V8 m ρ) c).arrAt_in 0 rfl _).trans (A_eq5 (V8 m ρ) c 0))

end Cert.KernelIdeal.Keep

end
-- ==== Proof.Stages.lean ====
/-
  The stages of the network, each as one function of whole arrays, spelt with the host's operations (at any
  float values; the proofs read them at the ideal ones).

  A node feature matrix `h` of 20000 rows goes through: a linear map (`lin128`, `lin256`: a matrix product); a row of
  biases added to every row (`biasRow`); a normalisation of every row to mean 0 and variance 1 (with the stabiliser
  1e-5 under the inverse square root), scaled and shifted column by column and clipped below at 0 (`normRelu`); and a
  weighted sum over the edges of the graph with self-loops (`aggCore`): edge `j` carries row `s j` of the features,
  scaled by `we j`, into row `d j`. The edge lists `s`, `d` are the two rows of the edge table followed by every
  node's self-loop (`srcOf`, `dstOf`, `sfull`, `dfull`), and the weight of an edge is the product of the inverse
  square roots of its endpoints' degrees, a degree counted at least 1 (`weOf`). `tailOf` is everything after the
  three graph layers: the attention score of every node, its softmax over all nodes, the weighted pooling of the
  nodes into 64 graphs, the small two-layer network on the pooled rows and the final normalisation of every row to
  unit length.
-/
import proofs.«105231_j1443109011557_1_alg».proof.ReferenceIdeal
import proofs.«105231_j1443109011557_1_alg».proof.Proof.Gen.ReferenceIdeal

noncomputable section

namespace Cert.Stages

open Idealize.ShloMosaic Idealize.ShloMosaic.TcCoe Cert.ReferenceIdeal Cert.ReferenceIdeal.Facts₀ Cert.ReferenceIdeal.Facts

variable {F : FTy → Type} [FloatOps F]

/-- The sources of the listed edges: row 0 of the edge table. -/
noncomputable def srcOf (e : (Cert.ReferenceIdeal.main_arg1).ty.Contents (Elt F)) : (Cert.ReferenceIdeal.main_v1).ty.Contents (Elt F) :=
  have t_v0 : (Cert.ReferenceIdeal.main_v0).ty.Contents (Elt F) := (((extractStridedSlice S1x320000 ![0, 0] · slices_S2x320000_S1x320000_0_0) : (⟨S2x320000, .i32⟩ : BufTy).Contents (Elt F) → (⟨S1x320000, .i32⟩ : BufTy).Contents (Elt F))) e
  have t_v1 : (Cert.ReferenceIdeal.main_v1).ty.Contents (Elt F) := shapeCast (Cert.ReferenceIdeal.main_v1).ty.shape t_v0 shapeCasts_S1x320000_S320000
  t_v1

/-- The destinations of the listed edges: row 1 of the edge table. -/
noncomputable def dstOf (e : (Cert.ReferenceIdeal.main_arg1).ty.Contents (Elt F)) : (Cert.ReferenceIdeal.main_v3).ty.Contents (Elt F) :=
  have t_v2 : (Cert.ReferenceIdeal.main_v2).ty.Contents (Elt F) := (((extractStridedSlice S1x320000 ![1, 0] · slices_S2x320000_S1x320000_1_0) : (⟨S2x320000, .i32⟩ : BufTy).Contents (Elt F) → (⟨S1x320000, .i32⟩ : BufTy).Contents (Elt F))) e
  have t_v3 : (Cert.ReferenceIdeal.main_v3).ty.Contents (Elt F) := shapeCast (Cert.ReferenceIdeal.main_v3).ty.shape t_v2 shapeCasts_S1x320000_S320000
  t_v3

/-- The encoder's linear map: features times weights, contracting the 128 input features. -/
noncomputable def lin128 (x : (Cert.ReferenceIdeal.main_arg0).ty.Contents (Elt F)) (w : (Cert.ReferenceIdeal.main_arg3).ty.Contents (Elt F)) : (Cert.ReferenceIdeal.main_v4).ty.Contents (Elt F) :=
  have t_v4 : (Cert.ReferenceIdeal.main_v4).ty.Contents (Elt F) := (((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F))) x w
  t_v4

/-- A row of biases added to every row. -/
noncomputable def biasRow (a : (Cert.ReferenceIdeal.main_v4).ty.Contents (Elt F)) (b : (Cert.ReferenceIdeal.main_arg4).ty.Contents (Elt F)) : (Cert.ReferenceIdeal.main_v7).ty.Contents (Elt F) :=
  have t_v5 : (Cert.ReferenceIdeal.main_v5).ty.Contents (Elt F) := ((broadcastInDim S1x256 ![1] bcast_S256_S1x256_1 : (⟨S256, .f32⟩ : BufTy).Contents (Elt F) → (⟨S1x256, .f32⟩ : BufTy).Contents (Elt F))) b
  have t_v6 : (Cert.ReferenceIdeal.main_v6).ty.Contents (Elt F) := ((broadcastInDim S20000x256 ![0, 1] bcast_S1x256_S20000x256_0_1 : (⟨S1x256, .f32⟩ : BufTy).Contents (Elt F) → (⟨S20000x256, .f32⟩ : BufTy).Contents (Elt F))) t_v5
  have t_v7 : (Cert.ReferenceIdeal.main_v7).ty.Contents (Elt F) := ((addf : (⟨S20000x256, .f32⟩ : BufTy).Contents (Elt F) → (⟨S20000x256, .f32⟩ : BufTy).Contents (Elt F) → (⟨S20000x256, .f32⟩ : BufTy).Contents (Elt F))) a t_v6
  t_v7

/-- Every row normalised to mean 0 and variance 1, scaled by `g` and shifted by `be` column by column, clipped below at 0. -/
noncomputable def normRelu (y : (Cert.ReferenceIdeal.main_v7).ty.Contents (Elt F)) (g : (Cert.ReferenceIdeal.main_arg5).ty.Contents (Elt F)) (be : (Cert.ReferenceIdeal.main_arg6).ty.Contents (Elt F)) : (Cert.ReferenceIdeal.main_v32).ty.Contents (Elt F) :=
  have t_cst : (Cert.ReferenceIdeal.main_cst).ty.Contents (Elt F) := (constant S_ .f32 0x00000000#32)
  have t_v8 : (Cert.ReferenceIdeal.main_v8).ty.Contents (Elt F) := (((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F))) y t_cst
  have t_v9 : (Cert.ReferenceIdeal.main_v9).ty.Contents (Elt F) := ((broadcastInDim S20000x1 ![0] bcast_S20000_S20000x1_0 : (⟨S20000, .f32⟩ : BufTy).Contents (Elt F) → (⟨S20000x1, .f32⟩ : BufTy).Contents (Elt F))) t_v8
  have t_cst_0 : (Cert.ReferenceIdeal.main_cst_0).ty.Contents (Elt F) := (constant S_ .f32 0x43800000#32)
  have t_v10 : (Cert.ReferenceIdeal.main_v10).ty.Contents (Elt F) := ((broadcastInDim S20000x1 ![] bcast_S_S20000x1 : (⟨S_, .f32⟩ : BufTy).Contents (Elt F) → (⟨S20000x1, .f32⟩ : BufTy).Contents (Elt F))) t_cst_0
  have t_v11 : (Cert.ReferenceIdeal.main_v11).ty.Contents (Elt F) := ((Host.divf : (⟨S20000x1, .f32⟩ : BufTy).Contents (Elt F) → (⟨S20000x1, .f32⟩ : BufTy).Contents (Elt F) → (⟨S20000x1, .f32⟩ : BufTy).Contents (Elt F))) t_v9 t_v10
  have t_v12 : (Cert.ReferenceIdeal.main_v12).ty.Contents (Elt F) := ((broadcastInDim S20000x256 ![0, 1] bcast_S20000x1_S20000x256_0_1 : (⟨S20000x1, .f32⟩ : BufTy).Contents (Elt F) → (⟨S20000x256, .f32⟩ : BufTy).Contents (Elt F))) t_v11
  have t_v13 : (Cert.ReferenceIdeal.main_v13).ty.Contents (Elt F) := ((subf : (⟨S20000x256, .f32⟩ : BufTy).Contents (Elt F) → (⟨S20000x256, .f32⟩ : BufTy).Contents (Elt F) → (⟨S20000x256, .f32⟩ : BufTy).Contents (Elt F))) y t_v12
  have t_v14 : (Cert.ReferenceIdeal.main_v14).ty.Contents (Elt F) := ((mulf : (⟨S20000x256, .f32⟩ : BufTy).Contents (Elt F) → (⟨S20000x256, .f32⟩ : BufTy).Contents (Elt F) → (⟨S20000x256, .f32⟩ : BufTy).Contents (Elt F))) t_v13 t_v13
  have t_cst_1 : (Cert.ReferenceIdeal.main_cst_1).ty.Contents (Elt F) := (constant S_ .f32 0x00000000#32)
  have t_v15 : (Cert.ReferenceIdeal.main_v15).ty.Contents (Elt F) := (((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F))) t_v14 t_cst_1
  have t_v16 : (Cert.ReferenceIdeal.main_v16).ty.Contents (Elt F) := ((broadcastInDim S20000x1 ![0] bcast_S20000_S20000x1_0 : (⟨S20000, .f32⟩ : BufTy).Contents (Elt F) → (⟨S20000x1, .f32⟩ : BufTy).Contents (Elt F))) t_v15
  have t_cst_2 : (Cert.ReferenceIdeal.main_cst_2).ty.Contents (Elt F) := (constant S_ .f32 0x43800000#32)
  have t_v17 : (Cert.ReferenceIdeal.main_v17).ty.Contents (Elt F) := ((broadcastInDim S20000x1 ![] bcast_S_S20000x1 : (⟨S_, .f32⟩ : BufTy).Contents (Elt F) → (⟨S20000x1, .f32⟩ : BufTy).Contents (Elt F))) t_cst_2
  have t_v18 : (Cert.ReferenceIdeal.main_v18).ty.Contents (Elt F) := ((Host.divf : (⟨S20000x1, .f32⟩ : BufTy).Contents (Elt F) → (⟨S20000x1, .f32⟩ : BufTy).Contents (Elt F) → (⟨S20000x1, .f32⟩ : BufTy).Contents (Elt F))) t_v16 t_v17
  have t_v19 : (Cert.ReferenceIdeal.main_v19).ty.Contents (Elt F) := ((broadcastInDim S20000x256 ![0, 1] bcast_S20000x1_S20000x256_0_1 : (⟨S20000x1, .f32⟩ : BufTy).Contents (Elt F) → (⟨S20000x256, .f32⟩ : BufTy).Contents (Elt F))) t_v11
  have t_v20 : (Cert.ReferenceIdeal.main_v20).ty.Contents (Elt F) := ((subf : (⟨S20000x256, .f32⟩ : BufTy).Contents (Elt F) → (⟨S20000x256, .f32⟩ : BufTy).Contents (Elt F) → (⟨S20000x256, .f32⟩ : BufTy).Contents (Elt F))) y t_v19
  have t_cst_3 : (Cert.ReferenceIdeal.main_cst_3).ty.Contents (Elt F) := (constant S_ .f32 0x3727C5AC#32)
  have t_v21 : (Cert.ReferenceIdeal.main_v21).ty.Contents (Elt F) := ((broadcastInDim S20000x1 ![] bcast_S_S20000x1 : (⟨S_, .f32⟩ : BufTy).Contents (Elt F) → (⟨S20000x1, .f32⟩ : BufTy).Contents (Elt F))) t_cst_3
  have t_v22 : (Cert.ReferenceIdeal.main_v22).ty.Contents (Elt F) := ((addf : (⟨S20000x1, .f32⟩ : BufTy).Contents (Elt F) → (⟨S20000x1, .f32⟩ : BufTy).Contents (Elt F) → (⟨S20000x1, .f32⟩ : BufTy).Contents (Elt F))) t_v18 t_v21
  have t_v23 : (Cert.ReferenceIdeal.main_v23).ty.Contents (Elt F) := ((Host.rsqrt : (⟨S20000x1, .f32⟩ : BufTy).Contents (Elt F) → (⟨S20000x1, .f32⟩ : BufTy).Contents (Elt F))) t_v22
  have t_v24 : (Cert.ReferenceIdeal.main_v24).ty.Contents (Elt F) := ((broadcastInDim S20000x256 ![0, 1] bcast_S20000x1_S20000x256_0_1 : (⟨S20000x1, .f32⟩ : BufTy).Contents (Elt F) → (⟨S20000x256, .f32⟩ : BufTy).Contents (Elt F))) t_v23
  have t_v25 : (Cert.ReferenceIdeal.main_v25).ty.Contents (Elt F) := ((mulf : (⟨S20000x256, .f32⟩ : BufTy).Contents (Elt F) → (⟨S20000x256, .f32⟩ : BufTy).Contents (Elt F) → (⟨S20000x256, .f32⟩ : BufTy).Contents (Elt F))) t_v20 t_v24
  have t_v26 : (Cert.ReferenceIdeal.main_v26).ty.Contents (Elt F) := ((broadcastInDim S1x256 ![1] bcast_S256_S1x256_1 : (⟨S256, .f32⟩ : BufTy).Contents (Elt F) → (⟨S1x256, .f32⟩ : BufTy).Contents (Elt F))) g
  have t_v27 : (Cert.ReferenceIdeal.main_v27).ty.Contents (Elt F) := ((broadcastInDim S20000x256 ![0, 1] bcast_S1x256_S20000x256_0_1 : (⟨S1x256, .f32⟩ : BufTy).Contents (Elt F) → (⟨S20000x256, .f32⟩ : BufTy).Contents (Elt F))) t_v26
  have t_v28 : (Cert.ReferenceIdeal.main_v28).ty.Contents (Elt F) := ((mulf : (⟨S20000x256, .f32⟩ : BufTy).Contents (Elt F) → (⟨S20000x256, .f32⟩ : BufTy).Contents (Elt F) → (⟨S20000x256, .f32⟩ : BufTy).Contents (Elt F))) t_v25 t_v27
  have t_v29 : (Cert.ReferenceIdeal.main_v29).ty.Contents (Elt F) := ((broadcastInDim S1x256 ![1] bcast_S256_S1x256_1 : (⟨S256, .f32⟩ : BufTy).Contents (Elt F) → (⟨S1x256, .f32⟩ : BufTy).Contents (Elt F))) be
  have t_v30 : (Cert.ReferenceIdeal.main_v30).ty.Contents (Elt F) := ((broadcastInDim S20000x256 ![0, 1] bcast_S1x256_S20000x256_0_1 : (⟨S1x256, .f32⟩ : BufTy).Contents (Elt F) → (⟨S20000x256, .f32⟩ : BufTy).Contents (Elt F))) t_v29
  have t_v31 : (Cert.ReferenceIdeal.main_v31).ty.Contents (Elt F) := ((addf : (⟨S20000x256, .f32⟩ : BufTy).Contents (Elt F) → (⟨S20000x256, .f32⟩ : BufTy).Contents (Elt F) → (⟨S20000x256, .f32⟩ : BufTy).Contents (Elt F))) t_v28 t_v30
  have t_call0_cst : (⟨S_, .f32⟩ : BufTy).Contents (Elt F) := ((constant S_ .f32 0x00000000#32))
  have t_call0_v0 : (⟨S20000x256, .f32⟩ : BufTy).Contents (Elt F) := ((broadcastInDim S20000x256 ![] bcast_S_S20000x256)) t_call0_cst
  have t_v32 : (⟨S20000x256, .f32⟩ : BufTy).Contents (Elt F) := (maximumf) t_v31 t_call0_v0
  t_v32

/-- A layer's linear map: features times weights, contracting the 256 hidden features. -/
noncomputable def lin256 (h : (Cert.ReferenceIdeal.main_v32).ty.Contents (Elt F)) (w : (Cert.ReferenceIdeal.main_arg7).ty.Contents (Elt F)) : (Cert.ReferenceIdeal.main_v33).ty.Contents (Elt F) :=
  have t_v33 : (Cert.ReferenceIdeal.main_v33).ty.Contents (Elt F) := (((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F))) h w
  t_v33

/-- Edge sources, the listed edges followed by every node's self-loop. -/
noncomputable def sfull (src : (Cert.ReferenceIdeal.main_v1).ty.Contents (Elt F)) : (Cert.ReferenceIdeal.main_v35).ty.Contents (Elt F) :=
  have t_v34 : (Cert.ReferenceIdeal.main_v34).ty.Contents (Elt F) := (iotaInDim S20000 32 0)
  have t_v35 : (Cert.ReferenceIdeal.main_v35).ty.Contents (Elt F) := (((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F))) src t_v34
  t_v35

/-- Edge destinations, the listed edges followed by every node's self-loop. -/
noncomputable def dfull (dst : (Cert.ReferenceIdeal.main_v3).ty.Contents (Elt F)) : (Cert.ReferenceIdeal.main_v36).ty.Contents (Elt F) :=
  have t_v34 : (Cert.ReferenceIdeal.main_v34).ty.Contents (Elt F) := (iotaInDim S20000 32 0)
  have t_v36 : (Cert.ReferenceIdeal.main_v36).ty.Contents (Elt F) := (((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F))) dst t_v34
  t_v36

/-- The weight of every edge: the product of the inverse square roots of its endpoints' degrees (a degree counted at least 1). -/
noncomputable def weOf (s : (Cert.ReferenceIdeal.main_v35).ty.Contents (Elt F)) (d : (Cert.ReferenceIdeal.main_v36).ty.Contents (Elt F)) : (Cert.ReferenceIdeal.main_v58).ty.Contents (Elt F) :=
  have t_cst_4 : (Cert.ReferenceIdeal.main_cst_4).ty.Contents (Elt F) := (constant S_ .f32 0x3F800000#32)
  have t_v37 : (Cert.ReferenceIdeal.main_v37).ty.Contents (Elt F) := ((broadcastInDim S340000 ![] bcast_S_S340000 : (⟨S_, .f32⟩ : BufTy).Contents (Elt F) → (⟨S340000, .f32⟩ : BufTy).Contents (Elt F))) t_cst_4
  have t_cst_5 : (Cert.ReferenceIdeal.main_cst_5).ty.Contents (Elt F) := (constant S_ .f32 0x00000000#32)
  have t_v38 : (Cert.ReferenceIdeal.main_v38).ty.Contents (Elt F) := ((broadcastInDim S20000 ![] bcast_S_S20000 : (⟨S_, .f32⟩ : BufTy).Contents (Elt F) → (⟨S20000, .f32⟩ : BufTy).Contents (Elt F))) t_cst_5
  have t_v39 : (Cert.ReferenceIdeal.main_v39).ty.Contents (Elt F) := ((broadcastInDim S340000x1 ![0] bcast_S340000_S340000x1_0 : (⟨S340000, .i32⟩ : BufTy).Contents (Elt F) → (⟨S340000x1, .i32⟩ : BufTy).Contents (Elt F))) d
  have t_v40 : (Cert.ReferenceIdeal.main_v40).ty.Contents (Elt F) := (((fun x i u => Host.scatterAdd scatter_S20000_S340000x1_S340000_n_0_0_1 x i u) : (⟨S20000, .f32⟩ : BufTy).Contents (Elt F) → (⟨S340000x1, .i32⟩ : BufTy).Contents (Elt F) → (⟨S340000, .f32⟩ : BufTy).Contents (Elt F) → (⟨S20000, .f32⟩ : BufTy).Contents (Elt F))) t_v38 t_v39 t_v37
  have t_cst_6 : (Cert.ReferenceIdeal.main_cst_6).ty.Contents (Elt F) := (constant S_ .f32 0x3F800000#32)
  have t_v41 : (Cert.ReferenceIdeal.main_v41).ty.Contents (Elt F) := ((broadcastInDim S20000 ![] bcast_S_S20000 : (⟨S_, .f32⟩ : BufTy).Contents (Elt F) → (⟨S20000, .f32⟩ : BufTy).Contents (Elt F))) t_cst_6
  have t_v42 : (Cert.ReferenceIdeal.main_v42).ty.Contents (Elt F) := ((maximumf : (⟨S20000, .f32⟩ : BufTy).Contents (Elt F) → (⟨S20000, .f32⟩ : BufTy).Contents (Elt F) → (⟨S20000, .f32⟩ : BufTy).Contents (Elt F))) t_v40 t_v41
  have t_v43 : (Cert.ReferenceIdeal.main_v43).ty.Contents (Elt F) := ((Host.rsqrt : (⟨S20000, .f32⟩ : BufTy).Contents (Elt F) → (⟨S20000, .f32⟩ : BufTy).Contents (Elt F))) t_v42
  have t_c : (Cert.ReferenceIdeal.main_c).ty.Contents (Elt F) := (constantI S_ 32 0#32)
  have t_v44 : (Cert.ReferenceIdeal.main_v44).ty.Contents (Elt F) := ((broadcastInDim S340000 ![] bcast_S_S340000 : (⟨S_, .i32⟩ : BufTy).Contents (Elt F) → (⟨S340000, .i32⟩ : BufTy).Contents (Elt F))) t_c
  have t_v45 : (Cert.ReferenceIdeal.main_v45).ty.Contents (Elt F) := ((cmpi .slt : (⟨S340000, .i32⟩ : BufTy).Contents (Elt F) → (⟨S340000, .i32⟩ : BufTy).Contents (Elt F) → (⟨S340000, .i1⟩ : BufTy).Contents (Elt F))) s t_v44
  have t_c_7 : (Cert.ReferenceIdeal.main_c_7).ty.Contents (Elt F) := (constantI S_ 32 20000#32)
  have t_v46 : (Cert.ReferenceIdeal.main_v46).ty.Contents (Elt F) := ((broadcastInDim S340000 ![] bcast_S_S340000 : (⟨S_, .i32⟩ : BufTy).Contents (Elt F) → (⟨S340000, .i32⟩ : BufTy).Contents (Elt F))) t_c_7
  have t_v47 : (Cert.ReferenceIdeal.main_v47).ty.Contents (Elt F) := ((addi : (⟨S340000, .i32⟩ : BufTy).Contents (Elt F) → (⟨S340000, .i32⟩ : BufTy).Contents (Elt F) → (⟨S340000, .i32⟩ : BufTy).Contents (Elt F))) s t_v46
  have t_v48 : (Cert.ReferenceIdeal.main_v48).ty.Contents (Elt F) := ((select : (⟨S340000, .i1⟩ : BufTy).Contents (Elt F) → (⟨S340000, .i32⟩ : BufTy).Contents (Elt F) → (⟨S340000, .i32⟩ : BufTy).Contents (Elt F) → (⟨S340000, .i32⟩ : BufTy).Contents (Elt F))) t_v45 t_v47 s
  have t_v49 : (Cert.ReferenceIdeal.main_v49).ty.Contents (Elt F) := ((broadcastInDim S340000x1 ![0] bcast_S340000_S340000x1_0 : (⟨S340000, .i32⟩ : BufTy).Contents (Elt F) → (⟨S340000x1, .i32⟩ : BufTy).Contents (Elt F))) t_v48
  have t_v50 : (Cert.ReferenceIdeal.main_v50).ty.Contents (Elt F) := (((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F))) t_v43 t_v49
  have t_c_8 : (Cert.ReferenceIdeal.main_c_8).ty.Contents (Elt F) := (constantI S_ 32 0#32)
  have t_v51 : (Cert.ReferenceIdeal.main_v51).ty.Contents (Elt F) := ((broadcastInDim S340000 ![] bcast_S_S340000 : (⟨S_, .i32⟩ : BufTy).Contents (Elt F) → (⟨S340000, .i32⟩ : BufTy).Contents (Elt F))) t_c_8
  have t_v52 : (Cert.ReferenceIdeal.main_v52).ty.Contents (Elt F) := ((cmpi .slt : (⟨S340000, .i32⟩ : BufTy).Contents (Elt F) → (⟨S340000, .i32⟩ : BufTy).Contents (Elt F) → (⟨S340000, .i1⟩ : BufTy).Contents (Elt F))) d t_v51
  have t_c_9 : (Cert.ReferenceIdeal.main_c_9).ty.Contents (Elt F) := (constantI S_ 32 20000#32)
  have t_v53 : (Cert.ReferenceIdeal.main_v53).ty.Contents (Elt F) := ((broadcastInDim S340000 ![] bcast_S_S340000 : (⟨S_, .i32⟩ : BufTy).Contents (Elt F) → (⟨S340000, .i32⟩ : BufTy).Contents (Elt F))) t_c_9
  have t_v54 : (Cert.ReferenceIdeal.main_v54).ty.Contents (Elt F) := ((addi : (⟨S340000, .i32⟩ : BufTy).Contents (Elt F) → (⟨S340000, .i32⟩ : BufTy).Contents (Elt F) → (⟨S340000, .i32⟩ : BufTy).Contents (Elt F))) d t_v53
  have t_v55 : (Cert.ReferenceIdeal.main_v55).ty.Contents (Elt F) := ((select : (⟨S340000, .i1⟩ : BufTy).Contents (Elt F) → (⟨S340000, .i32⟩ : BufTy).Contents (Elt F) → (⟨S340000, .i32⟩ : BufTy).Contents (Elt F) → (⟨S340000, .i32⟩ : BufTy).Contents (Elt F))) t_v52 t_v54 d
  have t_v56 : (Cert.ReferenceIdeal.main_v56).ty.Contents (Elt F) := ((broadcastInDim S340000x1 ![0] bcast_S340000_S340000x1_0 : (⟨S340000, .i32⟩ : BufTy).Contents (Elt F) → (⟨S340000x1, .i32⟩ : BufTy).Contents (Elt F))) t_v55
  have t_v57 : (Cert.ReferenceIdeal.main_v57).ty.Contents (Elt F) := (((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F))) t_v43 t_v56
  have t_v58 : (Cert.ReferenceIdeal.main_v58).ty.Contents (Elt F) := ((mulf : (⟨S340000, .f32⟩ : BufTy).Contents (Elt F) → (⟨S340000, .f32⟩ : BufTy).Contents (Elt F) → (⟨S340000, .f32⟩ : BufTy).Contents (Elt F))) t_v50 t_v57
  t_v58

/-- The weighted sum over edges: row `s j` of `hl`, scaled by `we j`, added into row `d j`. -/
noncomputable def aggCore (hl : (Cert.ReferenceIdeal.main_v33).ty.Contents (Elt F)) (s : (Cert.ReferenceIdeal.main_v35).ty.Contents (Elt F)) (d : (Cert.ReferenceIdeal.main_v36).ty.Contents (Elt F)) (we : (Cert.ReferenceIdeal.main_v58).ty.Contents (Elt F)) : (Cert.ReferenceIdeal.main_v71).ty.Contents (Elt F) :=
  have t_c_10 : (Cert.ReferenceIdeal.main_c_10).ty.Contents (Elt F) := (constantI S_ 32 0#32)
  have t_v59 : (Cert.ReferenceIdeal.main_v59).ty.Contents (Elt F) := ((broadcastInDim S340000 ![] bcast_S_S340000 : (⟨S_, .i32⟩ : BufTy).Contents (Elt F) → (⟨S340000, .i32⟩ : BufTy).Contents (Elt F))) t_c_10
  have t_v60 : (Cert.ReferenceIdeal.main_v60).ty.Contents (Elt F) := ((cmpi .slt : (⟨S340000, .i32⟩ : BufTy).Contents (Elt F) → (⟨S340000, .i32⟩ : BufTy).Contents (Elt F) → (⟨S340000, .i1⟩ : BufTy).Contents (Elt F))) s t_v59
  have t_c_11 : (Cert.ReferenceIdeal.main_c_11).ty.Contents (Elt F) := (constantI S_ 32 20000#32)
  have t_v61 : (Cert.ReferenceIdeal.main_v61).ty.Contents (Elt F) := ((broadcastInDim S340000 ![] bcast_S_S340000 : (⟨S_, .i32⟩ : BufTy).Contents (Elt F) → (⟨S340000, .i32⟩ : BufTy).Contents (Elt F))) t_c_11
  have t_v62 : (Cert.ReferenceIdeal.main_v62).ty.Contents (Elt F) := ((addi : (⟨S340000, .i32⟩ : BufTy).Contents (Elt F) → (⟨S340000, .i32⟩ : BufTy).Contents (Elt F) → (⟨S340000, .i32⟩ : BufTy).Contents (Elt F))) s t_v61
  have t_v63 : (Cert.ReferenceIdeal.main_v63).ty.Contents (Elt F) := ((select : (⟨S340000, .i1⟩ : BufTy).Contents (Elt F) → (⟨S340000, .i32⟩ : BufTy).Contents (Elt F) → (⟨S340000, .i32⟩ : BufTy).Contents (Elt F) → (⟨S340000, .i32⟩ : BufTy).Contents (Elt F))) t_v60 t_v62 s
  have t_v64 : (Cert.ReferenceIdeal.main_v64).ty.Contents (Elt F) := ((broadcastInDim S340000x1 ![0] bcast_S340000_S340000x1_0 : (⟨S340000, .i32⟩ : BufTy).Contents (Elt F) → (⟨S340000x1, .i32⟩ : BufTy).Contents (Elt F))) t_v63
  have t_v65 : (Cert.ReferenceIdeal.main_v65).ty.Contents (Elt F) := (((fun x i => Host.gather gather_S20000x256_S340000x1_S340000x256_1_0_n_n_0_1_1256 x i) : (⟨S20000x256, .f32⟩ : BufTy).Contents (Elt F) → (⟨S340000x1, .i32⟩ : BufTy).Contents (Elt F) → (⟨S340000x256, .f32⟩ : BufTy).Contents (Elt F))) hl t_v64
  have t_v66 : (Cert.ReferenceIdeal.main_v66).ty.Contents (Elt F) := ((broadcastInDim S340000x1 ![0] bcast_S340000_S340000x1_0 : (⟨S340000, .f32⟩ : BufTy).Contents (Elt F) → (⟨S340000x1, .f32⟩ : BufTy).Contents (Elt F))) we
  have t_v67 : (Cert.ReferenceIdeal.main_v67).ty.Contents (Elt F) := ((broadcastInDim S340000x256 ![0, 1] bcast_S340000x1_S340000x256_0_1 : (⟨S340000x1, .f32⟩ : BufTy).Contents (Elt F) → (⟨S340000x256, .f32⟩ : BufTy).Contents (Elt F))) t_v66
  have t_v68 : (Cert.ReferenceIdeal.main_v68).ty.Contents (Elt F) := ((mulf : (⟨S340000x256, .f32⟩ : BufTy).Contents (Elt F) → (⟨S340000x256, .f32⟩ : BufTy).Contents (Elt F) → (⟨S340000x256, .f32⟩ : BufTy).Contents (Elt F))) t_v65 t_v67
  have t_cst_12 : (Cert.ReferenceIdeal.main_cst_12).ty.Contents (Elt F) := (constant S_ .f32 0x00000000#32)
  have t_v69 : (Cert.ReferenceIdeal.main_v69).ty.Contents (Elt F) := ((broadcastInDim S20000x256 ![] bcast_S_S20000x256 : (⟨S_, .f32⟩ : BufTy).Contents (Elt F) → (⟨S20000x256, .f32⟩ : BufTy).Contents (Elt F))) t_cst_12
  have t_v70 : (Cert.ReferenceIdeal.main_v70).ty.Contents (Elt F) := ((broadcastInDim S340000x1 ![0] bcast_S340000_S340000x1_0 : (⟨S340000, .i32⟩ : BufTy).Contents (Elt F) → (⟨S340000x1, .i32⟩ : BufTy).Contents (Elt F))) d
  have t_v71 : (Cert.ReferenceIdeal.main_v71).ty.Contents (Elt F) := (((fun x i u => Host.scatterAdd scatter_S20000x256_S340000x1_S340000x256_1_0_0_1 x i u) : (⟨S20000x256, .f32⟩ : BufTy).Contents (Elt F) → (⟨S340000x1, .i32⟩ : BufTy).Contents (Elt F) → (⟨S340000x256, .f32⟩ : BufTy).Contents (Elt F) → (⟨S20000x256, .f32⟩ : BufTy).Contents (Elt F))) t_v69 t_v70 t_v68
  t_v71

/-- Everything after the three graph layers: attention scores, their softmax over all nodes, the weighted pooling into 64 graphs, the two-layer network on the pooled rows, each row normalised to unit length. -/
noncomputable def tailOf (x3 : (Cert.ReferenceIdeal.main_v235).ty.Contents (Elt F)) (batch : (Cert.ReferenceIdeal.main_arg2).ty.Contents (Elt F)) (aw : (Cert.ReferenceIdeal.main_arg19).ty.Contents (Elt F)) (ab : (Cert.ReferenceIdeal.main_arg20).ty.Contents (Elt F)) (pw1 : (Cert.ReferenceIdeal.main_arg21).ty.Contents (Elt F)) (pb1 : (Cert.ReferenceIdeal.main_arg22).ty.Contents (Elt F)) (pg : (Cert.ReferenceIdeal.main_arg23).ty.Contents (Elt F)) (pbe : (Cert.ReferenceIdeal.main_arg24).ty.Contents (Elt F)) (pw2 : (Cert.ReferenceIdeal.main_arg25).ty.Contents (Elt F)) (pb2 : (Cert.ReferenceIdeal.main_arg26).ty.Contents (Elt F)) : (Cert.ReferenceIdeal.main_v294).ty.Contents (Elt F) :=
  have t_v236 : (Cert.ReferenceIdeal.main_v236).ty.Contents (Elt F) := (((fun l r => Host.dotGeneral dot_S20000x256_S256x1_S20000x1_1_0_0_1_n_n none l r) : (⟨S20000x256, .f32⟩ : BufTy).Contents (Elt F) → (⟨S256x1, .f32⟩ : BufTy).Contents (Elt F) → (⟨S20000x1, .f32⟩ : BufTy).Contents (Elt F))) x3 aw
  have t_v237 : (Cert.ReferenceIdeal.main_v237).ty.Contents (Elt F) := ((broadcastInDim S1x1 ![1] bcast_S1_S1x1_1 : (⟨S1, .f32⟩ : BufTy).Contents (Elt F) → (⟨S1x1, .f32⟩ : BufTy).Contents (Elt F))) ab
  have t_v238 : (Cert.ReferenceIdeal.main_v238).ty.Contents (Elt F) := ((broadcastInDim S20000x1 ![0, 1] bcast_S1x1_S20000x1_0_1 : (⟨S1x1, .f32⟩ : BufTy).Contents (Elt F) → (⟨S20000x1, .f32⟩ : BufTy).Contents (Elt F))) t_v237
  have t_v239 : (Cert.ReferenceIdeal.main_v239).ty.Contents (Elt F) := ((addf : (⟨S20000x1, .f32⟩ : BufTy).Contents (Elt F) → (⟨S20000x1, .f32⟩ : BufTy).Contents (Elt F) → (⟨S20000x1, .f32⟩ : BufTy).Contents (Elt F))) t_v236 t_v238
  have t_v240 : (Cert.ReferenceIdeal.main_v240).ty.Contents (Elt F) := ((Host.tanh : (⟨S20000x1, .f32⟩ : BufTy).Contents (Elt F) → (⟨S20000x1, .f32⟩ : BufTy).Contents (Elt F))) t_v239
  have t_cst_48 : (Cert.ReferenceIdeal.main_cst_48).ty.Contents (Elt F) := (constant S_ .f32 0xFF800000#32)
  have t_v241 : (Cert.ReferenceIdeal.main_v241).ty.Contents (Elt F) := (((fun x v => Host.reduce FloatOps.maximumf x v reducesTo_S20000x1_S1_d0 h_S_) : (⟨S20000x1, .f32⟩ : BufTy).Contents (Elt F) → (⟨S_, .f32⟩ : BufTy).Contents (Elt F) → (⟨S1, .f32⟩ : BufTy).Contents (Elt F))) t_v240 t_cst_48
  have t_cst_49 : (Cert.ReferenceIdeal.main_cst_49).ty.Contents (Elt F) := (constant S_ .f32 0xFF800000#32)
  have t_v242 : (Cert.ReferenceIdeal.main_v242).ty.Contents (Elt F) := ((broadcastInDim S1 ![] bcast_S_S1 : (⟨S_, .f32⟩ : BufTy).Contents (Elt F) → (⟨S1, .f32⟩ : BufTy).Contents (Elt F))) t_cst_49
  have t_v243 : (Cert.ReferenceIdeal.main_v243).ty.Contents (Elt F) := ((maximumf : (⟨S1, .f32⟩ : BufTy).Contents (Elt F) → (⟨S1, .f32⟩ : BufTy).Contents (Elt F) → (⟨S1, .f32⟩ : BufTy).Contents (Elt F))) t_v242 t_v241
  have t_v244 : (Cert.ReferenceIdeal.main_v244).ty.Contents (Elt F) := ((broadcastInDim S1x1 ![1] bcast_S1_S1x1_1 : (⟨S1, .f32⟩ : BufTy).Contents (Elt F) → (⟨S1x1, .f32⟩ : BufTy).Contents (Elt F))) t_v243
  have t_v245 : (Cert.ReferenceIdeal.main_v245).ty.Contents (Elt F) := ((broadcastInDim S20000x1 ![0, 1] bcast_S1x1_S20000x1_0_1 : (⟨S1x1, .f32⟩ : BufTy).Contents (Elt F) → (⟨S20000x1, .f32⟩ : BufTy).Contents (Elt F))) t_v244
  have t_v246 : (Cert.ReferenceIdeal.main_v246).ty.Contents (Elt F) := ((subf : (⟨S20000x1, .f32⟩ : BufTy).Contents (Elt F) → (⟨S20000x1, .f32⟩ : BufTy).Contents (Elt F) → (⟨S20000x1, .f32⟩ : BufTy).Contents (Elt F))) t_v240 t_v245
  have t_v247 : (Cert.ReferenceIdeal.main_v247).ty.Contents (Elt F) := ((Host.exp : (⟨S20000x1, .f32⟩ : BufTy).Contents (Elt F) → (⟨S20000x1, .f32⟩ : BufTy).Contents (Elt F))) t_v246
  have t_cst_50 : (Cert.ReferenceIdeal.main_cst_50).ty.Contents (Elt F) := (constant S_ .f32 0x00000000#32)
  have t_v248 : (Cert.ReferenceIdeal.main_v248).ty.Contents (Elt F) := (((fun x v => Host.reduceAdd x v reducesTo_S20000x1_S1_d0 h_S_) : (⟨S20000x1, .f32⟩ : BufTy).Contents (Elt F) → (⟨S_, .f32⟩ : BufTy).Contents (Elt F) → (⟨S1, .f32⟩ : BufTy).Contents (Elt F))) t_v247 t_cst_50
  have t_v249 : (Cert.ReferenceIdeal.main_v249).ty.Contents (Elt F) := ((broadcastInDim S1x1 ![1] bcast_S1_S1x1_1 : (⟨S1, .f32⟩ : BufTy).Contents (Elt F) → (⟨S1x1, .f32⟩ : BufTy).Contents (Elt F))) t_v248
  have t_v250 : (Cert.ReferenceIdeal.main_v250).ty.Contents (Elt F) := ((broadcastInDim S20000x1 ![0, 1] bcast_S1x1_S20000x1_0_1 : (⟨S1x1, .f32⟩ : BufTy).Contents (Elt F) → (⟨S20000x1, .f32⟩ : BufTy).Contents (Elt F))) t_v249
  have t_v251 : (Cert.ReferenceIdeal.main_v251).ty.Contents (Elt F) := ((Host.divf : (⟨S20000x1, .f32⟩ : BufTy).Contents (Elt F) → (⟨S20000x1, .f32⟩ : BufTy).Contents (Elt F) → (⟨S20000x1, .f32⟩ : BufTy).Contents (Elt F))) t_v247 t_v250
  have t_v252 : (Cert.ReferenceIdeal.main_v252).ty.Contents (Elt F) := ((broadcastInDim S20000x256 ![0, 1] bcast_S20000x1_S20000x256_0_1 : (⟨S20000x1, .f32⟩ : BufTy).Contents (Elt F) → (⟨S20000x256, .f32⟩ : BufTy).Contents (Elt F))) t_v251
  have t_v253 : (Cert.ReferenceIdeal.main_v253).ty.Contents (Elt F) := ((mulf : (⟨S20000x256, .f32⟩ : BufTy).Contents (Elt F) → (⟨S20000x256, .f32⟩ : BufTy).Contents (Elt F) → (⟨S20000x256, .f32⟩ : BufTy).Contents (Elt F))) x3 t_v252
  have t_cst_51 : (Cert.ReferenceIdeal.main_cst_51).ty.Contents (Elt F) := (constant S_ .f32 0x00000000#32)
  have t_v254 : (Cert.ReferenceIdeal.main_v254).ty.Contents (Elt F) := ((broadcastInDim S64x256 ![] bcast_S_S64x256 : (⟨S_, .f32⟩ : BufTy).Contents (Elt F) → (⟨S64x256, .f32⟩ : BufTy).Contents (Elt F))) t_cst_51
  have t_v255 : (Cert.ReferenceIdeal.main_v255).ty.Contents (Elt F) := ((broadcastInDim S20000x1 ![0] bcast_S20000_S20000x1_0 : (⟨S20000, .i32⟩ : BufTy).Contents (Elt F) → (⟨S20000x1, .i32⟩ : BufTy).Contents (Elt F))) batch
  have t_v256 : (Cert.ReferenceIdeal.main_v256).ty.Contents (Elt F) := (((fun x i u => Host.scatterAdd scatter_S64x256_S20000x1_S20000x256_1_0_0_1 x i u) : (⟨S64x256, .f32⟩ : BufTy).Contents (Elt F) → (⟨S20000x1, .i32⟩ : BufTy).Contents (Elt F) → (⟨S20000x256, .f32⟩ : BufTy).Contents (Elt F) → (⟨S64x256, .f32⟩ : BufTy).Contents (Elt F))) t_v254 t_v255 t_v253
  have t_v257 : (Cert.ReferenceIdeal.main_v257).ty.Contents (Elt F) := (((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F))) t_v256 pw1
  have t_v258 : (Cert.ReferenceIdeal.main_v258).ty.Contents (Elt F) := ((broadcastInDim S1x256 ![1] bcast_S256_S1x256_1 : (⟨S256, .f32⟩ : BufTy).Contents (Elt F) → (⟨S1x256, .f32⟩ : BufTy).Contents (Elt F))) pb1
  have t_v259 : (Cert.ReferenceIdeal.main_v259).ty.Contents (Elt F) := ((broadcastInDim S64x256 ![0, 1] bcast_S1x256_S64x256_0_1 : (⟨S1x256, .f32⟩ : BufTy).Contents (Elt F) → (⟨S64x256, .f32⟩ : BufTy).Contents (Elt F))) t_v258
  have t_v260 : (Cert.ReferenceIdeal.main_v260).ty.Contents (Elt F) := ((addf : (⟨S64x256, .f32⟩ : BufTy).Contents (Elt F) → (⟨S64x256, .f32⟩ : BufTy).Contents (Elt F) → (⟨S64x256, .f32⟩ : BufTy).Contents (Elt F))) t_v257 t_v259
  have t_cst_52 : (Cert.ReferenceIdeal.main_cst_52).ty.Contents (Elt F) := (constant S_ .f32 0x00000000#32)
  have t_v261 : (Cert.ReferenceIdeal.main_v261).ty.Contents (Elt F) := (((fun x v => Host.reduceAdd x v reducesTo_S64x256_S64_d1 h_S_) : (⟨S64x256, .f32⟩ : BufTy).Contents (Elt F) → (⟨S_, .f32⟩ : BufTy).Contents (Elt F) → (⟨S64, .f32⟩ : BufTy).Contents (Elt F))) t_v260 t_cst_52
  have t_v262 : (Cert.ReferenceIdeal.main_v262).ty.Contents (Elt F) := ((broadcastInDim S64x1 ![0] bcast_S64_S64x1_0 : (⟨S64, .f32⟩ : BufTy).Contents (Elt F) → (⟨S64x1, .f32⟩ : BufTy).Contents (Elt F))) t_v261
  have t_cst_53 : (Cert.ReferenceIdeal.main_cst_53).ty.Contents (Elt F) := (constant S_ .f32 0x43800000#32)
  have t_v263 : (Cert.ReferenceIdeal.main_v263).ty.Contents (Elt F) := ((broadcastInDim S64x1 ![] bcast_S_S64x1 : (⟨S_, .f32⟩ : BufTy).Contents (Elt F) → (⟨S64x1, .f32⟩ : BufTy).Contents (Elt F))) t_cst_53
  have t_v264 : (Cert.ReferenceIdeal.main_v264).ty.Contents (Elt F) := ((Host.divf : (⟨S64x1, .f32⟩ : BufTy).Contents (Elt F) → (⟨S64x1, .f32⟩ : BufTy).Contents (Elt F) → (⟨S64x1, .f32⟩ : BufTy).Contents (Elt F))) t_v262 t_v263
  have t_v265 : (Cert.ReferenceIdeal.main_v265).ty.Contents (Elt F) := ((broadcastInDim S64x256 ![0, 1] bcast_S64x1_S64x256_0_1 : (⟨S64x1, .f32⟩ : BufTy).Contents (Elt F) → (⟨S64x256, .f32⟩ : BufTy).Contents (Elt F))) t_v264
  have t_v266 : (Cert.ReferenceIdeal.main_v266).ty.Contents (Elt F) := ((subf : (⟨S64x256, .f32⟩ : BufTy).Contents (Elt F) → (⟨S64x256, .f32⟩ : BufTy).Contents (Elt F) → (⟨S64x256, .f32⟩ : BufTy).Contents (Elt F))) t_v260 t_v265
  have t_v267 : (Cert.ReferenceIdeal.main_v267).ty.Contents (Elt F) := ((mulf : (⟨S64x256, .f32⟩ : BufTy).Contents (Elt F) → (⟨S64x256, .f32⟩ : BufTy).Contents (Elt F) → (⟨S64x256, .f32⟩ : BufTy).Contents (Elt F))) t_v266 t_v266
  have t_cst_54 : (Cert.ReferenceIdeal.main_cst_54).ty.Contents (Elt F) := (constant S_ .f32 0x00000000#32)
  have t_v268 : (Cert.ReferenceIdeal.main_v268).ty.Contents (Elt F) := (((fun x v => Host.reduceAdd x v reducesTo_S64x256_S64_d1 h_S_) : (⟨S64x256, .f32⟩ : BufTy).Contents (Elt F) → (⟨S_, .f32⟩ : BufTy).Contents (Elt F) → (⟨S64, .f32⟩ : BufTy).Contents (Elt F))) t_v267 t_cst_54
  have t_v269 : (Cert.ReferenceIdeal.main_v269).ty.Contents (Elt F) := ((broadcastInDim S64x1 ![0] bcast_S64_S64x1_0 : (⟨S64, .f32⟩ : BufTy).Contents (Elt F) → (⟨S64x1, .f32⟩ : BufTy).Contents (Elt F))) t_v268
  have t_cst_55 : (Cert.ReferenceIdeal.main_cst_55).ty.Contents (Elt F) := (constant S_ .f32 0x43800000#32)
  have t_v270 : (Cert.ReferenceIdeal.main_v270).ty.Contents (Elt F) := ((broadcastInDim S64x1 ![] bcast_S_S64x1 : (⟨S_, .f32⟩ : BufTy).Contents (Elt F) → (⟨S64x1, .f32⟩ : BufTy).Contents (Elt F))) t_cst_55
  have t_v271 : (Cert.ReferenceIdeal.main_v271).ty.Contents (Elt F) := ((Host.divf : (⟨S64x1, .f32⟩ : BufTy).Contents (Elt F) → (⟨S64x1, .f32⟩ : BufTy).Contents (Elt F) → (⟨S64x1, .f32⟩ : BufTy).Contents (Elt F))) t_v269 t_v270
  have t_v272 : (Cert.ReferenceIdeal.main_v272).ty.Contents (Elt F) := ((broadcastInDim S64x256 ![0, 1] bcast_S64x1_S64x256_0_1 : (⟨S64x1, .f32⟩ : BufTy).Contents (Elt F) → (⟨S64x256, .f32⟩ : BufTy).Contents (Elt F))) t_v264
  have t_v273 : (Cert.ReferenceIdeal.main_v273).ty.Contents (Elt F) := ((subf : (⟨S64x256, .f32⟩ : BufTy).Contents (Elt F) → (⟨S64x256, .f32⟩ : BufTy).Contents (Elt F) → (⟨S64x256, .f32⟩ : BufTy).Contents (Elt F))) t_v260 t_v272
  have t_cst_56 : (Cert.ReferenceIdeal.main_cst_56).ty.Contents (Elt F) := (constant S_ .f32 0x3727C5AC#32)
  have t_v274 : (Cert.ReferenceIdeal.main_v274).ty.Contents (Elt F) := ((broadcastInDim S64x1 ![] bcast_S_S64x1 : (⟨S_, .f32⟩ : BufTy).Contents (Elt F) → (⟨S64x1, .f32⟩ : BufTy).Contents (Elt F))) t_cst_56
  have t_v275 : (Cert.ReferenceIdeal.main_v275).ty.Contents (Elt F) := ((addf : (⟨S64x1, .f32⟩ : BufTy).Contents (Elt F) → (⟨S64x1, .f32⟩ : BufTy).Contents (Elt F) → (⟨S64x1, .f32⟩ : BufTy).Contents (Elt F))) t_v271 t_v274
  have t_v276 : (Cert.ReferenceIdeal.main_v276).ty.Contents (Elt F) := ((Host.rsqrt : (⟨S64x1, .f32⟩ : BufTy).Contents (Elt F) → (⟨S64x1, .f32⟩ : BufTy).Contents (Elt F))) t_v275
  have t_v277 : (Cert.ReferenceIdeal.main_v277).ty.Contents (Elt F) := ((broadcastInDim S64x256 ![0, 1] bcast_S64x1_S64x256_0_1 : (⟨S64x1, .f32⟩ : BufTy).Contents (Elt F) → (⟨S64x256, .f32⟩ : BufTy).Contents (Elt F))) t_v276
  have t_v278 : (Cert.ReferenceIdeal.main_v278).ty.Contents (Elt F) := ((mulf : (⟨S64x256, .f32⟩ : BufTy).Contents (Elt F) → (⟨S64x256, .f32⟩ : BufTy).Contents (Elt F) → (⟨S64x256, .f32⟩ : BufTy).Contents (Elt F))) t_v273 t_v277
  have t_v279 : (Cert.ReferenceIdeal.main_v279).ty.Contents (Elt F) := ((broadcastInDim S1x256 ![1] bcast_S256_S1x256_1 : (⟨S256, .f32⟩ : BufTy).Contents (Elt F) → (⟨S1x256, .f32⟩ : BufTy).Contents (Elt F))) pg
  have t_v280 : (Cert.ReferenceIdeal.main_v280).ty.Contents (Elt F) := ((broadcastInDim S64x256 ![0, 1] bcast_S1x256_S64x256_0_1 : (⟨S1x256, .f32⟩ : BufTy).Contents (Elt F) → (⟨S64x256, .f32⟩ : BufTy).Contents (Elt F))) t_v279
  have t_v281 : (Cert.ReferenceIdeal.main_v281).ty.Contents (Elt F) := ((mulf : (⟨S64x256, .f32⟩ : BufTy).Contents (Elt F) → (⟨S64x256, .f32⟩ : BufTy).Contents (Elt F) → (⟨S64x256, .f32⟩ : BufTy).Contents (Elt F))) t_v278 t_v280
  have t_v282 : (Cert.ReferenceIdeal.main_v282).ty.Contents (Elt F) := ((broadcastInDim S1x256 ![1] bcast_S256_S1x256_1 : (⟨S256, .f32⟩ : BufTy).Contents (Elt F) → (⟨S1x256, .f32⟩ : BufTy).Contents (Elt F))) pbe
  have t_v283 : (Cert.ReferenceIdeal.main_v283).ty.Contents (Elt F) := ((broadcastInDim S64x256 ![0, 1] bcast_S1x256_S64x256_0_1 : (⟨S1x256, .f32⟩ : BufTy).Contents (Elt F) → (⟨S64x256, .f32⟩ : BufTy).Contents (Elt F))) t_v282
  have t_v284 : (Cert.ReferenceIdeal.main_v284).ty.Contents (Elt F) := ((addf : (⟨S64x256, .f32⟩ : BufTy).Contents (Elt F) → (⟨S64x256, .f32⟩ : BufTy).Contents (Elt F) → (⟨S64x256, .f32⟩ : BufTy).Contents (Elt F))) t_v281 t_v283
  have t_call4_cst : (⟨S_, .f32⟩ : BufTy).Contents (Elt F) := ((constant S_ .f32 0x00000000#32))
  have t_call4_v0 : (⟨S64x256, .f32⟩ : BufTy).Contents (Elt F) := ((broadcastInDim S64x256 ![] bcast_S_S64x256)) t_call4_cst
  have t_v285 : (⟨S64x256, .f32⟩ : BufTy).Contents (Elt F) := (maximumf) t_v284 t_call4_v0
  have t_v286 : (Cert.ReferenceIdeal.main_v286).ty.Contents (Elt F) := (((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F))) t_v285 pw2
  have t_v287 : (Cert.ReferenceIdeal.main_v287).ty.Contents (Elt F) := ((broadcastInDim S1x128 ![1] bcast_S128_S1x128_1 : (⟨S128, .f32⟩ : BufTy).Contents (Elt F) → (⟨S1x128, .f32⟩ : BufTy).Contents (Elt F))) pb2
  have t_v288 : (Cert.ReferenceIdeal.main_v288).ty.Contents (Elt F) := ((broadcastInDim S64x128 ![0, 1] bcast_S1x128_S64x128_0_1 : (⟨S1x128, .f32⟩ : BufTy).Contents (Elt F) → (⟨S64x128, .f32⟩ : BufTy).Contents (Elt F))) t_v287
  have t_v289 : (Cert.ReferenceIdeal.main_v289).ty.Contents (Elt F) := ((addf : (⟨S64x128, .f32⟩ : BufTy).Contents (Elt F) → (⟨S64x128, .f32⟩ : BufTy).Contents (Elt F) → (⟨S64x128, .f32⟩ : BufTy).Contents (Elt F))) t_v286 t_v288
  have t_call5_v0 : (⟨S64x128, .f32⟩ : BufTy).Contents (Elt F) := (mulf) t_v289 t_v289
  have t_call5_cst : (⟨S_, .f32⟩ : BufTy).Contents (Elt F) := ((constant S_ .f32 0x00000000#32))
  have t_call5_v1 : (⟨S64, .f32⟩ : BufTy).Contents (Elt F) := ((fun x v => Host.reduceAdd x v reducesTo_S64x128_S64_d1 h_S_)) t_call5_v0 t_call5_cst
  have t_call5_v2 : (⟨S64x1, .f32⟩ : BufTy).Contents (Elt F) := ((broadcastInDim S64x1 ![0] bcast_S64_S64x1_0)) t_call5_v1
  have t_v290 : (⟨S64x1, .f32⟩ : BufTy).Contents (Elt F) := (Host.sqrt) t_call5_v2
  have t_cst_57 : (Cert.ReferenceIdeal.main_cst_57).ty.Contents (Elt F) := (constant S_ .f32 0x2B8CBCCC#32)
  have t_v291 : (Cert.ReferenceIdeal.main_v291).ty.Contents (Elt F) := ((broadcastInDim S64x1 ![] bcast_S_S64x1 : (⟨S_, .f32⟩ : BufTy).Contents (Elt F) → (⟨S64x1, .f32⟩ : BufTy).Contents (Elt F))) t_cst_57
  have t_v292 : (Cert.ReferenceIdeal.main_v292).ty.Contents (Elt F) := ((maximumf : (⟨S64x1, .f32⟩ : BufTy).Contents (Elt F) → (⟨S64x1, .f32⟩ : BufTy).Contents (Elt F) → (⟨S64x1, .f32⟩ : BufTy).Contents (Elt F))) t_v290 t_v291
  have t_v293 : (Cert.ReferenceIdeal.main_v293).ty.Contents (Elt F) := ((broadcastInDim S64x128 ![0, 1] bcast_S64x1_S64x128_0_1 : (⟨S64x1, .f32⟩ : BufTy).Contents (Elt F) → (⟨S64x128, .f32⟩ : BufTy).Contents (Elt F))) t_v292
  have t_v294 : (Cert.ReferenceIdeal.main_v294).ty.Contents (Elt F) := ((Host.divf : (⟨S64x128, .f32⟩ : BufTy).Contents (Elt F) → (⟨S64x128, .f32⟩ : BufTy).Contents (Elt F) → (⟨S64x128, .f32⟩ : BufTy).Contents (Elt F))) t_v289 t_v293
  t_v294

/-- One graph layer before its normalisation: the linear map, then the weighted sum over edges. -/
noncomputable def aggOf (h : (Cert.ReferenceIdeal.main_v32).ty.Contents (Elt F)) (w : (Cert.ReferenceIdeal.main_arg7).ty.Contents (Elt F))
    (e : (Cert.ReferenceIdeal.main_arg1).ty.Contents (Elt F)) : (Cert.ReferenceIdeal.main_v71).ty.Contents (Elt F) :=
  aggCore (lin256 h w) (sfull (F := F) (srcOf (F := F) e)) (dfull (F := F) (dstOf (F := F) e)) (weOf (sfull (F := F) (srcOf (F := F) e)) (dfull (F := F) (dstOf (F := F) e)))

end Cert.Stages

end
-- ==== Proof.KernelStretch.lean ====
/-
  What each stretch of host operations of the idealized kernel's program computes, as a function of the buffers it
  reads.

  The first stretch builds the edge lists (listed edges followed by self-loops) and the edge weights from the edge
  table, and lays the encoder's bias, scale and shift as one-row matrices. The stretch before each layer's
  normalisation gathers the rows of the linear map's output along the edge sources, scales them by the edge weights
  and sums them into the edge destinations, and lays that layer's bias, scale and shift as rows. The last five
  stretches are the pooling head. Each is the matching stage function: the operations are the same ones, in the same
  order, as the reference's.
-/
import proofs.«105231_j1443109011557_1_alg».proof.Proof.Gen.KernelIdeal.Launch
import proofs.«105231_j1443109011557_1_alg».proof.Proof.Stages
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Facts₀ Cert.KernelIdeal.Facts Cert.KernelIdeal.Gen

variable {F : FTy → Type} [FloatOps F] (W : Valuation τ sig (Elt F))

set_option maxHeartbeats 4000000 in
theorem h0_s : StableHlo.after hostOps0 W (Proc.devRef .tc main_v5) = Stages.sfull (F := F) (Stages.srcOf (F := F) (W (Proc.devRef .tc main_arg1))) := by
  after_results_simp <;> rfl
set_option maxHeartbeats 4000000 in
theorem h0_d : StableHlo.after hostOps0 W (Proc.devRef .tc main_v6) = Stages.dfull (F := F) (Stages.dstOf (F := F) (W (Proc.devRef .tc main_arg1))) := by
  after_results_simp <;> rfl
set_option maxHeartbeats 8000000 in
theorem h0_we : StableHlo.after hostOps0 W (Proc.devRef .tc main_v28)
    = Stages.weOf (F := F) (Stages.sfull (F := F) (Stages.srcOf (F := F) (W (Proc.devRef .tc main_arg1)))) (Stages.dfull (F := F) (Stages.dstOf (F := F) (W (Proc.devRef .tc main_arg1)))) := by
  after_results_simp <;> rfl
theorem h0_b : StableHlo.after hostOps0 W (Proc.devRef .tc main_v29) = shapeCast S1x256 (W (Proc.devRef .tc main_arg4)) Facts₀.shapeCasts_S256_S1x256 := by
  after_results_simp <;> rfl
theorem h0_g : StableHlo.after hostOps0 W (Proc.devRef .tc main_v30) = shapeCast S1x256 (W (Proc.devRef .tc main_arg5)) Facts₀.shapeCasts_S256_S1x256 := by
  after_results_simp <;> rfl
theorem h0_be : StableHlo.after hostOps0 W (Proc.devRef .tc main_v31) = shapeCast S1x256 (W (Proc.devRef .tc main_arg6)) Facts₀.shapeCasts_S256_S1x256 := by
  after_results_simp <;> rfl

set_option maxHeartbeats 4000000 in
/-- The weighted sum over edges this stretch computes, from the linear map's output and the edge lists and weights. -/
theorem h2_agg : StableHlo.after hostOps2 W (Proc.devRef .tc main_v46)
    = Stages.aggCore (F := F) (W (Proc.devRef .tc main_v33)) (W (Proc.devRef .tc main_v5)) (W (Proc.devRef .tc main_v6)) (W (Proc.devRef .tc main_v28)) := by
  after_results_simp <;> rfl
theorem h2_b : StableHlo.after hostOps2 W (Proc.devRef .tc main_v47) = shapeCast S1x256 (W (Proc.devRef .tc main_arg8)) Facts₀.shapeCasts_S256_S1x256 := by
  after_results_simp <;> rfl
theorem h2_g : StableHlo.after hostOps2 W (Proc.devRef .tc main_v48) = shapeCast S1x256 (W (Proc.devRef .tc main_arg9)) Facts₀.shapeCasts_S256_S1x256 := by
  after_results_simp <;> rfl
theorem h2_be : StableHlo.after hostOps2 W (Proc.devRef .tc main_v49) = shapeCast S1x256 (W (Proc.devRef .tc main_arg10)) Facts₀.shapeCasts_S256_S1x256 := by
  after_results_simp <;> rfl

set_option maxHeartbeats 4000000 in
/-- The weighted sum over edges this stretch computes, from the linear map's output and the edge lists and weights. -/
theorem h4_agg : StableHlo.after hostOps4 W (Proc.devRef .tc main_v64)
    = Stages.aggCore (F := F) (W (Proc.devRef .tc main_v51)) (W (Proc.devRef .tc main_v5)) (W (Proc.devRef .tc main_v6)) (W (Proc.devRef .tc main_v28)) := by
  after_results_simp <;> rfl
theorem h4_b : StableHlo.after hostOps4 W (Proc.devRef .tc main_v65) = shapeCast S1x256 (W (Proc.devRef .tc main_arg12)) Facts₀.shapeCasts_S256_S1x256 := by
  after_results_simp <;> rfl
theorem h4_g : StableHlo.after hostOps4 W (Proc.devRef .tc main_v66) = shapeCast S1x256 (W (Proc.devRef .tc main_arg13)) Facts₀.shapeCasts_S256_S1x256 := by
  after_results_simp <;> rfl
theorem h4_be : StableHlo.after hostOps4 W (Proc.devRef .tc main_v67) = shapeCast S1x256 (W (Proc.devRef .tc main_arg14)) Facts₀.shapeCasts_S256_S1x256 := by
  after_results_simp <;> rfl

set_option maxHeartbeats 4000000 in
/-- The weighted sum over edges this stretch computes, from the linear map's output and the edge lists and weights. -/
theorem h6_agg : StableHlo.after hostOps6 W (Proc.devRef .tc main_v82)
    = Stages.aggCore (F := F) (W (Proc.devRef .tc main_v69)) (W (Proc.devRef .tc main_v5)) (W (Proc.devRef .tc main_v6)) (W (Proc.devRef .tc main_v28)) := by
  after_results_simp <;> rfl
theorem h6_b : StableHlo.after hostOps6 W (Proc.devRef .tc main_v83) = shapeCast S1x256 (W (Proc.devRef .tc main_arg16)) Facts₀.shapeCasts_S256_S1x256 := by
  after_results_simp <;> rfl
theorem h6_g : StableHlo.after hostOps6 W (Proc.devRef .tc main_v84) = shapeCast S1x256 (W (Proc.devRef .tc main_arg17)) Facts₀.shapeCasts_S256_S1x256 := by
  after_results_simp <;> rfl
theorem h6_be : StableHlo.after hostOps6 W (Proc.devRef .tc main_v85) = shapeCast S1x256 (W (Proc.devRef .tc main_arg18)) Facts₀.shapeCasts_S256_S1x256 := by
  after_results_simp <;> rfl

set_option maxHeartbeats 16000000 in
/-- The pooling head: the last five stretches, from the third layer's output and the head's arguments. -/
theorem tail_out : StableHlo.after hostOps7_4 (StableHlo.after hostOps7_3 (StableHlo.after hostOps7_2 (StableHlo.after hostOps7_1 (StableHlo.after hostOps7 W))))
      (Proc.devRef .tc main_v145)
    = Stages.tailOf (F := F) (W (Proc.devRef .tc main_v86)) (W (Proc.devRef .tc main_arg2)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) := by
  after_results_simp <;> rfl

end Cert.KernelIdeal.Stretch

end
-- ==== Proof.LibRows.lean ====
/-
  Rows and columns of a rank-2 array, read at an index.

  For an `[a, b]` array: a reduction along axis 1 at row `r` ranges over the entries `(r, c)`, a
  reduction along axis 0 at column `c` over the entries `(r, c)`; a vector of `a` entries cast to
  the column shape `[a, 1]` reads entry `r` at `(r, 0)`, and that column broadcast to `[a, b]`
  reads it at every `(r, c)`.  The sums are plain `Finset` sums and the maxima folds of `max` from
  the accumulator's value, for the vector unit's reductions and for the host's `reduce` alike.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {a b : ℕ}

/-- Row `r` with lane `k` put back at axis 1 is `(r, k)`. -/
theorem lift_axis1 (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back at axis 0 is `(k, c)`. -/
theorem lift_axis0 (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A lane sum of an `[a, b]` vector, at row `r`: the sum of the row's entries. -/
theorem laneSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ c : Fin b, src (ix2 r c) := by
  rw [Ideal.multiReduction_add_single]
  exact Finset.sum_congr rfl fun k _ => congrArg src (lift_axis1 h r k)

/-- A lane maximum of an `[a, b]` vector, at row `r`: the fold of `max` over the row from the accumulator. -/
theorem laneMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  rw [Ideal.multiReduction_maximumf_single]
  have hf : (src ∘ h.lift (ix1 r)) = fun c : Fin b => src (ix2 r c) :=
    funext fun k => congrArg src (lift_axis1 h r k)
  exact congrArg (fun f => Finset.fold max (Ideal.ofBits φ acc) f (Finset.univ : Finset (Fin b))) hf

/-- A sum over the rows of an `[a, b]` vector, at column `c`. -/
theorem rowSum_apply {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_axis0 h c k)

/-- The host's `reduce` with a maximum body along axis 1 of an f32 `[a, b]` array, at row `r`: the same fold,
    from the initial value's one entry. -/
theorem hostLaneMax_apply {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun c => x (ix2 r c)) := by
  rw [Host.reduce_eq_fold_single FloatOps.maximumf x init h' h hu]
  have hf : (x ∘ h.lift (ix1 r)) = fun c : Fin b => x (ix2 r c) :=
    funext fun k => congrArg x (lift_axis1 h r k)
  exact congrArg (fun f => Finset.fold max (init (Shape.Idx.first hu)) f (Finset.univ : Finset (Fin b))) hf

/-- An `[a]` vector cast to the column shape `[a, 1]` reads, at `(r, u)`, entry `r`. -/
theorem shapeCast_a_a1_apply {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibRows

end
-- ==== Proof.LibGram.lean ====
/-
  Products of rows, and the host's sums, read at an index.

  For dimension numbers that contract the second axis of both operands, a matrix product into the zero accumulator, at
  the ideal values, is at (a, b) the inner product of row `a` of the left operand with row `b` of the right one: the
  sum over the contracted coordinate `c` of the entries (a, c) and (b, c). A `[1, b]` row broadcast to `[a, b]` reads,
  at every (r, c), the row's entry (0, c). The host's sum along axis 1 of an `[a, b]` array is, at row `r`, the initial value plus the
  sum of the row's entries; its sum over every axis is the initial value plus the sum of all entries. A finite sum of
  reals, read in the extended reals, is the sum of the entries read there.
-/
import Idealize.ShloMosaic.PureOps.Ideal.Laws
import Idealize.ShloMosaic.Lib.ValueIdx
import Idealize.ShloMosaic.Lib.ValueLayout
import Idealize.ShloMosaic.Lib.Pipeline.Value
import Idealize.ShloMosaic.PureOps.Reduce

noncomputable section

open scoped BigOperators

namespace Cert.LibGram

open Idealize.ShloMosaic Idealize.ShloMosaic.ValueIdx

/-- The dimension numbers that contract axis 1 of both operands, over any witness of their well-formedness. -/
abbrev rowsDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- A product of rows into the zero accumulator, at (a, b): the inner product of row `a` and row `b`. -/
theorem matmul_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    matmul (rowsDims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (rowsDims w) k rfl rfl).symm]
  refine Finset.sum_congr rfl fun c _ => ?_
  have c2 := contrEquiv1_symm_val (rowsDims w) k rfl rfl c
  have l2 : (rowsDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowsDims w).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, b]` row broadcast to `[a, b]` reads, at `(r, c)`, the row's entry of column `c`. -/
theorem broadcastTo_1b_ab_apply {a b : ℕ} {α : Type} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- Row `r` with lane `k` put back at axis 1 is `(r, k)`. -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The host's sum along axis 1 of an f32 `[a, b]` array, at row `r`: the initial value plus the row's entries. -/
theorem hostLaneSum_apply {a b : ℕ} {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduceAdd x init h' hu (ix1 r) = init (Shape.Idx.first hu) + ∑ c : Fin b, x (ix2 r c) := by
  simp only [Host.reduceAdd, Ideal.hostReduceAdd_def]
  rw [Ideal.hostReduceAdd_single h' h]
  exact congrArg (_ + ·) (Finset.sum_congr rfl fun k _ => congrArg x (lift_lane h r k))

/-- The host's sum over every axis: the initial value plus all the entries. -/
theorem hostTotalSum_apply {s u : Shape} {axes : List (Fin s.rank)} (x : s.Idx → Ideal .f32) (init : u.Idx → Ideal .f32)
    (h' : s.ReducesTo axes (⟨0, ![]⟩ : Shape)) (hu : 0 < u.numel) (j : (⟨0, ![]⟩ : Shape).Idx) :
    Host.reduceAdd x init h' hu j = init (Shape.Idx.first hu) + ∑ i : s.Idx, x i := by
  simp only [Host.reduceAdd, Ideal.hostReduceAdd_def]
  exact Ideal.hostReduceAdd_total h' (fun b => b.elim0) x _ j

/-- A finite sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.LibGram

end
-- ==== Proof.LibHostLayout.lean ====
/-
  The host's broadcasts of vectors into matrices, read at an index.

  A vector of `n` entries laid as the one row of a `[1, n]` matrix reads entry `t` at `(0, t)`; a vector of `a`
  entries laid as the one column of an `[a, 1]` matrix reads entry `r` at `(r, 0)`; and that column repeated along
  `b` columns reads, at `(r, c)`, the column's entry of row `r`.
-/
import Idealize.ShloMosaic.Lib.ValueIdx
import Idealize.ShloMosaic.Lib.ValueLayout
import Idealize.ShloMosaic.Lib.Pipeline.Value

noncomputable section

namespace Cert.LibHostLayout

open Idealize.ShloMosaic Idealize.ShloMosaic.ValueIdx

variable {α : Type}

/-- A vector laid as the one row of a matrix: at `(u, t)` it reads entry `t`. -/
theorem bcast_vec_row_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro a
  fin_cases a
  show t.val = if n = 1 then 0 else t.val
  split_ifs with hn
  · have := t.isLt; omega
  · rfl

/-- A vector laid as the one column of a matrix: at `(r, u)` it reads entry `r`. -/
theorem bcast_vec_col_apply {a : ℕ} (h : (⟨1, ![a]⟩ : Shape).BroadcastsInDim ⟨2, ![a, 1]⟩ ![0])
    (x : (⟨1, ![a]⟩ : Shape).Idx → α) (r : Fin a) (u : Fin 1) :
    broadcastInDim ⟨2, ![a, 1]⟩ ![0] h x (ix2 r u) = x (ix1 r) := by
  refine broadcastInDim_apply ![0] h x (ix2 r u) (ix1 r) ?_
  intro k
  fin_cases k
  show r.val = if a = 1 then 0 else r.val
  split_ifs with hn
  · have := r.isLt; omega
  · rfl

/-- A one-column matrix repeated along `b` columns: at `(r, c)` it reads the column's entry of row `r`. -/
theorem bcast_col_apply {a b : ℕ} (h : (⟨2, ![a, 1]⟩ : Shape).BroadcastsInDim ⟨2, ![a, b]⟩ ![0, 1])
    (y : (⟨2, ![a, 1]⟩ : Shape).Idx → α) (r : Fin a) (c : Fin b) :
    broadcastInDim ⟨2, ![a, b]⟩ ![0, 1] h y (ix2 r c) = y (ix2 r (0 : Fin 1)) := by
  refine broadcastInDim_apply ![0, 1] h y (ix2 r c) (ix2 r (0 : Fin 1)) ?_
  intro k
  fin_cases k
  · show r.val = if a = 1 then 0 else r.val
    split_ifs with hn
    · have := r.isLt; omega
    · rfl
  · show (0 : ℕ) = if (1 : ℕ) = 1 then 0 else _
    simp

end Cert.LibHostLayout

end
-- ==== Proof.NormRows.lean ====
/-
  One row's normalisation, and that the kernel's block computation and the host's whole-array computation both
  perform it row by row.

  For a row `y` of 256 entries: its mean is the sum over 256, its variance the mean of the squared deviations; the
  entry `y q` is centred, divided by the square root of the variance plus the stabiliser, scaled by `g q`, shifted
  by `be q` and clipped below at 0 (`rowNorm`). The kernel does this on a block of 2000 rows with lane reductions
  and broadcasts of columns and rows; the host does it on all 20000 rows with `reduce` and `broadcast_in_dim`.
  Entry (r, q) of either depends on row r alone, and is `rowNorm` of that row: the vector unit's lane sum drops its
  neutral accumulator where the host's sum adds an initial 0, and nothing else differs.
-/
import proofs.«105231_j1443109011557_1_alg».proof.Proof.Stages
import proofs.«105231_j1443109011557_1_alg».proof.Proof.Gen.KernelIdeal.Skeleton
import proofs.«105231_j1443109011557_1_alg».proof.Proof.LibRows
import proofs.«105231_j1443109011557_1_alg».proof.Proof.LibGram
import proofs.«105231_j1443109011557_1_alg».proof.Proof.LibHostLayout
import Idealize.ShloMosaic.Lib.IdealHost
import Idealize.ShloMosaic.Lib.KernelVsHost

noncomputable section

open scoped BigOperators

namespace Cert.NormRows

open Idealize.ShloMosaic Idealize.ShloMosaic.ValueIdx

/-- 256 as an extended real, by its f32 pattern. -/
abbrev c256 : EReal := Ideal.ofBits .f32 0x43800000#32
/-- The stabiliser under the inverse square root, by its f32 pattern. -/
abbrev ceps : EReal := Ideal.ofBits .f32 0x3727C5AC#32

/-- The mean of a row of 256 entries. -/
def rowMean (y : Fin 256 → EReal) : EReal := Ideal.div (∑ k, y k) c256

/-- One entry of a normalised row: centred, divided by the root of the variance plus the stabiliser, scaled, shifted,
    clipped below at 0. -/
def rowNorm (y : Fin 256 → EReal) (yq gq beq : EReal) : EReal :=
  max ((yq - rowMean y) * Ideal.rsqrt (rowMean (fun k => (y k - rowMean y) * (y k - rowMean y)) + ceps) * gq + beq) 0

/-! ## The kernel's block -/

section Block
open Cert.KernelIdeal Cert.KernelIdeal.Facts₀ Cert.KernelIdeal.Facts

/-- The column of row means of a 2000-row block, as the vector unit computes it: a lane sum, cast to a column,
    divided by 256. -/
def meanCol (y : FVec Ideal S2000x256 .f32) : FVec Ideal S2000x1 .f32 :=
  divf (shapeCast S2000x1 (multiReduction .add [1] S2000 y 0x00000000#32 reduces_S2000x256_S2000 (.inl rfl) rfl) shapeCasts_S2000_S2000x1)
    (broadcast S2000x1 (Scalar.ofBits .f32 0x43800000#32))

/-- The kernel's normalisation of a block `y` with scale row `g2` and shift row `be2`. -/
def normBlock (y : FVec Ideal S2000x256 .f32) (g2 be2 : Vec Ideal S1x256 .f32) : FVec Ideal S2000x256 .f32 :=
  maximumf
    (addf
      (mulf
        (mulf (subf y (broadcastTo S2000x256 (meanCol y) broadcasts_S2000x1_S2000x256))
          (broadcastTo S2000x256
            (rsqrt (addf
              (meanCol (mulf (subf y (broadcastTo S2000x256 (meanCol y) broadcasts_S2000x1_S2000x256))
                (subf y (broadcastTo S2000x256 (meanCol y) broadcasts_S2000x1_S2000x256))))
              (broadcast S2000x1 (Scalar.ofBits .f32 0x3727C5AC#32))))
            broadcasts_S2000x1_S2000x256))
        (broadcastTo S2000x256 (shapeCast S1x256 g2 shapeCasts_S1x256_S1x256) broadcasts_S1x256_S2000x256))
      (broadcastTo S2000x256 (shapeCast S1x256 be2 shapeCasts_S1x256_S1x256) broadcasts_S1x256_S2000x256))
    (broadcast S2000x256 (Scalar.ofBits .f32 0x00000000#32))

theorem meanCol_apply (y : FVec Ideal S2000x256 .f32) (r : Fin 2000) (u : Fin 1) :
    meanCol y (ix2 r u) = rowMean (fun k => y (ix2 r k)) := by
  show Ideal.div (shapeCast S2000x1 _ shapeCasts_S2000_S2000x1 (ix2 r u)) (Ideal.ofBits .f32 0x43800000#32) = _
  rw [LibRows.shapeCast_a_a1_apply]
  refine congrArg (fun s => Ideal.div s c256) ?_
  exact LibRows.laneSum_apply y 0x00000000#32 reduces_S2000x256_S2000 (.inl rfl) rfl r

/-- Entry (p, q) of the normalised block is `rowNorm` of row p. -/
theorem normBlock_apply (y : FVec Ideal S2000x256 .f32) (g2 be2 : Vec Ideal S1x256 .f32) (p : Fin 2000) (q : Fin 256) :
    normBlock y g2 be2 (ix2 p q)
      = rowNorm (fun k => y (ix2 p k)) (y (ix2 p q)) (g2 (ix2 (0 : Fin 1) q)) (be2 (ix2 (0 : Fin 1) q)) := by
  show max ((y (ix2 p q) - broadcastTo S2000x256 (meanCol y) broadcasts_S2000x1_S2000x256 (ix2 p q))
        * broadcastTo S2000x256 (rsqrt _) broadcasts_S2000x1_S2000x256 (ix2 p q)
        * broadcastTo S2000x256 (shapeCast S1x256 g2 shapeCasts_S1x256_S1x256) broadcasts_S1x256_S2000x256 (ix2 p q)
        + broadcastTo S2000x256 (shapeCast S1x256 be2 shapeCasts_S1x256_S1x256) broadcasts_S1x256_S2000x256 (ix2 p q))
      (Ideal.ofBits .f32 0x00000000#32) = _
  rw [LibRows.broadcastTo_a1_ab_apply, LibRows.broadcastTo_a1_ab_apply, LibGram.broadcastTo_1b_ab_apply,
    LibGram.broadcastTo_1b_ab_apply, shapeCast_self, shapeCast_self, Ideal.ofBits_zero_f32, meanCol_apply]
  show max ((y (ix2 p q) - rowMean fun k => y (ix2 p k))
      * Ideal.rsqrt (meanCol _ (ix2 p (0 : Fin 1)) + Ideal.ofBits .f32 0x3727C5AC#32) * g2 (ix2 (0 : Fin 1) q) + be2 (ix2 (0 : Fin 1) q)) 0 = _
  rw [meanCol_apply]
  unfold rowNorm
  refine congrArg (fun v => max ((y (ix2 p q) - rowMean fun k => y (ix2 p k)) * Ideal.rsqrt (rowMean v + ceps) * g2 (ix2 (0 : Fin 1) q) + be2 (ix2 (0 : Fin 1) q)) 0) ?_
  funext k
  show (y (ix2 p k) - broadcastTo S2000x256 (meanCol y) broadcasts_S2000x1_S2000x256 (ix2 p k))
      * (y (ix2 p k) - broadcastTo S2000x256 (meanCol y) broadcasts_S2000x1_S2000x256 (ix2 p k)) = _
  rw [LibRows.broadcastTo_a1_ab_apply, meanCol_apply]

end Block

/-! ## The host's whole array -/

section Whole
open Cert.ReferenceIdeal Cert.ReferenceIdeal.Facts₀ Cert.ReferenceIdeal.Facts

theorem reduces_rows : (⟨2, ![20000, 256]⟩ : Shape).Reduces [1] (⟨1, ![20000]⟩ : Shape) := by decide

/-- The column of row means of the whole array, as the host computes it: a sum along axis 1 from 0, laid as a column,
    divided by 256. -/
def meanColHost (y : FVec Ideal S20000x256 .f32) : FVec Ideal S20000x1 .f32 :=
  Host.divf (broadcastInDim S20000x1 ![0] bcast_S20000_S20000x1_0
      (Host.reduceAdd y (constant (F := Ideal) S_ .f32 0x00000000#32) reducesTo_S20000x256_S20000_d1 h_S_))
    (broadcastInDim S20000x1 ![] bcast_S_S20000x1 (constant (F := Ideal) S_ .f32 0x43800000#32))

theorem meanColHost_apply (y : FVec Ideal S20000x256 .f32) (r : Fin 20000) (u : Fin 1) :
    meanColHost y (ix2 r u) = rowMean (fun k => y (ix2 r k)) := by
  show Ideal.div (broadcastInDim S20000x1 ![0] bcast_S20000_S20000x1_0
        (Host.reduceAdd y (constant (F := Ideal) S_ .f32 0x00000000#32) reducesTo_S20000x256_S20000_d1 h_S_) (ix2 r u))
      (broadcastInDim S20000x1 ![] bcast_S_S20000x1 (constant (F := Ideal) S_ .f32 0x43800000#32) (ix2 r u)) = _
  rw [LibHostLayout.bcast_vec_col_apply, broadcastInDim_scalar_apply,
    LibGram.hostLaneSum_apply y _ reducesTo_S20000x256_S20000_d1 reduces_rows h_S_ r]
  show Ideal.div (Ideal.ofBits .f32 0x00000000#32 + ∑ c : Fin 256, y (ix2 r c)) (Ideal.ofBits .f32 0x43800000#32) = _
  rw [Ideal.ofBits_zero_f32, zero_add]
  rfl

set_option maxHeartbeats 4000000 in
/-- The host's normalisation spelt over `meanColHost`. -/
theorem normRelu_eq (y : FVec Ideal S20000x256 .f32) (g be : FVec Ideal S256 .f32) :
    Stages.normRelu (F := Ideal) y g be
      = maximumf
          (addf
            (mulf
              (mulf (subf y (broadcastInDim S20000x256 ![0, 1] bcast_S20000x1_S20000x256_0_1 (meanColHost y)))
                (broadcastInDim S20000x256 ![0, 1] bcast_S20000x1_S20000x256_0_1
                  (Host.rsqrt (addf
                    (meanColHost (mulf (subf y (broadcastInDim S20000x256 ![0, 1] bcast_S20000x1_S20000x256_0_1 (meanColHost y)))
                      (subf y (broadcastInDim S20000x256 ![0, 1] bcast_S20000x1_S20000x256_0_1 (meanColHost y)))))
                    (broadcastInDim S20000x1 ![] bcast_S_S20000x1 (constant (F := Ideal) S_ .f32 0x3727C5AC#32))))))
              (broadcastInDim S20000x256 ![0, 1] bcast_S1x256_S20000x256_0_1 (broadcastInDim S1x256 ![1] bcast_S256_S1x256_1 g)))
            (broadcastInDim S20000x256 ![0, 1] bcast_S1x256_S20000x256_0_1 (broadcastInDim S1x256 ![1] bcast_S256_S1x256_1 be)))
          (broadcastInDim S20000x256 ![] bcast_S_S20000x256 (constant (F := Ideal) S_ .f32 0x00000000#32)) := by
  unfold Stages.normRelu meanColHost
  rfl

theorem hostRsqrt_apply {s : Shape} (v : FVec Ideal s .f32) (i : s.Idx) : Host.rsqrt v i = Ideal.rsqrt (v i) := rfl

set_option maxHeartbeats 2000000 in
/-- Entry (r, q) of the host's normalised array is `rowNorm` of row r. -/
theorem normRelu_apply (y : FVec Ideal S20000x256 .f32) (g be : FVec Ideal S256 .f32) (r : Fin 20000) (q : Fin 256) :
    Stages.normRelu (F := Ideal) y g be (ix2 r q)
      = rowNorm (fun k => y (ix2 r k)) (y (ix2 r q)) (g (ix1 q)) (be (ix1 q)) := by
  rw [normRelu_eq]
  have hv : (fun k : Fin 256 => mulf (subf y (broadcastInDim S20000x256 ![0, 1] bcast_S20000x1_S20000x256_0_1 (meanColHost y)))
        (subf y (broadcastInDim S20000x256 ![0, 1] bcast_S20000x1_S20000x256_0_1 (meanColHost y))) (ix2 r k))
      = fun k => (y (ix2 r k) - rowMean fun k => y (ix2 r k)) * (y (ix2 r k) - rowMean fun k => y (ix2 r k)) := by
    funext k
    rw [mulf_apply, subf_apply, LibHostLayout.bcast_col_apply, meanColHost_apply]
  rw [maximumf_apply, addf_apply, mulf_apply, mulf_apply, subf_apply,
    LibHostLayout.bcast_col_apply, LibHostLayout.bcast_col_apply, broadcastInDim_oneRow_apply, broadcastInDim_oneRow_apply,
    LibHostLayout.bcast_vec_row_apply, LibHostLayout.bcast_vec_row_apply, broadcastInDim_scalar_apply, hostRsqrt_apply, addf_apply,
    broadcastInDim_scalar_apply, meanColHost_apply, meanColHost_apply, constant_apply, constant_apply, Ideal.ofBits_zero_f32, hv]
  rfl

end Whole

end Cert.NormRows

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.LibDotHost.lean ====
/-
  The host's matrix product read at an index. For the plain dimension numbers (rows × contraction times
  contraction × columns) a `stablehlo.dot_general`, at the ideal values, is at (a, b) the sum over the contracted
  coordinate `c` of the left operand at (a, c) times the right operand at (c, b) — the same sum a `tpu.matmul` into the
  zero accumulator is (LibMat), so a row block of the one is the matching rows of the other.
-/
import Idealize.ShloMosaic.PureOps.Ideal.Laws
import Idealize.ShloMosaic.Lib.ValueIdx
import Idealize.ShloMosaic.Lib.ValueLayout
import proofs.«105231_j1443109011557_1_alg».proof.Proof.LibMat

noncomputable section

open scoped BigOperators

namespace Cert.LibDotHost

open Idealize.ShloMosaic Idealize.ShloMosaic.ValueIdx Cert.LibMat

/-- A plain host matrix product at (a, b): the sum over the contracted coordinate. Generic in the three extents, the
    operands' formats, the precision and the witness of the dimension numbers' well-formedness. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (plainDims w) prec A B (ix2 a b) = ∑ c : Fin k, A (ix2 a c) * B (ix2 c b) := by
  show FloatOps.dotGeneral _ prec .single A B (ix2 a b) = _
  rw [Ideal.dotGeneral_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row block of a plain `tpu.matmul` into the zero accumulator is the matching rows of the host's product: if the
    block's left operand at (p, c) is the whole left operand at (a, c) and the right operands agree on column `q` / `b`,
    then the block's product at (p, q) is the whole product at (a, b). -/
theorem matmul_block_eq_dotGeneral {m m' k n n' : ℕ} {φ₁ φ₂ ψ₁ ψ₂ : FTy}
    (w : DotDims.WF ⟨2, ![m, k]⟩ ⟨2, ![k, n]⟩ ⟨2, ![m, n]⟩ [1] [0] [0] [1] [] [])
    (w' : DotDims.WF ⟨2, ![m', k]⟩ ⟨2, ![k, n']⟩ ⟨2, ![m', n']⟩ [1] [0] [0] [1] [] [])
    (prec prec' : Option ContractPrecision)
    (x0 : FVec Ideal ⟨2, ![m, k]⟩ φ₁) (x1 : FVec Ideal ⟨2, ![k, n]⟩ φ₂)
    (X : FVec Ideal ⟨2, ![m', k]⟩ ψ₁) (W : FVec Ideal ⟨2, ![k, n']⟩ ψ₂)
    (p : Fin m) (q : Fin n) (a : Fin m') (b : Fin n')
    (h0 : ∀ c : Fin k, x0 (ix2 p c) = X (ix2 a c)) (h1 : ∀ c : Fin k, x1 (ix2 c q) = W (ix2 c b)) :
    matmul (plainDims w) prec x0 x1 (constant ⟨2, ![m, n]⟩ .f32 0x00000000#32) (ix2 p q)
      = Host.dotGeneral (plainDims w') prec' X W (ix2 a b) :=
  (matmul_plain_apply w prec x0 x1 p q).trans
    ((Finset.sum_congr rfl fun c _ => by rw [h0 c, h1 c]).trans (dotGeneral_plain_apply w' prec' X W a b).symm)

end Cert.LibDotHost

end
-- ==== Proof.Blocks.lean ====
/-
  What each pipelined kernel leaves in its output array, as one function of the arrays it reads.

  Each of the seven kernels runs on a grid of ten points; point `t` reads rows 2000·t … 2000·t + 1999 of its
  row-blocked inputs and the whole of its small inputs (a weight matrix, a row of biases, scales or shifts), and writes
  back the same rows of its output. A matrix product's rows depend only on the same rows of the left operand, and a
  row's normalisation on that row alone, so block `t` of the output is block `t` of the whole-array function
  (`Stages.lin256`, `Stages.normRelu` ∘ `Stages.biasRow`, …); the ten blocks tile the array.
-/
import proofs.«105231_j1443109011557_1_alg».proof.Proof.Gen.KernelIdeal.Frame
import proofs.«105231_j1443109011557_1_alg».proof.Proof.Stages
import proofs.«105231_j1443109011557_1_alg».proof.Proof.NormRows
import proofs.«105231_j1443109011557_1_alg».proof.Proof.LibDotHost
import Idealize.ShloMosaic.Lib.Pipeline.Value
import Idealize.ShloMosaic.Lib.ValueIdx
import Idealize.ShloMosaic.Lib.ValueLayout

set_option maxRecDepth 16384

noncomputable section

open scoped BigOperators

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Rows of one-row matrices, and the whole-array functions the kernels compute -/

/-- The one row of a `[1, 256]` matrix as a vector. -/
def rowOf (x : Vec Ideal S1x256 .f32) : FVec Ideal S256 .f32 := fun i => x (ix2 (0 : Fin 1) (i 0))

/-- A vector laid as a one-row matrix and read back is the vector. -/
theorem rowOf_shapeCast (b : FVec Ideal S256 .f32) (h : S256.ShapeCasts S1x256) : rowOf (shapeCast S1x256 b h) = b := by
  funext i
  obtain ⟨k, rfl⟩ : ∃ k : Fin 256, i = ix1 k := ⟨i 0, eq_ix1 i⟩
  exact shapeCast_a_1a_apply b h (0 : Fin 1) k

/-- The encoder's whole-array function of the arrays kernel 0 reads. -/
def encW (x : FVec Ideal S20000x128 .f32) (w : FVec Ideal S128x256 .f32) (b2 g2 be2 : Vec Ideal S1x256 .f32) : FVec Ideal S20000x256 .f32 :=
  Stages.normRelu (F := Ideal) (Stages.biasRow (F := Ideal) (Stages.lin128 (F := Ideal) x w) (rowOf b2)) (rowOf g2) (rowOf be2)
/-- A layer's bias and normalisation as a whole-array function of the arrays kernel 2 reads. -/
def normW (a : FVec Ideal S20000x256 .f32) (b2 g2 be2 : Vec Ideal S1x256 .f32) : FVec Ideal S20000x256 .f32 :=
  Stages.normRelu (F := Ideal) (Stages.biasRow (F := Ideal) a (rowOf b2)) (rowOf g2) (rowOf be2)
/-- The same with the previous layer's output added (kernels 4 and 6). -/
def normResW (a : FVec Ideal S20000x256 .f32) (b2 g2 be2 : Vec Ideal S1x256 .f32) (res : FVec Ideal S20000x256 .f32) : FVec Ideal S20000x256 .f32 :=
  addf (Stages.normRelu (F := Ideal) (Stages.biasRow (F := Ideal) a (rowOf b2)) (rowOf g2) (rowOf be2)) res

/-- A row of biases added to every row, read at an index. -/
theorem biasRow_apply (A : FVec Ideal S20000x256 .f32) (b : FVec Ideal S256 .f32) (r : Fin 20000) (k : Fin 256) :
    Stages.biasRow (F := Ideal) A b (ix2 r k) = A (ix2 r k) + b (ix1 k) := by
  unfold Stages.biasRow
  show A (ix2 r k) + broadcastInDim Cert.ReferenceIdeal.S20000x256 ![0, 1] Cert.ReferenceIdeal.Facts₀.bcast_S1x256_S20000x256_0_1
      (broadcastInDim Cert.ReferenceIdeal.S1x256 ![1] Cert.ReferenceIdeal.Facts₀.bcast_S256_S1x256_1 b) (ix2 r k) = _
  rw [broadcastInDim_oneRow_apply, LibHostLayout.bcast_vec_row_apply]

/-- Row p of a normalised block is row a of the normalised whole array when the two rows, and the scale and shift at
    column q, agree. -/
theorem norm_rows (Y : FVec Ideal S2000x256 .f32) (B : FVec Ideal S20000x256 .f32) (x2 x3 : Vec Ideal S1x256 .f32)
    (g be : FVec Ideal S256 .f32) (p : Fin 2000) (q : Fin 256) (a : Fin 20000)
    (hY : ∀ k : Fin 256, Y (ix2 p k) = B (ix2 a k)) (h2 : x2 (ix2 (0 : Fin 1) q) = g (ix1 q)) (h3 : x3 (ix2 (0 : Fin 1) q) = be (ix1 q)) :
    NormRows.normBlock Y x2 x3 (ix2 p q) = Stages.normRelu (F := Ideal) B g be (ix2 a q) := by
  rw [NormRows.normBlock_apply, NormRows.normRelu_apply, show (fun k => Y (ix2 p k)) = fun k => B (ix2 a k) from funext hY, hY q, h2, h3]

/-! ## Kernel 0: the encoder (linear map, bias, normalisation) -/

/-- Row p of kernel 0's block result is row a of the whole-array function, when the rows it reads are the whole
    arrays' rows. -/
theorem pay0_block (X : FVec Ideal S20000x128 .f32) (Wt : FVec Ideal S128x256 .f32) (B2 G2 BE2 : Vec Ideal S1x256 .f32)
    (x0 : Vec Ideal S2000x128 .f32) (xw : Vec Ideal S128x256 .f32) (x1 x2 x3 : Vec Ideal S1x256 .f32)
    (p : Fin 2000) (q : Fin 256) (a : Fin 20000)
    (h0 : ∀ j : Fin 128, x0 (ix2 p j) = X (ix2 a j)) (hw : ∀ (j : Fin 128) (k : Fin 256), xw (ix2 j k) = Wt (ix2 j k))
    (h1 : ∀ k : Fin 256, x1 (ix2 (0 : Fin 1) k) = B2 (ix2 (0 : Fin 1) k))
    (h2 : x2 (ix2 (0 : Fin 1) q) = G2 (ix2 (0 : Fin 1) q)) (h3 : x3 (ix2 (0 : Fin 1) q) = BE2 (ix2 (0 : Fin 1) q)) :
    k0_pay1 x0 xw x1 x2 x3 (ix2 p q) = encW X Wt B2 G2 BE2 (ix2 a q) := by
  have hN : NormRows.normBlock (addf (matmul dot_S2000x128_S128x256_S2000x256_1_0_0_1_n_n none (truncf .bf16 x0 bitsLt_bf16_f32) (truncf .bf16 xw bitsLt_bf16_f32) (constant S2000x256 .f32 0x00000000#32)) (broadcastTo S2000x256 (shapeCast S1x256 x1 shapeCasts_S1x256_S1x256) broadcasts_S1x256_S2000x256)) x2 x3 (ix2 p q)
      = Stages.normRelu (F := Ideal) (Stages.biasRow (F := Ideal) (Stages.lin128 (F := Ideal) X Wt) (rowOf B2)) (rowOf G2) (rowOf BE2) (ix2 a q) := by
    refine norm_rows _ _ _ _ _ _ p q a (fun k => ?_) h2 h3
    rw [addf_apply, LibGram.broadcastTo_1b_ab_apply, shapeCast_self, biasRow_apply, h1 k]
    refine congrArg (· + B2 (ix2 (0 : Fin 1) k)) ?_
    exact LibDotHost.matmul_block_eq_dotGeneral _ _ none none _ _ X Wt p k a k (fun j => h0 j) (fun j => hw j k)
  exact hN

/-- The printed index maps of kernel 0, decided over the grid: the row-blocked operands move with the output, the
    small ones stay. -/
theorem idx_facts0 : ∀ t : Fin cfg0.N, win0_0.index t (0 : Fin 2) = win0_5.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (1 : Fin 2) = 0
    ∧ win0_5.index t (0 : Fin 2) ≤ 9 :=
  (by decide +kernel : ∀ t : Fin grid0.N, _)

/-- Every row block is some point's. -/
theorem idx_onto0 : ∀ q0 : Fin 10, ∃ t : Fin cfg0.N, win0_5.index t = ![q0.val, 0] :=
  (by decide +kernel : ∀ q0 : Fin 10, ∃ t : Fin grid0.N, win0_5.index t = ![q0.val, 0])

set_option maxHeartbeats 1600000 in
/-- What point `t` writes back is block `t` of the whole-array function. -/
theorem flushed0_eq (c : Dev nD) (t : Fin cfg0.N) :
    (dat0 V c).flushed 5 t = ((cfg0.win 5).blk t).view.read (Elt Ideal) (encW (V c main_arg0) (V c main_arg3) (V c main_v29) (V c main_v30) (V c main_v31)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz, View.ld_unit_zero (S := S2000x256) hz]
  obtain ⟨e0, e1, e2, e3, e4, e5, e6, e7, e8, e9, e10, e11⟩ := idx_facts0 t
  funext j
  obtain ⟨p, q, rfl⟩ : ∃ (p : Fin 2000) (q : Fin 256), j = ix2 p q := ⟨j 0, j 1, eq_ix2 j⟩
  have hp : p.val < 2000 := p.isLt
  obtain ⟨a, hav⟩ : ∃ a : Fin 20000, a.val = win0_5.index t (0 : Fin 2) * 2000 + p.val :=
    ⟨⟨win0_5.index t (0 : Fin 2) * 2000 + p.val, by omega⟩, rfl⟩
  have hemb : ((cfg0.win 5).blk t).view.emb (ix2 p q) = ix2 a q := by
    funext ax; apply Fin.ext
    match ax with
    | ⟨0, _⟩ => show win0_5.index t (0 : Fin 2) * 2000 + 1 * p.val = a.val; omega
    | ⟨1, _⟩ => show win0_5.index t (1 : Fin 2) * 256 + 1 * q.val = q.val; omega
  show k0_pay1 (iblk0 V c 0 t) (iblk0 V c 1 t) (iblk0 V c 2 t) (iblk0 V c 3 t) (iblk0 V c 4 t) (ix2 p q) = (encW (V c main_arg0) (V c main_arg3) (V c main_v29) (V c main_v30) (V c main_v31)) (((cfg0.win 5).blk t).view.emb (ix2 p q))
  rw [hemb]
  refine pay0_block (V c main_arg0) (V c main_arg3) (V c main_v29) (V c main_v30) (V c main_v31) _ _ _ _ _ p q a (fun j => ?_) (fun j k => ?_) (fun k => ?_) ?_ ?_
  · show V c main_arg0 (((cfg0.win 0).blk t).view.emb (ix2 p j)) = V c main_arg0 (ix2 a j)
    refine congrArg _ ?_
    funext ax; apply Fin.ext
    match ax with
    | ⟨0, _⟩ => show win0_0.index t (0 : Fin 2) * 2000 + 1 * p.val = a.val; omega
    | ⟨1, _⟩ => show win0_0.index t (1 : Fin 2) * 128 + 1 * j.val = j.val; omega
  · show V c main_arg3 (((cfg0.win 1).blk t).view.emb (ix2 j k)) = V c main_arg3 (ix2 j k)
    refine congrArg _ ?_
    funext ax; apply Fin.ext
    match ax with
    | ⟨0, _⟩ => show win0_1.index t (0 : Fin 2) * 128 + 1 * j.val = j.val; omega
    | ⟨1, _⟩ => show win0_1.index t (1 : Fin 2) * 256 + 1 * k.val = k.val; omega
  · show V c main_v29 (((cfg0.win 2).blk t).view.emb (ix2 (0 : Fin 1) k)) = V c main_v29 (ix2 (0 : Fin 1) k)
    refine congrArg _ ?_
    funext ax; apply Fin.ext
    match ax with
    | ⟨0, _⟩ => show win0_2.index t (0 : Fin 2) * 1 + 1 * 0 = 0; omega
    | ⟨1, _⟩ => show win0_2.index t (1 : Fin 2) * 256 + 1 * k.val = k.val; omega
  · show V c main_v30 (((cfg0.win 3).blk t).view.emb (ix2 (0 : Fin 1) q)) = V c main_v30 (ix2 (0 : Fin 1) q)
    refine congrArg _ ?_
    funext ax; apply Fin.ext
    match ax with
    | ⟨0, _⟩ => show win0_3.index t (0 : Fin 2) * 1 + 1 * 0 = 0; omega
    | ⟨1, _⟩ => show win0_3.index t (1 : Fin 2) * 256 + 1 * q.val = q.val; omega
  · show V c main_v31 (((cfg0.win 4).blk t).view.emb (ix2 (0 : Fin 1) q)) = V c main_v31 (ix2 (0 : Fin 1) q)
    refine congrArg _ ?_
    funext ax; apply Fin.ext
    match ax with
    | ⟨0, _⟩ => show win0_4.index t (0 : Fin 2) * 1 + 1 * 0 = 0; omega
    | ⟨1, _⟩ => show win0_4.index t (1 : Fin 2) * 256 + 1 * q.val = q.val; omega

/-- An index of the output array is in point `t`'s block iff each coordinate is in the block's range. -/
theorem mem_blk0 (t : Fin cfg0.N) (i : S20000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v32).slice (win0_5.rect t)).set ↔ _
  rw [View.set_slice_whole, Rect.mem_set_unit]
  exact Iff.rfl

/-- The ten blocks tile the output array. -/
theorem cover0 (i : S20000x256.Idx) : ∃ t : Fin cfg0.N, (cfg0.win 5).flush t = true ∧ i ∈ ((cfg0.win 5).blk t).view.set := by
  have hi0 : (i 0).val < 20000 := (i 0).isLt
  have hi1 : (i 1).val < 256 := (i 1).isLt
  obtain ⟨t, ht⟩ := idx_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- Kernel 0's output array after the run. -/
theorem region0_out (c : Dev nD) : (dat0 V c).arrAt 5 cfg0.N = (encW (V c main_arg0) (V c main_arg3) (V c main_v29) (V c main_v30) (V c main_v31)) :=
  (dat0 V c).arrAt_eq_of_cover 5 _ (fun t _ => flushed0_eq V c t) (cover0)

/-- A block of kernel 1's product: its rows are the matching rows of the whole product. -/
theorem lin_block1 (X : FVec Ideal S20000x256 .f32) (Wt : FVec Ideal S256x256 .f32)
    (x0 : Vec Ideal S2000x256 .f32) (x1 : Vec Ideal S256x256 .f32) (p : Fin 2000) (q : Fin 256) (a : Fin 20000)
    (h0 : ∀ k : Fin 256, x0 (ix2 p k) = X (ix2 a k)) (h1 : ∀ k : Fin 256, x1 (ix2 k q) = Wt (ix2 k q)) :
    k1_pay1 x0 x1 (ix2 p q) = Stages.lin256 (F := Ideal) X Wt (ix2 a q) := by
  unfold k1_pay1
  refine LibDotHost.matmul_block_eq_dotGeneral _ _ none none _ _ X Wt p q a q (fun k => ?_) (fun k => ?_)
  · show shapeCast S2000x256 x0 shapeCasts_S2000x256_S2000x256 (ix2 p k) = _
    rw [shapeCast_self]; exact h0 k
  · exact h1 k

/-! ## Kernel 1: a layer's linear map -/

/-- The printed index maps of kernel 1, decided over the grid: the left operand moves with the output, the weight
    matrix stays. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole product. -/
theorem flushed1_eq (c : Dev nD) (t : Fin cfg1.N) :
    (dat1 V c).flushed 2 t = ((cfg1.win 2).blk t).view.read (Elt Ideal)
      (Stages.lin256 (F := Ideal) (V c main_v32) (V c main_arg7)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  obtain ⟨e0, e1, e2, e3, e4, e5⟩ := idx_facts1 t
  funext j
  obtain ⟨p, q, rfl⟩ : ∃ (p : Fin 2000) (q : Fin 256), j = ix2 p q := ⟨j 0, j 1, eq_ix2 j⟩
  have hp : p.val < 2000 := p.isLt
  have hemb : ((cfg1.win 2).blk t).view.emb (ix2 p q)
      = ix2 (⟨win1_2.index t (0 : Fin 2) * 2000 + p.val, by omega⟩ : Fin 20000) q := by
    funext a; apply Fin.ext
    match a with
    | ⟨0, _⟩ => show win1_2.index t (0 : Fin 2) * 2000 + 1 * p.val = win1_2.index t (0 : Fin 2) * 2000 + p.val; omega
    | ⟨1, _⟩ => show win1_2.index t (1 : Fin 2) * 256 + 1 * q.val = q.val; omega
  show k1_pay1 (iblk1 V c 0 t) (iblk1 V c 1 t) (ix2 p q)
    = Stages.lin256 (F := Ideal) (V c main_v32) (V c main_arg7) (((cfg1.win 2).blk t).view.emb (ix2 p q))
  rw [hemb]
  refine lin_block1 (V c main_v32) (V c main_arg7) _ _ p q _ (fun k => ?_) (fun k => ?_)
  · show V c main_v32 (((cfg1.win 0).blk t).view.emb (ix2 p k)) = _
    refine congrArg _ ?_
    funext a; apply Fin.ext
    match a with
    | ⟨0, _⟩ => show win1_0.index t (0 : Fin 2) * 2000 + 1 * p.val = win1_2.index t (0 : Fin 2) * 2000 + p.val; omega
    | ⟨1, _⟩ => show win1_0.index t (1 : Fin 2) * 256 + 1 * k.val = k.val; omega
  · show V c main_arg7 (((cfg1.win 1).blk t).view.emb (ix2 k q)) = _
    refine congrArg _ ?_
    funext a; apply Fin.ext
    match a with
    | ⟨0, _⟩ => show win1_1.index t (0 : Fin 2) * 256 + 1 * k.val = k.val; omega
    | ⟨1, _⟩ => show win1_1.index t (1 : Fin 2) * 256 + 1 * q.val = q.val; omega

/-- An index of the output array is in point `t`'s block iff each coordinate is in the block's range. -/
theorem mem_blk1 (t : Fin cfg1.N) (i : S20000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v33).slice (win1_2.rect t)).set ↔ _
  rw [View.set_slice_whole, Rect.mem_set_unit]
  exact Iff.rfl

/-- The ten blocks tile the output array. -/
theorem cover1 (i : S20000x256.Idx) : ∃ t : Fin cfg1.N, (cfg1.win 2).flush t = true ∧ i ∈ ((cfg1.win 2).blk t).view.set := by
  have hi0 : (i 0).val < 20000 := (i 0).isLt
  have hi1 : (i 1).val < 256 := (i 1).isLt
  obtain ⟨t, ht⟩ := idx_onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- Kernel 1's output array after the run: the whole product. -/
theorem region1_out (c : Dev nD) :
    (dat1 V c).arrAt 2 cfg1.N = Stages.lin256 (F := Ideal) (V c main_v32) (V c main_arg7) :=
  (dat1 V c).arrAt_eq_of_cover 2 _ (fun t _ => flushed1_eq V c t) (cover1)

/-! ## Kernel 2: a layer's bias and normalisation -/

/-- Row p of kernel 2's block result is row a of the whole-array function, when the rows it reads are the whole
    arrays' rows. -/
theorem pay2_block (A : FVec Ideal S20000x256 .f32) (B2 G2 BE2 : Vec Ideal S1x256 .f32)
    (x0 : Vec Ideal S2000x256 .f32) (x1 x2 x3 : Vec Ideal S1x256 .f32)
    (p : Fin 2000) (q : Fin 256) (a : Fin 20000)
    (h0 : ∀ k : Fin 256, x0 (ix2 p k) = A (ix2 a k))
    (h1 : ∀ k : Fin 256, x1 (ix2 (0 : Fin 1) k) = B2 (ix2 (0 : Fin 1) k))
    (h2 : x2 (ix2 (0 : Fin 1) q) = G2 (ix2 (0 : Fin 1) q)) (h3 : x3 (ix2 (0 : Fin 1) q) = BE2 (ix2 (0 : Fin 1) q)) :
    k2_pay1 x0 x1 x2 x3 (ix2 p q) = normW A B2 G2 BE2 (ix2 a q) := by
  have hN : NormRows.normBlock (addf (shapeCast S2000x256 x0 shapeCasts_S2000x256_S2000x256) (broadcastTo S2000x256 (shapeCast S1x256 x1 shapeCasts_S1x256_S1x256) broadcasts_S1x256_S2000x256)) x2 x3 (ix2 p q)
      = Stages.normRelu (F := Ideal) (Stages.biasRow (F := Ideal) A (rowOf B2)) (rowOf G2) (rowOf BE2) (ix2 a q) := by
    refine norm_rows _ _ _ _ _ _ p q a (fun k => ?_) h2 h3
    rw [addf_apply, shapeCast_self, LibGram.broadcastTo_1b_ab_apply, shapeCast_self, biasRow_apply, h0 k, h1 k]
    rfl
  exact hN

/-- The printed index maps of kernel 2, decided over the grid: the row-blocked operands move with the output, the
    small ones stay. -/
theorem idx_facts2 : ∀ t : Fin cfg2.N, win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) ≤ 9 :=
  (by decide +kernel : ∀ t : Fin grid2.N, _)

/-- Every row block is some point's. -/
theorem idx_onto2 : ∀ q0 : Fin 10, ∃ t : Fin cfg2.N, win2_4.index t = ![q0.val, 0] :=
  (by decide +kernel : ∀ q0 : Fin 10, ∃ t : Fin grid2.N, win2_4.index t = ![q0.val, 0])

set_option maxHeartbeats 1600000 in
/-- What point `t` writes back is block `t` of the whole-array function. -/
theorem flushed2_eq (c : Dev nD) (t : Fin cfg2.N) :
    (dat2 V c).flushed 4 t = ((cfg2.win 4).blk t).view.read (Elt Ideal) (normW (V c main_v46) (V c main_v47) (V c main_v48) (V c main_v49)) := by
  show (cfg2.win 4).cut (grid2.coords t) ((dat2 V c).after 4 t) = _
  rw [after2_4]
  unfold out2_4
  rw [View.canon_unit_zero hz]
  simp only [View.ld_unit_zero (S := S2000x256) hz, View.ld_unit_zero (S := S1x256) hz]
  obtain ⟨e0, e1, e2, e3, e4, e5, e6, e7, e8, e9⟩ := idx_facts2 t
  funext j
  obtain ⟨p, q, rfl⟩ : ∃ (p : Fin 2000) (q : Fin 256), j = ix2 p q := ⟨j 0, j 1, eq_ix2 j⟩
  have hp : p.val < 2000 := p.isLt
  obtain ⟨a, hav⟩ : ∃ a : Fin 20000, a.val = win2_4.index t (0 : Fin 2) * 2000 + p.val :=
    ⟨⟨win2_4.index t (0 : Fin 2) * 2000 + p.val, by omega⟩, rfl⟩
  have hemb : ((cfg2.win 4).blk t).view.emb (ix2 p q) = ix2 a q := by
    funext ax; apply Fin.ext
    match ax with
    | ⟨0, _⟩ => show win2_4.index t (0 : Fin 2) * 2000 + 1 * p.val = a.val; omega
    | ⟨1, _⟩ => show win2_4.index t (1 : Fin 2) * 256 + 1 * q.val = q.val; omega
  show k2_pay1 (iblk2 V c 0 t) (iblk2 V c 1 t) (iblk2 V c 2 t) (iblk2 V c 3 t) (ix2 p q) = (normW (V c main_v46) (V c main_v47) (V c main_v48) (V c main_v49)) (((cfg2.win 4).blk t).view.emb (ix2 p q))
  rw [hemb]
  refine pay2_block (V c main_v46) (V c main_v47) (V c main_v48) (V c main_v49) _ _ _ _ p q a (fun k => ?_) (fun k => ?_) ?_ ?_
  · show V c main_v46 (((cfg2.win 0).blk t).view.emb (ix2 p k)) = V c main_v46 (ix2 a k)
    refine congrArg _ ?_
    funext ax; apply Fin.ext
    match ax with
    | ⟨0, _⟩ => show win2_0.index t (0 : Fin 2) * 2000 + 1 * p.val = a.val; omega
    | ⟨1, _⟩ => show win2_0.index t (1 : Fin 2) * 256 + 1 * k.val = k.val; omega
  · show V c main_v47 (((cfg2.win 1).blk t).view.emb (ix2 (0 : Fin 1) k)) = V c main_v47 (ix2 (0 : Fin 1) k)
    refine congrArg _ ?_
    funext ax; apply Fin.ext
    match ax with
    | ⟨0, _⟩ => show win2_1.index t (0 : Fin 2) * 1 + 1 * 0 = 0; omega
    | ⟨1, _⟩ => show win2_1.index t (1 : Fin 2) * 256 + 1 * k.val = k.val; omega
  · show V c main_v48 (((cfg2.win 2).blk t).view.emb (ix2 (0 : Fin 1) q)) = V c main_v48 (ix2 (0 : Fin 1) q)
    refine congrArg _ ?_
    funext ax; apply Fin.ext
    match ax with
    | ⟨0, _⟩ => show win2_2.index t (0 : Fin 2) * 1 + 1 * 0 = 0; omega
    | ⟨1, _⟩ => show win2_2.index t (1 : Fin 2) * 256 + 1 * q.val = q.val; omega
  · show V c main_v49 (((cfg2.win 3).blk t).view.emb (ix2 (0 : Fin 1) q)) = V c main_v49 (ix2 (0 : Fin 1) q)
    refine congrArg _ ?_
    funext ax; apply Fin.ext
    match ax with
    | ⟨0, _⟩ => show win2_3.index t (0 : Fin 2) * 1 + 1 * 0 = 0; omega
    | ⟨1, _⟩ => show win2_3.index t (1 : Fin 2) * 256 + 1 * q.val = q.val; omega

/-- An index of the output array is in point `t`'s block iff each coordinate is in the block's range. -/
theorem mem_blk2 (t : Fin cfg2.N) (i : S20000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v50).slice (win2_4.rect t)).set ↔ _
  rw [View.set_slice_whole, Rect.mem_set_unit]
  exact Iff.rfl

/-- The ten blocks tile the output array. -/
theorem cover2 (i : S20000x256.Idx) : ∃ t : Fin cfg2.N, (cfg2.win 4).flush t = true ∧ i ∈ ((cfg2.win 4).blk t).view.set := by
  have hi0 : (i 0).val < 20000 := (i 0).isLt
  have hi1 : (i 1).val < 256 := (i 1).isLt
  obtain ⟨t, ht⟩ := idx_onto2 ⟨(i 0).val / 2000, by omega⟩
  have q0 : win2_4.index t (0 : Fin 2) = (i 0).val / 2000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 256 ≤ (i 1).val ∧ (i 1).val < win2_4.index t (1 : Fin 2) * 256 + 256; omega

/-- Kernel 2's output array after the run. -/
theorem region2_out (c : Dev nD) : (dat2 V c).arrAt 4 cfg2.N = (normW (V c main_v46) (V c main_v47) (V c main_v48) (V c main_v49)) :=
  (dat2 V c).arrAt_eq_of_cover 4 _ (fun t _ => flushed2_eq V c t) (cover2)

/-- A block of kernel 3's product: its rows are the matching rows of the whole product. -/
theorem lin_block3 (X : FVec Ideal S20000x256 .f32) (Wt : FVec Ideal S256x256 .f32)
    (x0 : Vec Ideal S2000x256 .f32) (x1 : Vec Ideal S256x256 .f32) (p : Fin 2000) (q : Fin 256) (a : Fin 20000)
    (h0 : ∀ k : Fin 256, x0 (ix2 p k) = X (ix2 a k)) (h1 : ∀ k : Fin 256, x1 (ix2 k q) = Wt (ix2 k q)) :
    k3_pay1 x0 x1 (ix2 p q) = Stages.lin256 (F := Ideal) X Wt (ix2 a q) := by
  unfold k3_pay1
  refine LibDotHost.matmul_block_eq_dotGeneral _ _ none none _ _ X Wt p q a q (fun k => ?_) (fun k => ?_)
  · show shapeCast S2000x256 x0 shapeCasts_S2000x256_S2000x256 (ix2 p k) = _
    rw [shapeCast_self]; exact h0 k
  · exact h1 k

/-! ## Kernel 3: a layer's linear map -/

/-- The printed index maps of kernel 3, decided over the grid: the left operand moves with the output, the weight
    matrix stays. -/
theorem idx_facts3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block is some point's. -/
theorem idx_onto3 : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the whole product. -/
theorem flushed3_eq (c : Dev nD) (t : Fin cfg3.N) :
    (dat3 V c).flushed 2 t = ((cfg3.win 2).blk t).view.read (Elt Ideal)
      (Stages.lin256 (F := Ideal) (V c main_v50) (V c main_arg11)) := by
  show (cfg3.win 2).cut (grid3.coords t) ((dat3 V c).after 2 t) = _
  rw [after3_2]
  unfold out3_2
  rw [View.canon_unit_zero hz]
  simp only [View.ld_unit_zero (S := S2000x256) hz, View.ld_unit_zero (S := S256x256) hz]
  obtain ⟨e0, e1, e2, e3, e4, e5⟩ := idx_facts3 t
  funext j
  obtain ⟨p, q, rfl⟩ : ∃ (p : Fin 2000) (q : Fin 256), j = ix2 p q := ⟨j 0, j 1, eq_ix2 j⟩
  have hp : p.val < 2000 := p.isLt
  have hemb : ((cfg3.win 2).blk t).view.emb (ix2 p q)
      = ix2 (⟨win3_2.index t (0 : Fin 2) * 2000 + p.val, by omega⟩ : Fin 20000) q := by
    funext a; apply Fin.ext
    match a with
    | ⟨0, _⟩ => show win3_2.index t (0 : Fin 2) * 2000 + 1 * p.val = win3_2.index t (0 : Fin 2) * 2000 + p.val; omega
    | ⟨1, _⟩ => show win3_2.index t (1 : Fin 2) * 256 + 1 * q.val = q.val; omega
  show k3_pay1 (iblk3 V c 0 t) (iblk3 V c 1 t) (ix2 p q)
    = Stages.lin256 (F := Ideal) (V c main_v50) (V c main_arg11) (((cfg3.win 2).blk t).view.emb (ix2 p q))
  rw [hemb]
  refine lin_block3 (V c main_v50) (V c main_arg11) _ _ p q _ (fun k => ?_) (fun k => ?_)
  · show V c main_v50 (((cfg3.win 0).blk t).view.emb (ix2 p k)) = _
    refine congrArg _ ?_
    funext a; apply Fin.ext
    match a with
    | ⟨0, _⟩ => show win3_0.index t (0 : Fin 2) * 2000 + 1 * p.val = win3_2.index t (0 : Fin 2) * 2000 + p.val; omega
    | ⟨1, _⟩ => show win3_0.index t (1 : Fin 2) * 256 + 1 * k.val = k.val; omega
  · show V c main_arg11 (((cfg3.win 1).blk t).view.emb (ix2 k q)) = _
    refine congrArg _ ?_
    funext a; apply Fin.ext
    match a with
    | ⟨0, _⟩ => show win3_1.index t (0 : Fin 2) * 256 + 1 * k.val = k.val; omega
    | ⟨1, _⟩ => show win3_1.index t (1 : Fin 2) * 256 + 1 * q.val = q.val; omega

/-- An index of the output array is in point `t`'s block iff each coordinate is in the block's range. -/
theorem mem_blk3 (t : Fin cfg3.N) (i : S20000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v51).slice (win3_2.rect t)).set ↔ _
  rw [View.set_slice_whole, Rect.mem_set_unit]
  exact Iff.rfl

/-- The ten blocks tile the output array. -/
theorem cover3 (i : S20000x256.Idx) : ∃ t : Fin cfg3.N, (cfg3.win 2).flush t = true ∧ i ∈ ((cfg3.win 2).blk t).view.set := by
  have hi0 : (i 0).val < 20000 := (i 0).isLt
  have hi1 : (i 1).val < 256 := (i 1).isLt
  obtain ⟨t, ht⟩ := idx_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- Kernel 3's output array after the run: the whole product. -/
theorem region3_out (c : Dev nD) :
    (dat3 V c).arrAt 2 cfg3.N = Stages.lin256 (F := Ideal) (V c main_v50) (V c main_arg11) :=
  (dat3 V c).arrAt_eq_of_cover 2 _ (fun t _ => flushed3_eq V c t) (cover3)

/-! ## Kernel 4: a layer's bias, normalisation and residual -/

/-- Row p of kernel 4's block result is row a of the whole-array function, when the rows it reads are the whole
    arrays' rows. -/
theorem pay4_block (A : FVec Ideal S20000x256 .f32) (B2 G2 BE2 : Vec Ideal S1x256 .f32) (RES : FVec Ideal S20000x256 .f32)
    (x0 : Vec Ideal S2000x256 .f32) (x1 x2 x3 : Vec Ideal S1x256 .f32) (x4 : Vec Ideal S2000x256 .f32)
    (p : Fin 2000) (q : Fin 256) (a : Fin 20000)
    (h0 : ∀ k : Fin 256, x0 (ix2 p k) = A (ix2 a k))
    (h1 : ∀ k : Fin 256, x1 (ix2 (0 : Fin 1) k) = B2 (ix2 (0 : Fin 1) k))
    (h2 : x2 (ix2 (0 : Fin 1) q) = G2 (ix2 (0 : Fin 1) q)) (h3 : x3 (ix2 (0 : Fin 1) q) = BE2 (ix2 (0 : Fin 1) q)) (h4 : x4 (ix2 p q) = RES (ix2 a q)) :
    k4_pay1 x0 x1 x2 x3 x4 (ix2 p q) = normResW A B2 G2 BE2 RES (ix2 a q) := by
  have hN : NormRows.normBlock (addf (shapeCast S2000x256 x0 shapeCasts_S2000x256_S2000x256) (broadcastTo S2000x256 (shapeCast S1x256 x1 shapeCasts_S1x256_S1x256) broadcasts_S1x256_S2000x256)) x2 x3 (ix2 p q)
      = Stages.normRelu (F := Ideal) (Stages.biasRow (F := Ideal) A (rowOf B2)) (rowOf G2) (rowOf BE2) (ix2 a q) := by
    refine norm_rows _ _ _ _ _ _ p q a (fun k => ?_) h2 h3
    rw [addf_apply, shapeCast_self, LibGram.broadcastTo_1b_ab_apply, shapeCast_self, biasRow_apply, h0 k, h1 k]
    rfl
  show addf (NormRows.normBlock (addf (shapeCast S2000x256 x0 shapeCasts_S2000x256_S2000x256) (broadcastTo S2000x256 (shapeCast S1x256 x1 shapeCasts_S1x256_S1x256) broadcasts_S1x256_S2000x256)) x2 x3) (shapeCast S2000x256 x4 shapeCasts_S2000x256_S2000x256) (ix2 p q)
    = addf (Stages.normRelu (F := Ideal) (Stages.biasRow (F := Ideal) A (rowOf B2)) (rowOf G2) (rowOf BE2)) RES (ix2 a q)
  rw [addf_apply, addf_apply, hN, shapeCast_self, h4]

/-- The printed index maps of kernel 4, decided over the grid: the row-blocked operands move with the output, the
    small ones stay. -/
theorem idx_facts4 : ∀ t : Fin cfg4.N, win4_0.index t (0 : Fin 2) = win4_5.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = win4_5.index t (0 : Fin 2)
    ∧ win4_4.index t (1 : Fin 2) = 0
    ∧ win4_5.index t (1 : Fin 2) = 0
    ∧ win4_5.index t (0 : Fin 2) ≤ 9 :=
  (by decide +kernel : ∀ t : Fin grid4.N, _)

/-- Every row block is some point's. -/
theorem idx_onto4 : ∀ q0 : Fin 10, ∃ t : Fin cfg4.N, win4_5.index t = ![q0.val, 0] :=
  (by decide +kernel : ∀ q0 : Fin 10, ∃ t : Fin grid4.N, win4_5.index t = ![q0.val, 0])

set_option maxHeartbeats 1600000 in
/-- What point `t` writes back is block `t` of the whole-array function. -/
theorem flushed4_eq (c : Dev nD) (t : Fin cfg4.N) :
    (dat4 V c).flushed 5 t = ((cfg4.win 5).blk t).view.read (Elt Ideal) (normResW (V c main_v64) (V c main_v65) (V c main_v66) (V c main_v67) (V c main_v50)) := by
  show (cfg4.win 5).cut (grid4.coords t) ((dat4 V c).after 5 t) = _
  rw [after4_5]
  unfold out4_5
  rw [View.canon_unit_zero hz]
  simp only [View.ld_unit_zero (S := S2000x256) hz, View.ld_unit_zero (S := S1x256) hz]
  obtain ⟨e0, e1, e2, e3, e4, e5, e6, e7, e8, e9, e10, e11⟩ := idx_facts4 t
  funext j
  obtain ⟨p, q, rfl⟩ : ∃ (p : Fin 2000) (q : Fin 256), j = ix2 p q := ⟨j 0, j 1, eq_ix2 j⟩
  have hp : p.val < 2000 := p.isLt
  obtain ⟨a, hav⟩ : ∃ a : Fin 20000, a.val = win4_5.index t (0 : Fin 2) * 2000 + p.val :=
    ⟨⟨win4_5.index t (0 : Fin 2) * 2000 + p.val, by omega⟩, rfl⟩
  have hemb : ((cfg4.win 5).blk t).view.emb (ix2 p q) = ix2 a q := by
    funext ax; apply Fin.ext
    match ax with
    | ⟨0, _⟩ => show win4_5.index t (0 : Fin 2) * 2000 + 1 * p.val = a.val; omega
    | ⟨1, _⟩ => show win4_5.index t (1 : Fin 2) * 256 + 1 * q.val = q.val; omega
  show k4_pay1 (iblk4 V c 0 t) (iblk4 V c 1 t) (iblk4 V c 2 t) (iblk4 V c 3 t) (iblk4 V c 4 t) (ix2 p q) = (normResW (V c main_v64) (V c main_v65) (V c main_v66) (V c main_v67) (V c main_v50)) (((cfg4.win 5).blk t).view.emb (ix2 p q))
  rw [hemb]
  refine pay4_block (V c main_v64) (V c main_v65) (V c main_v66) (V c main_v67) (V c main_v50) _ _ _ _ _ p q a (fun k => ?_) (fun k => ?_) ?_ ?_ ?_
  · show V c main_v64 (((cfg4.win 0).blk t).view.emb (ix2 p k)) = V c main_v64 (ix2 a k)
    refine congrArg _ ?_
    funext ax; apply Fin.ext
    match ax with
    | ⟨0, _⟩ => show win4_0.index t (0 : Fin 2) * 2000 + 1 * p.val = a.val; omega
    | ⟨1, _⟩ => show win4_0.index t (1 : Fin 2) * 256 + 1 * k.val = k.val; omega
  · show V c main_v65 (((cfg4.win 1).blk t).view.emb (ix2 (0 : Fin 1) k)) = V c main_v65 (ix2 (0 : Fin 1) k)
    refine congrArg _ ?_
    funext ax; apply Fin.ext
    match ax with
    | ⟨0, _⟩ => show win4_1.index t (0 : Fin 2) * 1 + 1 * 0 = 0; omega
    | ⟨1, _⟩ => show win4_1.index t (1 : Fin 2) * 256 + 1 * k.val = k.val; omega
  · show V c main_v66 (((cfg4.win 2).blk t).view.emb (ix2 (0 : Fin 1) q)) = V c main_v66 (ix2 (0 : Fin 1) q)
    refine congrArg _ ?_
    funext ax; apply Fin.ext
    match ax with
    | ⟨0, _⟩ => show win4_2.index t (0 : Fin 2) * 1 + 1 * 0 = 0; omega
    | ⟨1, _⟩ => show win4_2.index t (1 : Fin 2) * 256 + 1 * q.val = q.val; omega
  · show V c main_v67 (((cfg4.win 3).blk t).view.emb (ix2 (0 : Fin 1) q)) = V c main_v67 (ix2 (0 : Fin 1) q)
    refine congrArg _ ?_
    funext ax; apply Fin.ext
    match ax with
    | ⟨0, _⟩ => show win4_3.index t (0 : Fin 2) * 1 + 1 * 0 = 0; omega
    | ⟨1, _⟩ => show win4_3.index t (1 : Fin 2) * 256 + 1 * q.val = q.val; omega
  · show V c main_v50 (((cfg4.win 4).blk t).view.emb (ix2 p q)) = V c main_v50 (ix2 a q)
    refine congrArg _ ?_
    funext ax; apply Fin.ext
    match ax with
    | ⟨0, _⟩ => show win4_4.index t (0 : Fin 2) * 2000 + 1 * p.val = a.val; omega
    | ⟨1, _⟩ => show win4_4.index t (1 : Fin 2) * 256 + 1 * q.val = q.val; omega

/-- An index of the output array is in point `t`'s block iff each coordinate is in the block's range. -/
theorem mem_blk4 (t : Fin cfg4.N) (i : S20000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v68).slice (win4_5.rect t)).set ↔ _
  rw [View.set_slice_whole, Rect.mem_set_unit]
  exact Iff.rfl

/-- The ten blocks tile the output array. -/
theorem cover4 (i : S20000x256.Idx) : ∃ t : Fin cfg4.N, (cfg4.win 5).flush t = true ∧ i ∈ ((cfg4.win 5).blk t).view.set := by
  have hi0 : (i 0).val < 20000 := (i 0).isLt
  have hi1 : (i 1).val < 256 := (i 1).isLt
  obtain ⟨t, ht⟩ := idx_onto4 ⟨(i 0).val / 2000, by omega⟩
  have q0 : win4_5.index t (0 : Fin 2) = (i 0).val / 2000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 256 ≤ (i 1).val ∧ (i 1).val < win4_5.index t (1 : Fin 2) * 256 + 256; omega

/-- Kernel 4's output array after the run. -/
theorem region4_out (c : Dev nD) : (dat4 V c).arrAt 5 cfg4.N = (normResW (V c main_v64) (V c main_v65) (V c main_v66) (V c main_v67) (V c main_v50)) :=
  (dat4 V c).arrAt_eq_of_cover 5 _ (fun t _ => flushed4_eq V c t) (cover4)

/-- A block of kernel 5's product: its rows are the matching rows of the whole product. -/
theorem lin_block5 (X : FVec Ideal S20000x256 .f32) (Wt : FVec Ideal S256x256 .f32)
    (x0 : Vec Ideal S2000x256 .f32) (x1 : Vec Ideal S256x256 .f32) (p : Fin 2000) (q : Fin 256) (a : Fin 20000)
    (h0 : ∀ k : Fin 256, x0 (ix2 p k) = X (ix2 a k)) (h1 : ∀ k : Fin 256, x1 (ix2 k q) = Wt (ix2 k q)) :
    k5_pay1 x0 x1 (ix2 p q) = Stages.lin256 (F := Ideal) X Wt (ix2 a q) := by
  unfold k5_pay1
  refine LibDotHost.matmul_block_eq_dotGeneral _ _ none none _ _ X Wt p q a q (fun k => ?_) (fun k => ?_)
  · show shapeCast S2000x256 x0 shapeCasts_S2000x256_S2000x256 (ix2 p k) = _
    rw [shapeCast_self]; exact h0 k
  · exact h1 k

/-! ## Kernel 5: a layer's linear map -/

/-- The printed index maps of kernel 5, decided over the grid: the left operand moves with the output, the weight
    matrix stays. -/
theorem idx_facts5 : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every row block is some point's. -/
theorem idx_onto5 : ∀ q0 : Fin 10, ∃ t : Fin cfg5.N, win5_2.index t = ![q0.val, 0] :=
  (by decide +kernel : ∀ q0 : Fin 10, ∃ t : Fin grid5.N, win5_2.index t = ![q0.val, 0])

/-- What point `t` writes back is block `t` of the whole product. -/
theorem flushed5_eq (c : Dev nD) (t : Fin cfg5.N) :
    (dat5 V c).flushed 2 t = ((cfg5.win 2).blk t).view.read (Elt Ideal)
      (Stages.lin256 (F := Ideal) (V c main_v68) (V c main_arg15)) := by
  show (cfg5.win 2).cut (grid5.coords t) ((dat5 V c).after 2 t) = _
  rw [after5_2]
  unfold out5_2
  rw [View.canon_unit_zero hz]
  simp only [View.ld_unit_zero (S := S2000x256) hz, View.ld_unit_zero (S := S256x256) hz]
  obtain ⟨e0, e1, e2, e3, e4, e5⟩ := idx_facts5 t
  funext j
  obtain ⟨p, q, rfl⟩ : ∃ (p : Fin 2000) (q : Fin 256), j = ix2 p q := ⟨j 0, j 1, eq_ix2 j⟩
  have hp : p.val < 2000 := p.isLt
  have hemb : ((cfg5.win 2).blk t).view.emb (ix2 p q)
      = ix2 (⟨win5_2.index t (0 : Fin 2) * 2000 + p.val, by omega⟩ : Fin 20000) q := by
    funext a; apply Fin.ext
    match a with
    | ⟨0, _⟩ => show win5_2.index t (0 : Fin 2) * 2000 + 1 * p.val = win5_2.index t (0 : Fin 2) * 2000 + p.val; omega
    | ⟨1, _⟩ => show win5_2.index t (1 : Fin 2) * 256 + 1 * q.val = q.val; omega
  show k5_pay1 (iblk5 V c 0 t) (iblk5 V c 1 t) (ix2 p q)
    = Stages.lin256 (F := Ideal) (V c main_v68) (V c main_arg15) (((cfg5.win 2).blk t).view.emb (ix2 p q))
  rw [hemb]
  refine lin_block5 (V c main_v68) (V c main_arg15) _ _ p q _ (fun k => ?_) (fun k => ?_)
  · show V c main_v68 (((cfg5.win 0).blk t).view.emb (ix2 p k)) = _
    refine congrArg _ ?_
    funext a; apply Fin.ext
    match a with
    | ⟨0, _⟩ => show win5_0.index t (0 : Fin 2) * 2000 + 1 * p.val = win5_2.index t (0 : Fin 2) * 2000 + p.val; omega
    | ⟨1, _⟩ => show win5_0.index t (1 : Fin 2) * 256 + 1 * k.val = k.val; omega
  · show V c main_arg15 (((cfg5.win 1).blk t).view.emb (ix2 k q)) = _
    refine congrArg _ ?_
    funext a; apply Fin.ext
    match a with
    | ⟨0, _⟩ => show win5_1.index t (0 : Fin 2) * 256 + 1 * k.val = k.val; omega
    | ⟨1, _⟩ => show win5_1.index t (1 : Fin 2) * 256 + 1 * q.val = q.val; omega

/-- An index of the output array is in point `t`'s block iff each coordinate is in the block's range. -/
theorem mem_blk5 (t : Fin cfg5.N) (i : S20000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v69).slice (win5_2.rect t)).set ↔ _
  rw [View.set_slice_whole, Rect.mem_set_unit]
  exact Iff.rfl

/-- The ten blocks tile the output array. -/
theorem cover5 (i : S20000x256.Idx) : ∃ t : Fin cfg5.N, (cfg5.win 2).flush t = true ∧ i ∈ ((cfg5.win 2).blk t).view.set := by
  have hi0 : (i 0).val < 20000 := (i 0).isLt
  have hi1 : (i 1).val < 256 := (i 1).isLt
  obtain ⟨t, ht⟩ := idx_onto5 ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 256 ≤ (i 1).val ∧ (i 1).val < win5_2.index t (1 : Fin 2) * 256 + 256; omega

/-- Kernel 5's output array after the run: the whole product. -/
theorem region5_out (c : Dev nD) :
    (dat5 V c).arrAt 2 cfg5.N = Stages.lin256 (F := Ideal) (V c main_v68) (V c main_arg15) :=
  (dat5 V c).arrAt_eq_of_cover 2 _ (fun t _ => flushed5_eq V c t) (cover5)

/-! ## Kernel 6: a layer's bias, normalisation and residual -/

/-- Row p of kernel 6's block result is row a of the whole-array function, when the rows it reads are the whole
    arrays' rows. -/
theorem pay6_block (A : FVec Ideal S20000x256 .f32) (B2 G2 BE2 : Vec Ideal S1x256 .f32) (RES : FVec Ideal S20000x256 .f32)
    (x0 : Vec Ideal S2000x256 .f32) (x1 x2 x3 : Vec Ideal S1x256 .f32) (x4 : Vec Ideal S2000x256 .f32)
    (p : Fin 2000) (q : Fin 256) (a : Fin 20000)
    (h0 : ∀ k : Fin 256, x0 (ix2 p k) = A (ix2 a k))
    (h1 : ∀ k : Fin 256, x1 (ix2 (0 : Fin 1) k) = B2 (ix2 (0 : Fin 1) k))
    (h2 : x2 (ix2 (0 : Fin 1) q) = G2 (ix2 (0 : Fin 1) q)) (h3 : x3 (ix2 (0 : Fin 1) q) = BE2 (ix2 (0 : Fin 1) q)) (h4 : x4 (ix2 p q) = RES (ix2 a q)) :
    k6_pay1 x0 x1 x2 x3 x4 (ix2 p q) = normResW A B2 G2 BE2 RES (ix2 a q) := by
  have hN : NormRows.normBlock (addf (shapeCast S2000x256 x0 shapeCasts_S2000x256_S2000x256) (broadcastTo S2000x256 (shapeCast S1x256 x1 shapeCasts_S1x256_S1x256) broadcasts_S1x256_S2000x256)) x2 x3 (ix2 p q)
      = Stages.normRelu (F := Ideal) (Stages.biasRow (F := Ideal) A (rowOf B2)) (rowOf G2) (rowOf BE2) (ix2 a q) := by
    refine norm_rows _ _ _ _ _ _ p q a (fun k => ?_) h2 h3
    rw [addf_apply, shapeCast_self, LibGram.broadcastTo_1b_ab_apply, shapeCast_self, biasRow_apply, h0 k, h1 k]
    rfl
  show addf (NormRows.normBlock (addf (shapeCast S2000x256 x0 shapeCasts_S2000x256_S2000x256) (broadcastTo S2000x256 (shapeCast S1x256 x1 shapeCasts_S1x256_S1x256) broadcasts_S1x256_S2000x256)) x2 x3) (shapeCast S2000x256 x4 shapeCasts_S2000x256_S2000x256) (ix2 p q)
    = addf (Stages.normRelu (F := Ideal) (Stages.biasRow (F := Ideal) A (rowOf B2)) (rowOf G2) (rowOf BE2)) RES (ix2 a q)
  rw [addf_apply, addf_apply, hN, shapeCast_self, h4]

/-- The printed index maps of kernel 6, decided over the grid: the row-blocked operands move with the output, the
    small ones stay. -/
theorem idx_facts6 : ∀ t : Fin cfg6.N, win6_0.index t (0 : Fin 2) = win6_5.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = win6_5.index t (0 : Fin 2)
    ∧ win6_4.index t (1 : Fin 2) = 0
    ∧ win6_5.index t (1 : Fin 2) = 0
    ∧ win6_5.index t (0 : Fin 2) ≤ 9 :=
  (by decide +kernel : ∀ t : Fin grid6.N, _)

/-- Every row block is some point's. -/
theorem idx_onto6 : ∀ q0 : Fin 10, ∃ t : Fin cfg6.N, win6_5.index t = ![q0.val, 0] :=
  (by decide +kernel : ∀ q0 : Fin 10, ∃ t : Fin grid6.N, win6_5.index t = ![q0.val, 0])

set_option maxHeartbeats 1600000 in
/-- What point `t` writes back is block `t` of the whole-array function. -/
theorem flushed6_eq (c : Dev nD) (t : Fin cfg6.N) :
    (dat6 V c).flushed 5 t = ((cfg6.win 5).blk t).view.read (Elt Ideal) (normResW (V c main_v82) (V c main_v83) (V c main_v84) (V c main_v85) (V c main_v68)) := by
  show (cfg6.win 5).cut (grid6.coords t) ((dat6 V c).after 5 t) = _
  rw [after6_5]
  unfold out6_5
  rw [View.canon_unit_zero hz]
  simp only [View.ld_unit_zero (S := S2000x256) hz, View.ld_unit_zero (S := S1x256) hz]
  obtain ⟨e0, e1, e2, e3, e4, e5, e6, e7, e8, e9, e10, e11⟩ := idx_facts6 t
  funext j
  obtain ⟨p, q, rfl⟩ : ∃ (p : Fin 2000) (q : Fin 256), j = ix2 p q := ⟨j 0, j 1, eq_ix2 j⟩
  have hp : p.val < 2000 := p.isLt
  obtain ⟨a, hav⟩ : ∃ a : Fin 20000, a.val = win6_5.index t (0 : Fin 2) * 2000 + p.val :=
    ⟨⟨win6_5.index t (0 : Fin 2) * 2000 + p.val, by omega⟩, rfl⟩
  have hemb : ((cfg6.win 5).blk t).view.emb (ix2 p q) = ix2 a q := by
    funext ax; apply Fin.ext
    match ax with
    | ⟨0, _⟩ => show win6_5.index t (0 : Fin 2) * 2000 + 1 * p.val = a.val; omega
    | ⟨1, _⟩ => show win6_5.index t (1 : Fin 2) * 256 + 1 * q.val = q.val; omega
  show k6_pay1 (iblk6 V c 0 t) (iblk6 V c 1 t) (iblk6 V c 2 t) (iblk6 V c 3 t) (iblk6 V c 4 t) (ix2 p q) = (normResW (V c main_v82) (V c main_v83) (V c main_v84) (V c main_v85) (V c main_v68)) (((cfg6.win 5).blk t).view.emb (ix2 p q))
  rw [hemb]
  refine pay6_block (V c main_v82) (V c main_v83) (V c main_v84) (V c main_v85) (V c main_v68) _ _ _ _ _ p q a (fun k => ?_) (fun k => ?_) ?_ ?_ ?_
  · show V c main_v82 (((cfg6.win 0).blk t).view.emb (ix2 p k)) = V c main_v82 (ix2 a k)
    refine congrArg _ ?_
    funext ax; apply Fin.ext
    match ax with
    | ⟨0, _⟩ => show win6_0.index t (0 : Fin 2) * 2000 + 1 * p.val = a.val; omega
    | ⟨1, _⟩ => show win6_0.index t (1 : Fin 2) * 256 + 1 * k.val = k.val; omega
  · show V c main_v83 (((cfg6.win 1).blk t).view.emb (ix2 (0 : Fin 1) k)) = V c main_v83 (ix2 (0 : Fin 1) k)
    refine congrArg _ ?_
    funext ax; apply Fin.ext
    match ax with
    | ⟨0, _⟩ => show win6_1.index t (0 : Fin 2) * 1 + 1 * 0 = 0; omega
    | ⟨1, _⟩ => show win6_1.index t (1 : Fin 2) * 256 + 1 * k.val = k.val; omega
  · show V c main_v84 (((cfg6.win 2).blk t).view.emb (ix2 (0 : Fin 1) q)) = V c main_v84 (ix2 (0 : Fin 1) q)
    refine congrArg _ ?_
    funext ax; apply Fin.ext
    match ax with
    | ⟨0, _⟩ => show win6_2.index t (0 : Fin 2) * 1 + 1 * 0 = 0; omega
    | ⟨1, _⟩ => show win6_2.index t (1 : Fin 2) * 256 + 1 * q.val = q.val; omega
  · show V c main_v85 (((cfg6.win 3).blk t).view.emb (ix2 (0 : Fin 1) q)) = V c main_v85 (ix2 (0 : Fin 1) q)
    refine congrArg _ ?_
    funext ax; apply Fin.ext
    match ax with
    | ⟨0, _⟩ => show win6_3.index t (0 : Fin 2) * 1 + 1 * 0 = 0; omega
    | ⟨1, _⟩ => show win6_3.index t (1 : Fin 2) * 256 + 1 * q.val = q.val; omega
  · show V c main_v68 (((cfg6.win 4).blk t).view.emb (ix2 p q)) = V c main_v68 (ix2 a q)
    refine congrArg _ ?_
    funext ax; apply Fin.ext
    match ax with
    | ⟨0, _⟩ => show win6_4.index t (0 : Fin 2) * 2000 + 1 * p.val = a.val; omega
    | ⟨1, _⟩ => show win6_4.index t (1 : Fin 2) * 256 + 1 * q.val = q.val; omega

/-- An index of the output array is in point `t`'s block iff each coordinate is in the block's range. -/
theorem mem_blk6 (t : Fin cfg6.N) (i : S20000x256.Idx) :
    i ∈ ((cfg6.win 5).blk t).view.set ↔ ∀ a : Fin 2, win6_5.index t a * S2000x256.size a ≤ (i a).val ∧ (i a).val < win6_5.index t a * S2000x256.size a + S2000x256.size a := by
  show i ∈ ((View.whole main_v86).slice (win6_5.rect t)).set ↔ _
  rw [View.set_slice_whole, Rect.mem_set_unit]
  exact Iff.rfl

/-- The ten blocks tile the output array. -/
theorem cover6 (i : S20000x256.Idx) : ∃ t : Fin cfg6.N, (cfg6.win 5).flush t = true ∧ i ∈ ((cfg6.win 5).blk t).view.set := by
  have hi0 : (i 0).val < 20000 := (i 0).isLt
  have hi1 : (i 1).val < 256 := (i 1).isLt
  obtain ⟨t, ht⟩ := idx_onto6 ⟨(i 0).val / 2000, by omega⟩
  have q0 : win6_5.index t (0 : Fin 2) = (i 0).val / 2000 := congrFun ht 0
  have q1 : win6_5.index t (1 : Fin 2) = 0 := congrFun ht 1
  refine ⟨t, flush6_5 t, ?_⟩
  rw [mem_blk6]
  intro a
  match a with
  | ⟨0, _⟩ => show win6_5.index t (0 : Fin 2) * 2000 ≤ (i 0).val ∧ (i 0).val < win6_5.index t (0 : Fin 2) * 2000 + 2000; omega
  | ⟨1, _⟩ => show win6_5.index t (1 : Fin 2) * 256 ≤ (i 1).val ∧ (i 1).val < win6_5.index t (1 : Fin 2) * 256 + 256; omega

/-- Kernel 6's output array after the run. -/
theorem region6_out (c : Dev nD) : (dat6 V c).arrAt 5 cfg6.N = (normResW (V c main_v82) (V c main_v83) (V c main_v84) (V c main_v85) (V c main_v68)) :=
  (dat6 V c).arrAt_eq_of_cover 5 _ (fun t _ => flushed6_eq V c t) (cover6)

end Cert.Blocks

end
-- ==== Proof.Net.lean ====
/-
  The whole network as one function of its 27 argument arrays: the encoder, three graph layers (the second and third
  with the previous layer's output added back), and the pooling head.
-/
import proofs.«105231_j1443109011557_1_alg».proof.Proof.Stages

noncomputable section

namespace Cert.Stages

open Idealize.ShloMosaic Idealize.ShloMosaic.TcCoe Cert.ReferenceIdeal Cert.ReferenceIdeal.Facts₀ Cert.ReferenceIdeal.Facts

variable {F : FTy → Type} [FloatOps F]

/-- The sum of a layer's output and the layer before it. -/
noncomputable def resAdd (x r : (Cert.ReferenceIdeal.main_v166).ty.Contents (Elt F)) : (Cert.ReferenceIdeal.main_v167).ty.Contents (Elt F) :=
  ((addf : (⟨S20000x256, .f32⟩ : BufTy).Contents (Elt F) → (⟨S20000x256, .f32⟩ : BufTy).Contents (Elt F) → (⟨S20000x256, .f32⟩ : BufTy).Contents (Elt F))) x r

/-- One graph layer: the linear map, the weighted sum over edges, the bias row, the normalisation. -/
noncomputable def layer (h : (Cert.ReferenceIdeal.main_v32).ty.Contents (Elt F)) (w : (Cert.ReferenceIdeal.main_arg7).ty.Contents (Elt F)) (e : (Cert.ReferenceIdeal.main_arg1).ty.Contents (Elt F))
    (b : (Cert.ReferenceIdeal.main_arg8).ty.Contents (Elt F)) (g : (Cert.ReferenceIdeal.main_arg9).ty.Contents (Elt F)) (be : (Cert.ReferenceIdeal.main_arg10).ty.Contents (Elt F)) : (Cert.ReferenceIdeal.main_v99).ty.Contents (Elt F) :=
  normRelu (F := F) (biasRow (F := F) (aggCore (F := F) (lin256 (F := F) h w) (sfull (F := F) (srcOf (F := F) e)) (dfull (F := F) (dstOf (F := F) e))
    (weOf (F := F) (sfull (F := F) (srcOf (F := F) e)) (dfull (F := F) (dstOf (F := F) e)))) b) g be

/-- The network's output from its arguments. -/
noncomputable def netOut (a0 : (Cert.ReferenceIdeal.main_arg0).ty.Contents (Elt F)) (a1 : (Cert.ReferenceIdeal.main_arg1).ty.Contents (Elt F)) (a2 : (Cert.ReferenceIdeal.main_arg2).ty.Contents (Elt F)) (a3 : (Cert.ReferenceIdeal.main_arg3).ty.Contents (Elt F)) (a4 : (Cert.ReferenceIdeal.main_arg4).ty.Contents (Elt F)) (a5 : (Cert.ReferenceIdeal.main_arg5).ty.Contents (Elt F)) (a6 : (Cert.ReferenceIdeal.main_arg6).ty.Contents (Elt F)) (a7 : (Cert.ReferenceIdeal.main_arg7).ty.Contents (Elt F)) (a8 : (Cert.ReferenceIdeal.main_arg8).ty.Contents (Elt F)) (a9 : (Cert.ReferenceIdeal.main_arg9).ty.Contents (Elt F)) (a10 : (Cert.ReferenceIdeal.main_arg10).ty.Contents (Elt F)) (a11 : (Cert.ReferenceIdeal.main_arg11).ty.Contents (Elt F)) (a12 : (Cert.ReferenceIdeal.main_arg12).ty.Contents (Elt F)) (a13 : (Cert.ReferenceIdeal.main_arg13).ty.Contents (Elt F)) (a14 : (Cert.ReferenceIdeal.main_arg14).ty.Contents (Elt F)) (a15 : (Cert.ReferenceIdeal.main_arg15).ty.Contents (Elt F)) (a16 : (Cert.ReferenceIdeal.main_arg16).ty.Contents (Elt F)) (a17 : (Cert.ReferenceIdeal.main_arg17).ty.Contents (Elt F)) (a18 : (Cert.ReferenceIdeal.main_arg18).ty.Contents (Elt F)) (a19 : (Cert.ReferenceIdeal.main_arg19).ty.Contents (Elt F)) (a20 : (Cert.ReferenceIdeal.main_arg20).ty.Contents (Elt F)) (a21 : (Cert.ReferenceIdeal.main_arg21).ty.Contents (Elt F)) (a22 : (Cert.ReferenceIdeal.main_arg22).ty.Contents (Elt F)) (a23 : (Cert.ReferenceIdeal.main_arg23).ty.Contents (Elt F)) (a24 : (Cert.ReferenceIdeal.main_arg24).ty.Contents (Elt F)) (a25 : (Cert.ReferenceIdeal.main_arg25).ty.Contents (Elt F)) (a26 : (Cert.ReferenceIdeal.main_arg26).ty.Contents (Elt F)) :
    (Cert.ReferenceIdeal.main_v294).ty.Contents (Elt F) :=
  tailOf (F := F)
    (resAdd (F := F) (layer (F := F)
        (resAdd (F := F) (layer (F := F) (layer (F := F) (normRelu (F := F) (biasRow (F := F) (lin128 (F := F) a0 a3) a4) a5 a6) a7 a1 a8 a9 a10) a11 a1 a12 a13 a14)
          (layer (F := F) (normRelu (F := F) (biasRow (F := F) (lin128 (F := F) a0 a3) a4) a5 a6) a7 a1 a8 a9 a10))
        a15 a1 a16 a17 a18)
      (resAdd (F := F) (layer (F := F) (layer (F := F) (normRelu (F := F) (biasRow (F := F) (lin128 (F := F) a0 a3) a4) a5 a6) a7 a1 a8 a9 a10) a11 a1 a12 a13 a14)
          (layer (F := F) (normRelu (F := F) (biasRow (F := F) (lin128 (F := F) a0 a3) a4) a5 a6) a7 a1 a8 a9 a10)))
    a2 a19 a20 a21 a22 a23 a24 a25 a26

end Cert.Stages

end
-- ==== Proof.KernelValue.lean ====
/-
  The idealized kernel's result as the network function of its arguments.

  Boundary by boundary through the sixteen segments: the first stretch leaves the edge lists, the edge weights and
  the encoder's bias, scale and shift rows; kernel 0 leaves the encoder's output; then, for each of the three layers,
  a kernel leaves the linear map's output, a stretch the weighted sum over edges and the layer's rows, and a kernel
  the normalised layer output (with the previous layer's output added back in the second and third); the last five
  stretches are the pooling head. Arguments, edge lists and weights, and the residual inputs are read at each boundary
  as they were first written.
-/
import proofs.«105231_j1443109011557_1_alg».proof.Proof.KernelRun
import proofs.«105231_j1443109011557_1_alg».proof.Proof.KernelKeep
import proofs.«105231_j1443109011557_1_alg».proof.Proof.KernelStretch
import proofs.«105231_j1443109011557_1_alg».proof.Proof.Blocks
import proofs.«105231_j1443109011557_1_alg».proof.Proof.Net

set_option maxRecDepth 16384

noncomputable section

namespace Cert.KernelIdeal.RunValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

set_option maxHeartbeats 16000000 in
/-- What the fold through the sixteen segments leaves in the result buffer: the network function of the launch
    memory's argument arrays. -/
theorem fold_out (c : Dev nD) :
    W16 m ρ c (Proc.devRef .tc main_v145)
      = Stages.netOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := by
  -- after the first stretch
  have hS1 : W1 m ρ c (Proc.devRef .tc main_v5) = (Stages.sfull (F := Ideal) (Stages.srcOf (F := Ideal) (m ((c.tc : Thread nD τ).loc main_arg1)))) := Stretch.h0_s (W0 m ρ c)
  have hD1 : W1 m ρ c (Proc.devRef .tc main_v6) = (Stages.dfull (F := Ideal) (Stages.dstOf (F := Ideal) (m ((c.tc : Thread nD τ).loc main_arg1)))) := Stretch.h0_d (W0 m ρ c)
  have hWE1 : W1 m ρ c (Proc.devRef .tc main_v28) = (Stages.weOf (F := Ideal) (Stages.sfull (F := Ideal) (Stages.srcOf (F := Ideal) (m ((c.tc : Thread nD τ).loc main_arg1)))) (Stages.dfull (F := Ideal) (Stages.dstOf (F := Ideal) (m ((c.tc : Thread nD τ).loc main_arg1))))) := Stretch.h0_we (W0 m ρ c)
  have hb1 : W1 m ρ c (Proc.devRef .tc main_v29) = (shapeCast S1x256 (m ((c.tc : Thread nD τ).loc main_arg4)) Facts₀.shapeCasts_S256_S1x256) := Stretch.h0_b (W0 m ρ c)
  have hg1 : W1 m ρ c (Proc.devRef .tc main_v30) = (shapeCast S1x256 (m ((c.tc : Thread nD τ).loc main_arg5)) Facts₀.shapeCasts_S256_S1x256) := Stretch.h0_g (W0 m ρ c)
  have hbe1 : W1 m ρ c (Proc.devRef .tc main_v31) = (shapeCast S1x256 (m ((c.tc : Thread nD τ).loc main_arg6)) Facts₀.shapeCasts_S256_S1x256) := Stretch.h0_be (W0 m ρ c)
  have ha0 : W1 m ρ c (Proc.devRef .tc main_arg0) = (m ((c.tc : Thread nD τ).loc main_arg0)) := Keep.arg0_at1 m ρ c
  have ha3 : W1 m ρ c (Proc.devRef .tc main_arg3) = (m ((c.tc : Thread nD τ).loc main_arg3)) := Keep.arg3_at1 m ρ c
  -- the encoder
  have hx0 : W2 m ρ c (Proc.devRef .tc main_v32) = (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) :=
    (W2_arr m ρ c 5).trans ((Blocks.region0_out (V1 m ρ) c).trans (by
      show Blocks.encW (W1 m ρ c (Proc.devRef .tc main_arg0)) (W1 m ρ c (Proc.devRef .tc main_arg3)) (W1 m ρ c (Proc.devRef .tc main_v29)) (W1 m ρ c (Proc.devRef .tc main_v30)) (W1 m ρ c (Proc.devRef .tc main_v31)) = _
      rw [ha0, ha3, hb1, hg1, hbe1]
      unfold Blocks.encW
      rw [Blocks.rowOf_shapeCast, Blocks.rowOf_shapeCast, Blocks.rowOf_shapeCast]))
  have hxp1 := hx0
  -- layer 1: the linear map
  have haw1 : W2 m ρ c (Proc.devRef .tc main_arg7) = (m ((c.tc : Thread nD τ).loc main_arg7)) := Keep.arg7_at2 m ρ c
  have hh1 : W3 m ρ c (Proc.devRef .tc main_v33) = (Stages.lin256 (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7))) :=
    (W3_arr m ρ c 2).trans ((Blocks.region1_out (V2 m ρ) c).trans (by
      show Stages.lin256 (F := Ideal) (W2 m ρ c (Proc.devRef .tc main_v32)) (W2 m ρ c (Proc.devRef .tc main_arg7)) = _
      rw [hxp1, haw1]))
  -- layer 1: the weighted sum over edges, and the layer's rows
  have hS1 : W3 m ρ c (Proc.devRef .tc main_v5) = (Stages.sfull (F := Ideal) (Stages.srcOf (F := Ideal) (m ((c.tc : Thread nD τ).loc main_arg1)))) := (Keep.v5_at3 m ρ c).trans hS1
  have hD1 : W3 m ρ c (Proc.devRef .tc main_v6) = (Stages.dfull (F := Ideal) (Stages.dstOf (F := Ideal) (m ((c.tc : Thread nD τ).loc main_arg1)))) := (Keep.v6_at3 m ρ c).trans hD1
  have hWE1 : W3 m ρ c (Proc.devRef .tc main_v28) = (Stages.weOf (F := Ideal) (Stages.sfull (F := Ideal) (Stages.srcOf (F := Ideal) (m ((c.tc : Thread nD τ).loc main_arg1)))) (Stages.dfull (F := Ideal) (Stages.dstOf (F := Ideal) (m ((c.tc : Thread nD τ).loc main_arg1))))) := (Keep.v28_at3 m ρ c).trans hWE1
  have hab1 : W3 m ρ c (Proc.devRef .tc main_arg8) = (m ((c.tc : Thread nD τ).loc main_arg8)) := Keep.arg8_at3 m ρ c
  have hag1 : W3 m ρ c (Proc.devRef .tc main_arg9) = (m ((c.tc : Thread nD τ).loc main_arg9)) := Keep.arg9_at3 m ρ c
  have habe1 : W3 m ρ c (Proc.devRef .tc main_arg10) = (m ((c.tc : Thread nD τ).loc main_arg10)) := Keep.arg10_at3 m ρ c
  have hagg1 : W4 m ρ c (Proc.devRef .tc main_v46) = (Stages.aggCore (F := Ideal) (Stages.lin256 (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7))) (Stages.sfull (F := Ideal) (Stages.srcOf (F := Ideal) (m ((c.tc : Thread nD τ).loc main_arg1)))) (Stages.dfull (F := Ideal) (Stages.dstOf (F := Ideal) (m ((c.tc : Thread nD τ).loc main_arg1)))) (Stages.weOf (F := Ideal) (Stages.sfull (F := Ideal) (Stages.srcOf (F := Ideal) (m ((c.tc : Thread nD τ).loc main_arg1)))) (Stages.dfull (F := Ideal) (Stages.dstOf (F := Ideal) (m ((c.tc : Thread nD τ).loc main_arg1)))))) :=
    (Stretch.h2_agg (W3 m ρ c)).trans (by rw [hh1, hS1, hD1, hWE1])
  have hb1 : W4 m ρ c (Proc.devRef .tc main_v47) = (shapeCast S1x256 (m ((c.tc : Thread nD τ).loc main_arg8)) Facts₀.shapeCasts_S256_S1x256) := (Stretch.h2_b (W3 m ρ c)).trans (by rw [hab1])
  have hg1 : W4 m ρ c (Proc.devRef .tc main_v48) = (shapeCast S1x256 (m ((c.tc : Thread nD τ).loc main_arg9)) Facts₀.shapeCasts_S256_S1x256) := (Stretch.h2_g (W3 m ρ c)).trans (by rw [hag1])
  have hbe1 : W4 m ρ c (Proc.devRef .tc main_v49) = (shapeCast S1x256 (m ((c.tc : Thread nD τ).loc main_arg10)) Facts₀.shapeCasts_S256_S1x256) := (Stretch.h2_be (W3 m ρ c)).trans (by rw [habe1])
  -- layer 1: bias and normalisation
  have hx1 : W5 m ρ c (Proc.devRef .tc main_v50) = (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))) :=
    (W5_arr m ρ c 4).trans ((Blocks.region2_out (V4 m ρ) c).trans (by
      show Blocks.normW (W4 m ρ c (Proc.devRef .tc main_v46)) (W4 m ρ c (Proc.devRef .tc main_v47)) (W4 m ρ c (Proc.devRef .tc main_v48)) (W4 m ρ c (Proc.devRef .tc main_v49)) = _
      rw [hagg1, hb1, hg1, hbe1]
      unfold Blocks.normW
      rw [Blocks.rowOf_shapeCast, Blocks.rowOf_shapeCast, Blocks.rowOf_shapeCast]
      rfl))
  have hxp2 := hx1
  -- layer 2: the linear map
  have haw2 : W5 m ρ c (Proc.devRef .tc main_arg11) = (m ((c.tc : Thread nD τ).loc main_arg11)) := Keep.arg11_at5 m ρ c
  have hh2 : W6 m ρ c (Proc.devRef .tc main_v51) = (Stages.lin256 (F := Ideal) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))) (m ((c.tc : Thread nD τ).loc main_arg11))) :=
    (W6_arr m ρ c 2).trans ((Blocks.region3_out (V5 m ρ) c).trans (by
      show Stages.lin256 (F := Ideal) (W5 m ρ c (Proc.devRef .tc main_v50)) (W5 m ρ c (Proc.devRef .tc main_arg11)) = _
      rw [hxp2, haw2]))
  -- layer 2: the weighted sum over edges, and the layer's rows
  have hS2 : W6 m ρ c (Proc.devRef .tc main_v5) = (Stages.sfull (F := Ideal) (Stages.srcOf (F := Ideal) (m ((c.tc : Thread nD τ).loc main_arg1)))) := (Keep.v5_at6 m ρ c).trans hS1
  have hD2 : W6 m ρ c (Proc.devRef .tc main_v6) = (Stages.dfull (F := Ideal) (Stages.dstOf (F := Ideal) (m ((c.tc : Thread nD τ).loc main_arg1)))) := (Keep.v6_at6 m ρ c).trans hD1
  have hWE2 : W6 m ρ c (Proc.devRef .tc main_v28) = (Stages.weOf (F := Ideal) (Stages.sfull (F := Ideal) (Stages.srcOf (F := Ideal) (m ((c.tc : Thread nD τ).loc main_arg1)))) (Stages.dfull (F := Ideal) (Stages.dstOf (F := Ideal) (m ((c.tc : Thread nD τ).loc main_arg1))))) := (Keep.v28_at6 m ρ c).trans hWE1
  have hab2 : W6 m ρ c (Proc.devRef .tc main_arg12) = (m ((c.tc : Thread nD τ).loc main_arg12)) := Keep.arg12_at6 m ρ c
  have hag2 : W6 m ρ c (Proc.devRef .tc main_arg13) = (m ((c.tc : Thread nD τ).loc main_arg13)) := Keep.arg13_at6 m ρ c
  have habe2 : W6 m ρ c (Proc.devRef .tc main_arg14) = (m ((c.tc : Thread nD τ).loc main_arg14)) := Keep.arg14_at6 m ρ c
  have hagg2 : W7 m ρ c (Proc.devRef .tc main_v64) = (Stages.aggCore (F := Ideal) (Stages.lin256 (F := Ideal) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))) (m ((c.tc : Thread nD τ).loc main_arg11))) (Stages.sfull (F := Ideal) (Stages.srcOf (F := Ideal) (m ((c.tc : Thread nD τ).loc main_arg1)))) (Stages.dfull (F := Ideal) (Stages.dstOf (F := Ideal) (m ((c.tc : Thread nD τ).loc main_arg1)))) (Stages.weOf (F := Ideal) (Stages.sfull (F := Ideal) (Stages.srcOf (F := Ideal) (m ((c.tc : Thread nD τ).loc main_arg1)))) (Stages.dfull (F := Ideal) (Stages.dstOf (F := Ideal) (m ((c.tc : Thread nD τ).loc main_arg1)))))) :=
    (Stretch.h4_agg (W6 m ρ c)).trans (by rw [hh2, hS2, hD2, hWE2])
  have hb2 : W7 m ρ c (Proc.devRef .tc main_v65) = (shapeCast S1x256 (m ((c.tc : Thread nD τ).loc main_arg12)) Facts₀.shapeCasts_S256_S1x256) := (Stretch.h4_b (W6 m ρ c)).trans (by rw [hab2])
  have hg2 : W7 m ρ c (Proc.devRef .tc main_v66) = (shapeCast S1x256 (m ((c.tc : Thread nD τ).loc main_arg13)) Facts₀.shapeCasts_S256_S1x256) := (Stretch.h4_g (W6 m ρ c)).trans (by rw [hag2])
  have hbe2 : W7 m ρ c (Proc.devRef .tc main_v67) = (shapeCast S1x256 (m ((c.tc : Thread nD τ).loc main_arg14)) Facts₀.shapeCasts_S256_S1x256) := (Stretch.h4_be (W6 m ρ c)).trans (by rw [habe2])
  have hres2 : W7 m ρ c (Proc.devRef .tc main_v50) = (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))) := (Keep.v50_at7 m ρ c).trans hx1
  -- layer 2: bias, normalisation, and the previous layer's output added back
  have hx2 : W8 m ρ c (Proc.devRef .tc main_v68) = (Stages.resAdd (F := Ideal) (Stages.layer (F := Ideal) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg1)) (m ((c.tc : Thread nD τ).loc main_arg12)) (m ((c.tc : Thread nD τ).loc main_arg13)) (m ((c.tc : Thread nD τ).loc main_arg14))) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10)))) :=
    (W8_arr m ρ c 5).trans ((Blocks.region4_out (V7 m ρ) c).trans (by
      show Blocks.normResW (W7 m ρ c (Proc.devRef .tc main_v64)) (W7 m ρ c (Proc.devRef .tc main_v65)) (W7 m ρ c (Proc.devRef .tc main_v66)) (W7 m ρ c (Proc.devRef .tc main_v67)) (W7 m ρ c (Proc.devRef .tc main_v50)) = _
      rw [hagg2, hb2, hg2, hbe2, hres2]
      unfold Blocks.normResW
      rw [Blocks.rowOf_shapeCast, Blocks.rowOf_shapeCast, Blocks.rowOf_shapeCast]
      rfl))
  have hxp3 := hx2
  -- layer 3: the linear map
  have haw3 : W8 m ρ c (Proc.devRef .tc main_arg15) = (m ((c.tc : Thread nD τ).loc main_arg15)) := Keep.arg15_at8 m ρ c
  have hh3 : W9 m ρ c (Proc.devRef .tc main_v69) = (Stages.lin256 (F := Ideal) (Stages.resAdd (F := Ideal) (Stages.layer (F := Ideal) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg1)) (m ((c.tc : Thread nD τ).loc main_arg12)) (m ((c.tc : Thread nD τ).loc main_arg13)) (m ((c.tc : Thread nD τ).loc main_arg14))) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10)))) (m ((c.tc : Thread nD τ).loc main_arg15))) :=
    (W9_arr m ρ c 2).trans ((Blocks.region5_out (V8 m ρ) c).trans (by
      show Stages.lin256 (F := Ideal) (W8 m ρ c (Proc.devRef .tc main_v68)) (W8 m ρ c (Proc.devRef .tc main_arg15)) = _
      rw [hxp3, haw3]))
  -- layer 3: the weighted sum over edges, and the layer's rows
  have hS3 : W9 m ρ c (Proc.devRef .tc main_v5) = (Stages.sfull (F := Ideal) (Stages.srcOf (F := Ideal) (m ((c.tc : Thread nD τ).loc main_arg1)))) := (Keep.v5_at9 m ρ c).trans hS1
  have hD3 : W9 m ρ c (Proc.devRef .tc main_v6) = (Stages.dfull (F := Ideal) (Stages.dstOf (F := Ideal) (m ((c.tc : Thread nD τ).loc main_arg1)))) := (Keep.v6_at9 m ρ c).trans hD1
  have hWE3 : W9 m ρ c (Proc.devRef .tc main_v28) = (Stages.weOf (F := Ideal) (Stages.sfull (F := Ideal) (Stages.srcOf (F := Ideal) (m ((c.tc : Thread nD τ).loc main_arg1)))) (Stages.dfull (F := Ideal) (Stages.dstOf (F := Ideal) (m ((c.tc : Thread nD τ).loc main_arg1))))) := (Keep.v28_at9 m ρ c).trans hWE1
  have hab3 : W9 m ρ c (Proc.devRef .tc main_arg16) = (m ((c.tc : Thread nD τ).loc main_arg16)) := Keep.arg16_at9 m ρ c
  have hag3 : W9 m ρ c (Proc.devRef .tc main_arg17) = (m ((c.tc : Thread nD τ).loc main_arg17)) := Keep.arg17_at9 m ρ c
  have habe3 : W9 m ρ c (Proc.devRef .tc main_arg18) = (m ((c.tc : Thread nD τ).loc main_arg18)) := Keep.arg18_at9 m ρ c
  have hagg3 : W10 m ρ c (Proc.devRef .tc main_v82) = (Stages.aggCore (F := Ideal) (Stages.lin256 (F := Ideal) (Stages.resAdd (F := Ideal) (Stages.layer (F := Ideal) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg1)) (m ((c.tc : Thread nD τ).loc main_arg12)) (m ((c.tc : Thread nD τ).loc main_arg13)) (m ((c.tc : Thread nD τ).loc main_arg14))) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10)))) (m ((c.tc : Thread nD τ).loc main_arg15))) (Stages.sfull (F := Ideal) (Stages.srcOf (F := Ideal) (m ((c.tc : Thread nD τ).loc main_arg1)))) (Stages.dfull (F := Ideal) (Stages.dstOf (F := Ideal) (m ((c.tc : Thread nD τ).loc main_arg1)))) (Stages.weOf (F := Ideal) (Stages.sfull (F := Ideal) (Stages.srcOf (F := Ideal) (m ((c.tc : Thread nD τ).loc main_arg1)))) (Stages.dfull (F := Ideal) (Stages.dstOf (F := Ideal) (m ((c.tc : Thread nD τ).loc main_arg1)))))) :=
    (Stretch.h6_agg (W9 m ρ c)).trans (by rw [hh3, hS3, hD3, hWE3])
  have hb3 : W10 m ρ c (Proc.devRef .tc main_v83) = (shapeCast S1x256 (m ((c.tc : Thread nD τ).loc main_arg16)) Facts₀.shapeCasts_S256_S1x256) := (Stretch.h6_b (W9 m ρ c)).trans (by rw [hab3])
  have hg3 : W10 m ρ c (Proc.devRef .tc main_v84) = (shapeCast S1x256 (m ((c.tc : Thread nD τ).loc main_arg17)) Facts₀.shapeCasts_S256_S1x256) := (Stretch.h6_g (W9 m ρ c)).trans (by rw [hag3])
  have hbe3 : W10 m ρ c (Proc.devRef .tc main_v85) = (shapeCast S1x256 (m ((c.tc : Thread nD τ).loc main_arg18)) Facts₀.shapeCasts_S256_S1x256) := (Stretch.h6_be (W9 m ρ c)).trans (by rw [habe3])
  have hres3 : W10 m ρ c (Proc.devRef .tc main_v68) = (Stages.resAdd (F := Ideal) (Stages.layer (F := Ideal) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg1)) (m ((c.tc : Thread nD τ).loc main_arg12)) (m ((c.tc : Thread nD τ).loc main_arg13)) (m ((c.tc : Thread nD τ).loc main_arg14))) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10)))) := (Keep.v68_at10 m ρ c).trans hx2
  -- layer 3: bias, normalisation, and the previous layer's output added back
  have hx3 : W11 m ρ c (Proc.devRef .tc main_v86) = (Stages.resAdd (F := Ideal) (Stages.layer (F := Ideal) (Stages.resAdd (F := Ideal) (Stages.layer (F := Ideal) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg1)) (m ((c.tc : Thread nD τ).loc main_arg12)) (m ((c.tc : Thread nD τ).loc main_arg13)) (m ((c.tc : Thread nD τ).loc main_arg14))) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10)))) (m ((c.tc : Thread nD τ).loc main_arg15)) (m ((c.tc : Thread nD τ).loc main_arg1)) (m ((c.tc : Thread nD τ).loc main_arg16)) (m ((c.tc : Thread nD τ).loc main_arg17)) (m ((c.tc : Thread nD τ).loc main_arg18))) (Stages.resAdd (F := Ideal) (Stages.layer (F := Ideal) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg1)) (m ((c.tc : Thread nD τ).loc main_arg12)) (m ((c.tc : Thread nD τ).loc main_arg13)) (m ((c.tc : Thread nD τ).loc main_arg14))) (Stages.layer (F := Ideal) (Stages.normRelu (F := Ideal) (Stages.biasRow (F := Ideal) (Stages.lin128 (F := Ideal) (m ((c.tc : Thread nD τ).loc main_arg0)) (m ((c.tc : Thread nD τ).loc main_arg3))) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg1)) (m ((c.tc : Thread nD τ).loc main_arg8)) (m ((c.tc : Thread nD τ).loc main_arg9)) (m ((c.tc : Thread nD τ).loc main_arg10))))) :=
    (W11_arr m ρ c 5).trans ((Blocks.region6_out (V10 m ρ) c).trans (by
      show Blocks.normResW (W10 m ρ c (Proc.devRef .tc main_v82)) (W10 m ρ c (Proc.devRef .tc main_v83)) (W10 m ρ c (Proc.devRef .tc main_v84)) (W10 m ρ c (Proc.devRef .tc main_v85)) (W10 m ρ c (Proc.devRef .tc main_v68)) = _
      rw [hagg3, hb3, hg3, hbe3, hres3]
      unfold Blocks.normResW
      rw [Blocks.rowOf_shapeCast, Blocks.rowOf_shapeCast, Blocks.rowOf_shapeCast]
      rfl))
  -- the pooling head
  have ht_arg2 : W11 m ρ c (Proc.devRef .tc main_arg2) = (m ((c.tc : Thread nD τ).loc main_arg2)) := Keep.arg2_at11 m ρ c
  have ht_arg19 : W11 m ρ c (Proc.devRef .tc main_arg19) = (m ((c.tc : Thread nD τ).loc main_arg19)) := Keep.arg19_at11 m ρ c
  have ht_arg20 : W11 m ρ c (Proc.devRef .tc main_arg20) = (m ((c.tc : Thread nD τ).loc main_arg20)) := Keep.arg20_at11 m ρ c
  have ht_arg21 : W11 m ρ c (Proc.devRef .tc main_arg21) = (m ((c.tc : Thread nD τ).loc main_arg21)) := Keep.arg21_at11 m ρ c
  have ht_arg22 : W11 m ρ c (Proc.devRef .tc main_arg22) = (m ((c.tc : Thread nD τ).loc main_arg22)) := Keep.arg22_at11 m ρ c
  have ht_arg23 : W11 m ρ c (Proc.devRef .tc main_arg23) = (m ((c.tc : Thread nD τ).loc main_arg23)) := Keep.arg23_at11 m ρ c
  have ht_arg24 : W11 m ρ c (Proc.devRef .tc main_arg24) = (m ((c.tc : Thread nD τ).loc main_arg24)) := Keep.arg24_at11 m ρ c
  have ht_arg25 : W11 m ρ c (Proc.devRef .tc main_arg25) = (m ((c.tc : Thread nD τ).loc main_arg25)) := Keep.arg25_at11 m ρ c
  have ht_arg26 : W11 m ρ c (Proc.devRef .tc main_arg26) = (m ((c.tc : Thread nD τ).loc main_arg26)) := Keep.arg26_at11 m ρ c
  refine (Stretch.tail_out (W11 m ρ c)).trans ?_
  rw [hx3, ht_arg2, ht_arg19, ht_arg20, ht_arg21, ht_arg22, ht_arg23, ht_arg24, ht_arg25, ht_arg26]
  rfl

/-- Every weakly fair execution of the idealized kernel terminates with the result buffer at the network function of
    the arguments, and the arguments as launched. -/
theorem run_out : θ_run defs (onTc (τ := τ) (main (F := Ideal))) ⟨m, fun _ => 0, ρ⟩ (fun r => ∀ c : Dev nD,
      r.2.mem ((c.tc : Thread nD τ).loc main_v145) = Stages.netOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨(h c).1.trans (fold_out m ρ c), (h c).2⟩) (run_result m ρ)

end Cert.KernelIdeal.RunValue

end
-- ==== Proof.RefRun.lean ====
/-
  The reference program's run, read stage by stage.

  The reference is one straight line of 369 host operations: the encoder, three graph layers and the pooling head.
  Every weakly fair execution terminates with each buffer at the fold of the operations over the launch memory. Cut
  into its five stages, the fold leaves in the result buffer the composition of the stage functions of the argument
  arrays (`Stages.netOut`): each stage's result is its function of the buffers it reads, and a buffer a stage does
  not write is read after it as before.
-/
import proofs.«105231_j1443109011557_1_alg».proof.Proof.Gen.ReferenceIdeal
import proofs.«105231_j1443109011557_1_alg».proof.Proof.Stages
import Idealize.ShloMosaic.Lib.StableHlo.Run

noncomputable section

namespace Cert.ReferenceIdeal.RunValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

set_option maxHeartbeats 8000000 in
/-- The program's 369 operations, in order (an outlined function's operations stand in its call's place). -/
abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    binary main_arg0 main_arg3 main_v4 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    unary main_arg4 main_v5 (broadcastInDim S1x256 ![1] bcast_S256_S1x256_1 : (⟨S256, .f32⟩ : BufTy).Contents (Elt F) → (⟨S1x256, .f32⟩ : BufTy).Contents (Elt F)),
    unary main_v5 main_v6 (broadcastInDim S20000x256 ![0, 1] bcast_S1x256_S20000x256_0_1 : (⟨S1x256, .f32⟩ : BufTy).Contents (Elt F) → (⟨S20000x256, .f32⟩ : BufTy).Contents (Elt F)),
    binary main_v4 main_v6 main_v7 (addf : (⟨S20000x256, .f32⟩ : BufTy).Contents (Elt F) → (⟨S20000x256, .f32⟩ : BufTy).Contents (Elt F) → (⟨S20000x256, .f32⟩ : BufTy).Contents (Elt F)),
    nullary main_cst (constant S_ .f32 0x00000000#32),
    binary main_v7 main_cst main_v8 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v8 main_v9 (broadcastInDim S20000x1 ![0] bcast_S20000_S20000x1_0 : (⟨S20000, .f32⟩ : BufTy).Contents (Elt F) → (⟨S20000x1, .f32⟩ : BufTy).Contents (Elt F)),
    nullary main_cst_0 (constant S_ .f32 0x43800000#32),
    unary main_cst_0 main_v10 (broadcastInDim S20000x1 ![] bcast_S_S20000x1 : (⟨S_, .f32⟩ : BufTy).Contents (Elt F) → (⟨S20000x1, .f32⟩ : BufTy).Contents (Elt F)),
    binary main_v9 main_v10 main_v11 (Host.divf : (⟨S20000x1, .f32⟩ : BufTy).Contents (Elt F) → (⟨S20000x1, .f32⟩ : BufTy).Contents (Elt F) → (⟨S20000x1, .f32⟩ : BufTy).Contents (Elt F)),
    unary main_v11 main_v12 (broadcastInDim S20000x256 ![0, 1] bcast_S20000x1_S20000x256_0_1 : (⟨S20000x1, .f32⟩ : BufTy).Contents (Elt F) → (⟨S20000x256, .f32⟩ : BufTy).Contents (Elt F)),
    binary main_v7 main_v12 main_v13 (subf : (⟨S20000x256, .f32⟩ : BufTy).Contents (Elt F) → (⟨S20000x256, .f32⟩ : BufTy).Contents (Elt F) → (⟨S20000x256, .f32⟩ : BufTy).Contents (Elt F)),
    binary main_v13 main_v13 main_v14 (mulf : (⟨S20000x256, .f32⟩ : BufTy).Contents (Elt F) → (⟨S20000x256, .f32⟩ : BufTy).Contents (Elt F) → (⟨S20000x256, .f32⟩ : BufTy).Contents (Elt F)),
    nullary main_cst_1 (constant S_ .f32 0x00000000#32),
    binary main_v14 main_cst_1 main_v15 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v15 main_v16 (broadcastInDim S20000x1 ![0] bcast_S20000_S20000x1_0 : (⟨S20000, .f32⟩ : BufTy).Contents (Elt F) → (⟨S20000x1, .f32⟩ : BufTy).Contents (Elt F)),
    nullary main_cst_2 (constant S_ .f32 0x43800000#32),
    unary main_cst_2 main_v17 (broadcastInDim S20000x1 ![] bcast_S_S20000x1 : (⟨S_, .f32⟩ : BufTy).Contents (Elt F) → (⟨S20000x1, .f32⟩ : BufTy).Contents (Elt F)),
    binary main_v16 main_v17 main_v18 (Host.divf : (⟨S20000x1, .f32⟩ : BufTy).Contents (Elt F) → (⟨S20000x1, .f32⟩ : BufTy).Contents (Elt F) → (⟨S20000x1, .f32⟩ : BufTy).Contents (Elt F)),
    unary main_v11 main_v19 (broadcastInDim S20000x256 ![0, 1] bcast_S20000x1_S20000x256_0_1 : (⟨S20000x1, .f32⟩ : BufTy).Contents (Elt F) → (⟨S20000x256, .f32⟩ : BufTy).Contents (Elt F)),
    binary main_v7 main_v19 main_v20 (subf : (⟨S20000x256, .f32⟩ : BufTy).Contents (Elt F) → (⟨S20000x256, .f32⟩ : BufTy).Contents (Elt F) → (⟨S20000x256, .f32⟩ : BufTy).Contents (Elt F)),
    nullary main_cst_3 (constant S_ .f32 0x3727C5AC#32),
    unary main_cst_3 main_v21 (broadcastInDim S20000x1 ![] bcast_S_S20000x1 : (⟨S_, .f32⟩ : BufTy).Contents (Elt F) → (⟨S20000x1, .f32⟩ : BufTy).Contents (Elt F)),
    binary main_v18 main_v21 main_v22 (addf : (⟨S20000x1, .f32⟩ : BufTy).Contents (Elt F) → (⟨S20000x1, .f32⟩ : BufTy).Contents (Elt F) → (⟨S20000x1, .f32⟩ : BufTy).Contents (Elt F)),
    unary main_v22 main_v23 (Host.rsqrt : (⟨S20000x1, .f32⟩ : BufTy).Contents (Elt F) → (⟨S20000x1, .f32⟩ : BufTy).Contents (Elt F)),
    unary main_v23 main_v24 (broadcastInDim S20000x256 ![0, 1] bcast_S20000x1_S20000x256_0_1 : (⟨S20000x1, .f32⟩ : BufTy).Contents (Elt F) → (⟨S20000x256, .f32⟩ : BufTy).Contents (Elt F)),
    binary main_v20 main_v24 main_v25 (mulf : (⟨S20000x256, .f32⟩ : BufTy).Contents (Elt F) → (⟨S20000x256, .f32⟩ : BufTy).Contents (Elt F) → (⟨S20000x256, .f32⟩ : BufTy).Contents (Elt F)),
    unary main_arg5 main_v26 (broadcastInDim S1x256 ![1] bcast_S256_S1x256_1 : (⟨S256, .f32⟩ : BufTy).Contents (Elt F) → (⟨S1x256, .f32⟩ : BufTy).Contents (Elt F)),
    unary main_v26 main_v27 (broadcastInDim S20000x256 ![0, 1] bcast_S1x256_S20000x256_0_1 : (⟨S1x256, .f32⟩ : BufTy).Contents (Elt F) → (⟨S20000x256, .f32⟩ : BufTy).Contents (Elt F)),
    binary main_v25 main_v27 main_v28 (mulf : (⟨S20000x256, .f32⟩ : BufTy).Contents (Elt F) → (⟨S20000x256, .f32⟩ : BufTy).Contents (Elt F) → (⟨S20000x256, .f32⟩ : BufTy).Contents (Elt F)),
    unary main_arg6 main_v29 (broadcastInDim S1x256 ![1] bcast_S256_S1x256_1 : (⟨S256, .f32⟩ : BufTy).Contents (Elt F) → (⟨S1x256, .f32⟩ : BufTy).Contents (Elt F)),
    unary main_v29 main_v30 (broadcastInDim S20000x256 ![0, 1] bcast_S1x256_S20000x256_0_1 : (⟨S1x256, .f32⟩ : BufTy).Contents (Elt F) → (⟨S20000x256, .f32⟩ : BufTy).Contents (Elt F)),
    binary main_v28 main_v30 main_v31 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S20000x256, .f32⟩) main_call0_v0) (broadcastInDim S20000x256 ![] bcast_S_S20000x256),
    TRef.binary (TRef.of (T := ⟨S20000x256, .f32⟩) main_v31) (TRef.of (T := ⟨S20000x256, .f32⟩) main_call0_v0) (TRef.of (T := ⟨S20000x256, .f32⟩) main_v32) maximumf,
    binary main_v32 main_arg7 main_v33 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_v34 (iotaInDim S20000 32 0),
    binary main_v1 main_v34 main_v35 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    binary main_v3 main_v34 main_v36 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    nullary main_cst_4 (constant S_ .f32 0x3F800000#32),
    unary main_cst_4 main_v37 (broadcastInDim S340000 ![] bcast_S_S340000 : (⟨S_, .f32⟩ : BufTy).Contents (Elt F) → (⟨S340000, .f32⟩ : BufTy).Contents (Elt F)),
    nullary main_cst_5 (constant S_ .f32 0x00000000#32),
    unary main_cst_5 main_v38 (broadcastInDim S20000 ![] bcast_S_S20000 : (⟨S_, .f32⟩ : BufTy).Contents (Elt F) → (⟨S20000, .f32⟩ : BufTy).Contents (Elt F)),
    unary main_v36 main_v39 (broadcastInDim S340000x1 ![0] bcast_S340000_S340000x1_0 : (⟨S340000, .i32⟩ : BufTy).Contents (Elt F) → (⟨S340000x1, .i32⟩ : BufTy).Contents (Elt F)),
    ternary main_v38 main_v39 main_v37 main_v40 ((fun x i u => Host.scatterAdd scatter_S20000_S340000x1_S340000_n_0_0_1 x i u) : (⟨S20000, .f32⟩ : BufTy).Contents (Elt F) → (⟨S340000x1, .i32⟩ : BufTy).Contents (Elt F) → (⟨S340000, .f32⟩ : BufTy).Contents (Elt F) → (⟨S20000, .f32⟩ : BufTy).Contents (Elt F)),
    nullary main_cst_6 (constant S_ .f32 0x3F800000#32),
    unary main_cst_6 main_v41 (broadcastInDim S20000 ![] bcast_S_S20000 : (⟨S_, .f32⟩ : BufTy).Contents (Elt F) → (⟨S20000, .f32⟩ : BufTy).Contents (Elt F)),
    binary main_v40 main_v41 main_v42 (maximumf : (⟨S20000, .f32⟩ : BufTy).Contents (Elt F) → (⟨S20000, .f32⟩ : BufTy).Contents (Elt F) → (⟨S20000, .f32⟩ : BufTy).Contents (Elt F)),
    unary main_v42 main_v43 (Host.rsqrt : (⟨S20000, .f32⟩ : BufTy).Contents (Elt F) → (⟨S20000, .f32⟩ : BufTy).Contents (Elt F)),
    nullary main_c (constantI S_ 32 0#32),
    unary main_c main_v44 (broadcastInDim S340000 ![] bcast_S_S340000 : (⟨S_, .i32⟩ : BufTy).Contents (Elt F) → (⟨S340000, .i32⟩ : BufTy).Contents (Elt F)),
    binary main_v35 main_v44 main_v45 (cmpi .slt : (⟨S340000, .i32⟩ : BufTy).Contents (Elt F) → (⟨S340000, .i32⟩ : BufTy).Contents (Elt F) → (⟨S340000, .i1⟩ : BufTy).Contents (Elt F)),
    nullary main_c_7 (constantI S_ 32 20000#32),
    unary main_c_7 main_v46 (broadcastInDim S340000 ![] bcast_S_S340000 : (⟨S_, .i32⟩ : BufTy).Contents (Elt F) → (⟨S340000, .i32⟩ : BufTy).Contents (Elt F)),
    binary main_v35 main_v46 main_v47 (addi : (⟨S340000, .i32⟩ : BufTy).Contents (Elt F) → (⟨S340000, .i32⟩ : BufTy).Contents (Elt F) → (⟨S340000, .i32⟩ : BufTy).Contents (Elt F)),
    ternary main_v45 main_v47 main_v35 main_v48 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v48 main_v49 (broadcastInDim S340000x1 ![0] bcast_S340000_S340000x1_0 : (⟨S340000, .i32⟩ : BufTy).Contents (Elt F) → (⟨S340000x1, .i32⟩ : BufTy).Contents (Elt F)),
    binary main_v43 main_v49 main_v50 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    nullary main_c_8 (constantI S_ 32 0#32),
    unary main_c_8 main_v51 (broadcastInDim S340000 ![] bcast_S_S340000 : (⟨S_, .i32⟩ : BufTy).Contents (Elt F) → (⟨S340000, .i32⟩ : BufTy).Contents (Elt F)),
    binary main_v36 main_v51 main_v52 (cmpi .slt : (⟨S340000, .i32⟩ : BufTy).Contents (Elt F) → (⟨S340000, .i32⟩ : BufTy).Contents (Elt F) → (⟨S340000, .i1⟩ : BufTy).Contents (Elt F)),
    nullary main_c_9 (constantI S_ 32 20000#32),
    unary main_c_9 main_v53 (broadcastInDim S340000 ![] bcast_S_S340000 : (⟨S_, .i32⟩ : BufTy).Contents (Elt F) → (⟨S340000, .i32⟩ : BufTy).Contents (Elt F)),
    binary main_v36 main_v53 main_v54 (addi : (⟨S340000, .i32⟩ : BufTy).Contents (Elt F) → (⟨S340000, .i32⟩ : BufTy).Contents (Elt F) → (⟨S340000, .i32⟩ : BufTy).Contents (Elt F)),
    ternary main_v52 main_v54 main_v36 main_v55 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v55 main_v56 (broadcastInDim S340000x1 ![0] bcast_S340000_S340000x1_0 : (⟨S340000, .i32⟩ : BufTy).Contents (Elt F) → (⟨S340000x1, .i32⟩ : BufTy).Contents (Elt F)),
    binary main_v43 main_v56 main_v57 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    binary main_v50 main_v57 main_v58 (mulf : (⟨S340000, .f32⟩ : BufTy).Contents (Elt F) → (⟨S340000, .f32⟩ : BufTy).Contents (Elt F) → (⟨S340000, .f32⟩ : BufTy).Contents (Elt F)),
    nullary main_c_10 (constantI S_ 32 0#32),
    unary main_c_10 main_v59 (broadcastInDim S340000 ![] bcast_S_S340000 : (⟨S_, .i32⟩ : BufTy).Contents (Elt F) → (⟨S340000, .i32⟩ : BufTy).Contents (Elt F)),
    binary main_v35 main_v59 main_v60 (cmpi .slt : (⟨S340000, .i32⟩ : BufTy).Contents (Elt F) → (⟨S340000, .i32⟩ : BufTy).Contents (Elt F) → (⟨S340000, .i1⟩ : BufTy).Contents (Elt F)),
    nullary main_c_11 (constantI S_ 32 20000#32),
    unary main_c_11 main_v61 (broadcastInDim S340000 ![] bcast_S_S340000 : (⟨S_, .i32⟩ : BufTy).Contents (Elt F) → (⟨S340000, .i32⟩ : BufTy).Contents (Elt F)),
    binary main_v35 main_v61 main_v62 (addi : (⟨S340000, .i32⟩ : BufTy).Contents (Elt F) → (⟨S340000, .i32⟩ : BufTy).Contents (Elt F) → (⟨S340000, .i32⟩ : BufTy).Contents (Elt F)),
    ternary main_v60 main_v62 main_v35 main_v63 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v63 main_v64 (broadcastInDim S340000x1 ![0] bcast_S340000_S340000x1_0 : (⟨S340000, .i32⟩ : BufTy).Contents (Elt F) → (⟨S340000x1, .i32⟩ : BufTy).Contents (Elt F)),
    binary main_v33 main_v64 main_v65 ((fun x i => Host.gather gather_S20000x256_S340000x1_S340000x256_1_0_n_n_0_1_1256 x i) : (⟨S20000x256, .f32⟩ : BufTy).Contents (Elt F) → (⟨S340000x1, .i32⟩ : BufTy).Contents (Elt F) → (⟨S340000x256, .f32⟩ : BufTy).Contents (Elt F)),
    unary main_v58 main_v66 (broadcastInDim S340000x1 ![0] bcast_S340000_S340000x1_0 : (⟨S340000, .f32⟩ : BufTy).Contents (Elt F) → (⟨S340000x1, .f32⟩ : BufTy).Contents (Elt F)),
    unary main_v66 main_v67 (broadcastInDim S340000x256 ![0, 1] bcast_S340000x1_S340000x256_0_1 : (⟨S340000x1, .f32⟩ : BufTy).Contents (Elt F) → (⟨S340000x256, .f32⟩ : BufTy).Contents (Elt F)),
    binary main_v65 main_v67 main_v68 (mulf : (⟨S340000x256, .f32⟩ : BufTy).Contents (Elt F) → (⟨S340000x256, .f32⟩ : BufTy).Contents (Elt F) → (⟨S340000x256, .f32⟩ : BufTy).Contents (Elt F)),
    nullary main_cst_12 (constant S_ .f32 0x00000000#32),
    unary main_cst_12 main_v69 (broadcastInDim S20000x256 ![] bcast_S_S20000x256 : (⟨S_, .f32⟩ : BufTy).Contents (Elt F) → (⟨S20000x256, .f32⟩ : BufTy).Contents (Elt F)),
    unary main_v36 main_v70 (broadcastInDim S340000x1 ![0] bcast_S340000_S340000x1_0 : (⟨S340000, .i32⟩ : BufTy).Contents (Elt F) → (⟨S340000x1, .i32⟩ : BufTy).Contents (Elt F)),
    ternary main_v69 main_v70 main_v68 main_v71 ((fun x i u => Host.scatterAdd scatter_S20000x256_S340000x1_S340000x256_1_0_0_1 x i u) : (⟨S20000x256, .f32⟩ : BufTy).Contents (Elt F) → (⟨S340000x1, .i32⟩ : BufTy).Contents (Elt F) → (⟨S340000x256, .f32⟩ : BufTy).Contents (Elt F) → (⟨S20000x256, .f32⟩ : BufTy).Contents (Elt F)),
    unary main_arg8 main_v72 (broadcastInDim S1x256 ![1] bcast_S256_S1x256_1 : (⟨S256, .f32⟩ : BufTy).Contents (Elt F) → (⟨S1x256, .f32⟩ : BufTy).Contents (Elt F)),
    unary main_v72 main_v73 (broadcastInDim S20000x256 ![0, 1] bcast_S1x256_S20000x256_0_1 : (⟨S1x256, .f32⟩ : BufTy).Contents (Elt F) → (⟨S20000x256, .f32⟩ : BufTy).Contents (Elt F)),
    binary main_v71 main_v73 main_v74 (addf : (⟨S20000x256, .f32⟩ : BufTy).Contents (Elt F) → (⟨S20000x256, .f32⟩ : BufTy).Contents (Elt F) → (⟨S20000x256, .f32⟩ : BufTy).Contents (Elt F)),
    nullary main_cst_13 (constant S_ .f32 0x00000000#32),
    binary main_v74 main_cst_13 main_v75 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v75 main_v76 (broadcastInDim S20000x1 ![0] bcast_S20000_S20000x1_0 : (⟨S20000, .f32⟩ : BufTy).Contents (Elt F) → (⟨S20000x1, .f32⟩ : BufTy).Contents (Elt F)),
    nullary main_cst_14 (constant S_ .f32 0x43800000#32),
    unary main_cst_14 main_v77 (broadcastInDim S20000x1 ![] bcast_S_S20000x1 : (⟨S_, .f32⟩ : BufTy).Contents (Elt F) → (⟨S20000x1, .f32⟩ : BufTy).Contents (Elt F)),
    binary main_v76 main_v77 main_v78 (Host.divf : (⟨S20000x1, .f32⟩ : BufTy).Contents (Elt F) → (⟨S20000x1, .f32⟩ : BufTy).Contents (Elt F) → (⟨S20000x1, .f32⟩ : BufTy).Contents (Elt F)),
    unary main_v78 main_v79 (broadcastInDim S20000x256 ![0, 1] bcast_S20000x1_S20000x256_0_1 : (⟨S20000x1, .f32⟩ : BufTy).Contents (Elt F) → (⟨S20000x256, .f32⟩ : BufTy).Contents (Elt F)),
    binary main_v74 main_v79 main_v80 (subf : (⟨S20000x256, .f32⟩ : BufTy).Contents (Elt F) → (⟨S20000x256, .f32⟩ : BufTy).Contents (Elt F) → (⟨S20000x256, .f32⟩ : BufTy).Contents (Elt F)),
    binary main_v80 main_v80 main_v81 (mulf : (⟨S20000x256, .f32⟩ : BufTy).Contents (Elt F) → (⟨S20000x256, .f32⟩ : BufTy).Contents (Elt F) → (⟨S20000x256, .f32⟩ : BufTy).Contents (Elt F)),
    nullary main_cst_15 (constant S_ .f32 0x00000000#32),
    binary main_v81 main_cst_15 main_v82 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v82 main_v83 (broadcastInDim S20000x1 ![0] bcast_S20000_S20000x1_0 : (⟨S20000, .f32⟩ : BufTy).Contents (Elt F) → (⟨S20000x1, .f32⟩ : BufTy).Contents (Elt F)),
    nullary main_cst_16 (constant S_ .f32 0x43800000#32),
    unary main_cst_16 main_v84 (broadcastInDim S20000x1 ![] bcast_S_S20000x1 : (⟨S_, .f32⟩ : BufTy).Contents (Elt F) → (⟨S20000x1, .f32⟩ : BufTy).Contents (Elt F)),
    binary main_v83 main_v84 main_v85 (Host.divf : (⟨S20000x1, .f32⟩ : BufTy).Contents (Elt F) → (⟨S20000x1, .f32⟩ : BufTy).Contents (Elt F) → (⟨S20000x1, .f32⟩ : BufTy).Contents (Elt F)),
    unary main_v78 main_v86 (broadcastInDim S20000x256 ![0, 1] bcast_S20000x1_S20000x256_0_1 : (⟨S20000x1, .f32⟩ : BufTy).Contents (Elt F) → (⟨S20000x256, .f32⟩ : BufTy).Contents (Elt F)),
    binary main_v74 main_v86 main_v87 (subf : (⟨S20000x256, .f32⟩ : BufTy).Contents (Elt F) → (⟨S20000x256, .f32⟩ : BufTy).Contents (Elt F) → (⟨S20000x256, .f32⟩ : BufTy).Contents (Elt F)),
    nullary main_cst_17 (constant S_ .f32 0x3727C5AC#32),
    unary main_cst_17 main_v88 (broadcastInDim S20000x1 ![] bcast_S_S20000x1 : (⟨S_, .f32⟩ : BufTy).Contents (Elt F) → (⟨S20000x1, .f32⟩ : BufTy).Contents (Elt F)),
    binary main_v85 main_v88 main_v89 (addf : (⟨S20000x1, .f32⟩ : BufTy).Contents (Elt F) → (⟨S20000x1, .f32⟩ : BufTy).Contents (Elt F) → (⟨S20000x1, .f32⟩ : BufTy).Contents (Elt F)),
    unary main_v89 main_v90 (Host.rsqrt : (⟨S20000x1, .f32⟩ : BufTy).Contents (Elt F) → (⟨S20000x1, .f32⟩ : BufTy).Contents (Elt F)),
    unary main_v90 main_v91 (broadcastInDim S20000x256 ![0, 1] bcast_S20000x1_S20000x256_0_1 : (⟨S20000x1, .f32⟩ : BufTy).Contents (Elt F) → (⟨S20000x256, .f32⟩ : BufTy).Contents (Elt F)),
    binary main_v87 main_v91 main_v92 (mulf : (⟨S20000x256, .f32⟩ : BufTy).Contents (Elt F) → (⟨S20000x256, .f32⟩ : BufTy).Contents (Elt F) → (⟨S20000x256, .f32⟩ : BufTy).Contents (Elt F)),
    unary main_arg9 main_v93 (broadcastInDim S1x256 ![1] bcast_S256_S1x256_1 : (⟨S256, .f32⟩ : BufTy).Contents (Elt F) → (⟨S1x256, .f32⟩ : BufTy).Contents (Elt F)),
    unary main_v93 main_v94 (broadcastInDim S20000x256 ![0, 1] bcast_S1x256_S20000x256_0_1 : (⟨S1x256, .f32⟩ : BufTy).Contents (Elt F) → (⟨S20000x256, .f32⟩ : BufTy).Contents (Elt F)),
    binary main_v92 main_v94 main_v95 (mulf : (⟨S20000x256, .f32⟩ : BufTy).Contents (Elt F) → (⟨S20000x256, .f32⟩ : BufTy).Contents (Elt F) → (⟨S20000x256, .f32⟩ : BufTy).Contents (Elt F)),
    unary main_arg10 main_v96 (broadcastInDim S1x256 ![1] bcast_S256_S1x256_1 : (⟨S256, .f32⟩ : BufTy).Contents (Elt F) → (⟨S1x256, .f32⟩ : BufTy).Contents (Elt F)),
    unary main_v96 main_v97 (broadcastInDim S20000x256 ![0, 1] bcast_S1x256_S20000x256_0_1 : (⟨S1x256, .f32⟩ : BufTy).Contents (Elt F) → (⟨S20000x256, .f32⟩ : BufTy).Contents (Elt F)),
    binary main_v95 main_v97 main_v98 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x256, .f32⟩) main_call1_v0) (broadcastInDim S20000x256 ![] bcast_S_S20000x256),
    TRef.binary (TRef.of (T := ⟨S20000x256, .f32⟩) main_v98) (TRef.of (T := ⟨S20000x256, .f32⟩) main_call1_v0) (TRef.of (T := ⟨S20000x256, .f32⟩) main_v99) maximumf,
    binary main_v99 main_arg11 main_v100 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_v101 (iotaInDim S20000 32 0),
    binary main_v1 main_v101 main_v102 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    binary main_v3 main_v101 main_v103 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    nullary main_cst_18 (constant S_ .f32 0x3F800000#32),
    unary main_cst_18 main_v104 (broadcastInDim S340000 ![] bcast_S_S340000 : (⟨S_, .f32⟩ : BufTy).Contents (Elt F) → (⟨S340000, .f32⟩ : BufTy).Contents (Elt F)),
    nullary main_cst_19 (constant S_ .f32 0x00000000#32),
    unary main_cst_19 main_v105 (broadcastInDim S20000 ![] bcast_S_S20000 : (⟨S_, .f32⟩ : BufTy).Contents (Elt F) → (⟨S20000, .f32⟩ : BufTy).Contents (Elt F)),
    unary main_v103 main_v106 (broadcastInDim S340000x1 ![0] bcast_S340000_S340000x1_0 : (⟨S340000, .i32⟩ : BufTy).Contents (Elt F) → (⟨S340000x1, .i32⟩ : BufTy).Contents (Elt F)),
    ternary main_v105 main_v106 main_v104 main_v107 ((fun x i u => Host.scatterAdd scatter_S20000_S340000x1_S340000_n_0_0_1 x i u) : (⟨S20000, .f32⟩ : BufTy).Contents (Elt F) → (⟨S340000x1, .i32⟩ : BufTy).Contents (Elt F) → (⟨S340000, .f32⟩ : BufTy).Contents (Elt F) → (⟨S20000, .f32⟩ : BufTy).Contents (Elt F)),
    nullary main_cst_20 (constant S_ .f32 0x3F800000#32),
    unary main_cst_20 main_v108 (broadcastInDim S20000 ![] bcast_S_S20000 : (⟨S_, .f32⟩ : BufTy).Contents (Elt F) → (⟨S20000, .f32⟩ : BufTy).Contents (Elt F)),
    binary main_v107 main_v108 main_v109 (maximumf : (⟨S20000, .f32⟩ : BufTy).Contents (Elt F) → (⟨S20000, .f32⟩ : BufTy).Contents (Elt F) → (⟨S20000, .f32⟩ : BufTy).Contents (Elt F)),
    unary main_v109 main_v110 (Host.rsqrt : (⟨S20000, .f32⟩ : BufTy).Contents (Elt F) → (⟨S20000, .f32⟩ : BufTy).Contents (Elt F)),
    nullary main_c_21 (constantI S_ 32 0#32),
    unary main_c_21 main_v111 (broadcastInDim S340000 ![] bcast_S_S340000 : (⟨S_, .i32⟩ : BufTy).Contents (Elt F) → (⟨S340000, .i32⟩ : BufTy).Contents (Elt F)),
    binary main_v102 main_v111 main_v112 (cmpi .slt : (⟨S340000, .i32⟩ : BufTy).Contents (Elt F) → (⟨S340000, .i32⟩ : BufTy).Contents (Elt F) → (⟨S340000, .i1⟩ : BufTy).Contents (Elt F)),
    nullary main_c_22 (constantI S_ 32 20000#32),
    unary main_c_22 main_v113 (broadcastInDim S340000 ![] bcast_S_S340000 : (⟨S_, .i32⟩ : BufTy).Contents (Elt F) → (⟨S340000, .i32⟩ : BufTy).Contents (Elt F)),
    binary main_v102 main_v113 main_v114 (addi : (⟨S340000, .i32⟩ : BufTy).Contents (Elt F) → (⟨S340000, .i32⟩ : BufTy).Contents (Elt F) → (⟨S340000, .i32⟩ : BufTy).Contents (Elt F)),
    ternary main_v112 main_v114 main_v102 main_v115 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v115 main_v116 (broadcastInDim S340000x1 ![0] bcast_S340000_S340000x1_0 : (⟨S340000, .i32⟩ : BufTy).Contents (Elt F) → (⟨S340000x1, .i32⟩ : BufTy).Contents (Elt F)),
    binary main_v110 main_v116 main_v117 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    nullary main_c_23 (constantI S_ 32 0#32),
    unary main_c_23 main_v118 (broadcastInDim S340000 ![] bcast_S_S340000 : (⟨S_, .i32⟩ : BufTy).Contents (Elt F) → (⟨S340000, .i32⟩ : BufTy).Contents (Elt F)),
    binary main_v103 main_v118 main_v119 (cmpi .slt : (⟨S340000, .i32⟩ : BufTy).Contents (Elt F) → (⟨S340000, .i32⟩ : BufTy).Contents (Elt F) → (⟨S340000, .i1⟩ : BufTy).Contents (Elt F)),
    nullary main_c_24 (constantI S_ 32 20000#32),
    unary main_c_24 main_v120 (broadcastInDim S340000 ![] bcast_S_S340000 : (⟨S_, .i32⟩ : BufTy).Contents (Elt F) → (⟨S340000, .i32⟩ : BufTy).Contents (Elt F)),
    binary main_v103 main_v120 main_v121 (addi : (⟨S340000, .i32⟩ : BufTy).Contents (Elt F) → (⟨S340000, .i32⟩ : BufTy).Contents (Elt F) → (⟨S340000, .i32⟩ : BufTy).Contents (Elt F)),
    ternary main_v119 main_v121 main_v103 main_v122 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v122 main_v123 (broadcastInDim S340000x1 ![0] bcast_S340000_S340000x1_0 : (⟨S340000, .i32⟩ : BufTy).Contents (Elt F) → (⟨S340000x1, .i32⟩ : BufTy).Contents (Elt F)),
    binary main_v110 main_v123 main_v124 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    binary main_v117 main_v124 main_v125 (mulf : (⟨S340000, .f32⟩ : BufTy).Contents (Elt F) → (⟨S340000, .f32⟩ : BufTy).Contents (Elt F) → (⟨S340000, .f32⟩ : BufTy).Contents (Elt F)),
    nullary main_c_25 (constantI S_ 32 0#32),
    unary main_c_25 main_v126 (broadcastInDim S340000 ![] bcast_S_S340000 : (⟨S_, .i32⟩ : BufTy).Contents (Elt F) → (⟨S340000, .i32⟩ : BufTy).Contents (Elt F)),
    binary main_v102 main_v126 main_v127 (cmpi .slt : (⟨S340000, .i32⟩ : BufTy).Contents (Elt F) → (⟨S340000, .i32⟩ : BufTy).Contents (Elt F) → (⟨S340000, .i1⟩ : BufTy).Contents (Elt F)),
    nullary main_c_26 (constantI S_ 32 20000#32),
    unary main_c_26 main_v128 (broadcastInDim S340000 ![] bcast_S_S340000 : (⟨S_, .i32⟩ : BufTy).Contents (Elt F) → (⟨S340000, .i32⟩ : BufTy).Contents (Elt F)),
    binary main_v102 main_v128 main_v129 (addi : (⟨S340000, .i32⟩ : BufTy).Contents (Elt F) → (⟨S340000, .i32⟩ : BufTy).Contents (Elt F) → (⟨S340000, .i32⟩ : BufTy).Contents (Elt F)),
    ternary main_v127 main_v129 main_v102 main_v130 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v130 main_v131 (broadcastInDim S340000x1 ![0] bcast_S340000_S340000x1_0 : (⟨S340000, .i32⟩ : BufTy).Contents (Elt F) → (⟨S340000x1, .i32⟩ : BufTy).Contents (Elt F)),
    binary main_v100 main_v131 main_v132 ((fun x i => Host.gather gather_S20000x256_S340000x1_S340000x256_1_0_n_n_0_1_1256 x i) : (⟨S20000x256, .f32⟩ : BufTy).Contents (Elt F) → (⟨S340000x1, .i32⟩ : BufTy).Contents (Elt F) → (⟨S340000x256, .f32⟩ : BufTy).Contents (Elt F)),
    unary main_v125 main_v133 (broadcastInDim S340000x1 ![0] bcast_S340000_S340000x1_0 : (⟨S340000, .f32⟩ : BufTy).Contents (Elt F) → (⟨S340000x1, .f32⟩ : BufTy).Contents (Elt F)),
    unary main_v133 main_v134 (broadcastInDim S340000x256 ![0, 1] bcast_S340000x1_S340000x256_0_1 : (⟨S340000x1, .f32⟩ : BufTy).Contents (Elt F) → (⟨S340000x256, .f32⟩ : BufTy).Contents (Elt F)),
    binary main_v132 main_v134 main_v135 (mulf : (⟨S340000x256, .f32⟩ : BufTy).Contents (Elt F) → (⟨S340000x256, .f32⟩ : BufTy).Contents (Elt F) → (⟨S340000x256, .f32⟩ : BufTy).Contents (Elt F)),
    nullary main_cst_27 (constant S_ .f32 0x00000000#32),
    unary main_cst_27 main_v136 (broadcastInDim S20000x256 ![] bcast_S_S20000x256 : (⟨S_, .f32⟩ : BufTy).Contents (Elt F) → (⟨S20000x256, .f32⟩ : BufTy).Contents (Elt F)),
    unary main_v103 main_v137 (broadcastInDim S340000x1 ![0] bcast_S340000_S340000x1_0 : (⟨S340000, .i32⟩ : BufTy).Contents (Elt F) → (⟨S340000x1, .i32⟩ : BufTy).Contents (Elt F)),
    ternary main_v136 main_v137 main_v135 main_v138 ((fun x i u => Host.scatterAdd scatter_S20000x256_S340000x1_S340000x256_1_0_0_1 x i u) : (⟨S20000x256, .f32⟩ : BufTy).Contents (Elt F) → (⟨S340000x1, .i32⟩ : BufTy).Contents (Elt F) → (⟨S340000x256, .f32⟩ : BufTy).Contents (Elt F) → (⟨S20000x256, .f32⟩ : BufTy).Contents (Elt F)),
    unary main_arg12 main_v139 (broadcastInDim S1x256 ![1] bcast_S256_S1x256_1 : (⟨S256, .f32⟩ : BufTy).Contents (Elt F) → (⟨S1x256, .f32⟩ : BufTy).Contents (Elt F)),
    unary main_v139 main_v140 (broadcastInDim S20000x256 ![0, 1] bcast_S1x256_S20000x256_0_1 : (⟨S1x256, .f32⟩ : BufTy).Contents (Elt F) → (⟨S20000x256, .f32⟩ : BufTy).Contents (Elt F)),
    binary main_v138 main_v140 main_v141 (addf : (⟨S20000x256, .f32⟩ : BufTy).Contents (Elt F) → (⟨S20000x256, .f32⟩ : BufTy).Contents (Elt F) → (⟨S20000x256, .f32⟩ : BufTy).Contents (Elt F)),
    nullary main_cst_28 (constant S_ .f32 0x00000000#32),
    binary main_v141 main_cst_28 main_v142 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v142 main_v143 (broadcastInDim S20000x1 ![0] bcast_S20000_S20000x1_0 : (⟨S20000, .f32⟩ : BufTy).Contents (Elt F) → (⟨S20000x1, .f32⟩ : BufTy).Contents (Elt F)),
    nullary main_cst_29 (constant S_ .f32 0x43800000#32),
    unary main_cst_29 main_v144 (broadcastInDim S20000x1 ![] bcast_S_S20000x1 : (⟨S_, .f32⟩ : BufTy).Contents (Elt F) → (⟨S20000x1, .f32⟩ : BufTy).Contents (Elt F)),
    binary main_v143 main_v144 main_v145 (Host.divf : (⟨S20000x1, .f32⟩ : BufTy).Contents (Elt F) → (⟨S20000x1, .f32⟩ : BufTy).Contents (Elt F) → (⟨S20000x1, .f32⟩ : BufTy).Contents (Elt F)),
    unary main_v145 main_v146 (broadcastInDim S20000x256 ![0, 1] bcast_S20000x1_S20000x256_0_1 : (⟨S20000x1, .f32⟩ : BufTy).Contents (Elt F) → (⟨S20000x256, .f32⟩ : BufTy).Contents (Elt F)),
    binary main_v141 main_v146 main_v147 (subf : (⟨S20000x256, .f32⟩ : BufTy).Contents (Elt F) → (⟨S20000x256, .f32⟩ : BufTy).Contents (Elt F) → (⟨S20000x256, .f32⟩ : BufTy).Contents (Elt F)),
    binary main_v147 main_v147 main_v148 (mulf : (⟨S20000x256, .f32⟩ : BufTy).Contents (Elt F) → (⟨S20000x256, .f32⟩ : BufTy).Contents (Elt F) → (⟨S20000x256, .f32⟩ : BufTy).Contents (Elt F)),
    nullary main_cst_30 (constant S_ .f32 0x00000000#32),
    binary main_v148 main_cst_30 main_v149 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v149 main_v150 (broadcastInDim S20000x1 ![0] bcast_S20000_S20000x1_0 : (⟨S20000, .f32⟩ : BufTy).Contents (Elt F) → (⟨S20000x1, .f32⟩ : BufTy).Contents (Elt F)),
    nullary main_cst_31 (constant S_ .f32 0x43800000#32),
    unary main_cst_31 main_v151 (broadcastInDim S20000x1 ![] bcast_S_S20000x1 : (⟨S_, .f32⟩ : BufTy).Contents (Elt F) → (⟨S20000x1, .f32⟩ : BufTy).Contents (Elt F)),
    binary main_v150 main_v151 main_v152 (Host.divf : (⟨S20000x1, .f32⟩ : BufTy).Contents (Elt F) → (⟨S20000x1, .f32⟩ : BufTy).Contents (Elt F) → (⟨S20000x1, .f32⟩ : BufTy).Contents (Elt F)),
    unary main_v145 main_v153 (broadcastInDim S20000x256 ![0, 1] bcast_S20000x1_S20000x256_0_1 : (⟨S20000x1, .f32⟩ : BufTy).Contents (Elt F) → (⟨S20000x256, .f32⟩ : BufTy).Contents (Elt F)),
    binary main_v141 main_v153 main_v154 (subf : (⟨S20000x256, .f32⟩ : BufTy).Contents (Elt F) → (⟨S20000x256, .f32⟩ : BufTy).Contents (Elt F) → (⟨S20000x256, .f32⟩ : BufTy).Contents (Elt F)),
    nullary main_cst_32 (constant S_ .f32 0x3727C5AC#32),
    unary main_cst_32 main_v155 (broadcastInDim S20000x1 ![] bcast_S_S20000x1 : (⟨S_, .f32⟩ : BufTy).Contents (Elt F) → (⟨S20000x1, .f32⟩ : BufTy).Contents (Elt F)),
    binary main_v152 main_v155 main_v156 (addf : (⟨S20000x1, .f32⟩ : BufTy).Contents (Elt F) → (⟨S20000x1, .f32⟩ : BufTy).Contents (Elt F) → (⟨S20000x1, .f32⟩ : BufTy).Contents (Elt F)),
    unary main_v156 main_v157 (Host.rsqrt : (⟨S20000x1, .f32⟩ : BufTy).Contents (Elt F) → (⟨S20000x1, .f32⟩ : BufTy).Contents (Elt F)),
    unary main_v157 main_v158 (broadcastInDim S20000x256 ![0, 1] bcast_S20000x1_S20000x256_0_1 : (⟨S20000x1, .f32⟩ : BufTy).Contents (Elt F) → (⟨S20000x256, .f32⟩ : BufTy).Contents (Elt F)),
    binary main_v154 main_v158 main_v159 (mulf : (⟨S20000x256, .f32⟩ : BufTy).Contents (Elt F) → (⟨S20000x256, .f32⟩ : BufTy).Contents (Elt F) → (⟨S20000x256, .f32⟩ : BufTy).Contents (Elt F)),
    unary main_arg13 main_v160 (broadcastInDim S1x256 ![1] bcast_S256_S1x256_1 : (⟨S256, .f32⟩ : BufTy).Contents (Elt F) → (⟨S1x256, .f32⟩ : BufTy).Contents (Elt F)),
    unary main_v160 main_v161 (broadcastInDim S20000x256 ![0, 1] bcast_S1x256_S20000x256_0_1 : (⟨S1x256, .f32⟩ : BufTy).Contents (Elt F) → (⟨S20000x256, .f32⟩ : BufTy).Contents (Elt F)),
    binary main_v159 main_v161 main_v162 (mulf : (⟨S20000x256, .f32⟩ : BufTy).Contents (Elt F) → (⟨S20000x256, .f32⟩ : BufTy).Contents (Elt F) → (⟨S20000x256, .f32⟩ : BufTy).Contents (Elt F)),
    unary main_arg14 main_v163 (broadcastInDim S1x256 ![1] bcast_S256_S1x256_1 : (⟨S256, .f32⟩ : BufTy).Contents (Elt F) → (⟨S1x256, .f32⟩ : BufTy).Contents (Elt F)),
    unary main_v163 main_v164 (broadcastInDim S20000x256 ![0, 1] bcast_S1x256_S20000x256_0_1 : (⟨S1x256, .f32⟩ : BufTy).Contents (Elt F) → (⟨S20000x256, .f32⟩ : BufTy).Contents (Elt F)),
    binary main_v162 main_v164 main_v165 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S20000x256, .f32⟩) main_call2_v0) (broadcastInDim S20000x256 ![] bcast_S_S20000x256),
    TRef.binary (TRef.of (T := ⟨S20000x256, .f32⟩) main_v165) (TRef.of (T := ⟨S20000x256, .f32⟩) main_call2_v0) (TRef.of (T := ⟨S20000x256, .f32⟩) main_v166) maximumf,
    binary main_v166 main_v99 main_v167 (addf : (⟨S20000x256, .f32⟩ : BufTy).Contents (Elt F) → (⟨S20000x256, .f32⟩ : BufTy).Contents (Elt F) → (⟨S20000x256, .f32⟩ : BufTy).Contents (Elt F)),
    binary main_v167 main_arg15 main_v168 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_v169 (iotaInDim S20000 32 0),
    binary main_v1 main_v169 main_v170 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    binary main_v3 main_v169 main_v171 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    nullary main_cst_33 (constant S_ .f32 0x3F800000#32),
    unary main_cst_33 main_v172 (broadcastInDim S340000 ![] bcast_S_S340000 : (⟨S_, .f32⟩ : BufTy).Contents (Elt F) → (⟨S340000, .f32⟩ : BufTy).Contents (Elt F)),
    nullary main_cst_34 (constant S_ .f32 0x00000000#32),
    unary main_cst_34 main_v173 (broadcastInDim S20000 ![] bcast_S_S20000 : (⟨S_, .f32⟩ : BufTy).Contents (Elt F) → (⟨S20000, .f32⟩ : BufTy).Contents (Elt F)),
    unary main_v171 main_v174 (broadcastInDim S340000x1 ![0] bcast_S340000_S340000x1_0 : (⟨S340000, .i32⟩ : BufTy).Contents (Elt F) → (⟨S340000x1, .i32⟩ : BufTy).Contents (Elt F)),
    ternary main_v173 main_v174 main_v172 main_v175 ((fun x i u => Host.scatterAdd scatter_S20000_S340000x1_S340000_n_0_0_1 x i u) : (⟨S20000, .f32⟩ : BufTy).Contents (Elt F) → (⟨S340000x1, .i32⟩ : BufTy).Contents (Elt F) → (⟨S340000, .f32⟩ : BufTy).Contents (Elt F) → (⟨S20000, .f32⟩ : BufTy).Contents (Elt F)),
    nullary main_cst_35 (constant S_ .f32 0x3F800000#32),
    unary main_cst_35 main_v176 (broadcastInDim S20000 ![] bcast_S_S20000 : (⟨S_, .f32⟩ : BufTy).Contents (Elt F) → (⟨S20000, .f32⟩ : BufTy).Contents (Elt F)),
    binary main_v175 main_v176 main_v177 (maximumf : (⟨S20000, .f32⟩ : BufTy).Contents (Elt F) → (⟨S20000, .f32⟩ : BufTy).Contents (Elt F) → (⟨S20000, .f32⟩ : BufTy).Contents (Elt F)),
    unary main_v177 main_v178 (Host.rsqrt : (⟨S20000, .f32⟩ : BufTy).Contents (Elt F) → (⟨S20000, .f32⟩ : BufTy).Contents (Elt F)),
    nullary main_c_36 (constantI S_ 32 0#32),
    unary main_c_36 main_v179 (broadcastInDim S340000 ![] bcast_S_S340000 : (⟨S_, .i32⟩ : BufTy).Contents (Elt F) → (⟨S340000, .i32⟩ : BufTy).Contents (Elt F)),
    binary main_v170 main_v179 main_v180 (cmpi .slt : (⟨S340000, .i32⟩ : BufTy).Contents (Elt F) → (⟨S340000, .i32⟩ : BufTy).Contents (Elt F) → (⟨S340000, .i1⟩ : BufTy).Contents (Elt F)),
    nullary main_c_37 (constantI S_ 32 20000#32),
    unary main_c_37 main_v181 (broadcastInDim S340000 ![] bcast_S_S340000 : (⟨S_, .i32⟩ : BufTy).Contents (Elt F) → (⟨S340000, .i32⟩ : BufTy).Contents (Elt F)),
    binary main_v170 main_v181 main_v182 (addi : (⟨S340000, .i32⟩ : BufTy).Contents (Elt F) → (⟨S340000, .i32⟩ : BufTy).Contents (Elt F) → (⟨S340000, .i32⟩ : BufTy).Contents (Elt F)),
    ternary main_v180 main_v182 main_v170 main_v183 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v183 main_v184 (broadcastInDim S340000x1 ![0] bcast_S340000_S340000x1_0 : (⟨S340000, .i32⟩ : BufTy).Contents (Elt F) → (⟨S340000x1, .i32⟩ : BufTy).Contents (Elt F)),
    binary main_v178 main_v184 main_v185 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    nullary main_c_38 (constantI S_ 32 0#32),
    unary main_c_38 main_v186 (broadcastInDim S340000 ![] bcast_S_S340000 : (⟨S_, .i32⟩ : BufTy).Contents (Elt F) → (⟨S340000, .i32⟩ : BufTy).Contents (Elt F)),
    binary main_v171 main_v186 main_v187 (cmpi .slt : (⟨S340000, .i32⟩ : BufTy).Contents (Elt F) → (⟨S340000, .i32⟩ : BufTy).Contents (Elt F) → (⟨S340000, .i1⟩ : BufTy).Contents (Elt F)),
    nullary main_c_39 (constantI S_ 32 20000#32),
    unary main_c_39 main_v188 (broadcastInDim S340000 ![] bcast_S_S340000 : (⟨S_, .i32⟩ : BufTy).Contents (Elt F) → (⟨S340000, .i32⟩ : BufTy).Contents (Elt F)),
    binary main_v171 main_v188 main_v189 (addi : (⟨S340000, .i32⟩ : BufTy).Contents (Elt F) → (⟨S340000, .i32⟩ : BufTy).Contents (Elt F) → (⟨S340000, .i32⟩ : BufTy).Contents (Elt F)),
    ternary main_v187 main_v189 main_v171 main_v190 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v190 main_v191 (broadcastInDim S340000x1 ![0] bcast_S340000_S340000x1_0 : (⟨S340000, .i32⟩ : BufTy).Contents (Elt F) → (⟨S340000x1, .i32⟩ : BufTy).Contents (Elt F)),
    binary main_v178 main_v191 main_v192 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    binary main_v185 main_v192 main_v193 (mulf : (⟨S340000, .f32⟩ : BufTy).Contents (Elt F) → (⟨S340000, .f32⟩ : BufTy).Contents (Elt F) → (⟨S340000, .f32⟩ : BufTy).Contents (Elt F)),
    nullary main_c_40 (constantI S_ 32 0#32),
    unary main_c_40 main_v194 (broadcastInDim S340000 ![] bcast_S_S340000 : (⟨S_, .i32⟩ : BufTy).Contents (Elt F) → (⟨S340000, .i32⟩ : BufTy).Contents (Elt F)),
    binary main_v170 main_v194 main_v195 (cmpi .slt : (⟨S340000, .i32⟩ : BufTy).Contents (Elt F) → (⟨S340000, .i32⟩ : BufTy).Contents (Elt F) → (⟨S340000, .i1⟩ : BufTy).Contents (Elt F)),
    nullary main_c_41 (constantI S_ 32 20000#32),
    unary main_c_41 main_v196 (broadcastInDim S340000 ![] bcast_S_S340000 : (⟨S_, .i32⟩ : BufTy).Contents (Elt F) → (⟨S340000, .i32⟩ : BufTy).Contents (Elt F)),
    binary main_v170 main_v196 main_v197 (addi : (⟨S340000, .i32⟩ : BufTy).Contents (Elt F) → (⟨S340000, .i32⟩ : BufTy).Contents (Elt F) → (⟨S340000, .i32⟩ : BufTy).Contents (Elt F)),
    ternary main_v195 main_v197 main_v170 main_v198 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v198 main_v199 (broadcastInDim S340000x1 ![0] bcast_S340000_S340000x1_0 : (⟨S340000, .i32⟩ : BufTy).Contents (Elt F) → (⟨S340000x1, .i32⟩ : BufTy).Contents (Elt F)),
    binary main_v168 main_v199 main_v200 ((fun x i => Host.gather gather_S20000x256_S340000x1_S340000x256_1_0_n_n_0_1_1256 x i) : (⟨S20000x256, .f32⟩ : BufTy).Contents (Elt F) → (⟨S340000x1, .i32⟩ : BufTy).Contents (Elt F) → (⟨S340000x256, .f32⟩ : BufTy).Contents (Elt F)),
    unary main_v193 main_v201 (broadcastInDim S340000x1 ![0] bcast_S340000_S340000x1_0 : (⟨S340000, .f32⟩ : BufTy).Contents (Elt F) → (⟨S340000x1, .f32⟩ : BufTy).Contents (Elt F)),
    unary main_v201 main_v202 (broadcastInDim S340000x256 ![0, 1] bcast_S340000x1_S340000x256_0_1 : (⟨S340000x1, .f32⟩ : BufTy).Contents (Elt F) → (⟨S340000x256, .f32⟩ : BufTy).Contents (Elt F)),
    binary main_v200 main_v202 main_v203 (mulf : (⟨S340000x256, .f32⟩ : BufTy).Contents (Elt F) → (⟨S340000x256, .f32⟩ : BufTy).Contents (Elt F) → (⟨S340000x256, .f32⟩ : BufTy).Contents (Elt F)),
    nullary main_cst_42 (constant S_ .f32 0x00000000#32),
    unary main_cst_42 main_v204 (broadcastInDim S20000x256 ![] bcast_S_S20000x256 : (⟨S_, .f32⟩ : BufTy).Contents (Elt F) → (⟨S20000x256, .f32⟩ : BufTy).Contents (Elt F)),
    unary main_v171 main_v205 (broadcastInDim S340000x1 ![0] bcast_S340000_S340000x1_0 : (⟨S340000, .i32⟩ : BufTy).Contents (Elt F) → (⟨S340000x1, .i32⟩ : BufTy).Contents (Elt F)),
    ternary main_v204 main_v205 main_v203 main_v206 ((fun x i u => Host.scatterAdd scatter_S20000x256_S340000x1_S340000x256_1_0_0_1 x i u) : (⟨S20000x256, .f32⟩ : BufTy).Contents (Elt F) → (⟨S340000x1, .i32⟩ : BufTy).Contents (Elt F) → (⟨S340000x256, .f32⟩ : BufTy).Contents (Elt F) → (⟨S20000x256, .f32⟩ : BufTy).Contents (Elt F)),
    unary main_arg16 main_v207 (broadcastInDim S1x256 ![1] bcast_S256_S1x256_1 : (⟨S256, .f32⟩ : BufTy).Contents (Elt F) → (⟨S1x256, .f32⟩ : BufTy).Contents (Elt F)),
    unary main_v207 main_v208 (broadcastInDim S20000x256 ![0, 1] bcast_S1x256_S20000x256_0_1 : (⟨S1x256, .f32⟩ : BufTy).Contents (Elt F) → (⟨S20000x256, .f32⟩ : BufTy).Contents (Elt F)),
    binary main_v206 main_v208 main_v209 (addf : (⟨S20000x256, .f32⟩ : BufTy).Contents (Elt F) → (⟨S20000x256, .f32⟩ : BufTy).Contents (Elt F) → (⟨S20000x256, .f32⟩ : BufTy).Contents (Elt F)),
    nullary main_cst_43 (constant S_ .f32 0x00000000#32),
    binary main_v209 main_cst_43 main_v210 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v210 main_v211 (broadcastInDim S20000x1 ![0] bcast_S20000_S20000x1_0 : (⟨S20000, .f32⟩ : BufTy).Contents (Elt F) → (⟨S20000x1, .f32⟩ : BufTy).Contents (Elt F)),
    nullary main_cst_44 (constant S_ .f32 0x43800000#32),
    unary main_cst_44 main_v212 (broadcastInDim S20000x1 ![] bcast_S_S20000x1 : (⟨S_, .f32⟩ : BufTy).Contents (Elt F) → (⟨S20000x1, .f32⟩ : BufTy).Contents (Elt F)),
    binary main_v211 main_v212 main_v213 (Host.divf : (⟨S20000x1, .f32⟩ : BufTy).Contents (Elt F) → (⟨S20000x1, .f32⟩ : BufTy).Contents (Elt F) → (⟨S20000x1, .f32⟩ : BufTy).Contents (Elt F)),
    unary main_v213 main_v214 (broadcastInDim S20000x256 ![0, 1] bcast_S20000x1_S20000x256_0_1 : (⟨S20000x1, .f32⟩ : BufTy).Contents (Elt F) → (⟨S20000x256, .f32⟩ : BufTy).Contents (Elt F)),
    binary main_v209 main_v214 main_v215 (subf : (⟨S20000x256, .f32⟩ : BufTy).Contents (Elt F) → (⟨S20000x256, .f32⟩ : BufTy).Contents (Elt F) → (⟨S20000x256, .f32⟩ : BufTy).Contents (Elt F)),
    binary main_v215 main_v215 main_v216 (mulf : (⟨S20000x256, .f32⟩ : BufTy).Contents (Elt F) → (⟨S20000x256, .f32⟩ : BufTy).Contents (Elt F) → (⟨S20000x256, .f32⟩ : BufTy).Contents (Elt F)),
    nullary main_cst_45 (constant S_ .f32 0x00000000#32),
    binary main_v216 main_cst_45 main_v217 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v217 main_v218 (broadcastInDim S20000x1 ![0] bcast_S20000_S20000x1_0 : (⟨S20000, .f32⟩ : BufTy).Contents (Elt F) → (⟨S20000x1, .f32⟩ : BufTy).Contents (Elt F)),
    nullary main_cst_46 (constant S_ .f32 0x43800000#32),
    unary main_cst_46 main_v219 (broadcastInDim S20000x1 ![] bcast_S_S20000x1 : (⟨S_, .f32⟩ : BufTy).Contents (Elt F) → (⟨S20000x1, .f32⟩ : BufTy).Contents (Elt F)),
    binary main_v218 main_v219 main_v220 (Host.divf : (⟨S20000x1, .f32⟩ : BufTy).Contents (Elt F) → (⟨S20000x1, .f32⟩ : BufTy).Contents (Elt F) → (⟨S20000x1, .f32⟩ : BufTy).Contents (Elt F)),
    unary main_v213 main_v221 (broadcastInDim S20000x256 ![0, 1] bcast_S20000x1_S20000x256_0_1 : (⟨S20000x1, .f32⟩ : BufTy).Contents (Elt F) → (⟨S20000x256, .f32⟩ : BufTy).Contents (Elt F)),
    binary main_v209 main_v221 main_v222 (subf : (⟨S20000x256, .f32⟩ : BufTy).Contents (Elt F) → (⟨S20000x256, .f32⟩ : BufTy).Contents (Elt F) → (⟨S20000x256, .f32⟩ : BufTy).Contents (Elt F)),
    nullary main_cst_47 (constant S_ .f32 0x3727C5AC#32),
    unary main_cst_47 main_v223 (broadcastInDim S20000x1 ![] bcast_S_S20000x1 : (⟨S_, .f32⟩ : BufTy).Contents (Elt F) → (⟨S20000x1, .f32⟩ : BufTy).Contents (Elt F)),
    binary main_v220 main_v223 main_v224 (addf : (⟨S20000x1, .f32⟩ : BufTy).Contents (Elt F) → (⟨S20000x1, .f32⟩ : BufTy).Contents (Elt F) → (⟨S20000x1, .f32⟩ : BufTy).Contents (Elt F)),
    unary main_v224 main_v225 (Host.rsqrt : (⟨S20000x1, .f32⟩ : BufTy).Contents (Elt F) → (⟨S20000x1, .f32⟩ : BufTy).Contents (Elt F)),
    unary main_v225 main_v226 (broadcastInDim S20000x256 ![0, 1] bcast_S20000x1_S20000x256_0_1 : (⟨S20000x1, .f32⟩ : BufTy).Contents (Elt F) → (⟨S20000x256, .f32⟩ : BufTy).Contents (Elt F)),
    binary main_v222 main_v226 main_v227 (mulf : (⟨S20000x256, .f32⟩ : BufTy).Contents (Elt F) → (⟨S20000x256, .f32⟩ : BufTy).Contents (Elt F) → (⟨S20000x256, .f32⟩ : BufTy).Contents (Elt F)),
    unary main_arg17 main_v228 (broadcastInDim S1x256 ![1] bcast_S256_S1x256_1 : (⟨S256, .f32⟩ : BufTy).Contents (Elt F) → (⟨S1x256, .f32⟩ : BufTy).Contents (Elt F)),
    unary main_v228 main_v229 (broadcastInDim S20000x256 ![0, 1] bcast_S1x256_S20000x256_0_1 : (⟨S1x256, .f32⟩ : BufTy).Contents (Elt F) → (⟨S20000x256, .f32⟩ : BufTy).Contents (Elt F)),
    binary main_v227 main_v229 main_v230 (mulf : (⟨S20000x256, .f32⟩ : BufTy).Contents (Elt F) → (⟨S20000x256, .f32⟩ : BufTy).Contents (Elt F) → (⟨S20000x256, .f32⟩ : BufTy).Contents (Elt F)),
    unary main_arg18 main_v231 (broadcastInDim S1x256 ![1] bcast_S256_S1x256_1 : (⟨S256, .f32⟩ : BufTy).Contents (Elt F) → (⟨S1x256, .f32⟩ : BufTy).Contents (Elt F)),
    unary main_v231 main_v232 (broadcastInDim S20000x256 ![0, 1] bcast_S1x256_S20000x256_0_1 : (⟨S1x256, .f32⟩ : BufTy).Contents (Elt F) → (⟨S20000x256, .f32⟩ : BufTy).Contents (Elt F)),
    binary main_v230 main_v232 main_v233 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S20000x256, .f32⟩) main_call3_v0) (broadcastInDim S20000x256 ![] bcast_S_S20000x256),
    TRef.binary (TRef.of (T := ⟨S20000x256, .f32⟩) main_v233) (TRef.of (T := ⟨S20000x256, .f32⟩) main_call3_v0) (TRef.of (T := ⟨S20000x256, .f32⟩) main_v234) maximumf,
    binary main_v234 main_v167 main_v235 (addf : (⟨S20000x256, .f32⟩ : BufTy).Contents (Elt F) → (⟨S20000x256, .f32⟩ : BufTy).Contents (Elt F) → (⟨S20000x256, .f32⟩ : BufTy).Contents (Elt F)),
    binary main_v235 main_arg19 main_v236 ((fun l r => Host.dotGeneral dot_S20000x256_S256x1_S20000x1_1_0_0_1_n_n none l r) : (⟨S20000x256, .f32⟩ : BufTy).Contents (Elt F) → (⟨S256x1, .f32⟩ : BufTy).Contents (Elt F) → (⟨S20000x1, .f32⟩ : BufTy).Contents (Elt F)),
    unary main_arg20 main_v237 (broadcastInDim S1x1 ![1] bcast_S1_S1x1_1 : (⟨S1, .f32⟩ : BufTy).Contents (Elt F) → (⟨S1x1, .f32⟩ : BufTy).Contents (Elt F)),
    unary main_v237 main_v238 (broadcastInDim S20000x1 ![0, 1] bcast_S1x1_S20000x1_0_1 : (⟨S1x1, .f32⟩ : BufTy).Contents (Elt F) → (⟨S20000x1, .f32⟩ : BufTy).Contents (Elt F)),
    binary main_v236 main_v238 main_v239 (addf : (⟨S20000x1, .f32⟩ : BufTy).Contents (Elt F) → (⟨S20000x1, .f32⟩ : BufTy).Contents (Elt F) → (⟨S20000x1, .f32⟩ : BufTy).Contents (Elt F)),
    unary main_v239 main_v240 (Host.tanh : (⟨S20000x1, .f32⟩ : BufTy).Contents (Elt F) → (⟨S20000x1, .f32⟩ : BufTy).Contents (Elt F)),
    nullary main_cst_48 (constant S_ .f32 0xFF800000#32),
    binary main_v240 main_cst_48 main_v241 ((fun x v => Host.reduce FloatOps.maximumf x v reducesTo_S20000x1_S1_d0 h_S_) : (⟨S20000x1, .f32⟩ : BufTy).Contents (Elt F) → (⟨S_, .f32⟩ : BufTy).Contents (Elt F) → (⟨S1, .f32⟩ : BufTy).Contents (Elt F)),
    nullary main_cst_49 (constant S_ .f32 0xFF800000#32),
    unary main_cst_49 main_v242 (broadcastInDim S1 ![] bcast_S_S1 : (⟨S_, .f32⟩ : BufTy).Contents (Elt F) → (⟨S1, .f32⟩ : BufTy).Contents (Elt F)),
    binary main_v242 main_v241 main_v243 (maximumf : (⟨S1, .f32⟩ : BufTy).Contents (Elt F) → (⟨S1, .f32⟩ : BufTy).Contents (Elt F) → (⟨S1, .f32⟩ : BufTy).Contents (Elt F)),
    unary main_v243 main_v244 (broadcastInDim S1x1 ![1] bcast_S1_S1x1_1 : (⟨S1, .f32⟩ : BufTy).Contents (Elt F) → (⟨S1x1, .f32⟩ : BufTy).Contents (Elt F)),
    unary main_v244 main_v245 (broadcastInDim S20000x1 ![0, 1] bcast_S1x1_S20000x1_0_1 : (⟨S1x1, .f32⟩ : BufTy).Contents (Elt F) → (⟨S20000x1, .f32⟩ : BufTy).Contents (Elt F)),
    binary main_v240 main_v245 main_v246 (subf : (⟨S20000x1, .f32⟩ : BufTy).Contents (Elt F) → (⟨S20000x1, .f32⟩ : BufTy).Contents (Elt F) → (⟨S20000x1, .f32⟩ : BufTy).Contents (Elt F)),
    unary main_v246 main_v247 (Host.exp : (⟨S20000x1, .f32⟩ : BufTy).Contents (Elt F) → (⟨S20000x1, .f32⟩ : BufTy).Contents (Elt F)),
    nullary main_cst_50 (constant S_ .f32 0x00000000#32),
    binary main_v247 main_cst_50 main_v248 ((fun x v => Host.reduceAdd x v reducesTo_S20000x1_S1_d0 h_S_) : (⟨S20000x1, .f32⟩ : BufTy).Contents (Elt F) → (⟨S_, .f32⟩ : BufTy).Contents (Elt F) → (⟨S1, .f32⟩ : BufTy).Contents (Elt F)),
    unary main_v248 main_v249 (broadcastInDim S1x1 ![1] bcast_S1_S1x1_1 : (⟨S1, .f32⟩ : BufTy).Contents (Elt F) → (⟨S1x1, .f32⟩ : BufTy).Contents (Elt F)),
    unary main_v249 main_v250 (broadcastInDim S20000x1 ![0, 1] bcast_S1x1_S20000x1_0_1 : (⟨S1x1, .f32⟩ : BufTy).Contents (Elt F) → (⟨S20000x1, .f32⟩ : BufTy).Contents (Elt F)),
    binary main_v247 main_v250 main_v251 (Host.divf : (⟨S20000x1, .f32⟩ : BufTy).Contents (Elt F) → (⟨S20000x1, .f32⟩ : BufTy).Contents (Elt F) → (⟨S20000x1, .f32⟩ : BufTy).Contents (Elt F)),
    unary main_v251 main_v252 (broadcastInDim S20000x256 ![0, 1] bcast_S20000x1_S20000x256_0_1 : (⟨S20000x1, .f32⟩ : BufTy).Contents (Elt F) → (⟨S20000x256, .f32⟩ : BufTy).Contents (Elt F)),
    binary main_v235 main_v252 main_v253 (mulf : (⟨S20000x256, .f32⟩ : BufTy).Contents (Elt F) → (⟨S20000x256, .f32⟩ : BufTy).Contents (Elt F) → (⟨S20000x256, .f32⟩ : BufTy).Contents (Elt F)),
    nullary main_cst_51 (constant S_ .f32 0x00000000#32),
    unary main_cst_51 main_v254 (broadcastInDim S64x256 ![] bcast_S_S64x256 : (⟨S_, .f32⟩ : BufTy).Contents (Elt F) → (⟨S64x256, .f32⟩ : BufTy).Contents (Elt F)),
    unary main_arg2 main_v255 (broadcastInDim S20000x1 ![0] bcast_S20000_S20000x1_0 : (⟨S20000, .i32⟩ : BufTy).Contents (Elt F) → (⟨S20000x1, .i32⟩ : BufTy).Contents (Elt F)),
    ternary main_v254 main_v255 main_v253 main_v256 ((fun x i u => Host.scatterAdd scatter_S64x256_S20000x1_S20000x256_1_0_0_1 x i u) : (⟨S64x256, .f32⟩ : BufTy).Contents (Elt F) → (⟨S20000x1, .i32⟩ : BufTy).Contents (Elt F) → (⟨S20000x256, .f32⟩ : BufTy).Contents (Elt F) → (⟨S64x256, .f32⟩ : BufTy).Contents (Elt F)),
    binary main_v256 main_arg21 main_v257 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    unary main_arg22 main_v258 (broadcastInDim S1x256 ![1] bcast_S256_S1x256_1 : (⟨S256, .f32⟩ : BufTy).Contents (Elt F) → (⟨S1x256, .f32⟩ : BufTy).Contents (Elt F)),
    unary main_v258 main_v259 (broadcastInDim S64x256 ![0, 1] bcast_S1x256_S64x256_0_1 : (⟨S1x256, .f32⟩ : BufTy).Contents (Elt F) → (⟨S64x256, .f32⟩ : BufTy).Contents (Elt F)),
    binary main_v257 main_v259 main_v260 (addf : (⟨S64x256, .f32⟩ : BufTy).Contents (Elt F) → (⟨S64x256, .f32⟩ : BufTy).Contents (Elt F) → (⟨S64x256, .f32⟩ : BufTy).Contents (Elt F)),
    nullary main_cst_52 (constant S_ .f32 0x00000000#32),
    binary main_v260 main_cst_52 main_v261 ((fun x v => Host.reduceAdd x v reducesTo_S64x256_S64_d1 h_S_) : (⟨S64x256, .f32⟩ : BufTy).Contents (Elt F) → (⟨S_, .f32⟩ : BufTy).Contents (Elt F) → (⟨S64, .f32⟩ : BufTy).Contents (Elt F)),
    unary main_v261 main_v262 (broadcastInDim S64x1 ![0] bcast_S64_S64x1_0 : (⟨S64, .f32⟩ : BufTy).Contents (Elt F) → (⟨S64x1, .f32⟩ : BufTy).Contents (Elt F)),
    nullary main_cst_53 (constant S_ .f32 0x43800000#32),
    unary main_cst_53 main_v263 (broadcastInDim S64x1 ![] bcast_S_S64x1 : (⟨S_, .f32⟩ : BufTy).Contents (Elt F) → (⟨S64x1, .f32⟩ : BufTy).Contents (Elt F)),
    binary main_v262 main_v263 main_v264 (Host.divf : (⟨S64x1, .f32⟩ : BufTy).Contents (Elt F) → (⟨S64x1, .f32⟩ : BufTy).Contents (Elt F) → (⟨S64x1, .f32⟩ : BufTy).Contents (Elt F)),
    unary main_v264 main_v265 (broadcastInDim S64x256 ![0, 1] bcast_S64x1_S64x256_0_1 : (⟨S64x1, .f32⟩ : BufTy).Contents (Elt F) → (⟨S64x256, .f32⟩ : BufTy).Contents (Elt F)),
    binary main_v260 main_v265 main_v266 (subf : (⟨S64x256, .f32⟩ : BufTy).Contents (Elt F) → (⟨S64x256, .f32⟩ : BufTy).Contents (Elt F) → (⟨S64x256, .f32⟩ : BufTy).Contents (Elt F)),
    binary main_v266 main_v266 main_v267 (mulf : (⟨S64x256, .f32⟩ : BufTy).Contents (Elt F) → (⟨S64x256, .f32⟩ : BufTy).Contents (Elt F) → (⟨S64x256, .f32⟩ : BufTy).Contents (Elt F)),
    nullary main_cst_54 (constant S_ .f32 0x00000000#32),
    binary main_v267 main_cst_54 main_v268 ((fun x v => Host.reduceAdd x v reducesTo_S64x256_S64_d1 h_S_) : (⟨S64x256, .f32⟩ : BufTy).Contents (Elt F) → (⟨S_, .f32⟩ : BufTy).Contents (Elt F) → (⟨S64, .f32⟩ : BufTy).Contents (Elt F)),
    unary main_v268 main_v269 (broadcastInDim S64x1 ![0] bcast_S64_S64x1_0 : (⟨S64, .f32⟩ : BufTy).Contents (Elt F) → (⟨S64x1, .f32⟩ : BufTy).Contents (Elt F)),
    nullary main_cst_55 (constant S_ .f32 0x43800000#32),
    unary main_cst_55 main_v270 (broadcastInDim S64x1 ![] bcast_S_S64x1 : (⟨S_, .f32⟩ : BufTy).Contents (Elt F) → (⟨S64x1, .f32⟩ : BufTy).Contents (Elt F)),
    binary main_v269 main_v270 main_v271 (Host.divf : (⟨S64x1, .f32⟩ : BufTy).Contents (Elt F) → (⟨S64x1, .f32⟩ : BufTy).Contents (Elt F) → (⟨S64x1, .f32⟩ : BufTy).Contents (Elt F)),
    unary main_v264 main_v272 (broadcastInDim S64x256 ![0, 1] bcast_S64x1_S64x256_0_1 : (⟨S64x1, .f32⟩ : BufTy).Contents (Elt F) → (⟨S64x256, .f32⟩ : BufTy).Contents (Elt F)),
    binary main_v260 main_v272 main_v273 (subf : (⟨S64x256, .f32⟩ : BufTy).Contents (Elt F) → (⟨S64x256, .f32⟩ : BufTy).Contents (Elt F) → (⟨S64x256, .f32⟩ : BufTy).Contents (Elt F)),
    nullary main_cst_56 (constant S_ .f32 0x3727C5AC#32),
    unary main_cst_56 main_v274 (broadcastInDim S64x1 ![] bcast_S_S64x1 : (⟨S_, .f32⟩ : BufTy).Contents (Elt F) → (⟨S64x1, .f32⟩ : BufTy).Contents (Elt F)),
    binary main_v271 main_v274 main_v275 (addf : (⟨S64x1, .f32⟩ : BufTy).Contents (Elt F) → (⟨S64x1, .f32⟩ : BufTy).Contents (Elt F) → (⟨S64x1, .f32⟩ : BufTy).Contents (Elt F)),
    unary main_v275 main_v276 (Host.rsqrt : (⟨S64x1, .f32⟩ : BufTy).Contents (Elt F) → (⟨S64x1, .f32⟩ : BufTy).Contents (Elt F)),
    unary main_v276 main_v277 (broadcastInDim S64x256 ![0, 1] bcast_S64x1_S64x256_0_1 : (⟨S64x1, .f32⟩ : BufTy).Contents (Elt F) → (⟨S64x256, .f32⟩ : BufTy).Contents (Elt F)),
    binary main_v273 main_v277 main_v278 (mulf : (⟨S64x256, .f32⟩ : BufTy).Contents (Elt F) → (⟨S64x256, .f32⟩ : BufTy).Contents (Elt F) → (⟨S64x256, .f32⟩ : BufTy).Contents (Elt F)),
    unary main_arg23 main_v279 (broadcastInDim S1x256 ![1] bcast_S256_S1x256_1 : (⟨S256, .f32⟩ : BufTy).Contents (Elt F) → (⟨S1x256, .f32⟩ : BufTy).Contents (Elt F)),
    unary main_v279 main_v280 (broadcastInDim S64x256 ![0, 1] bcast_S1x256_S64x256_0_1 : (⟨S1x256, .f32⟩ : BufTy).Contents (Elt F) → (⟨S64x256, .f32⟩ : BufTy).Contents (Elt F)),
    binary main_v278 main_v280 main_v281 (mulf : (⟨S64x256, .f32⟩ : BufTy).Contents (Elt F) → (⟨S64x256, .f32⟩ : BufTy).Contents (Elt F) → (⟨S64x256, .f32⟩ : BufTy).Contents (Elt F)),
    unary main_arg24 main_v282 (broadcastInDim S1x256 ![1] bcast_S256_S1x256_1 : (⟨S256, .f32⟩ : BufTy).Contents (Elt F) → (⟨S1x256, .f32⟩ : BufTy).Contents (Elt F)),
    unary main_v282 main_v283 (broadcastInDim S64x256 ![0, 1] bcast_S1x256_S64x256_0_1 : (⟨S1x256, .f32⟩ : BufTy).Contents (Elt F) → (⟨S64x256, .f32⟩ : BufTy).Contents (Elt F)),
    binary main_v281 main_v283 main_v284 (addf : (⟨S64x256, .f32⟩ : BufTy).Contents (Elt F) → (⟨S64x256, .f32⟩ : BufTy).Contents (Elt F) → (⟨S64x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S64x256, .f32⟩) main_call4_v0) (broadcastInDim S64x256 ![] bcast_S_S64x256),
    TRef.binary (TRef.of (T := ⟨S64x256, .f32⟩) main_v284) (TRef.of (T := ⟨S64x256, .f32⟩) main_call4_v0) (TRef.of (T := ⟨S64x256, .f32⟩) main_v285) maximumf,
    binary main_v285 main_arg25 main_v286 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    unary main_arg26 main_v287 (broadcastInDim S1x128 ![1] bcast_S128_S1x128_1 : (⟨S128, .f32⟩ : BufTy).Contents (Elt F) → (⟨S1x128, .f32⟩ : BufTy).Contents (Elt F)),
    unary main_v287 main_v288 (broadcastInDim S64x128 ![0, 1] bcast_S1x128_S64x128_0_1 : (⟨S1x128, .f32⟩ : BufTy).Contents (Elt F) → (⟨S64x128, .f32⟩ : BufTy).Contents (Elt F)),
    binary main_v286 main_v288 main_v289 (addf : (⟨S64x128, .f32⟩ : BufTy).Contents (Elt F) → (⟨S64x128, .f32⟩ : BufTy).Contents (Elt F) → (⟨S64x128, .f32⟩ : BufTy).Contents (Elt F)),
    TRef.binary (TRef.of (T := ⟨S64x128, .f32⟩) main_v289) (TRef.of (T := ⟨S64x128, .f32⟩) main_v289) (TRef.of (T := ⟨S64x128, .f32⟩) main_call5_v0) mulf,
    TRef.nullary (TRef.of (T := ⟨S_, .f32⟩) main_call5_cst) (constant S_ .f32 0x00000000#32),
    TRef.binary (TRef.of (T := ⟨S64x128, .f32⟩) main_call5_v0) (TRef.of (T := ⟨S_, .f32⟩) main_call5_cst) (TRef.of (T := ⟨S64, .f32⟩) main_call5_v1) (fun x v => Host.reduceAdd x v reducesTo_S64x128_S64_d1 h_S_),
    TRef.unary (TRef.of (T := ⟨S64, .f32⟩) main_call5_v1) (TRef.of (T := ⟨S64x1, .f32⟩) main_call5_v2) (broadcastInDim S64x1 ![0] bcast_S64_S64x1_0),
    TRef.unary (TRef.of (T := ⟨S64x1, .f32⟩) main_call5_v2) (TRef.of (T := ⟨S64x1, .f32⟩) main_v290) Host.sqrt,
    nullary main_cst_57 (constant S_ .f32 0x2B8CBCCC#32),
    unary main_cst_57 main_v291 (broadcastInDim S64x1 ![] bcast_S_S64x1 : (⟨S_, .f32⟩ : BufTy).Contents (Elt F) → (⟨S64x1, .f32⟩ : BufTy).Contents (Elt F)),
    binary main_v290 main_v291 main_v292 (maximumf : (⟨S64x1, .f32⟩ : BufTy).Contents (Elt F) → (⟨S64x1, .f32⟩ : BufTy).Contents (Elt F) → (⟨S64x1, .f32⟩ : BufTy).Contents (Elt F)),
    unary main_v292 main_v293 (broadcastInDim S64x128 ![0, 1] bcast_S64x1_S64x128_0_1 : (⟨S64x1, .f32⟩ : BufTy).Contents (Elt F) → (⟨S64x128, .f32⟩ : BufTy).Contents (Elt F)),
    binary main_v289 main_v293 main_v294 (Host.divf : (⟨S64x128, .f32⟩ : BufTy).Contents (Elt F) → (⟨S64x128, .f32⟩ : BufTy).Contents (Elt F) → (⟨S64x128, .f32⟩ : BufTy).Contents (Elt F)) ]

/-- Operations 0 to 39. -/
abbrev opsE : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    binary main_arg0 main_arg3 main_v4 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    unary main_arg4 main_v5 (broadcastInDim S1x256 ![1] bcast_S256_S1x256_1 : (⟨S256, .f32⟩ : BufTy).Contents (Elt F) → (⟨S1x256, .f32⟩ : BufTy).Contents (Elt F)),
    unary main_v5 main_v6 (broadcastInDim S20000x256 ![0, 1] bcast_S1x256_S20000x256_0_1 : (⟨S1x256, .f32⟩ : BufTy).Contents (Elt F) → (⟨S20000x256, .f32⟩ : BufTy).Contents (Elt F)),
    binary main_v4 main_v6 main_v7 (addf : (⟨S20000x256, .f32⟩ : BufTy).Contents (Elt F) → (⟨S20000x256, .f32⟩ : BufTy).Contents (Elt F) → (⟨S20000x256, .f32⟩ : BufTy).Contents (Elt F)),
    nullary main_cst (constant S_ .f32 0x00000000#32),
    binary main_v7 main_cst main_v8 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v8 main_v9 (broadcastInDim S20000x1 ![0] bcast_S20000_S20000x1_0 : (⟨S20000, .f32⟩ : BufTy).Contents (Elt F) → (⟨S20000x1, .f32⟩ : BufTy).Contents (Elt F)),
    nullary main_cst_0 (constant S_ .f32 0x43800000#32),
    unary main_cst_0 main_v10 (broadcastInDim S20000x1 ![] bcast_S_S20000x1 : (⟨S_, .f32⟩ : BufTy).Contents (Elt F) → (⟨S20000x1, .f32⟩ : BufTy).Contents (Elt F)),
    binary main_v9 main_v10 main_v11 (Host.divf : (⟨S20000x1, .f32⟩ : BufTy).Contents (Elt F) → (⟨S20000x1, .f32⟩ : BufTy).Contents (Elt F) → (⟨S20000x1, .f32⟩ : BufTy).Contents (Elt F)),
    unary main_v11 main_v12 (broadcastInDim S20000x256 ![0, 1] bcast_S20000x1_S20000x256_0_1 : (⟨S20000x1, .f32⟩ : BufTy).Contents (Elt F) → (⟨S20000x256, .f32⟩ : BufTy).Contents (Elt F)),
    binary main_v7 main_v12 main_v13 (subf : (⟨S20000x256, .f32⟩ : BufTy).Contents (Elt F) → (⟨S20000x256, .f32⟩ : BufTy).Contents (Elt F) → (⟨S20000x256, .f32⟩ : BufTy).Contents (Elt F)),
    binary main_v13 main_v13 main_v14 (mulf : (⟨S20000x256, .f32⟩ : BufTy).Contents (Elt F) → (⟨S20000x256, .f32⟩ : BufTy).Contents (Elt F) → (⟨S20000x256, .f32⟩ : BufTy).Contents (Elt F)),
    nullary main_cst_1 (constant S_ .f32 0x00000000#32),
    binary main_v14 main_cst_1 main_v15 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v15 main_v16 (broadcastInDim S20000x1 ![0] bcast_S20000_S20000x1_0 : (⟨S20000, .f32⟩ : BufTy).Contents (Elt F) → (⟨S20000x1, .f32⟩ : BufTy).Contents (Elt F)),
    nullary main_cst_2 (constant S_ .f32 0x43800000#32),
    unary main_cst_2 main_v17 (broadcastInDim S20000x1 ![] bcast_S_S20000x1 : (⟨S_, .f32⟩ : BufTy).Contents (Elt F) → (⟨S20000x1, .f32⟩ : BufTy).Contents (Elt F)),
    binary main_v16 main_v17 main_v18 (Host.divf : (⟨S20000x1, .f32⟩ : BufTy).Contents (Elt F) → (⟨S20000x1, .f32⟩ : BufTy).Contents (Elt F) → (⟨S20000x1, .f32⟩ : BufTy).Contents (Elt F)),
    unary main_v11 main_v19 (broadcastInDim S20000x256 ![0, 1] bcast_S20000x1_S20000x256_0_1 : (⟨S20000x1, .f32⟩ : BufTy).Contents (Elt F) → (⟨S20000x256, .f32⟩ : BufTy).Contents (Elt F)),
    binary main_v7 main_v19 main_v20 (subf : (⟨S20000x256, .f32⟩ : BufTy).Contents (Elt F) → (⟨S20000x256, .f32⟩ : BufTy).Contents (Elt F) → (⟨S20000x256, .f32⟩ : BufTy).Contents (Elt F)),
    nullary main_cst_3 (constant S_ .f32 0x3727C5AC#32),
    unary main_cst_3 main_v21 (broadcastInDim S20000x1 ![] bcast_S_S20000x1 : (⟨S_, .f32⟩ : BufTy).Contents (Elt F) → (⟨S20000x1, .f32⟩ : BufTy).Contents (Elt F)),
    binary main_v18 main_v21 main_v22 (addf : (⟨S20000x1, .f32⟩ : BufTy).Contents (Elt F) → (⟨S20000x1, .f32⟩ : BufTy).Contents (Elt F) → (⟨S20000x1, .f32⟩ : BufTy).Contents (Elt F)),
    unary main_v22 main_v23 (Host.rsqrt : (⟨S20000x1, .f32⟩ : BufTy).Contents (Elt F) → (⟨S20000x1, .f32⟩ : BufTy).Contents (Elt F)),
    unary main_v23 main_v24 (broadcastInDim S20000x256 ![0, 1] bcast_S20000x1_S20000x256_0_1 : (⟨S20000x1, .f32⟩ : BufTy).Contents (Elt F) → (⟨S20000x256, .f32⟩ : BufTy).Contents (Elt F)),
    binary main_v20 main_v24 main_v25 (mulf : (⟨S20000x256, .f32⟩ : BufTy).Contents (Elt F) → (⟨S20000x256, .f32⟩ : BufTy).Contents (Elt F) → (⟨S20000x256, .f32⟩ : BufTy).Contents (Elt F)),
    unary main_arg5 main_v26 (broadcastInDim S1x256 ![1] bcast_S256_S1x256_1 : (⟨S256, .f32⟩ : BufTy).Contents (Elt F) → (⟨S1x256, .f32⟩ : BufTy).Contents (Elt F)),
    unary main_v26 main_v27 (broadcastInDim S20000x256 ![0, 1] bcast_S1x256_S20000x256_0_1 : (⟨S1x256, .f32⟩ : BufTy).Contents (Elt F) → (⟨S20000x256, .f32⟩ : BufTy).Contents (Elt F)),
    binary main_v25 main_v27 main_v28 (mulf : (⟨S20000x256, .f32⟩ : BufTy).Contents (Elt F) → (⟨S20000x256, .f32⟩ : BufTy).Contents (Elt F) → (⟨S20000x256, .f32⟩ : BufTy).Contents (Elt F)),
    unary main_arg6 main_v29 (broadcastInDim S1x256 ![1] bcast_S256_S1x256_1 : (⟨S256, .f32⟩ : BufTy).Contents (Elt F) → (⟨S1x256, .f32⟩ : BufTy).Contents (Elt F)),
    unary main_v29 main_v30 (broadcastInDim S20000x256 ![0, 1] bcast_S1x256_S20000x256_0_1 : (⟨S1x256, .f32⟩ : BufTy).Contents (Elt F) → (⟨S20000x256, .f32⟩ : BufTy).Contents (Elt F)),
    binary main_v28 main_v30 main_v31 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S20000x256, .f32⟩) main_call0_v0) (broadcastInDim S20000x256 ![] bcast_S_S20000x256),
    TRef.binary (TRef.of (T := ⟨S20000x256, .f32⟩) main_v31) (TRef.of (T := ⟨S20000x256, .f32⟩) main_call0_v0) (TRef.of (T := ⟨S20000x256, .f32⟩) main_v32) maximumf ]

/-- Operations 40 to 123. -/
abbrev opsL1 : List (HloOp τ sig (Elt F)) :=
  [ binary main_v32 main_arg7 main_v33 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_v34 (iotaInDim S20000 32 0),
    binary main_v1 main_v34 main_v35 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    binary main_v3 main_v34 main_v36 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    nullary main_cst_4 (constant S_ .f32 0x3F800000#32),
    unary main_cst_4 main_v37 (broadcastInDim S340000 ![] bcast_S_S340000 : (⟨S_, .f32⟩ : BufTy).Contents (Elt F) → (⟨S340000, .f32⟩ : BufTy).Contents (Elt F)),
    nullary main_cst_5 (constant S_ .f32 0x00000000#32),
    unary main_cst_5 main_v38 (broadcastInDim S20000 ![] bcast_S_S20000 : (⟨S_, .f32⟩ : BufTy).Contents (Elt F) → (⟨S20000, .f32⟩ : BufTy).Contents (Elt F)),
    unary main_v36 main_v39 (broadcastInDim S340000x1 ![0] bcast_S340000_S340000x1_0 : (⟨S340000, .i32⟩ : BufTy).Contents (Elt F) → (⟨S340000x1, .i32⟩ : BufTy).Contents (Elt F)),
    ternary main_v38 main_v39 main_v37 main_v40 ((fun x i u => Host.scatterAdd scatter_S20000_S340000x1_S340000_n_0_0_1 x i u) : (⟨S20000, .f32⟩ : BufTy).Contents (Elt F) → (⟨S340000x1, .i32⟩ : BufTy).Contents (Elt F) → (⟨S340000, .f32⟩ : BufTy).Contents (Elt F) → (⟨S20000, .f32⟩ : BufTy).Contents (Elt F)),
    nullary main_cst_6 (constant S_ .f32 0x3F800000#32),
    unary main_cst_6 main_v41 (broadcastInDim S20000 ![] bcast_S_S20000 : (⟨S_, .f32⟩ : BufTy).Contents (Elt F) → (⟨S20000, .f32⟩ : BufTy).Contents (Elt F)),
    binary main_v40 main_v41 main_v42 (maximumf : (⟨S20000, .f32⟩ : BufTy).Contents (Elt F) → (⟨S20000, .f32⟩ : BufTy).Contents (Elt F) → (⟨S20000, .f32⟩ : BufTy).Contents (Elt F)),
    unary main_v42 main_v43 (Host.rsqrt : (⟨S20000, .f32⟩ : BufTy).Contents (Elt F) → (⟨S20000, .f32⟩ : BufTy).Contents (Elt F)),
    nullary main_c (constantI S_ 32 0#32),
    unary main_c main_v44 (broadcastInDim S340000 ![] bcast_S_S340000 : (⟨S_, .i32⟩ : BufTy).Contents (Elt F) → (⟨S340000, .i32⟩ : BufTy).Contents (Elt F)),
    binary main_v35 main_v44 main_v45 (cmpi .slt : (⟨S340000, .i32⟩ : BufTy).Contents (Elt F) → (⟨S340000, .i32⟩ : BufTy).Contents (Elt F) → (⟨S340000, .i1⟩ : BufTy).Contents (Elt F)),
    nullary main_c_7 (constantI S_ 32 20000#32),
    unary main_c_7 main_v46 (broadcastInDim S340000 ![] bcast_S_S340000 : (⟨S_, .i32⟩ : BufTy).Contents (Elt F) → (⟨S340000, .i32⟩ : BufTy).Contents (Elt F)),
    binary main_v35 main_v46 main_v47 (addi : (⟨S340000, .i32⟩ : BufTy).Contents (Elt F) → (⟨S340000, .i32⟩ : BufTy).Contents (Elt F) → (⟨S340000, .i32⟩ : BufTy).Contents (Elt F)),
    ternary main_v45 main_v47 main_v35 main_v48 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v48 main_v49 (broadcastInDim S340000x1 ![0] bcast_S340000_S340000x1_0 : (⟨S340000, .i32⟩ : BufTy).Contents (Elt F) → (⟨S340000x1, .i32⟩ : BufTy).Contents (Elt F)),
    binary main_v43 main_v49 main_v50 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    nullary main_c_8 (constantI S_ 32 0#32),
    unary main_c_8 main_v51 (broadcastInDim S340000 ![] bcast_S_S340000 : (⟨S_, .i32⟩ : BufTy).Contents (Elt F) → (⟨S340000, .i32⟩ : BufTy).Contents (Elt F)),
    binary main_v36 main_v51 main_v52 (cmpi .slt : (⟨S340000, .i32⟩ : BufTy).Contents (Elt F) → (⟨S340000, .i32⟩ : BufTy).Contents (Elt F) → (⟨S340000, .i1⟩ : BufTy).Contents (Elt F)),
    nullary main_c_9 (constantI S_ 32 20000#32),
    unary main_c_9 main_v53 (broadcastInDim S340000 ![] bcast_S_S340000 : (⟨S_, .i32⟩ : BufTy).Contents (Elt F) → (⟨S340000, .i32⟩ : BufTy).Contents (Elt F)),
    binary main_v36 main_v53 main_v54 (addi : (⟨S340000, .i32⟩ : BufTy).Contents (Elt F) → (⟨S340000, .i32⟩ : BufTy).Contents (Elt F) → (⟨S340000, .i32⟩ : BufTy).Contents (Elt F)),
    ternary main_v52 main_v54 main_v36 main_v55 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v55 main_v56 (broadcastInDim S340000x1 ![0] bcast_S340000_S340000x1_0 : (⟨S340000, .i32⟩ : BufTy).Contents (Elt F) → (⟨S340000x1, .i32⟩ : BufTy).Contents (Elt F)),
    binary main_v43 main_v56 main_v57 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    binary main_v50 main_v57 main_v58 (mulf : (⟨S340000, .f32⟩ : BufTy).Contents (Elt F) → (⟨S340000, .f32⟩ : BufTy).Contents (Elt F) → (⟨S340000, .f32⟩ : BufTy).Contents (Elt F)),
    nullary main_c_10 (constantI S_ 32 0#32),
    unary main_c_10 main_v59 (broadcastInDim S340000 ![] bcast_S_S340000 : (⟨S_, .i32⟩ : BufTy).Contents (Elt F) → (⟨S340000, .i32⟩ : BufTy).Contents (Elt F)),
    binary main_v35 main_v59 main_v60 (cmpi .slt : (⟨S340000, .i32⟩ : BufTy).Contents (Elt F) → (⟨S340000, .i32⟩ : BufTy).Contents (Elt F) → (⟨S340000, .i1⟩ : BufTy).Contents (Elt F)),
    nullary main_c_11 (constantI S_ 32 20000#32),
    unary main_c_11 main_v61 (broadcastInDim S340000 ![] bcast_S_S340000 : (⟨S_, .i32⟩ : BufTy).Contents (Elt F) → (⟨S340000, .i32⟩ : BufTy).Contents (Elt F)),
    binary main_v35 main_v61 main_v62 (addi : (⟨S340000, .i32⟩ : BufTy).Contents (Elt F) → (⟨S340000, .i32⟩ : BufTy).Contents (Elt F) → (⟨S340000, .i32⟩ : BufTy).Contents (Elt F)),
    ternary main_v60 main_v62 main_v35 main_v63 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v63 main_v64 (broadcastInDim S340000x1 ![0] bcast_S340000_S340000x1_0 : (⟨S340000, .i32⟩ : BufTy).Contents (Elt F) → (⟨S340000x1, .i32⟩ : BufTy).Contents (Elt F)),
    binary main_v33 main_v64 main_v65 ((fun x i => Host.gather gather_S20000x256_S340000x1_S340000x256_1_0_n_n_0_1_1256 x i) : (⟨S20000x256, .f32⟩ : BufTy).Contents (Elt F) → (⟨S340000x1, .i32⟩ : BufTy).Contents (Elt F) → (⟨S340000x256, .f32⟩ : BufTy).Contents (Elt F)),
    unary main_v58 main_v66 (broadcastInDim S340000x1 ![0] bcast_S340000_S340000x1_0 : (⟨S340000, .f32⟩ : BufTy).Contents (Elt F) → (⟨S340000x1, .f32⟩ : BufTy).Contents (Elt F)),
    unary main_v66 main_v67 (broadcastInDim S340000x256 ![0, 1] bcast_S340000x1_S340000x256_0_1 : (⟨S340000x1, .f32⟩ : BufTy).Contents (Elt F) → (⟨S340000x256, .f32⟩ : BufTy).Contents (Elt F)),
    binary main_v65 main_v67 main_v68 (mulf : (⟨S340000x256, .f32⟩ : BufTy).Contents (Elt F) → (⟨S340000x256, .f32⟩ : BufTy).Contents (Elt F) → (⟨S340000x256, .f32⟩ : BufTy).Contents (Elt F)),
    nullary main_cst_12 (constant S_ .f32 0x00000000#32),
    unary main_cst_12 main_v69 (broadcastInDim S20000x256 ![] bcast_S_S20000x256 : (⟨S_, .f32⟩ : BufTy).Contents (Elt F) → (⟨S20000x256, .f32⟩ : BufTy).Contents (Elt F)),
    unary main_v36 main_v70 (broadcastInDim S340000x1 ![0] bcast_S340000_S340000x1_0 : (⟨S340000, .i32⟩ : BufTy).Contents (Elt F) → (⟨S340000x1, .i32⟩ : BufTy).Contents (Elt F)),
    ternary main_v69 main_v70 main_v68 main_v71 ((fun x i u => Host.scatterAdd scatter_S20000x256_S340000x1_S340000x256_1_0_0_1 x i u) : (⟨S20000x256, .f32⟩ : BufTy).Contents (Elt F) → (⟨S340000x1, .i32⟩ : BufTy).Contents (Elt F) → (⟨S340000x256, .f32⟩ : BufTy).Contents (Elt F) → (⟨S20000x256, .f32⟩ : BufTy).Contents (Elt F)),
    unary main_arg8 main_v72 (broadcastInDim S1x256 ![1] bcast_S256_S1x256_1 : (⟨S256, .f32⟩ : BufTy).Contents (Elt F) → (⟨S1x256, .f32⟩ : BufTy).Contents (Elt F)),
    unary main_v72 main_v73 (broadcastInDim S20000x256 ![0, 1] bcast_S1x256_S20000x256_0_1 : (⟨S1x256, .f32⟩ : BufTy).Contents (Elt F) → (⟨S20000x256, .f32⟩ : BufTy).Contents (Elt F)),
    binary main_v71 main_v73 main_v74 (addf : (⟨S20000x256, .f32⟩ : BufTy).Contents (Elt F) → (⟨S20000x256, .f32⟩ : BufTy).Contents (Elt F) → (⟨S20000x256, .f32⟩ : BufTy).Contents (Elt F)),
    nullary main_cst_13 (constant S_ .f32 0x00000000#32),
    binary main_v74 main_cst_13 main_v75 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v75 main_v76 (broadcastInDim S20000x1 ![0] bcast_S20000_S20000x1_0 : (⟨S20000, .f32⟩ : BufTy).Contents (Elt F) → (⟨S20000x1, .f32⟩ : BufTy).Contents (Elt F)),
    nullary main_cst_14 (constant S_ .f32 0x43800000#32),
    unary main_cst_14 main_v77 (broadcastInDim S20000x1 ![] bcast_S_S20000x1 : (⟨S_, .f32⟩ : BufTy).Contents (Elt F) → (⟨S20000x1, .f32⟩ : BufTy).Contents (Elt F)),
    binary main_v76 main_v77 main_v78 (Host.divf : (⟨S20000x1, .f32⟩ : BufTy).Contents (Elt F) → (⟨S20000x1, .f32⟩ : BufTy).Contents (Elt F) → (⟨S20000x1, .f32⟩ : BufTy).Contents (Elt F)),
    unary main_v78 main_v79 (broadcastInDim S20000x256 ![0, 1] bcast_S20000x1_S20000x256_0_1 : (⟨S20000x1, .f32⟩ : BufTy).Contents (Elt F) → (⟨S20000x256, .f32⟩ : BufTy).Contents (Elt F)),
    binary main_v74 main_v79 main_v80 (subf : (⟨S20000x256, .f32⟩ : BufTy).Contents (Elt F) → (⟨S20000x256, .f32⟩ : BufTy).Contents (Elt F) → (⟨S20000x256, .f32⟩ : BufTy).Contents (Elt F)),
    binary main_v80 main_v80 main_v81 (mulf : (⟨S20000x256, .f32⟩ : BufTy).Contents (Elt F) → (⟨S20000x256, .f32⟩ : BufTy).Contents (Elt F) → (⟨S20000x256, .f32⟩ : BufTy).Contents (Elt F)),
    nullary main_cst_15 (constant S_ .f32 0x00000000#32),
    binary main_v81 main_cst_15 main_v82 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v82 main_v83 (broadcastInDim S20000x1 ![0] bcast_S20000_S20000x1_0 : (⟨S20000, .f32⟩ : BufTy).Contents (Elt F) → (⟨S20000x1, .f32⟩ : BufTy).Contents (Elt F)),
    nullary main_cst_16 (constant S_ .f32 0x43800000#32),
    unary main_cst_16 main_v84 (broadcastInDim S20000x1 ![] bcast_S_S20000x1 : (⟨S_, .f32⟩ : BufTy).Contents (Elt F) → (⟨S20000x1, .f32⟩ : BufTy).Contents (Elt F)),
    binary main_v83 main_v84 main_v85 (Host.divf : (⟨S20000x1, .f32⟩ : BufTy).Contents (Elt F) → (⟨S20000x1, .f32⟩ : BufTy).Contents (Elt F) → (⟨S20000x1, .f32⟩ : BufTy).Contents (Elt F)),
    unary main_v78 main_v86 (broadcastInDim S20000x256 ![0, 1] bcast_S20000x1_S20000x256_0_1 : (⟨S20000x1, .f32⟩ : BufTy).Contents (Elt F) → (⟨S20000x256, .f32⟩ : BufTy).Contents (Elt F)),
    binary main_v74 main_v86 main_v87 (subf : (⟨S20000x256, .f32⟩ : BufTy).Contents (Elt F) → (⟨S20000x256, .f32⟩ : BufTy).Contents (Elt F) → (⟨S20000x256, .f32⟩ : BufTy).Contents (Elt F)),
    nullary main_cst_17 (constant S_ .f32 0x3727C5AC#32),
    unary main_cst_17 main_v88 (broadcastInDim S20000x1 ![] bcast_S_S20000x1 : (⟨S_, .f32⟩ : BufTy).Contents (Elt F) → (⟨S20000x1, .f32⟩ : BufTy).Contents (Elt F)),
    binary main_v85 main_v88 main_v89 (addf : (⟨S20000x1, .f32⟩ : BufTy).Contents (Elt F) → (⟨S20000x1, .f32⟩ : BufTy).Contents (Elt F) → (⟨S20000x1, .f32⟩ : BufTy).Contents (Elt F)),
    unary main_v89 main_v90 (Host.rsqrt : (⟨S20000x1, .f32⟩ : BufTy).Contents (Elt F) → (⟨S20000x1, .f32⟩ : BufTy).Contents (Elt F)),
    unary main_v90 main_v91 (broadcastInDim S20000x256 ![0, 1] bcast_S20000x1_S20000x256_0_1 : (⟨S20000x1, .f32⟩ : BufTy).Contents (Elt F) → (⟨S20000x256, .f32⟩ : BufTy).Contents (Elt F)),
    binary main_v87 main_v91 main_v92 (mulf : (⟨S20000x256, .f32⟩ : BufTy).Contents (Elt F) → (⟨S20000x256, .f32⟩ : BufTy).Contents (Elt F) → (⟨S20000x256, .f32⟩ : BufTy).Contents (Elt F)),
    unary main_arg9 main_v93 (broadcastInDim S1x256 ![1] bcast_S256_S1x256_1 : (⟨S256, .f32⟩ : BufTy).Contents (Elt F) → (⟨S1x256, .f32⟩ : BufTy).Contents (Elt F)),
    unary main_v93 main_v94 (broadcastInDim S20000x256 ![0, 1] bcast_S1x256_S20000x256_0_1 : (⟨S1x256, .f32⟩ : BufTy).Contents (Elt F) → (⟨S20000x256, .f32⟩ : BufTy).Contents (Elt F)),
    binary main_v92 main_v94 main_v95 (mulf : (⟨S20000x256, .f32⟩ : BufTy).Contents (Elt F) → (⟨S20000x256, .f32⟩ : BufTy).Contents (Elt F) → (⟨S20000x256, .f32⟩ : BufTy).Contents (Elt F)),
    unary main_arg10 main_v96 (broadcastInDim S1x256 ![1] bcast_S256_S1x256_1 : (⟨S256, .f32⟩ : BufTy).Contents (Elt F) → (⟨S1x256, .f32⟩ : BufTy).Contents (Elt F)),
    unary main_v96 main_v97 (broadcastInDim S20000x256 ![0, 1] bcast_S1x256_S20000x256_0_1 : (⟨S1x256, .f32⟩ : BufTy).Contents (Elt F) → (⟨S20000x256, .f32⟩ : BufTy).Contents (Elt F)),
    binary main_v95 main_v97 main_v98 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x256, .f32⟩) main_call1_v0) (broadcastInDim S20000x256 ![] bcast_S_S20000x256),
    TRef.binary (TRef.of (T := ⟨S20000x256, .f32⟩) main_v98) (TRef.of (T := ⟨S20000x256, .f32⟩) main_call1_v0) (TRef.of (T := ⟨S20000x256, .f32⟩) main_v99) maximumf ]

/-- Operations 124 to 208. -/
abbrev opsL2 : List (HloOp τ sig (Elt F)) :=
  [ binary main_v99 main_arg11 main_v100 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_v101 (iotaInDim S20000 32 0),
    binary main_v1 main_v101 main_v102 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    binary main_v3 main_v101 main_v103 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    nullary main_cst_18 (constant S_ .f32 0x3F800000#32),
    unary main_cst_18 main_v104 (broadcastInDim S340000 ![] bcast_S_S340000 : (⟨S_, .f32⟩ : BufTy).Contents (Elt F) → (⟨S340000, .f32⟩ : BufTy).Contents (Elt F)),
    nullary main_cst_19 (constant S_ .f32 0x00000000#32),
    unary main_cst_19 main_v105 (broadcastInDim S20000 ![] bcast_S_S20000 : (⟨S_, .f32⟩ : BufTy).Contents (Elt F) → (⟨S20000, .f32⟩ : BufTy).Contents (Elt F)),
    unary main_v103 main_v106 (broadcastInDim S340000x1 ![0] bcast_S340000_S340000x1_0 : (⟨S340000, .i32⟩ : BufTy).Contents (Elt F) → (⟨S340000x1, .i32⟩ : BufTy).Contents (Elt F)),
    ternary main_v105 main_v106 main_v104 main_v107 ((fun x i u => Host.scatterAdd scatter_S20000_S340000x1_S340000_n_0_0_1 x i u) : (⟨S20000, .f32⟩ : BufTy).Contents (Elt F) → (⟨S340000x1, .i32⟩ : BufTy).Contents (Elt F) → (⟨S340000, .f32⟩ : BufTy).Contents (Elt F) → (⟨S20000, .f32⟩ : BufTy).Contents (Elt F)),
    nullary main_cst_20 (constant S_ .f32 0x3F800000#32),
    unary main_cst_20 main_v108 (broadcastInDim S20000 ![] bcast_S_S20000 : (⟨S_, .f32⟩ : BufTy).Contents (Elt F) → (⟨S20000, .f32⟩ : BufTy).Contents (Elt F)),
    binary main_v107 main_v108 main_v109 (maximumf : (⟨S20000, .f32⟩ : BufTy).Contents (Elt F) → (⟨S20000, .f32⟩ : BufTy).Contents (Elt F) → (⟨S20000, .f32⟩ : BufTy).Contents (Elt F)),
    unary main_v109 main_v110 (Host.rsqrt : (⟨S20000, .f32⟩ : BufTy).Contents (Elt F) → (⟨S20000, .f32⟩ : BufTy).Contents (Elt F)),
    nullary main_c_21 (constantI S_ 32 0#32),
    unary main_c_21 main_v111 (broadcastInDim S340000 ![] bcast_S_S340000 : (⟨S_, .i32⟩ : BufTy).Contents (Elt F) → (⟨S340000, .i32⟩ : BufTy).Contents (Elt F)),
    binary main_v102 main_v111 main_v112 (cmpi .slt : (⟨S340000, .i32⟩ : BufTy).Contents (Elt F) → (⟨S340000, .i32⟩ : BufTy).Contents (Elt F) → (⟨S340000, .i1⟩ : BufTy).Contents (Elt F)),
    nullary main_c_22 (constantI S_ 32 20000#32),
    unary main_c_22 main_v113 (broadcastInDim S340000 ![] bcast_S_S340000 : (⟨S_, .i32⟩ : BufTy).Contents (Elt F) → (⟨S340000, .i32⟩ : BufTy).Contents (Elt F)),
    binary main_v102 main_v113 main_v114 (addi : (⟨S340000, .i32⟩ : BufTy).Contents (Elt F) → (⟨S340000, .i32⟩ : BufTy).Contents (Elt F) → (⟨S340000, .i32⟩ : BufTy).Contents (Elt F)),
    ternary main_v112 main_v114 main_v102 main_v115 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v115 main_v116 (broadcastInDim S340000x1 ![0] bcast_S340000_S340000x1_0 : (⟨S340000, .i32⟩ : BufTy).Contents (Elt F) → (⟨S340000x1, .i32⟩ : BufTy).Contents (Elt F)),
    binary main_v110 main_v116 main_v117 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    nullary main_c_23 (constantI S_ 32 0#32),
    unary main_c_23 main_v118 (broadcastInDim S340000 ![] bcast_S_S340000 : (⟨S_, .i32⟩ : BufTy).Contents (Elt F) → (⟨S340000, .i32⟩ : BufTy).Contents (Elt F)),
    binary main_v103 main_v118 main_v119 (cmpi .slt : (⟨S340000, .i32⟩ : BufTy).Contents (Elt F) → (⟨S340000, .i32⟩ : BufTy).Contents (Elt F) → (⟨S340000, .i1⟩ : BufTy).Contents (Elt F)),
    nullary main_c_24 (constantI S_ 32 20000#32),
    unary main_c_24 main_v120 (broadcastInDim S340000 ![] bcast_S_S340000 : (⟨S_, .i32⟩ : BufTy).Contents (Elt F) → (⟨S340000, .i32⟩ : BufTy).Contents (Elt F)),
    binary main_v103 main_v120 main_v121 (addi : (⟨S340000, .i32⟩ : BufTy).Contents (Elt F) → (⟨S340000, .i32⟩ : BufTy).Contents (Elt F) → (⟨S340000, .i32⟩ : BufTy).Contents (Elt F)),
    ternary main_v119 main_v121 main_v103 main_v122 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v122 main_v123 (broadcastInDim S340000x1 ![0] bcast_S340000_S340000x1_0 : (⟨S340000, .i32⟩ : BufTy).Contents (Elt F) → (⟨S340000x1, .i32⟩ : BufTy).Contents (Elt F)),
    binary main_v110 main_v123 main_v124 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    binary main_v117 main_v124 main_v125 (mulf : (⟨S340000, .f32⟩ : BufTy).Contents (Elt F) → (⟨S340000, .f32⟩ : BufTy).Contents (Elt F) → (⟨S340000, .f32⟩ : BufTy).Contents (Elt F)),
    nullary main_c_25 (constantI S_ 32 0#32),
    unary main_c_25 main_v126 (broadcastInDim S340000 ![] bcast_S_S340000 : (⟨S_, .i32⟩ : BufTy).Contents (Elt F) → (⟨S340000, .i32⟩ : BufTy).Contents (Elt F)),
    binary main_v102 main_v126 main_v127 (cmpi .slt : (⟨S340000, .i32⟩ : BufTy).Contents (Elt F) → (⟨S340000, .i32⟩ : BufTy).Contents (Elt F) → (⟨S340000, .i1⟩ : BufTy).Contents (Elt F)),
    nullary main_c_26 (constantI S_ 32 20000#32),
    unary main_c_26 main_v128 (broadcastInDim S340000 ![] bcast_S_S340000 : (⟨S_, .i32⟩ : BufTy).Contents (Elt F) → (⟨S340000, .i32⟩ : BufTy).Contents (Elt F)),
    binary main_v102 main_v128 main_v129 (addi : (⟨S340000, .i32⟩ : BufTy).Contents (Elt F) → (⟨S340000, .i32⟩ : BufTy).Contents (Elt F) → (⟨S340000, .i32⟩ : BufTy).Contents (Elt F)),
    ternary main_v127 main_v129 main_v102 main_v130 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v130 main_v131 (broadcastInDim S340000x1 ![0] bcast_S340000_S340000x1_0 : (⟨S340000, .i32⟩ : BufTy).Contents (Elt F) → (⟨S340000x1, .i32⟩ : BufTy).Contents (Elt F)),
    binary main_v100 main_v131 main_v132 ((fun x i => Host.gather gather_S20000x256_S340000x1_S340000x256_1_0_n_n_0_1_1256 x i) : (⟨S20000x256, .f32⟩ : BufTy).Contents (Elt F) → (⟨S340000x1, .i32⟩ : BufTy).Contents (Elt F) → (⟨S340000x256, .f32⟩ : BufTy).Contents (Elt F)),
    unary main_v125 main_v133 (broadcastInDim S340000x1 ![0] bcast_S340000_S340000x1_0 : (⟨S340000, .f32⟩ : BufTy).Contents (Elt F) → (⟨S340000x1, .f32⟩ : BufTy).Contents (Elt F)),
    unary main_v133 main_v134 (broadcastInDim S340000x256 ![0, 1] bcast_S340000x1_S340000x256_0_1 : (⟨S340000x1, .f32⟩ : BufTy).Contents (Elt F) → (⟨S340000x256, .f32⟩ : BufTy).Contents (Elt F)),
    binary main_v132 main_v134 main_v135 (mulf : (⟨S340000x256, .f32⟩ : BufTy).Contents (Elt F) → (⟨S340000x256, .f32⟩ : BufTy).Contents (Elt F) → (⟨S340000x256, .f32⟩ : BufTy).Contents (Elt F)),
    nullary main_cst_27 (constant S_ .f32 0x00000000#32),
    unary main_cst_27 main_v136 (broadcastInDim S20000x256 ![] bcast_S_S20000x256 : (⟨S_, .f32⟩ : BufTy).Contents (Elt F) → (⟨S20000x256, .f32⟩ : BufTy).Contents (Elt F)),
    unary main_v103 main_v137 (broadcastInDim S340000x1 ![0] bcast_S340000_S340000x1_0 : (⟨S340000, .i32⟩ : BufTy).Contents (Elt F) → (⟨S340000x1, .i32⟩ : BufTy).Contents (Elt F)),
    ternary main_v136 main_v137 main_v135 main_v138 ((fun x i u => Host.scatterAdd scatter_S20000x256_S340000x1_S340000x256_1_0_0_1 x i u) : (⟨S20000x256, .f32⟩ : BufTy).Contents (Elt F) → (⟨S340000x1, .i32⟩ : BufTy).Contents (Elt F) → (⟨S340000x256, .f32⟩ : BufTy).Contents (Elt F) → (⟨S20000x256, .f32⟩ : BufTy).Contents (Elt F)),
    unary main_arg12 main_v139 (broadcastInDim S1x256 ![1] bcast_S256_S1x256_1 : (⟨S256, .f32⟩ : BufTy).Contents (Elt F) → (⟨S1x256, .f32⟩ : BufTy).Contents (Elt F)),
    unary main_v139 main_v140 (broadcastInDim S20000x256 ![0, 1] bcast_S1x256_S20000x256_0_1 : (⟨S1x256, .f32⟩ : BufTy).Contents (Elt F) → (⟨S20000x256, .f32⟩ : BufTy).Contents (Elt F)),
    binary main_v138 main_v140 main_v141 (addf : (⟨S20000x256, .f32⟩ : BufTy).Contents (Elt F) → (⟨S20000x256, .f32⟩ : BufTy).Contents (Elt F) → (⟨S20000x256, .f32⟩ : BufTy).Contents (Elt F)),
    nullary main_cst_28 (constant S_ .f32 0x00000000#32),
    binary main_v141 main_cst_28 main_v142 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v142 main_v143 (broadcastInDim S20000x1 ![0] bcast_S20000_S20000x1_0 : (⟨S20000, .f32⟩ : BufTy).Contents (Elt F) → (⟨S20000x1, .f32⟩ : BufTy).Contents (Elt F)),
    nullary main_cst_29 (constant S_ .f32 0x43800000#32),
    unary main_cst_29 main_v144 (broadcastInDim S20000x1 ![] bcast_S_S20000x1 : (⟨S_, .f32⟩ : BufTy).Contents (Elt F) → (⟨S20000x1, .f32⟩ : BufTy).Contents (Elt F)),
    binary main_v143 main_v144 main_v145 (Host.divf : (⟨S20000x1, .f32⟩ : BufTy).Contents (Elt F) → (⟨S20000x1, .f32⟩ : BufTy).Contents (Elt F) → (⟨S20000x1, .f32⟩ : BufTy).Contents (Elt F)),
    unary main_v145 main_v146 (broadcastInDim S20000x256 ![0, 1] bcast_S20000x1_S20000x256_0_1 : (⟨S20000x1, .f32⟩ : BufTy).Contents (Elt F) → (⟨S20000x256, .f32⟩ : BufTy).Contents (Elt F)),
    binary main_v141 main_v146 main_v147 (subf : (⟨S20000x256, .f32⟩ : BufTy).Contents (Elt F) → (⟨S20000x256, .f32⟩ : BufTy).Contents (Elt F) → (⟨S20000x256, .f32⟩ : BufTy).Contents (Elt F)),
    binary main_v147 main_v147 main_v148 (mulf : (⟨S20000x256, .f32⟩ : BufTy).Contents (Elt F) → (⟨S20000x256, .f32⟩ : BufTy).Contents (Elt F) → (⟨S20000x256, .f32⟩ : BufTy).Contents (Elt F)),
    nullary main_cst_30 (constant S_ .f32 0x00000000#32),
    binary main_v148 main_cst_30 main_v149 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v149 main_v150 (broadcastInDim S20000x1 ![0] bcast_S20000_S20000x1_0 : (⟨S20000, .f32⟩ : BufTy).Contents (Elt F) → (⟨S20000x1, .f32⟩ : BufTy).Contents (Elt F)),
    nullary main_cst_31 (constant S_ .f32 0x43800000#32),
    unary main_cst_31 main_v151 (broadcastInDim S20000x1 ![] bcast_S_S20000x1 : (⟨S_, .f32⟩ : BufTy).Contents (Elt F) → (⟨S20000x1, .f32⟩ : BufTy).Contents (Elt F)),
    binary main_v150 main_v151 main_v152 (Host.divf : (⟨S20000x1, .f32⟩ : BufTy).Contents (Elt F) → (⟨S20000x1, .f32⟩ : BufTy).Contents (Elt F) → (⟨S20000x1, .f32⟩ : BufTy).Contents (Elt F)),
    unary main_v145 main_v153 (broadcastInDim S20000x256 ![0, 1] bcast_S20000x1_S20000x256_0_1 : (⟨S20000x1, .f32⟩ : BufTy).Contents (Elt F) → (⟨S20000x256, .f32⟩ : BufTy).Contents (Elt F)),
    binary main_v141 main_v153 main_v154 (subf : (⟨S20000x256, .f32⟩ : BufTy).Contents (Elt F) → (⟨S20000x256, .f32⟩ : BufTy).Contents (Elt F) → (⟨S20000x256, .f32⟩ : BufTy).Contents (Elt F)),
    nullary main_cst_32 (constant S_ .f32 0x3727C5AC#32),
    unary main_cst_32 main_v155 (broadcastInDim S20000x1 ![] bcast_S_S20000x1 : (⟨S_, .f32⟩ : BufTy).Contents (Elt F) → (⟨S20000x1, .f32⟩ : BufTy).Contents (Elt F)),
    binary main_v152 main_v155 main_v156 (addf : (⟨S20000x1, .f32⟩ : BufTy).Contents (Elt F) → (⟨S20000x1, .f32⟩ : BufTy).Contents (Elt F) → (⟨S20000x1, .f32⟩ : BufTy).Contents (Elt F)),
    unary main_v156 main_v157 (Host.rsqrt : (⟨S20000x1, .f32⟩ : BufTy).Contents (Elt F) → (⟨S20000x1, .f32⟩ : BufTy).Contents (Elt F)),
    unary main_v157 main_v158 (broadcastInDim S20000x256 ![0, 1] bcast_S20000x1_S20000x256_0_1 : (⟨S20000x1, .f32⟩ : BufTy).Contents (Elt F) → (⟨S20000x256, .f32⟩ : BufTy).Contents (Elt F)),
    binary main_v154 main_v158 main_v159 (mulf : (⟨S20000x256, .f32⟩ : BufTy).Contents (Elt F) → (⟨S20000x256, .f32⟩ : BufTy).Contents (Elt F) → (⟨S20000x256, .f32⟩ : BufTy).Contents (Elt F)),
    unary main_arg13 main_v160 (broadcastInDim S1x256 ![1] bcast_S256_S1x256_1 : (⟨S256, .f32⟩ : BufTy).Contents (Elt F) → (⟨S1x256, .f32⟩ : BufTy).Contents (Elt F)),
    unary main_v160 main_v161 (broadcastInDim S20000x256 ![0, 1] bcast_S1x256_S20000x256_0_1 : (⟨S1x256, .f32⟩ : BufTy).Contents (Elt F) → (⟨S20000x256, .f32⟩ : BufTy).Contents (Elt F)),
    binary main_v159 main_v161 main_v162 (mulf : (⟨S20000x256, .f32⟩ : BufTy).Contents (Elt F) → (⟨S20000x256, .f32⟩ : BufTy).Contents (Elt F) → (⟨S20000x256, .f32⟩ : BufTy).Contents (Elt F)),
    unary main_arg14 main_v163 (broadcastInDim S1x256 ![1] bcast_S256_S1x256_1 : (⟨S256, .f32⟩ : BufTy).Contents (Elt F) → (⟨S1x256, .f32⟩ : BufTy).Contents (Elt F)),
    unary main_v163 main_v164 (broadcastInDim S20000x256 ![0, 1] bcast_S1x256_S20000x256_0_1 : (⟨S1x256, .f32⟩ : BufTy).Contents (Elt F) → (⟨S20000x256, .f32⟩ : BufTy).Contents (Elt F)),
    binary main_v162 main_v164 main_v165 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S20000x256, .f32⟩) main_call2_v0) (broadcastInDim S20000x256 ![] bcast_S_S20000x256),
    TRef.binary (TRef.of (T := ⟨S20000x256, .f32⟩) main_v165) (TRef.of (T := ⟨S20000x256, .f32⟩) main_call2_v0) (TRef.of (T := ⟨S20000x256, .f32⟩) main_v166) maximumf,
    binary main_v166 main_v99 main_v167 (addf : (⟨S20000x256, .f32⟩ : BufTy).Contents (Elt F) → (⟨S20000x256, .f32⟩ : BufTy).Contents (Elt F) → (⟨S20000x256, .f32⟩ : BufTy).Contents (Elt F)) ]

/-- Operations 209 to 293. -/
abbrev opsL3 : List (HloOp τ sig (Elt F)) :=
  [ binary main_v167 main_arg15 main_v168 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    nullary main_v169 (iotaInDim S20000 32 0),
    binary main_v1 main_v169 main_v170 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    binary main_v3 main_v169 main_v171 ((fun a b => concatenate S340000 0 [⟨S320000, a⟩, ⟨S20000, b⟩] concatenates_S320000_S20000_S340000_d0) : (⟨S320000, .i32⟩ : BufTy).Contents (Elt F) → (⟨S20000, .i32⟩ : BufTy).Contents (Elt F) → (⟨S340000, .i32⟩ : BufTy).Contents (Elt F)),
    nullary main_cst_33 (constant S_ .f32 0x3F800000#32),
    unary main_cst_33 main_v172 (broadcastInDim S340000 ![] bcast_S_S340000 : (⟨S_, .f32⟩ : BufTy).Contents (Elt F) → (⟨S340000, .f32⟩ : BufTy).Contents (Elt F)),
    nullary main_cst_34 (constant S_ .f32 0x00000000#32),
    unary main_cst_34 main_v173 (broadcastInDim S20000 ![] bcast_S_S20000 : (⟨S_, .f32⟩ : BufTy).Contents (Elt F) → (⟨S20000, .f32⟩ : BufTy).Contents (Elt F)),
    unary main_v171 main_v174 (broadcastInDim S340000x1 ![0] bcast_S340000_S340000x1_0 : (⟨S340000, .i32⟩ : BufTy).Contents (Elt F) → (⟨S340000x1, .i32⟩ : BufTy).Contents (Elt F)),
    ternary main_v173 main_v174 main_v172 main_v175 ((fun x i u => Host.scatterAdd scatter_S20000_S340000x1_S340000_n_0_0_1 x i u) : (⟨S20000, .f32⟩ : BufTy).Contents (Elt F) → (⟨S340000x1, .i32⟩ : BufTy).Contents (Elt F) → (⟨S340000, .f32⟩ : BufTy).Contents (Elt F) → (⟨S20000, .f32⟩ : BufTy).Contents (Elt F)),
    nullary main_cst_35 (constant S_ .f32 0x3F800000#32),
    unary main_cst_35 main_v176 (broadcastInDim S20000 ![] bcast_S_S20000 : (⟨S_, .f32⟩ : BufTy).Contents (Elt F) → (⟨S20000, .f32⟩ : BufTy).Contents (Elt F)),
    binary main_v175 main_v176 main_v177 (maximumf : (⟨S20000, .f32⟩ : BufTy).Contents (Elt F) → (⟨S20000, .f32⟩ : BufTy).Contents (Elt F) → (⟨S20000, .f32⟩ : BufTy).Contents (Elt F)),
    unary main_v177 main_v178 (Host.rsqrt : (⟨S20000, .f32⟩ : BufTy).Contents (Elt F) → (⟨S20000, .f32⟩ : BufTy).Contents (Elt F)),
    nullary main_c_36 (constantI S_ 32 0#32),
    unary main_c_36 main_v179 (broadcastInDim S340000 ![] bcast_S_S340000 : (⟨S_, .i32⟩ : BufTy).Contents (Elt F) → (⟨S340000, .i32⟩ : BufTy).Contents (Elt F)),
    binary main_v170 main_v179 main_v180 (cmpi .slt : (⟨S340000, .i32⟩ : BufTy).Contents (Elt F) → (⟨S340000, .i32⟩ : BufTy).Contents (Elt F) → (⟨S340000, .i1⟩ : BufTy).Contents (Elt F)),
    nullary main_c_37 (constantI S_ 32 20000#32),
    unary main_c_37 main_v181 (broadcastInDim S340000 ![] bcast_S_S340000 : (⟨S_, .i32⟩ : BufTy).Contents (Elt F) → (⟨S340000, .i32⟩ : BufTy).Contents (Elt F)),
    binary main_v170 main_v181 main_v182 (addi : (⟨S340000, .i32⟩ : BufTy).Contents (Elt F) → (⟨S340000, .i32⟩ : BufTy).Contents (Elt F) → (⟨S340000, .i32⟩ : BufTy).Contents (Elt F)),
    ternary main_v180 main_v182 main_v170 main_v183 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v183 main_v184 (broadcastInDim S340000x1 ![0] bcast_S340000_S340000x1_0 : (⟨S340000, .i32⟩ : BufTy).Contents (Elt F) → (⟨S340000x1, .i32⟩ : BufTy).Contents (Elt F)),
    binary main_v178 main_v184 main_v185 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    nullary main_c_38 (constantI S_ 32 0#32),
    unary main_c_38 main_v186 (broadcastInDim S340000 ![] bcast_S_S340000 : (⟨S_, .i32⟩ : BufTy).Contents (Elt F) → (⟨S340000, .i32⟩ : BufTy).Contents (Elt F)),
    binary main_v171 main_v186 main_v187 (cmpi .slt : (⟨S340000, .i32⟩ : BufTy).Contents (Elt F) → (⟨S340000, .i32⟩ : BufTy).Contents (Elt F) → (⟨S340000, .i1⟩ : BufTy).Contents (Elt F)),
    nullary main_c_39 (constantI S_ 32 20000#32),
    unary main_c_39 main_v188 (broadcastInDim S340000 ![] bcast_S_S340000 : (⟨S_, .i32⟩ : BufTy).Contents (Elt F) → (⟨S340000, .i32⟩ : BufTy).Contents (Elt F)),
    binary main_v171 main_v188 main_v189 (addi : (⟨S340000, .i32⟩ : BufTy).Contents (Elt F) → (⟨S340000, .i32⟩ : BufTy).Contents (Elt F) → (⟨S340000, .i32⟩ : BufTy).Contents (Elt F)),
    ternary main_v187 main_v189 main_v171 main_v190 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v190 main_v191 (broadcastInDim S340000x1 ![0] bcast_S340000_S340000x1_0 : (⟨S340000, .i32⟩ : BufTy).Contents (Elt F) → (⟨S340000x1, .i32⟩ : BufTy).Contents (Elt F)),
    binary main_v178 main_v191 main_v192 ((fun x i => Host.gather gather_S20000_S340000x1_S340000_n_0_n_n_0_1_1 x i) : (⟨S20000, .f32⟩ : BufTy).Contents (Elt F) → (⟨S340000x1, .i32⟩ : BufTy).Contents (Elt F) → (⟨S340000, .f32⟩ : BufTy).Contents (Elt F)),
    binary main_v185 main_v192 main_v193 (mulf : (⟨S340000, .f32⟩ : BufTy).Contents (Elt F) → (⟨S340000, .f32⟩ : BufTy).Contents (Elt F) → (⟨S340000, .f32⟩ : BufTy).Contents (Elt F)),
    nullary main_c_40 (constantI S_ 32 0#32),
    unary main_c_40 main_v194 (broadcastInDim S340000 ![] bcast_S_S340000 : (⟨S_, .i32⟩ : BufTy).Contents (Elt F) → (⟨S340000, .i32⟩ : BufTy).Contents (Elt F)),
    binary main_v170 main_v194 main_v195 (cmpi .slt : (⟨S340000, .i32⟩ : BufTy).Contents (Elt F) → (⟨S340000, .i32⟩ : BufTy).Contents (Elt F) → (⟨S340000, .i1⟩ : BufTy).Contents (Elt F)),
    nullary main_c_41 (constantI S_ 32 20000#32),
    unary main_c_41 main_v196 (broadcastInDim S340000 ![] bcast_S_S340000 : (⟨S_, .i32⟩ : BufTy).Contents (Elt F) → (⟨S340000, .i32⟩ : BufTy).Contents (Elt F)),
    binary main_v170 main_v196 main_v197 (addi : (⟨S340000, .i32⟩ : BufTy).Contents (Elt F) → (⟨S340000, .i32⟩ : BufTy).Contents (Elt F) → (⟨S340000, .i32⟩ : BufTy).Contents (Elt F)),
    ternary main_v195 main_v197 main_v170 main_v198 (select : (⟨S340000, .i1⟩ : BufTy).Contents (Elt F) → (⟨S340000, .i32⟩ : BufTy).Contents (Elt F) → (⟨S340000, .i32⟩ : BufTy).Contents (Elt F) → (⟨S340000, .i32⟩ : BufTy).Contents (Elt F)),
    unary main_v198 main_v199 (broadcastInDim S340000x1 ![0] bcast_S340000_S340000x1_0 : (⟨S340000, .i32⟩ : BufTy).Contents (Elt F) → (⟨S340000x1, .i32⟩ : BufTy).Contents (Elt F)),
    binary main_v168 main_v199 main_v200 ((fun x i => Host.gather gather_S20000x256_S340000x1_S340000x256_1_0_n_n_0_1_1256 x i) : (⟨S20000x256, .f32⟩ : BufTy).Contents (Elt F) → (⟨S340000x1, .i32⟩ : BufTy).Contents (Elt F) → (⟨S340000x256, .f32⟩ : BufTy).Contents (Elt F)),
    unary main_v193 main_v201 (broadcastInDim S340000x1 ![0] bcast_S340000_S340000x1_0 : (⟨S340000, .f32⟩ : BufTy).Contents (Elt F) → (⟨S340000x1, .f32⟩ : BufTy).Contents (Elt F)),
    unary main_v201 main_v202 (broadcastInDim S340000x256 ![0, 1] bcast_S340000x1_S340000x256_0_1 : (⟨S340000x1, .f32⟩ : BufTy).Contents (Elt F) → (⟨S340000x256, .f32⟩ : BufTy).Contents (Elt F)),
    binary main_v200 main_v202 main_v203 (mulf : (⟨S340000x256, .f32⟩ : BufTy).Contents (Elt F) → (⟨S340000x256, .f32⟩ : BufTy).Contents (Elt F) → (⟨S340000x256, .f32⟩ : BufTy).Contents (Elt F)),
    nullary main_cst_42 (constant S_ .f32 0x00000000#32),
    unary main_cst_42 main_v204 (broadcastInDim S20000x256 ![] bcast_S_S20000x256 : (⟨S_, .f32⟩ : BufTy).Contents (Elt F) → (⟨S20000x256, .f32⟩ : BufTy).Contents (Elt F)),
    unary main_v171 main_v205 (broadcastInDim S340000x1 ![0] bcast_S340000_S340000x1_0 : (⟨S340000, .i32⟩ : BufTy).Contents (Elt F) → (⟨S340000x1, .i32⟩ : BufTy).Contents (Elt F)),
    ternary main_v204 main_v205 main_v203 main_v206 ((fun x i u => Host.scatterAdd scatter_S20000x256_S340000x1_S340000x256_1_0_0_1 x i u) : (⟨S20000x256, .f32⟩ : BufTy).Contents (Elt F) → (⟨S340000x1, .i32⟩ : BufTy).Contents (Elt F) → (⟨S340000x256, .f32⟩ : BufTy).Contents (Elt F) → (⟨S20000x256, .f32⟩ : BufTy).Contents (Elt F)),
    unary main_arg16 main_v207 (broadcastInDim S1x256 ![1] bcast_S256_S1x256_1 : (⟨S256, .f32⟩ : BufTy).Contents (Elt F) → (⟨S1x256, .f32⟩ : BufTy).Contents (Elt F)),
    unary main_v207 main_v208 (broadcastInDim S20000x256 ![0, 1] bcast_S1x256_S20000x256_0_1 : (⟨S1x256, .f32⟩ : BufTy).Contents (Elt F) → (⟨S20000x256, .f32⟩ : BufTy).Contents (Elt F)),
    binary main_v206 main_v208 main_v209 (addf : (⟨S20000x256, .f32⟩ : BufTy).Contents (Elt F) → (⟨S20000x256, .f32⟩ : BufTy).Contents (Elt F) → (⟨S20000x256, .f32⟩ : BufTy).Contents (Elt F)),
    nullary main_cst_43 (constant S_ .f32 0x00000000#32),
    binary main_v209 main_cst_43 main_v210 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v210 main_v211 (broadcastInDim S20000x1 ![0] bcast_S20000_S20000x1_0 : (⟨S20000, .f32⟩ : BufTy).Contents (Elt F) → (⟨S20000x1, .f32⟩ : BufTy).Contents (Elt F)),
    nullary main_cst_44 (constant S_ .f32 0x43800000#32),
    unary main_cst_44 main_v212 (broadcastInDim S20000x1 ![] bcast_S_S20000x1 : (⟨S_, .f32⟩ : BufTy).Contents (Elt F) → (⟨S20000x1, .f32⟩ : BufTy).Contents (Elt F)),
    binary main_v211 main_v212 main_v213 (Host.divf : (⟨S20000x1, .f32⟩ : BufTy).Contents (Elt F) → (⟨S20000x1, .f32⟩ : BufTy).Contents (Elt F) → (⟨S20000x1, .f32⟩ : BufTy).Contents (Elt F)),
    unary main_v213 main_v214 (broadcastInDim S20000x256 ![0, 1] bcast_S20000x1_S20000x256_0_1 : (⟨S20000x1, .f32⟩ : BufTy).Contents (Elt F) → (⟨S20000x256, .f32⟩ : BufTy).Contents (Elt F)),
    binary main_v209 main_v214 main_v215 (subf : (⟨S20000x256, .f32⟩ : BufTy).Contents (Elt F) → (⟨S20000x256, .f32⟩ : BufTy).Contents (Elt F) → (⟨S20000x256, .f32⟩ : BufTy).Contents (Elt F)),
    binary main_v215 main_v215 main_v216 (mulf : (⟨S20000x256, .f32⟩ : BufTy).Contents (Elt F) → (⟨S20000x256, .f32⟩ : BufTy).Contents (Elt F) → (⟨S20000x256, .f32⟩ : BufTy).Contents (Elt F)),
    nullary main_cst_45 (constant S_ .f32 0x00000000#32),
    binary main_v216 main_cst_45 main_v217 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v217 main_v218 (broadcastInDim S20000x1 ![0] bcast_S20000_S20000x1_0 : (⟨S20000, .f32⟩ : BufTy).Contents (Elt F) → (⟨S20000x1, .f32⟩ : BufTy).Contents (Elt F)),
    nullary main_cst_46 (constant S_ .f32 0x43800000#32),
    unary main_cst_46 main_v219 (broadcastInDim S20000x1 ![] bcast_S_S20000x1 : (⟨S_, .f32⟩ : BufTy).Contents (Elt F) → (⟨S20000x1, .f32⟩ : BufTy).Contents (Elt F)),
    binary main_v218 main_v219 main_v220 (Host.divf : (⟨S20000x1, .f32⟩ : BufTy).Contents (Elt F) → (⟨S20000x1, .f32⟩ : BufTy).Contents (Elt F) → (⟨S20000x1, .f32⟩ : BufTy).Contents (Elt F)),
    unary main_v213 main_v221 (broadcastInDim S20000x256 ![0, 1] bcast_S20000x1_S20000x256_0_1 : (⟨S20000x1, .f32⟩ : BufTy).Contents (Elt F) → (⟨S20000x256, .f32⟩ : BufTy).Contents (Elt F)),
    binary main_v209 main_v221 main_v222 (subf : (⟨S20000x256, .f32⟩ : BufTy).Contents (Elt F) → (⟨S20000x256, .f32⟩ : BufTy).Contents (Elt F) → (⟨S20000x256, .f32⟩ : BufTy).Contents (Elt F)),
    nullary main_cst_47 (constant S_ .f32 0x3727C5AC#32),
    unary main_cst_47 main_v223 (broadcastInDim S20000x1 ![] bcast_S_S20000x1 : (⟨S_, .f32⟩ : BufTy).Contents (Elt F) → (⟨S20000x1, .f32⟩ : BufTy).Contents (Elt F)),
    binary main_v220 main_v223 main_v224 (addf : (⟨S20000x1, .f32⟩ : BufTy).Contents (Elt F) → (⟨S20000x1, .f32⟩ : BufTy).Contents (Elt F) → (⟨S20000x1, .f32⟩ : BufTy).Contents (Elt F)),
    unary main_v224 main_v225 (Host.rsqrt : (⟨S20000x1, .f32⟩ : BufTy).Contents (Elt F) → (⟨S20000x1, .f32⟩ : BufTy).Contents (Elt F)),
    unary main_v225 main_v226 (broadcastInDim S20000x256 ![0, 1] bcast_S20000x1_S20000x256_0_1 : (⟨S20000x1, .f32⟩ : BufTy).Contents (Elt F) → (⟨S20000x256, .f32⟩ : BufTy).Contents (Elt F)),
    binary main_v222 main_v226 main_v227 (mulf : (⟨S20000x256, .f32⟩ : BufTy).Contents (Elt F) → (⟨S20000x256, .f32⟩ : BufTy).Contents (Elt F) → (⟨S20000x256, .f32⟩ : BufTy).Contents (Elt F)),
    unary main_arg17 main_v228 (broadcastInDim S1x256 ![1] bcast_S256_S1x256_1 : (⟨S256, .f32⟩ : BufTy).Contents (Elt F) → (⟨S1x256, .f32⟩ : BufTy).Contents (Elt F)),
    unary main_v228 main_v229 (broadcastInDim S20000x256 ![0, 1] bcast_S1x256_S20000x256_0_1 : (⟨S1x256, .f32⟩ : BufTy).Contents (Elt F) → (⟨S20000x256, .f32⟩ : BufTy).Contents (Elt F)),
    binary main_v227 main_v229 main_v230 (mulf : (⟨S20000x256, .f32⟩ : BufTy).Contents (Elt F) → (⟨S20000x256, .f32⟩ : BufTy).Contents (Elt F) → (⟨S20000x256, .f32⟩ : BufTy).Contents (Elt F)),
    unary main_arg18 main_v231 (broadcastInDim S1x256 ![1] bcast_S256_S1x256_1 : (⟨S256, .f32⟩ : BufTy).Contents (Elt F) → (⟨S1x256, .f32⟩ : BufTy).Contents (Elt F)),
    unary main_v231 main_v232 (broadcastInDim S20000x256 ![0, 1] bcast_S1x256_S20000x256_0_1 : (⟨S1x256, .f32⟩ : BufTy).Contents (Elt F) → (⟨S20000x256, .f32⟩ : BufTy).Contents (Elt F)),
    binary main_v230 main_v232 main_v233 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S20000x256, .f32⟩) main_call3_v0) (broadcastInDim S20000x256 ![] bcast_S_S20000x256),
    TRef.binary (TRef.of (T := ⟨S20000x256, .f32⟩) main_v233) (TRef.of (T := ⟨S20000x256, .f32⟩) main_call3_v0) (TRef.of (T := ⟨S20000x256, .f32⟩) main_v234) maximumf,
    binary main_v234 main_v167 main_v235 (addf : (⟨S20000x256, .f32⟩ : BufTy).Contents (Elt F) → (⟨S20000x256, .f32⟩ : BufTy).Contents (Elt F) → (⟨S20000x256, .f32⟩ : BufTy).Contents (Elt F)) ]

/-- Operations 294 to 368. -/
abbrev opsT : List (HloOp τ sig (Elt F)) :=
  [ binary main_v235 main_arg19 main_v236 ((fun l r => Host.dotGeneral dot_S20000x256_S256x1_S20000x1_1_0_0_1_n_n none l r) : (⟨S20000x256, .f32⟩ : BufTy).Contents (Elt F) → (⟨S256x1, .f32⟩ : BufTy).Contents (Elt F) → (⟨S20000x1, .f32⟩ : BufTy).Contents (Elt F)),
    unary main_arg20 main_v237 (broadcastInDim S1x1 ![1] bcast_S1_S1x1_1 : (⟨S1, .f32⟩ : BufTy).Contents (Elt F) → (⟨S1x1, .f32⟩ : BufTy).Contents (Elt F)),
    unary main_v237 main_v238 (broadcastInDim S20000x1 ![0, 1] bcast_S1x1_S20000x1_0_1 : (⟨S1x1, .f32⟩ : BufTy).Contents (Elt F) → (⟨S20000x1, .f32⟩ : BufTy).Contents (Elt F)),
    binary main_v236 main_v238 main_v239 (addf : (⟨S20000x1, .f32⟩ : BufTy).Contents (Elt F) → (⟨S20000x1, .f32⟩ : BufTy).Contents (Elt F) → (⟨S20000x1, .f32⟩ : BufTy).Contents (Elt F)),
    unary main_v239 main_v240 (Host.tanh : (⟨S20000x1, .f32⟩ : BufTy).Contents (Elt F) → (⟨S20000x1, .f32⟩ : BufTy).Contents (Elt F)),
    nullary main_cst_48 (constant S_ .f32 0xFF800000#32),
    binary main_v240 main_cst_48 main_v241 ((fun x v => Host.reduce FloatOps.maximumf x v reducesTo_S20000x1_S1_d0 h_S_) : (⟨S20000x1, .f32⟩ : BufTy).Contents (Elt F) → (⟨S_, .f32⟩ : BufTy).Contents (Elt F) → (⟨S1, .f32⟩ : BufTy).Contents (Elt F)),
    nullary main_cst_49 (constant S_ .f32 0xFF800000#32),
    unary main_cst_49 main_v242 (broadcastInDim S1 ![] bcast_S_S1 : (⟨S_, .f32⟩ : BufTy).Contents (Elt F) → (⟨S1, .f32⟩ : BufTy).Contents (Elt F)),
    binary main_v242 main_v241 main_v243 (maximumf : (⟨S1, .f32⟩ : BufTy).Contents (Elt F) → (⟨S1, .f32⟩ : BufTy).Contents (Elt F) → (⟨S1, .f32⟩ : BufTy).Contents (Elt F)),
    unary main_v243 main_v244 (broadcastInDim S1x1 ![1] bcast_S1_S1x1_1 : (⟨S1, .f32⟩ : BufTy).Contents (Elt F) → (⟨S1x1, .f32⟩ : BufTy).Contents (Elt F)),
    unary main_v244 main_v245 (broadcastInDim S20000x1 ![0, 1] bcast_S1x1_S20000x1_0_1 : (⟨S1x1, .f32⟩ : BufTy).Contents (Elt F) → (⟨S20000x1, .f32⟩ : BufTy).Contents (Elt F)),
    binary main_v240 main_v245 main_v246 (subf : (⟨S20000x1, .f32⟩ : BufTy).Contents (Elt F) → (⟨S20000x1, .f32⟩ : BufTy).Contents (Elt F) → (⟨S20000x1, .f32⟩ : BufTy).Contents (Elt F)),
    unary main_v246 main_v247 (Host.exp : (⟨S20000x1, .f32⟩ : BufTy).Contents (Elt F) → (⟨S20000x1, .f32⟩ : BufTy).Contents (Elt F)),
    nullary main_cst_50 (constant S_ .f32 0x00000000#32),
    binary main_v247 main_cst_50 main_v248 ((fun x v => Host.reduceAdd x v reducesTo_S20000x1_S1_d0 h_S_) : (⟨S20000x1, .f32⟩ : BufTy).Contents (Elt F) → (⟨S_, .f32⟩ : BufTy).Contents (Elt F) → (⟨S1, .f32⟩ : BufTy).Contents (Elt F)),
    unary main_v248 main_v249 (broadcastInDim S1x1 ![1] bcast_S1_S1x1_1 : (⟨S1, .f32⟩ : BufTy).Contents (Elt F) → (⟨S1x1, .f32⟩ : BufTy).Contents (Elt F)),
    unary main_v249 main_v250 (broadcastInDim S20000x1 ![0, 1] bcast_S1x1_S20000x1_0_1 : (⟨S1x1, .f32⟩ : BufTy).Contents (Elt F) → (⟨S20000x1, .f32⟩ : BufTy).Contents (Elt F)),
    binary main_v247 main_v250 main_v251 (Host.divf : (⟨S20000x1, .f32⟩ : BufTy).Contents (Elt F) → (⟨S20000x1, .f32⟩ : BufTy).Contents (Elt F) → (⟨S20000x1, .f32⟩ : BufTy).Contents (Elt F)),
    unary main_v251 main_v252 (broadcastInDim S20000x256 ![0, 1] bcast_S20000x1_S20000x256_0_1 : (⟨S20000x1, .f32⟩ : BufTy).Contents (Elt F) → (⟨S20000x256, .f32⟩ : BufTy).Contents (Elt F)),
    binary main_v235 main_v252 main_v253 (mulf : (⟨S20000x256, .f32⟩ : BufTy).Contents (Elt F) → (⟨S20000x256, .f32⟩ : BufTy).Contents (Elt F) → (⟨S20000x256, .f32⟩ : BufTy).Contents (Elt F)),
    nullary main_cst_51 (constant S_ .f32 0x00000000#32),
    unary main_cst_51 main_v254 (broadcastInDim S64x256 ![] bcast_S_S64x256 : (⟨S_, .f32⟩ : BufTy).Contents (Elt F) → (⟨S64x256, .f32⟩ : BufTy).Contents (Elt F)),
    unary main_arg2 main_v255 (broadcastInDim S20000x1 ![0] bcast_S20000_S20000x1_0 : (⟨S20000, .i32⟩ : BufTy).Contents (Elt F) → (⟨S20000x1, .i32⟩ : BufTy).Contents (Elt F)),
    ternary main_v254 main_v255 main_v253 main_v256 ((fun x i u => Host.scatterAdd scatter_S64x256_S20000x1_S20000x256_1_0_0_1 x i u) : (⟨S64x256, .f32⟩ : BufTy).Contents (Elt F) → (⟨S20000x1, .i32⟩ : BufTy).Contents (Elt F) → (⟨S20000x256, .f32⟩ : BufTy).Contents (Elt F) → (⟨S64x256, .f32⟩ : BufTy).Contents (Elt F)),
    binary main_v256 main_arg21 main_v257 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    unary main_arg22 main_v258 (broadcastInDim S1x256 ![1] bcast_S256_S1x256_1 : (⟨S256, .f32⟩ : BufTy).Contents (Elt F) → (⟨S1x256, .f32⟩ : BufTy).Contents (Elt F)),
    unary main_v258 main_v259 (broadcastInDim S64x256 ![0, 1] bcast_S1x256_S64x256_0_1 : (⟨S1x256, .f32⟩ : BufTy).Contents (Elt F) → (⟨S64x256, .f32⟩ : BufTy).Contents (Elt F)),
    binary main_v257 main_v259 main_v260 (addf : (⟨S64x256, .f32⟩ : BufTy).Contents (Elt F) → (⟨S64x256, .f32⟩ : BufTy).Contents (Elt F) → (⟨S64x256, .f32⟩ : BufTy).Contents (Elt F)),
    nullary main_cst_52 (constant S_ .f32 0x00000000#32),
    binary main_v260 main_cst_52 main_v261 ((fun x v => Host.reduceAdd x v reducesTo_S64x256_S64_d1 h_S_) : (⟨S64x256, .f32⟩ : BufTy).Contents (Elt F) → (⟨S_, .f32⟩ : BufTy).Contents (Elt F) → (⟨S64, .f32⟩ : BufTy).Contents (Elt F)),
    unary main_v261 main_v262 (broadcastInDim S64x1 ![0] bcast_S64_S64x1_0 : (⟨S64, .f32⟩ : BufTy).Contents (Elt F) → (⟨S64x1, .f32⟩ : BufTy).Contents (Elt F)),
    nullary main_cst_53 (constant S_ .f32 0x43800000#32),
    unary main_cst_53 main_v263 (broadcastInDim S64x1 ![] bcast_S_S64x1 : (⟨S_, .f32⟩ : BufTy).Contents (Elt F) → (⟨S64x1, .f32⟩ : BufTy).Contents (Elt F)),
    binary main_v262 main_v263 main_v264 (Host.divf : (⟨S64x1, .f32⟩ : BufTy).Contents (Elt F) → (⟨S64x1, .f32⟩ : BufTy).Contents (Elt F) → (⟨S64x1, .f32⟩ : BufTy).Contents (Elt F)),
    unary main_v264 main_v265 (broadcastInDim S64x256 ![0, 1] bcast_S64x1_S64x256_0_1 : (⟨S64x1, .f32⟩ : BufTy).Contents (Elt F) → (⟨S64x256, .f32⟩ : BufTy).Contents (Elt F)),
    binary main_v260 main_v265 main_v266 (subf : (⟨S64x256, .f32⟩ : BufTy).Contents (Elt F) → (⟨S64x256, .f32⟩ : BufTy).Contents (Elt F) → (⟨S64x256, .f32⟩ : BufTy).Contents (Elt F)),
    binary main_v266 main_v266 main_v267 (mulf : (⟨S64x256, .f32⟩ : BufTy).Contents (Elt F) → (⟨S64x256, .f32⟩ : BufTy).Contents (Elt F) → (⟨S64x256, .f32⟩ : BufTy).Contents (Elt F)),
    nullary main_cst_54 (constant S_ .f32 0x00000000#32),
    binary main_v267 main_cst_54 main_v268 ((fun x v => Host.reduceAdd x v reducesTo_S64x256_S64_d1 h_S_) : (⟨S64x256, .f32⟩ : BufTy).Contents (Elt F) → (⟨S_, .f32⟩ : BufTy).Contents (Elt F) → (⟨S64, .f32⟩ : BufTy).Contents (Elt F)),
    unary main_v268 main_v269 (broadcastInDim S64x1 ![0] bcast_S64_S64x1_0 : (⟨S64, .f32⟩ : BufTy).Contents (Elt F) → (⟨S64x1, .f32⟩ : BufTy).Contents (Elt F)),
    nullary main_cst_55 (constant S_ .f32 0x43800000#32),
    unary main_cst_55 main_v270 (broadcastInDim S64x1 ![] bcast_S_S64x1 : (⟨S_, .f32⟩ : BufTy).Contents (Elt F) → (⟨S64x1, .f32⟩ : BufTy).Contents (Elt F)),
    binary main_v269 main_v270 main_v271 (Host.divf : (⟨S64x1, .f32⟩ : BufTy).Contents (Elt F) → (⟨S64x1, .f32⟩ : BufTy).Contents (Elt F) → (⟨S64x1, .f32⟩ : BufTy).Contents (Elt F)),
    unary main_v264 main_v272 (broadcastInDim S64x256 ![0, 1] bcast_S64x1_S64x256_0_1 : (⟨S64x1, .f32⟩ : BufTy).Contents (Elt F) → (⟨S64x256, .f32⟩ : BufTy).Contents (Elt F)),
    binary main_v260 main_v272 main_v273 (subf : (⟨S64x256, .f32⟩ : BufTy).Contents (Elt F) → (⟨S64x256, .f32⟩ : BufTy).Contents (Elt F) → (⟨S64x256, .f32⟩ : BufTy).Contents (Elt F)),
    nullary main_cst_56 (constant S_ .f32 0x3727C5AC#32),
    unary main_cst_56 main_v274 (broadcastInDim S64x1 ![] bcast_S_S64x1 : (⟨S_, .f32⟩ : BufTy).Contents (Elt F) → (⟨S64x1, .f32⟩ : BufTy).Contents (Elt F)),
    binary main_v271 main_v274 main_v275 (addf : (⟨S64x1, .f32⟩ : BufTy).Contents (Elt F) → (⟨S64x1, .f32⟩ : BufTy).Contents (Elt F) → (⟨S64x1, .f32⟩ : BufTy).Contents (Elt F)),
    unary main_v275 main_v276 (Host.rsqrt : (⟨S64x1, .f32⟩ : BufTy).Contents (Elt F) → (⟨S64x1, .f32⟩ : BufTy).Contents (Elt F)),
    unary main_v276 main_v277 (broadcastInDim S64x256 ![0, 1] bcast_S64x1_S64x256_0_1 : (⟨S64x1, .f32⟩ : BufTy).Contents (Elt F) → (⟨S64x256, .f32⟩ : BufTy).Contents (Elt F)),
    binary main_v273 main_v277 main_v278 (mulf : (⟨S64x256, .f32⟩ : BufTy).Contents (Elt F) → (⟨S64x256, .f32⟩ : BufTy).Contents (Elt F) → (⟨S64x256, .f32⟩ : BufTy).Contents (Elt F)),
    unary main_arg23 main_v279 (broadcastInDim S1x256 ![1] bcast_S256_S1x256_1 : (⟨S256, .f32⟩ : BufTy).Contents (Elt F) → (⟨S1x256, .f32⟩ : BufTy).Contents (Elt F)),
    unary main_v279 main_v280 (broadcastInDim S64x256 ![0, 1] bcast_S1x256_S64x256_0_1 : (⟨S1x256, .f32⟩ : BufTy).Contents (Elt F) → (⟨S64x256, .f32⟩ : BufTy).Contents (Elt F)),
    binary main_v278 main_v280 main_v281 (mulf : (⟨S64x256, .f32⟩ : BufTy).Contents (Elt F) → (⟨S64x256, .f32⟩ : BufTy).Contents (Elt F) → (⟨S64x256, .f32⟩ : BufTy).Contents (Elt F)),
    unary main_arg24 main_v282 (broadcastInDim S1x256 ![1] bcast_S256_S1x256_1 : (⟨S256, .f32⟩ : BufTy).Contents (Elt F) → (⟨S1x256, .f32⟩ : BufTy).Contents (Elt F)),
    unary main_v282 main_v283 (broadcastInDim S64x256 ![0, 1] bcast_S1x256_S64x256_0_1 : (⟨S1x256, .f32⟩ : BufTy).Contents (Elt F) → (⟨S64x256, .f32⟩ : BufTy).Contents (Elt F)),
    binary main_v281 main_v283 main_v284 (addf : (⟨S64x256, .f32⟩ : BufTy).Contents (Elt F) → (⟨S64x256, .f32⟩ : BufTy).Contents (Elt F) → (⟨S64x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S64x256, .f32⟩) main_call4_v0) (broadcastInDim S64x256 ![] bcast_S_S64x256),
    TRef.binary (TRef.of (T := ⟨S64x256, .f32⟩) main_v284) (TRef.of (T := ⟨S64x256, .f32⟩) main_call4_v0) (TRef.of (T := ⟨S64x256, .f32⟩) main_v285) maximumf,
    binary main_v285 main_arg25 main_v286 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    unary main_arg26 main_v287 (broadcastInDim S1x128 ![1] bcast_S128_S1x128_1 : (⟨S128, .f32⟩ : BufTy).Contents (Elt F) → (⟨S1x128, .f32⟩ : BufTy).Contents (Elt F)),
    unary main_v287 main_v288 (broadcastInDim S64x128 ![0, 1] bcast_S1x128_S64x128_0_1 : (⟨S1x128, .f32⟩ : BufTy).Contents (Elt F) → (⟨S64x128, .f32⟩ : BufTy).Contents (Elt F)),
    binary main_v286 main_v288 main_v289 (addf : (⟨S64x128, .f32⟩ : BufTy).Contents (Elt F) → (⟨S64x128, .f32⟩ : BufTy).Contents (Elt F) → (⟨S64x128, .f32⟩ : BufTy).Contents (Elt F)),
    TRef.binary (TRef.of (T := ⟨S64x128, .f32⟩) main_v289) (TRef.of (T := ⟨S64x128, .f32⟩) main_v289) (TRef.of (T := ⟨S64x128, .f32⟩) main_call5_v0) mulf,
    TRef.nullary (TRef.of (T := ⟨S_, .f32⟩) main_call5_cst) (constant S_ .f32 0x00000000#32),
    TRef.binary (TRef.of (T := ⟨S64x128, .f32⟩) main_call5_v0) (TRef.of (T := ⟨S_, .f32⟩) main_call5_cst) (TRef.of (T := ⟨S64, .f32⟩) main_call5_v1) (fun x v => Host.reduceAdd x v reducesTo_S64x128_S64_d1 h_S_),
    TRef.unary (TRef.of (T := ⟨S64, .f32⟩) main_call5_v1) (TRef.of (T := ⟨S64x1, .f32⟩) main_call5_v2) (broadcastInDim S64x1 ![0] bcast_S64_S64x1_0),
    TRef.unary (TRef.of (T := ⟨S64x1, .f32⟩) main_call5_v2) (TRef.of (T := ⟨S64x1, .f32⟩) main_v290) Host.sqrt,
    nullary main_cst_57 (constant S_ .f32 0x2B8CBCCC#32),
    unary main_cst_57 main_v291 (broadcastInDim S64x1 ![] bcast_S_S64x1 : (⟨S_, .f32⟩ : BufTy).Contents (Elt F) → (⟨S64x1, .f32⟩ : BufTy).Contents (Elt F)),
    binary main_v290 main_v291 main_v292 (maximumf : (⟨S64x1, .f32⟩ : BufTy).Contents (Elt F) → (⟨S64x1, .f32⟩ : BufTy).Contents (Elt F) → (⟨S64x1, .f32⟩ : BufTy).Contents (Elt F)),
    unary main_v292 main_v293 (broadcastInDim S64x128 ![0, 1] bcast_S64x1_S64x128_0_1 : (⟨S64x1, .f32⟩ : BufTy).Contents (Elt F) → (⟨S64x128, .f32⟩ : BufTy).Contents (Elt F)),
    binary main_v289 main_v293 main_v294 (Host.divf : (⟨S64x128, .f32⟩ : BufTy).Contents (Elt F) → (⟨S64x128, .f32⟩ : BufTy).Contents (Elt F) → (⟨S64x128, .f32⟩ : BufTy).Contents (Elt F)) ]

set_option maxRecDepth 8192 in
set_option maxHeartbeats 4000000 in
theorem main_eq (c : Dev nD) : main (F := F) c = seq ops := rfl
set_option maxRecDepth 8192 in
set_option maxHeartbeats 4000000 in
/-- The line is its five stages one after the other. -/
theorem ops_eq : (ops : List (HloOp τ sig (Elt F))) = opsE ++ (opsL1 ++ (opsL2 ++ (opsL3 ++ opsT))) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every weakly fair execution terminates with every buffer at the fold of the operations over the launch memory. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- Two lines one after the other fold as the second over the first's result. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- One operation's written buffer is in the list: the operation writes one buffer, and it is listed. -/
local macro "wsub" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-- The buffers the operations of `opsE` write. -/
abbrev opsE_W : List (Ref sig .tc) := [main_v0, main_v1, main_v2, main_v3, main_v4, main_v5, main_v6, main_v7, main_cst, main_v8, main_v9, main_cst_0, main_v10, main_v11, main_v12, main_v13, main_v14, main_cst_1, main_v15, main_v16, main_cst_2, main_v17, main_v18, main_v19, main_v20, main_cst_3, main_v21, main_v22, main_v23, main_v24, main_v25, main_v26, main_v27, main_v28, main_v29, main_v30, main_v31, main_call0_cst, main_call0_v0, main_v32]
theorem opsE_writes : (opsE : List (HloOp τ sig (Elt F))).Forall fun op => op.writes ⊆ (opsE_W.map (Proc.devRef (τ := τ) .tc)).toFinset := by
  simp only [List.Forall]; exact ⟨by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub⟩
/-- A buffer that `opsE` does not write keeps its contents through it. -/
theorem opsE_keep (V : Valuation τ sig (Elt F)) (r : Ref sig .tc) (h : r ∉ opsE_W) :
    after opsE V (Proc.devRef .tc r) = V (Proc.devRef .tc r) :=
  after_of_writes_sub opsE V opsE_writes h

/-- The buffers the operations of `opsL1` write. -/
abbrev opsL1_W : List (Ref sig .tc) := [main_v33, main_v34, main_v35, main_v36, main_cst_4, main_v37, main_cst_5, main_v38, main_v39, main_v40, main_cst_6, main_v41, main_v42, main_v43, main_c, main_v44, main_v45, main_c_7, main_v46, main_v47, main_v48, main_v49, main_v50, main_c_8, main_v51, main_v52, main_c_9, main_v53, main_v54, main_v55, main_v56, main_v57, main_v58, main_c_10, main_v59, main_v60, main_c_11, main_v61, main_v62, main_v63, main_v64, main_v65, main_v66, main_v67, main_v68, main_cst_12, main_v69, main_v70, main_v71, main_v72, main_v73, main_v74, main_cst_13, main_v75, main_v76, main_cst_14, main_v77, main_v78, main_v79, main_v80, main_v81, main_cst_15, main_v82, main_v83, main_cst_16, main_v84, main_v85, main_v86, main_v87, main_cst_17, main_v88, main_v89, main_v90, main_v91, main_v92, main_v93, main_v94, main_v95, main_v96, main_v97, main_v98, main_call1_cst, main_call1_v0, main_v99]
theorem opsL1_writes : (opsL1 : List (HloOp τ sig (Elt F))).Forall fun op => op.writes ⊆ (opsL1_W.map (Proc.devRef (τ := τ) .tc)).toFinset := by
  simp only [List.Forall]; exact ⟨by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub⟩
/-- A buffer that `opsL1` does not write keeps its contents through it. -/
theorem opsL1_keep (V : Valuation τ sig (Elt F)) (r : Ref sig .tc) (h : r ∉ opsL1_W) :
    after opsL1 V (Proc.devRef .tc r) = V (Proc.devRef .tc r) :=
  after_of_writes_sub opsL1 V opsL1_writes h

/-- The buffers the operations of `opsL2` write. -/
abbrev opsL2_W : List (Ref sig .tc) := [main_v100, main_v101, main_v102, main_v103, main_cst_18, main_v104, main_cst_19, main_v105, main_v106, main_v107, main_cst_20, main_v108, main_v109, main_v110, main_c_21, main_v111, main_v112, main_c_22, main_v113, main_v114, main_v115, main_v116, main_v117, main_c_23, main_v118, main_v119, main_c_24, main_v120, main_v121, main_v122, main_v123, main_v124, main_v125, main_c_25, main_v126, main_v127, main_c_26, main_v128, main_v129, main_v130, main_v131, main_v132, main_v133, main_v134, main_v135, main_cst_27, main_v136, main_v137, main_v138, main_v139, main_v140, main_v141, main_cst_28, main_v142, main_v143, main_cst_29, main_v144, main_v145, main_v146, main_v147, main_v148, main_cst_30, main_v149, main_v150, main_cst_31, main_v151, main_v152, main_v153, main_v154, main_cst_32, main_v155, main_v156, main_v157, main_v158, main_v159, main_v160, main_v161, main_v162, main_v163, main_v164, main_v165, main_call2_cst, main_call2_v0, main_v166, main_v167]
theorem opsL2_writes : (opsL2 : List (HloOp τ sig (Elt F))).Forall fun op => op.writes ⊆ (opsL2_W.map (Proc.devRef (τ := τ) .tc)).toFinset := by
  simp only [List.Forall]; exact ⟨by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub⟩
/-- A buffer that `opsL2` does not write keeps its contents through it. -/
theorem opsL2_keep (V : Valuation τ sig (Elt F)) (r : Ref sig .tc) (h : r ∉ opsL2_W) :
    after opsL2 V (Proc.devRef .tc r) = V (Proc.devRef .tc r) :=
  after_of_writes_sub opsL2 V opsL2_writes h

/-- The buffers the operations of `opsL3` write. -/
abbrev opsL3_W : List (Ref sig .tc) := [main_v168, main_v169, main_v170, main_v171, main_cst_33, main_v172, main_cst_34, main_v173, main_v174, main_v175, main_cst_35, main_v176, main_v177, main_v178, main_c_36, main_v179, main_v180, main_c_37, main_v181, main_v182, main_v183, main_v184, main_v185, main_c_38, main_v186, main_v187, main_c_39, main_v188, main_v189, main_v190, main_v191, main_v192, main_v193, main_c_40, main_v194, main_v195, main_c_41, main_v196, main_v197, main_v198, main_v199, main_v200, main_v201, main_v202, main_v203, main_cst_42, main_v204, main_v205, main_v206, main_v207, main_v208, main_v209, main_cst_43, main_v210, main_v211, main_cst_44, main_v212, main_v213, main_v214, main_v215, main_v216, main_cst_45, main_v217, main_v218, main_cst_46, main_v219, main_v220, main_v221, main_v222, main_cst_47, main_v223, main_v224, main_v225, main_v226, main_v227, main_v228, main_v229, main_v230, main_v231, main_v232, main_v233, main_call3_cst, main_call3_v0, main_v234, main_v235]
theorem opsL3_writes : (opsL3 : List (HloOp τ sig (Elt F))).Forall fun op => op.writes ⊆ (opsL3_W.map (Proc.devRef (τ := τ) .tc)).toFinset := by
  simp only [List.Forall]; exact ⟨by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub⟩
/-- A buffer that `opsL3` does not write keeps its contents through it. -/
theorem opsL3_keep (V : Valuation τ sig (Elt F)) (r : Ref sig .tc) (h : r ∉ opsL3_W) :
    after opsL3 V (Proc.devRef .tc r) = V (Proc.devRef .tc r) :=
  after_of_writes_sub opsL3 V opsL3_writes h

/-- The buffers the operations of `opsT` write. -/
abbrev opsT_W : List (Ref sig .tc) := [main_v236, main_v237, main_v238, main_v239, main_v240, main_cst_48, main_v241, main_cst_49, main_v242, main_v243, main_v244, main_v245, main_v246, main_v247, main_cst_50, main_v248, main_v249, main_v250, main_v251, main_v252, main_v253, main_cst_51, main_v254, main_v255, main_v256, main_v257, main_v258, main_v259, main_v260, main_cst_52, main_v261, main_v262, main_cst_53, main_v263, main_v264, main_v265, main_v266, main_v267, main_cst_54, main_v268, main_v269, main_cst_55, main_v270, main_v271, main_v272, main_v273, main_cst_56, main_v274, main_v275, main_v276, main_v277, main_v278, main_v279, main_v280, main_v281, main_v282, main_v283, main_v284, main_call4_cst, main_call4_v0, main_v285, main_v286, main_v287, main_v288, main_v289, main_call5_v0, main_call5_cst, main_call5_v1, main_call5_v2, main_v290, main_cst_57, main_v291, main_v292, main_v293, main_v294]
theorem opsT_writes : (opsT : List (HloOp τ sig (Elt F))).Forall fun op => op.writes ⊆ (opsT_W.map (Proc.devRef (τ := τ) .tc)).toFinset := by
  simp only [List.Forall]; exact ⟨by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub, by wsub⟩
/-- A buffer that `opsT` does not write keeps its contents through it. -/
theorem opsT_keep (V : Valuation τ sig (Elt F)) (r : Ref sig .tc) (h : r ∉ opsT_W) :
    after opsT V (Proc.devRef .tc r) = V (Proc.devRef .tc r) :=
  after_of_writes_sub opsT V opsT_writes h

/-! ## Each stage's result as its function of the buffers it reads -/

variable (V : Valuation τ sig (Elt F))

set_option maxHeartbeats 4000000 in
theorem opsE_src : after opsE V (Proc.devRef .tc main_v1) = Stages.srcOf (V (Proc.devRef .tc main_arg1)) := by
  after_results_simp <;> rfl
set_option maxHeartbeats 4000000 in
theorem opsE_dst : after opsE V (Proc.devRef .tc main_v3) = Stages.dstOf (V (Proc.devRef .tc main_arg1)) := by
  after_results_simp <;> rfl
set_option maxHeartbeats 4000000 in
theorem opsE_x0 : after opsE V (Proc.devRef .tc main_v32)
    = Stages.normRelu (Stages.biasRow (Stages.lin128 (V (Proc.devRef .tc main_arg0)) (V (Proc.devRef .tc main_arg3))) (V (Proc.devRef .tc main_arg4))) (V (Proc.devRef .tc main_arg5)) (V (Proc.devRef .tc main_arg6)) := by
  after_results_simp <;> rfl
set_option maxHeartbeats 16000000 in
theorem opsL1_x1 : after opsL1 V (Proc.devRef .tc main_v99)
    = (Stages.normRelu (Stages.biasRow (Stages.aggCore (Stages.lin256 (V (Proc.devRef .tc main_v32)) (V (Proc.devRef .tc main_arg7))) (Stages.sfull (V (Proc.devRef .tc main_v1))) (Stages.dfull (V (Proc.devRef .tc main_v3))) (Stages.weOf (Stages.sfull (V (Proc.devRef .tc main_v1))) (Stages.dfull (V (Proc.devRef .tc main_v3))))) (V (Proc.devRef .tc main_arg8))) (V (Proc.devRef .tc main_arg9)) (V (Proc.devRef .tc main_arg10))) := by
  after_results_simp <;> rfl
set_option maxHeartbeats 16000000 in
theorem opsL2_x2 : after opsL2 V (Proc.devRef .tc main_v167)
    = ((addf : (⟨S20000x256, .f32⟩ : BufTy).Contents (Elt F) → (⟨S20000x256, .f32⟩ : BufTy).Contents (Elt F) → (⟨S20000x256, .f32⟩ : BufTy).Contents (Elt F))) (Stages.normRelu (Stages.biasRow (Stages.aggCore (Stages.lin256 (V (Proc.devRef .tc main_v99)) (V (Proc.devRef .tc main_arg11))) (Stages.sfull (V (Proc.devRef .tc main_v1))) (Stages.dfull (V (Proc.devRef .tc main_v3))) (Stages.weOf (Stages.sfull (V (Proc.devRef .tc main_v1))) (Stages.dfull (V (Proc.devRef .tc main_v3))))) (V (Proc.devRef .tc main_arg12))) (V (Proc.devRef .tc main_arg13)) (V (Proc.devRef .tc main_arg14))) (V (Proc.devRef .tc main_v99)) := by
  after_results_simp <;> rfl
set_option maxHeartbeats 16000000 in
theorem opsL3_x3 : after opsL3 V (Proc.devRef .tc main_v235)
    = ((addf : (⟨S20000x256, .f32⟩ : BufTy).Contents (Elt F) → (⟨S20000x256, .f32⟩ : BufTy).Contents (Elt F) → (⟨S20000x256, .f32⟩ : BufTy).Contents (Elt F))) (Stages.normRelu (Stages.biasRow (Stages.aggCore (Stages.lin256 (V (Proc.devRef .tc main_v167)) (V (Proc.devRef .tc main_arg15))) (Stages.sfull (V (Proc.devRef .tc main_v1))) (Stages.dfull (V (Proc.devRef .tc main_v3))) (Stages.weOf (Stages.sfull (V (Proc.devRef .tc main_v1))) (Stages.dfull (V (Proc.devRef .tc main_v3))))) (V (Proc.devRef .tc main_arg16))) (V (Proc.devRef .tc main_arg17)) (V (Proc.devRef .tc main_arg18))) (V (Proc.devRef .tc main_v167)) := by
  after_results_simp <;> rfl
set_option maxHeartbeats 16000000 in
theorem opsT_out : after opsT V (Proc.devRef .tc main_v294)
    = Stages.tailOf (V (Proc.devRef .tc main_v235)) (V (Proc.devRef .tc main_arg2)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) := by
  after_results_simp <;> rfl

end Cert.ReferenceIdeal.RunValue

end
-- ==== Proof.RefValue.lean ====
/-
  The reference's result as the network function of its arguments.

  The fold of the 369 operations over the launch memory, cut into the five stages: the pooling head's function of the
  third layer's output, which is the third layer's function of the second's, and so on down to the encoder; each
  argument, and the two rows of the edge table cut out by the first stage, pass unchanged through every stage that
  does not write them.
-/
import proofs.«105231_j1443109011557_1_alg».proof.Proof.RefRun
import proofs.«105231_j1443109011557_1_alg».proof.Proof.Net

noncomputable section

namespace Cert.ReferenceIdeal.RunValue

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

set_option maxHeartbeats 8000000 in
/-- What the fold leaves in the result buffer: the network function of the launch memory's argument arrays. -/
theorem fold_out (m : (ℓ : Loc nD τ sig) → Buf (Elt F) ℓ) (c : Dev nD) :
    after ops (launchContents m c) (Proc.devRef .tc main_v294)
      = Stages.netOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := by
  rw [ops_eq, after_append, after_append, after_append, after_append]
  rw [opsT_out]
  rw [opsL3_x3, opsL3_keep _ main_arg2 (by decide), opsL3_keep _ main_arg19 (by decide), opsL3_keep _ main_arg20 (by decide), opsL3_keep _ main_arg21 (by decide), opsL3_keep _ main_arg22 (by decide), opsL3_keep _ main_arg23 (by decide), opsL3_keep _ main_arg24 (by decide), opsL3_keep _ main_arg25 (by decide), opsL3_keep _ main_arg26 (by decide)]
  rw [opsL2_x2, opsL2_keep _ main_arg15 (by decide), opsL2_keep _ main_arg16 (by decide), opsL2_keep _ main_arg17 (by decide), opsL2_keep _ main_arg18 (by decide), opsL2_keep _ main_v1 (by decide), opsL2_keep _ main_v3 (by decide), opsL2_keep _ main_arg2 (by decide), opsL2_keep _ main_arg19 (by decide), opsL2_keep _ main_arg20 (by decide), opsL2_keep _ main_arg21 (by decide), opsL2_keep _ main_arg22 (by decide), opsL2_keep _ main_arg23 (by decide), opsL2_keep _ main_arg24 (by decide), opsL2_keep _ main_arg25 (by decide), opsL2_keep _ main_arg26 (by decide)]
  rw [opsL1_x1, opsL1_keep _ main_arg11 (by decide), opsL1_keep _ main_arg12 (by decide), opsL1_keep _ main_arg13 (by decide), opsL1_keep _ main_arg14 (by decide), opsL1_keep _ main_v1 (by decide), opsL1_keep _ main_v3 (by decide), opsL1_keep _ main_arg15 (by decide), opsL1_keep _ main_arg16 (by decide), opsL1_keep _ main_arg17 (by decide), opsL1_keep _ main_arg18 (by decide), opsL1_keep _ main_arg2 (by decide), opsL1_keep _ main_arg19 (by decide), opsL1_keep _ main_arg20 (by decide), opsL1_keep _ main_arg21 (by decide), opsL1_keep _ main_arg22 (by decide), opsL1_keep _ main_arg23 (by decide), opsL1_keep _ main_arg24 (by decide), opsL1_keep _ main_arg25 (by decide), opsL1_keep _ main_arg26 (by decide)]
  rw [opsE_x0, opsE_src, opsE_dst, opsE_keep _ main_arg7 (by decide), opsE_keep _ main_arg8 (by decide), opsE_keep _ main_arg9 (by decide), opsE_keep _ main_arg10 (by decide), opsE_keep _ main_arg11 (by decide), opsE_keep _ main_arg12 (by decide), opsE_keep _ main_arg13 (by decide), opsE_keep _ main_arg14 (by decide), opsE_keep _ main_arg15 (by decide), opsE_keep _ main_arg16 (by decide), opsE_keep _ main_arg17 (by decide), opsE_keep _ main_arg18 (by decide), opsE_keep _ main_arg2 (by decide), opsE_keep _ main_arg19 (by decide), opsE_keep _ main_arg20 (by decide), opsE_keep _ main_arg21 (by decide), opsE_keep _ main_arg22 (by decide), opsE_keep _ main_arg23 (by decide), opsE_keep _ main_arg24 (by decide), opsE_keep _ main_arg25 (by decide), opsE_keep _ main_arg26 (by decide)]
  rfl

/-- An argument's buffer after the fold is as launched: no stage writes it. -/
theorem fold_arg (m : (ℓ : Loc nD τ sig) → Buf (Elt F) ℓ) (c : Dev nD) (a : Ref sig .tc)
    (hE : a ∉ opsE_W) (h1 : a ∉ opsL1_W) (h2 : a ∉ opsL2_W) (h3 : a ∉ opsL3_W) (hT : a ∉ opsT_W) :
    after ops (launchContents m c) (Proc.devRef .tc a) = m ((c.tc : Thread nD τ).loc a) := by
  rw [ops_eq, after_append, after_append, after_append, after_append, opsT_keep _ a hT, opsL3_keep _ a h3, opsL2_keep _ a h2,
    opsL1_keep _ a h1, opsE_keep _ a hE]

/-- Every weakly fair execution of the reference terminates with the result buffer at the network function of the
    arguments, and the arguments as launched. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v294)
        = Stages.netOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun r h c => ⟨(h c main_v294).trans (fold_out m c),
    (h c main_arg0).trans (fold_arg m c main_arg0 (by decide) (by decide) (by decide) (by decide) (by decide)),
    (h c main_arg1).trans (fold_arg m c main_arg1 (by decide) (by decide) (by decide) (by decide) (by decide)),
    (h c main_arg2).trans (fold_arg m c main_arg2 (by decide) (by decide) (by decide) (by decide) (by decide)),
    (h c main_arg3).trans (fold_arg m c main_arg3 (by decide) (by decide) (by decide) (by decide) (by decide)),
    (h c main_arg4).trans (fold_arg m c main_arg4 (by decide) (by decide) (by decide) (by decide) (by decide)),
    (h c main_arg5).trans (fold_arg m c main_arg5 (by decide) (by decide) (by decide) (by decide) (by decide)),
    (h c main_arg6).trans (fold_arg m c main_arg6 (by decide) (by decide) (by decide) (by decide) (by decide)),
    (h c main_arg7).trans (fold_arg m c main_arg7 (by decide) (by decide) (by decide) (by decide) (by decide)),
    (h c main_arg8).trans (fold_arg m c main_arg8 (by decide) (by decide) (by decide) (by decide) (by decide)),
    (h c main_arg9).trans (fold_arg m c main_arg9 (by decide) (by decide) (by decide) (by decide) (by decide)),
    (h c main_arg10).trans (fold_arg m c main_arg10 (by decide) (by decide) (by decide) (by decide) (by decide)),
    (h c main_arg11).trans (fold_arg m c main_arg11 (by decide) (by decide) (by decide) (by decide) (by decide)),
    (h c main_arg12).trans (fold_arg m c main_arg12 (by decide) (by decide) (by decide) (by decide) (by decide)),
    (h c main_arg13).trans (fold_arg m c main_arg13 (by decide) (by decide) (by decide) (by decide) (by decide)),
    (h c main_arg14).trans (fold_arg m c main_arg14 (by decide) (by decide) (by decide) (by decide) (by decide)),
    (h c main_arg15).trans (fold_arg m c main_arg15 (by decide) (by decide) (by decide) (by decide) (by decide)),
    (h c main_arg16).trans (fold_arg m c main_arg16 (by decide) (by decide) (by decide) (by decide) (by decide)),
    (h c main_arg17).trans (fold_arg m c main_arg17 (by decide) (by decide) (by decide) (by decide) (by decide)),
    (h c main_arg18).trans (fold_arg m c main_arg18 (by decide) (by decide) (by decide) (by decide) (by decide)),
    (h c main_arg19).trans (fold_arg m c main_arg19 (by decide) (by decide) (by decide) (by decide) (by decide)),
    (h c main_arg20).trans (fold_arg m c main_arg20 (by decide) (by decide) (by decide) (by decide) (by decide)),
    (h c main_arg21).trans (fold_arg m c main_arg21 (by decide) (by decide) (by decide) (by decide) (by decide)),
    (h c main_arg22).trans (fold_arg m c main_arg22 (by decide) (by decide) (by decide) (by decide) (by decide)),
    (h c main_arg23).trans (fold_arg m c main_arg23 (by decide) (by decide) (by decide) (by decide) (by decide)),
    (h c main_arg24).trans (fold_arg m c main_arg24 (by decide) (by decide) (by decide) (by decide) (by decide)),
    (h c main_arg25).trans (fold_arg m c main_arg25 (by decide) (by decide) (by decide) (by decide) (by decide)),
    (h c main_arg26).trans (fold_arg m c main_arg26 (by decide) (by decide) (by decide) (by decide) (by decide))⟩) (run_fold m ρ)

end Cert.ReferenceIdeal.RunValue

end
-- ==== Proof.lean ====
/-
  The certificate of the graph network: the Pallas kernel program (an encoder, three graph-convolution layers with
  residuals, an attention-pooling head) computes, at the ideal values, what the plain reference computes.

  Both programs are the same network. The kernel program runs the dense parts of the encoder and of each layer — the
  linear maps, and the bias, row normalisation and clipping — as seven pipelined kernels over blocks of 2000 of the
  20000 rows, and leaves the edge-indexed sums and the pooling head to host operations; the reference is one line of
  host operations. A matrix product's row depends on the same row of its left operand, and a row's normalisation on
  that row alone, so each kernel's ten blocks assemble to the whole-array stage function (Proof/Blocks.lean, over the
  row computation of Proof/NormRows.lean); the host stretches between the kernels are the reference's own operations
  (Proof/KernelStretch.lean); and every buffer a segment does not write is read after it as before
  (Proof/KernelKeep.lean). So the kernel program's result is `Stages.netOut` of its arguments (Proof/KernelValue.lean),
  which is also what the reference's 369 operations fold to (Proof/RefRun.lean, Proof/RefValue.lean). Nothing here
  needs the inputs to be finite: no term is moved across a sum and none is cancelled; a lane sum's dropped zero
  accumulator against the host's initial zero is the only arithmetic law used (0 + x = x).

  The frames of the two kernel programs are the generated frame certificates; the reference's frame is its run with the
  result dropped. The idealization rewrote nothing, so `preserves` is trivial.
-/
import proofs.«105231_j1443109011557_1_alg».proof.Defs
import proofs.«105231_j1443109011557_1_alg».proof.Proof.Gen.Kernel
import proofs.«105231_j1443109011557_1_alg».proof.Proof.Gen.Kernel.Frame
import proofs.«105231_j1443109011557_1_alg».proof.Proof.Gen.KernelIdeal
import proofs.«105231_j1443109011557_1_alg».proof.Proof.Gen.KernelIdeal.Frame
import proofs.«105231_j1443109011557_1_alg».proof.Proof.Gen.ReferenceIdeal
import proofs.«105231_j1443109011557_1_alg».proof.Proof.Gen.Pre_finite_inputs
import proofs.«105231_j1443109011557_1_alg».proof.Proof.KernelValue
import proofs.«105231_j1443109011557_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RunValue.run_out (F := Ideal) m ρ)

theorem preserves : Cert.preserves_Kernel_KernelIdeal := trivial

set_option maxHeartbeats 4000000 in
/-- Both programs end with the network function of their arguments in the result buffer, and the arguments agree. -/
theorem algebraic : Cert.algebraic_KernelIdeal_ReferenceIdeal := by
  intro m ρ m' ρ' _ hagree
  refine ⟨_, Cert.KernelIdeal.RunValue.run_out m ρ, ?_⟩
  refine (θ_run Cert.ReferenceIdeal.defs _ _).mono (fun _ h c => ⟨(h c).1.trans ?_, (h c).2⟩)
    (Cert.ReferenceIdeal.RunValue.run_out (F := Ideal) m' ρ')
  obtain ⟨g0, g1, g2, g3, g4, g5, g6, g7, g8, g9, g10, g11, g12, g13, g14, g15, g16, g17, g18, g19, g20, g21, g22, g23, g24, g25, g26⟩ := hagree c
  rw [g0, g1, g2, g3, g4, g5, g6, g7, g8, g9, g10, g11, g12, g13, g14, g15, g16, g17, g18, g19, g20, g21, g22, g23, g24, g25, g26]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
